-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v561) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x6144 : Shape := ⟨2, ![4096, 6144]⟩
abbrev S4x2304x768 : Shape := ⟨3, ![4, 2304, 768]⟩
abbrev S4x2304 : Shape := ⟨2, ![4, 2304]⟩
abbrev S4x768x768 : Shape := ⟨3, ![4, 768, 768]⟩
abbrev S4x768 : Shape := ⟨2, ![4, 768]⟩
abbrev S512x6144 : Shape := ⟨2, ![512, 6144]⟩
abbrev S512 : Shape := ⟨1, ![512]⟩
abbrev S128x512 : Shape := ⟨2, ![128, 512]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4x2304x768 : S_.BroadcastsInDim S4x2304x768 (![] : Fin 0 → Fin S4x2304x768.rank)
  reducesTo_S4x2304x768_S_d0_1_2 : S4x2304x768.ReducesTo [0, 1, 2] S_
  bcast_S_S4x2304 : S_.BroadcastsInDim S4x2304 (![] : Fin 0 → Fin S4x2304.rank)
  reducesTo_S4x2304_S_d0_1 : S4x2304.ReducesTo [0, 1] S_
  bcast_S_S4x768x768 : S_.BroadcastsInDim S4x768x768 (![] : Fin 0 → Fin S4x768x768.rank)
  reducesTo_S4x768x768_S_d0_1_2 : S4x768x768.ReducesTo [0, 1, 2] S_
  bcast_S_S4x768 : S_.BroadcastsInDim S4x768 (![] : Fin 0 → Fin S4x768.rank)
  reducesTo_S4x768_S_d0_1 : S4x768.ReducesTo [0, 1] S_
  bcast_S_S512x6144 : S_.BroadcastsInDim S512x6144 (![] : Fin 0 → Fin S512x6144.rank)
  reducesTo_S512x6144_S_d0_1 : S512x6144.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1x128 .f32) (main_arg22 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S1x128 .f32 := Host.absf main_arg21
  let main_cst_40 : FVec F S_ .f32 := constant S_ .f32 0x7F800000#32
  let main_v105 : FVec F S1x128 .f32 := broadcastInDim S1x128 ![] bcast_S_S1x128 main_cst_40
  let main_v106 : IVec S1x128 1 := cmpf .olt main_v104 main_v105
  let main_c_41 : IVec S_ 1 := constantI S_ 1 1#1
  let main_v107 : IVec S_ 1 := (fun x v => Host.reduce IntOp.andi x v reducesTo_S1x128_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S128 .f32) (main_arg19 : FVec F S128 .f32) (main_arg20 : FVec F S128 .f32) (main_arg21 : FVec F S1x128 .f32) (main_arg22 : FVec F S1 .f32) (main_v83 : IVec S_ 1) (main_v84 : FVec F S128x512 .f32) (main_cst_32 : FVec F S_ .f32) : IVec S_ 1 :=
  let main_v85 : FVec F S128x512 .f32 := broadcastInDim S128x512 ![] bcast_S_S128x512 main_cst_32
  let main_v86 : IVec S128x512 1 := cmpf .olt main_v84 main_v85
  let main_c_33 : IVec S_ 1 := constantI S_ 1 1#1
  let main_v87 : IVec S_ 1 := (fun x v => Host.reduce IntOp.andi x v reducesTo_S128x512_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S512 .f32) (main_arg15 : FVec F S512 .f32) (main_arg16 : FVec F S512 .f32) (main_arg17 : FVec F S128x512 .f32) (main_arg18 : FVec F S128 .f32) (main_arg19 : FVec F S128 .f32) (main_arg20 : FVec F S128 .f32) (main_arg21 : FVec F S1x128 .f32) (main_arg22 : FVec F S1 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S128x512 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S4x768 .f32) (main_arg12 : FVec F S4x768 .f32) (main_arg13 : FVec F S512x6144 .f32) (main_arg14 : FVec F S512 .f32) (main_arg15 : FVec F S512 .f32) (main_arg16 : FVec F S512 .f32) (main_arg17 : FVec F S128x512 .f32) (main_arg18 : FVec F S128 .f32) (main_arg19 : FVec F S128 .f32) (main_arg20 : FVec F S128 .f32) (main_arg21 : FVec F S1x128 .f32) (main_arg22 : FVec F S1 .f32) (main_v48 : IVec S_ 1) (main_v49 : FVec F S4x768 .f32) (main_v50 : FVec F S4x768 .f32) : IVec S_ 1 :=
  let main_v51 : IVec S4x768 1 := cmpf .olt main_v49 main_v50
  let main_c_19 : IVec S_ 1 := constantI S_ 1 1#1
  let main_v52 : IVec S_ 1 := (fun x v => Host.reduce IntOp.andi x v reducesTo_S4x768_S_d0_1 h_S_) main_v51 main_c_19
  let main_v53 : IVec S_ 1 := andi main_v48 main_v52
  let main_v54 : FVec F S4x768 .f32 := Host.absf main_arg11
  let main_cst_20 : FVec F S_ .f32 := constant S_ .f32 0x7F800000#32
  let main_v55 : FVec F S4x768 .f32 := broadcastInDim S4x768 ![] bcast_S_S4x768 main_cst_20
  let main_v56 : IVec S4x768 1 := cmpf .olt main_v54 main_v55
  let main_c_21 : IVec S_ 1 := constantI S_ 1 1#1
  let main_v57 : IVec S_ 1 := (fun x v => Host.reduce IntOp.andi x v reducesTo_S4x768_S_d0_1 h_S_) main_v56 main_c_21
  let main_v58 : IVec S_ 1 := andi main_v53 main_v57
  let main_v59 : FVec F S4x768 .f32 := Host.absf main_arg12
  let main_cst_22 : FVec F S_ .f32 := constant S_ .f32 0x7F800000#32
  let main_v60 : FVec F S4x768 .f32 := broadcastInDim S4x768 ![] bcast_S_S4x768 main_cst_22
  let main_v61 : IVec S4x768 1 := cmpf .olt main_v59 main_v60
  let main_c_23 : IVec S_ 1 := constantI S_ 1 1#1
  let main_v62 : IVec S_ 1 := (fun x v => Host.reduce IntOp.andi x v reducesTo_S4x768_S_d0_1 h_S_) main_v61 main_c_23
  let main_v63 : IVec S_ 1 := andi main_v58 main_v62
  let main_v64 : FVec F S512x6144 .f32 := Host.absf main_arg13
  let main_cst_24 : FVec F S_ .f32 := constant S_ .f32 0x7F800000#32
  let main_v65 : FVec F S512x6144 .f32 := broadcastInDim S512x6144 ![] bcast_S_S512x6144 main_cst_24
  let main_v66 : IVec S512x6144 1 := cmpf .olt main_v64 main_v65
  let main_c_25 : IVec S_ 1 := constantI S_ 1 1#1
  let main_v67 : IVec S_ 1 := (fun x v => Host.reduce IntOp.andi x v reducesTo_S512x6144_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S4x2304x768 .f32) (main_arg8 : FVec F S4x2304 .f32) (main_arg9 : FVec F S4x768x768 .f32) (main_arg10 : FVec F S4x768 .f32) (main_arg11 : FVec F S4x768 .f32) (main_arg12 : FVec F S4x768 .f32) (main_arg13 : FVec F S512x6144 .f32) (main_arg14 : FVec F S512 .f32) (main_arg15 : FVec F S512 .f32) (main_arg16 : FVec F S512 .f32) (main_arg17 : FVec F S128x512 .f32) (main_arg18 : FVec F S128 .f32) (main_arg19 : FVec F S128 .f32) (main_arg20 : FVec F S128 .f32) (main_arg21 : FVec F S1x128 .f32) (main_arg22 : FVec F S1 .f32) (main_v33 : IVec S_ 1) : IVec S_ 1 :=
  let main_v34 : FVec F S4x2304x768 .f32 := Host.absf main_arg7
  let main_cst_12 : FVec F S_ .f32 := constant S_ .f32 0x7F800000#32
  let main_v35 : FVec F S4x2304x768 .f32 := broadcastInDim S4x2304x768 ![] bcast_S_S4x2304x768 main_cst_12
  let main_v36 : IVec S4x2304x768 1 := cmpf .olt main_v34 main_v35
  let main_c_13 : IVec S_ 1 := constantI S_ 1 1#1
  let main_v37 : IVec S_ 1 := (fun x v => Host.reduce IntOp.andi x v reducesTo_S4x2304x768_S_d0_1_2 h_S_) main_v36 main_c_13
  let main_v38 : IVec S_ 1 := andi main_v33 main_v37
  let main_v39 : FVec F S4x2304 .f32 := Host.absf main_arg8
  let main_cst_14 : FVec F S_ .f32 := constant S_ .f32 0x7F800000#32
  let main_v40 : FVec F S4x2304 .f32 := broadcastInDim S4x2304 ![] bcast_S_S4x2304 main_cst_14
  let main_v41 : IVec S4x2304 1 := cmpf .olt main_v39 main_v40
  let main_c_15 : IVec S_ 1 := constantI S_ 1 1#1
  let main_v42 : IVec S_ 1 := (fun x v => Host.reduce IntOp.andi x v reducesTo_S4x2304_S_d0_1 h_S_) main_v41 main_c_15
  let main_v43 : IVec S_ 1 := andi main_v38 main_v42
  let main_v44 : FVec F S4x768x768 .f32 := Host.absf main_arg9
  let main_cst_16 : FVec F S_ .f32 := constant S_ .f32 0x7F800000#32
  let main_v45 : FVec F S4x768x768 .f32 := broadcastInDim S4x768x768 ![] bcast_S_S4x768x768 main_cst_16
  let main_v46 : IVec S4x768x768 1 := cmpf .olt main_v44 main_v45
  let main_c_17 : IVec S_ 1 := constantI S_ 1 1#1
  let main_v47 : IVec S_ 1 := (fun x v => Host.reduce IntOp.andi x v reducesTo_S4x768x768_S_d0_1_2 h_S_) main_v46 main_c_17
  let main_v48 : IVec S_ 1 := andi main_v43 main_v47
  let main_v49 : FVec F S4x768 .f32 := Host.absf main_arg10
  let main_cst_18 : FVec F S_ .f32 := constant S_ .f32 0x7F800000#32
  let main_v50 : FVec F S4x768 .f32 := broadcastInDim S4x768 ![] bcast_S_S4x768 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S4x768 .f32) (main_arg5 : FVec F S4x768 .f32) (main_arg6 : FVec F S4x768 .f32) (main_arg7 : FVec F S4x2304x768 .f32) (main_arg8 : FVec F S4x2304 .f32) (main_arg9 : FVec F S4x768x768 .f32) (main_arg10 : FVec F S4x768 .f32) (main_arg11 : FVec F S4x768 .f32) (main_arg12 : FVec F S4x768 .f32) (main_arg13 : FVec F S512x6144 .f32) (main_arg14 : FVec F S512 .f32) (main_arg15 : FVec F S512 .f32) (main_arg16 : FVec F S512 .f32) (main_arg17 : FVec F S128x512 .f32) (main_arg18 : FVec F S128 .f32) (main_arg19 : FVec F S128 .f32) (main_arg20 : FVec F S128 .f32) (main_arg21 : FVec F S1x128 .f32) (main_arg22 : FVec F S1 .f32) (main_v13 : IVec S_ 1) (main_v16 : IVec S4x768x768 1) : IVec S_ 1 :=
  let main_c_5 : IVec S_ 1 := constantI S_ 1 1#1
  let main_v17 : IVec S_ 1 := (fun x v => Host.reduce IntOp.andi x v reducesTo_S4x768x768_S_d0_1_2 h_S_) main_v16 main_c_5
  let main_v18 : IVec S_ 1 := andi main_v13 main_v17
  let main_v19 : FVec F S4x768 .f32 := Host.absf main_arg4
  let main_cst_6 : FVec F S_ .f32 := constant S_ .f32 0x7F800000#32
  let main_v20 : FVec F S4x768 .f32 := broadcastInDim S4x768 ![] bcast_S_S4x768 main_cst_6
  let main_v21 : IVec S4x768 1 := cmpf .olt main_v19 main_v20
  let main_c_7 : IVec S_ 1 := constantI S_ 1 1#1
  let main_v22 : IVec S_ 1 := (fun x v => Host.reduce IntOp.andi x v reducesTo_S4x768_S_d0_1 h_S_) main_v21 main_c_7
  let main_v23 : IVec S_ 1 := andi main_v18 main_v22
  let main_v24 : FVec F S4x768 .f32 := Host.absf main_arg5
  let main_cst_8 : FVec F S_ .f32 := constant S_ .f32 0x7F800000#32
  let main_v25 : FVec F S4x768 .f32 := broadcastInDim S4x768 ![] bcast_S_S4x768 main_cst_8
  let main_v26 : IVec S4x768 1 := cmpf .olt main_v24 main_v25
  let main_c_9 : IVec S_ 1 := constantI S_ 1 1#1
  let main_v27 : IVec S_ 1 := (fun x v => Host.reduce IntOp.andi x v reducesTo_S4x768_S_d0_1 h_S_) main_v26 main_c_9
  let main_v28 : IVec S_ 1 := andi main_v23 main_v27
  let main_v29 : FVec F S4x768 .f32 := Host.absf main_arg6
  let main_cst_10 : FVec F S_ .f32 := constant S_ .f32 0x7F800000#32
  let main_v30 : FVec F S4x768 .f32 := broadcastInDim S4x768 ![] bcast_S_S4x768 main_cst_10
  let main_v31 : IVec S4x768 1 := cmpf .olt main_v29 main_v30
  let main_c_11 : IVec S_ 1 := constantI S_ 1 1#1
  let main_v32 : IVec S_ 1 := (fun x v => Host.reduce IntOp.andi x v reducesTo_S4x768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S4096x6144 .f32) (main_arg1 : FVec F S4x2304x768 .f32) (main_arg2 : FVec F S4x2304 .f32) (main_arg3 : FVec F S4x768x768 .f32) (main_arg4 : FVec F S4x768 .f32) (main_arg5 : FVec F S4x768 .f32) (main_arg6 : FVec F S4x768 .f32) (main_arg7 : FVec F S4x2304x768 .f32) (main_arg8 : FVec F S4x2304 .f32) (main_arg9 : FVec F S4x768x768 .f32) (main_arg10 : FVec F S4x768 .f32) (main_arg11 : FVec F S4x768 .f32) (main_arg12 : FVec F S4x768 .f32) (main_arg13 : FVec F S512x6144 .f32) (main_arg14 : FVec F S512 .f32) (main_arg15 : FVec F S512 .f32) (main_arg16 : FVec F S512 .f32) (main_arg17 : FVec F S128x512 .f32) (main_arg18 : FVec F S128 .f32) (main_arg19 : FVec F S128 .f32) (main_arg20 : FVec F S128 .f32) (main_arg21 : FVec F S1x128 .f32) (main_arg22 : FVec F S1 .f32) : IVec S_ 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  let main_v4 : FVec F S4x2304x768 .f32 := Host.absf main_arg1
  let main_cst_0 : FVec F S_ .f32 := constant S_ .f32 0x7F800000#32
  let main_v5 : FVec F S4x2304x768 .f32 := broadcastInDim S4x2304x768 ![] bcast_S_S4x2304x768 main_cst_0
  let main_v6 : IVec S4x2304x768 1 := cmpf .olt main_v4 main_v5
  let main_c_1 : IVec S_ 1 := constantI S_ 1 1#1
  let main_v7 : IVec S_ 1 := (fun x v => Host.reduce IntOp.andi x v reducesTo_S4x2304x768_S_d0_1_2 h_S_) main_v6 main_c_1
  let main_v8 : IVec S_ 1 := andi main_v3 main_v7
  let main_v9 : FVec F S4x2304 .f32 := Host.absf main_arg2
  let main_cst_2 : FVec F S_ .f32 := constant S_ .f32 0x7F800000#32
  let main_v10 : FVec F S4x2304 .f32 := broadcastInDim S4x2304 ![] bcast_S_S4x2304 main_cst_2
  let main_v11 : IVec S4x2304 1 := cmpf .olt main_v9 main_v10
  let main_c_3 : IVec S_ 1 := constantI S_ 1 1#1
  let main_v12 : IVec S_ 1 := (fun x v => Host.reduce IntOp.andi x v reducesTo_S4x2304_S_d0_1 h_S_) main_v11 main_c_3
  let main_v13 : IVec S_ 1 := andi main_v8 main_v12
  let main_v14 : FVec F S4x768x768 .f32 := Host.absf main_arg3
  let main_cst_4 : FVec F S_ .f32 := constant S_ .f32 0x7F800000#32
  let main_v15 : FVec F S4x768x768 .f32 := broadcastInDim S4x768x768 ![] bcast_S_S4x768x768 main_cst_4
  let main_v16 : IVec S4x768x768 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S4096x6144 : Shape := ⟨2, ![4096, 6144]⟩
abbrev S4x2304x768 : Shape := ⟨3, ![4, 2304, 768]⟩
abbrev S4x2304 : Shape := ⟨2, ![4, 2304]⟩
abbrev S4x768x768 : Shape := ⟨3, ![4, 768, 768]⟩
abbrev S4x768 : Shape := ⟨2, ![4, 768]⟩
abbrev S512x6144 : Shape := ⟨2, ![512, 6144]⟩
abbrev S512 : Shape := ⟨1, ![512]⟩
abbrev S128x512 : Shape := ⟨2, ![128, 512]⟩
abbrev S128 : Shape := ⟨1, ![128]⟩
abbrev S1x128 : Shape := ⟨2, ![1, 128]⟩
abbrev S1 : Shape := ⟨1, ![1]⟩
abbrev S4096x3072 : Shape := ⟨2, ![4096, 3072]⟩
abbrev S6144x512 : Shape := ⟨2, ![6144, 512]⟩
abbrev S512x128 : Shape := ⟨2, ![512, 128]⟩
abbrev S4096x1 : Shape := ⟨2, ![4096, 1]⟩
abbrev S128x3072 : Shape := ⟨2, ![128, 3072]⟩
abbrev S128x1 : Shape := ⟨2, ![128, 1]⟩
abbrev S128x768 : Shape := ⟨2, ![128, 768]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S768x512 : Shape := ⟨2, ![768, 512]⟩
abbrev S1x512 : Shape := ⟨2, ![1, 512]⟩
abbrev S128x128 : Shape := ⟨2, ![128, 128]⟩
abbrev S1x1 : Shape := ⟨2, ![1, 1]⟩

abbrev nBuf : Space → Nat
  | .hbm => 43
  | .vmem => 28
  | .smem => 0
  | _ => 0

abbrev bufTy : (tb : Table) → Fin (tcTables nBuf tb) → BufTy
  | .hbm, ⟨0, _⟩ => ⟨S4096x6144, .f32⟩
  | .hbm, ⟨1, _⟩ => ⟨S4x2304x768, .f32⟩
  | .hbm, ⟨2, _⟩ => ⟨S4x2304, .f32⟩
  | .hbm, ⟨3, _⟩ => ⟨S4x768x768, .f32⟩
  | .hbm, ⟨4, _⟩ => ⟨S4x768, .f32⟩
  | .hbm, ⟨5, _⟩ => ⟨S4x768, .f32⟩
  | .hbm, ⟨6, _⟩ => ⟨S4x768, .f32⟩
  | .hbm, ⟨7, _⟩ => ⟨S4x2304x768, .f32⟩
  | .hbm, ⟨8, _⟩ => ⟨S4x2304, .f32⟩
  | .hbm, ⟨9, _⟩ => ⟨S4x768x768, .f32⟩
  | .hbm, ⟨10, _⟩ => ⟨S4x768, .f32⟩
  | .hbm, ⟨11, _⟩ => ⟨S4x768, .f32⟩
  | .hbm, ⟨12, _⟩ => ⟨S4x768, .f32⟩
  | .hbm, ⟨13, _⟩ => ⟨S512x6144, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S128x512, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S1, .f32⟩
  | .hbm, ⟨23, _⟩ => ⟨S4096x3072, .f32⟩
  | .hbm, ⟨24, _⟩ => ⟨S4096x3072, .f32⟩
  | .hbm, ⟨25, _⟩ => ⟨S4x768x768, .f32⟩
  | .hbm, ⟨26, _⟩ => ⟨S4x768, .f32⟩
  | .hbm, ⟨27, _⟩ => ⟨S4x768x768, .f32⟩
  | .hbm, ⟨28, _⟩ => ⟨S4x768x768, .bf16⟩
  | .hbm, ⟨29, _⟩ => ⟨S4x768x768, .f32⟩
  | .hbm, ⟨30, _⟩ => ⟨S4x768x768, .bf16⟩
  | .hbm, ⟨31, _⟩ => ⟨S4x768x768, .f32⟩
  | .hbm, ⟨32, _⟩ => ⟨S4x768, .f32⟩
  | .hbm, ⟨33, _⟩ => ⟨S4x768x768, .f32⟩
  | .hbm, ⟨34, _⟩ => ⟨S4x768x768, .bf16⟩
  | .hbm, ⟨35, _⟩ => ⟨S4x768x768, .f32⟩
  | .hbm, ⟨36, _⟩ => ⟨S4x768x768, .bf16⟩
  | .hbm, ⟨37, _⟩ => ⟨S6144x512, .f32⟩
  | .hbm, ⟨38, _⟩ => ⟨S6144x512, .bf16⟩
  | .hbm, ⟨39, _⟩ => ⟨S512x128, .f32⟩
  | .hbm, ⟨40, _⟩ => ⟨S512x128, .bf16⟩
  | .hbm, ⟨41, _⟩ => ⟨S128, .f32⟩
  | .hbm, ⟨42, _⟩ => ⟨S4096x1, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S4x768x768, .bf16⟩
  | .local _ .vmem, ⟨5, _⟩ => ⟨S4x768x768, .bf16⟩
  | .local _ .vmem, ⟨6, _⟩ => ⟨S4x768, .f32⟩
  | .local _ .vmem, ⟨7, _⟩ => ⟨S4x768, .f32⟩
  | .local _ .vmem, ⟨8, _⟩ => ⟨S4x768, .f32⟩
  | .local _ .vmem, ⟨9, _⟩ => ⟨S4x768, .f32⟩
  | .local _ .vmem, ⟨10, _⟩ => ⟨S4x768x768, .bf16⟩
  | .local _ .vmem, ⟨11, _⟩ => ⟨S4x768x768, .bf16⟩
  | .local _ .vmem, ⟨12, _⟩ => ⟨S4x768, .f32⟩
  | .local _ .vmem, ⟨13, _⟩ => ⟨S4x768, .f32⟩
  | .local _ .vmem, ⟨14, _⟩ => ⟨S4x768, .f32⟩
  | .local _ .vmem, ⟨15, _⟩ => ⟨S4x768, .f32⟩
  | .local _ .vmem, ⟨16, _⟩ => ⟨S6144x512, .bf16⟩
  | .local _ .vmem, ⟨17, _⟩ => ⟨S512, .f32⟩
  | .local _ .vmem, ⟨18, _⟩ => ⟨S512, .f32⟩
  | .local _ .vmem, ⟨19, _⟩ => ⟨S512, .f32⟩
  | .local _ .vmem, ⟨20, _⟩ => ⟨S512x128, .bf16⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S1, .f32⟩
  | .local _ .vmem, ⟨26, _⟩ => ⟨S128x1, .f32⟩
  | .local _ .vmem, ⟨27, _⟩ => ⟨S128x1, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg24_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem24_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x768x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x768x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6144x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S128x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  slices_S4096x6144_S4096x3072_0_0 : S4096x6144.Slices ![0, 0] S4096x3072
  slices_S4096x6144_S4096x3072_0_3072 : S4096x6144.Slices ![0, 3072] S4096x3072
  slices_S4x2304x768_S4x768x768_0_1536_0 : S4x2304x768.Slices ![0, 1536, 0] S4x768x768
  slices_S4x2304_S4x768_0_1536 : S4x2304.Slices ![0, 1536] S4x768
  transposes_S4x768x768_S4x768x768_0_2_1 : S4x768x768.Transposes [0, 2, 1] S4x768x768
  bitsLt_bf16_f32 : FTy.bits .bf16 < FTy.bits .f32
  transposes_S512x6144_S6144x512_1_0 : S512x6144.Transposes [1, 0] S6144x512
  transposes_S128x512_S512x128_1_0 : S128x512.Transposes [1, 0] S512x128
  shapeCasts_S1x128_S128 : S1x128.ShapeCasts S128
  inb_S128x3072_S128x768_0_0 : ∀ a, (![0, 0] : Fin 2 → Nat) a + S128x768.size a ≤ S128x3072.size a
  h_S128x768 : 0 < S128x768.numel
  shapeCasts_S128x768_S128x768 : S128x768.ShapeCasts S128x768
  inb_S4x768x768_S1x768x768_0_0_0 : ∀ a, (![0, 0, 0] : Fin 3 → Nat) a + S1x768x768.size a ≤ S4x768x768.size a
  h_S1x768x768 : 0 < S1x768x768.numel
  shapeCasts_S1x768x768_S768x768 : S1x768x768.ShapeCasts S768x768
  inb_S4x768_S1x768_0_0 : ∀ a, (![0, 0] : Fin 2 → Nat) a + S1x768.size a ≤ S4x768.size a
  h_S1x768 : 0 < S1x768.numel
  shapeCasts_S1x768_S768 : S1x768.ShapeCasts S768
  shapeCasts_S768_S1x768 : S768.ShapeCasts S1x768
  broadcasts_S1x768_S128x768 : S1x768.Broadcasts S128x768
  inb_S6144x512_S768x512_0_0 : ∀ a, (![0, 0] : Fin 2 → Nat) a + S768x512.size a ≤ S6144x512.size a
  h_S768x512 : 0 < S768x512.numel
  shapeCasts_S768x512_S768x512 : S768x512.ShapeCasts S768x512
  inb_S128x3072_S128x768_0_768 : ∀ a, (![0, 768] : Fin 2 → Nat) a + S128x768.size a ≤ S128x3072.size a
  inb_S4x768x768_S1x768x768_1_0_0 : ∀ a, (![1, 0, 0] : Fin 3 → Nat) a + S1x768x768.size a ≤ S4x768x768.size a
  inb_S4x768_S1x768_1_0 : ∀ a, (![1, 0] : Fin 2 → Nat) a + S1x768.size a ≤ S4x768.size a
  inb_S6144x512_S768x512_768_0 : ∀ a, (![768, 0] : Fin 2 → Nat) a + S768x512.size a ≤ S6144x512.size a
  inb_S128x3072_S128x768_0_1536 : ∀ a, (![0, 1536] : Fin 2 → Nat) a + S128x768.size a ≤ S128x3072.size a
  inb_S4x768x768_S1x768x768_2_0_0 : ∀ a, (![2, 0, 0] : Fin 3 → Nat) a + S1x768x768.size a ≤ S4x768x768.size a
  inb_S4x768_S1x768_2_0 : ∀ a, (![2, 0] : Fin 2 → Nat) a + S1x768.size a ≤ S4x768.size a
  inb_S6144x512_S768x512_1536_0 : ∀ a, (![1536, 0] : Fin 2 → Nat) a + S768x512.size a ≤ S6144x512.size a
  inb_S128x3072_S128x768_0_2304 : ∀ a, (![0, 2304] : Fin 2 → Nat) a + S128x768.size a ≤ S128x3072.size a
  inb_S4x768x768_S1x768x768_3_0_0 : ∀ a, (![3, 0, 0] : Fin 3 → Nat) a + S1x768x768.size a ≤ S4x768x768.size a
  inb_S4x768_S1x768_3_0 : ∀ a, (![3, 0] : Fin 2 → Nat) a + S1x768.size a ≤ S4x768.size a
  inb_S6144x512_S768x512_2304_0 : ∀ a, (![2304, 0] : Fin 2 → Nat) a + S768x512.size a ≤ S6144x512.size a
  inb_S6144x512_S768x512_3072_0 : ∀ a, (![3072, 0] : Fin 2 → Nat) a + S768x512.size a ≤ S6144x512.size a
  inb_S6144x512_S768x512_3840_0 : ∀ a, (![3840, 0] : Fin 2 → Nat) a + S768x512.size a ≤ S6144x512.size a
  inb_S6144x512_S768x512_4608_0 : ∀ a, (![4608, 0] : Fin 2 → Nat) a + S768x512.size a ≤ S6144x512.size a
  inb_S6144x512_S768x512_5376_0 : ∀ a, (![5376, 0] : Fin 2 → Nat) a + S768x512.size a ≤ S6144x512.size a
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  shapeCasts_S128_S128 : S128.ShapeCasts S128
  reduces_S128x128_S128 : S128x128.Reduces [1] S128
  shapeCasts_S128_S128x1 : S128.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S128x768_S768x768_S128x768_1_0_0_1_n_n_wf : DotDims.WF S128x768 S768x768 S128x768 [1] [0] [0] [1] [] []
  dot_S128x768_S768x512_S128x512_1_0_0_1_n_n_wf : DotDims.WF S128x768 S768x512 S128x512 [1] [0] [0] [1] [] []
  dot_S128x512_S512x128_S128x128_1_0_0_1_n_n_wf : DotDims.WF S128x512 S512x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3072.size a ≤ S4096x3072.size a
  hwx0_0 : ∀ i : grid0.Coords, EltTy.bits .f32 = 32 ∨ (Rect.block (s := S4096x3072) S128x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3072.size a ≤ S4096x3072.size a
  hwx0_1 : ∀ i : grid0.Coords, EltTy.bits .f32 = 32 ∨ (Rect.block (s := S4096x3072) S128x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x768x768.size a ≤ S4x768x768.size a
  hwx0_2 : ∀ i : grid0.Coords, EltTy.bits .bf16 = 32 ∨ (Rect.block (s := S4x768x768) S4x768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x768x768.size a ≤ S4x768x768.size a
  hwx0_3 : ∀ i : grid0.Coords, EltTy.bits .bf16 = 32 ∨ (Rect.block (s := S4x768x768) S4x768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x768.size a ≤ S4x768.size a
  hwx0_4 : ∀ i : grid0.Coords, EltTy.bits .f32 = 32 ∨ (Rect.block (s := S4x768) S4x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x768.size a ≤ S4x768.size a
  hwx0_5 : ∀ i : grid0.Coords, EltTy.bits .f32 = 32 ∨ (Rect.block (s := S4x768) S4x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x768.size a ≤ S4x768.size a
  hwx0_6 : ∀ i : grid0.Coords, EltTy.bits .f32 = 32 ∨ (Rect.block (s := S4x768) S4x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x768.size a ≤ S4x768.size a
  hwx0_7 : ∀ i : grid0.Coords, EltTy.bits .f32 = 32 ∨ (Rect.block (s := S4x768) S4x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x768x768.size a ≤ S4x768x768.size a
  hwx0_8 : ∀ i : grid0.Coords, EltTy.bits .bf16 = 32 ∨ (Rect.block (s := S4x768x768) S4x768x768.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x768x768.size a ≤ S4x768x768.size a
  hwx0_9 : ∀ i : grid0.Coords, EltTy.bits .bf16 = 32 ∨ (Rect.block (s := S4x768x768) S4x768x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x768.size a ≤ S4x768.size a
  hwx0_10 : ∀ i : grid0.Coords, EltTy.bits .f32 = 32 ∨ (Rect.block (s := S4x768) S4x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x768.size a ≤ S4x768.size a
  hwx0_11 : ∀ i : grid0.Coords, EltTy.bits .f32 = 32 ∨ (Rect.block (s := S4x768) S4x768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x768.size a ≤ S4x768.size a
  hwx0_12 : ∀ i : grid0.Coords, EltTy.bits .f32 = 32 ∨ (Rect.block (s := S4x768) S4x768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x768.size a ≤ S4x768.size a
  hwx0_13 : ∀ i : grid0.Coords, EltTy.bits .f32 = 32 ∨ (Rect.block (s := S4x768) S4x768.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S6144x512.size a ≤ S6144x512.size a
  hwx0_14 : ∀ i : grid0.Coords, EltTy.bits .bf16 = 32 ∨ (Rect.block (s := S6144x512) S6144x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S512.size a
  hwx0_17 : ∀ i : grid0.Coords, EltTy.bits .f32 = 32 ∨ (Rect.block (s := S512) S512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x128.size a ≤ S512x128.size a
  hwx0_18 : ∀ i : grid0.Coords, EltTy.bits .bf16 = 32 ∨ (Rect.block (s := S512x128) S512x128.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128.size a ≤ S128.size a
  hwx0_20 : ∀ i : grid0.Coords, EltTy.bits .f32 = 32 ∨ (Rect.block (s := S128) S128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128.size a ≤ S128.size a
  hwx0_21 : ∀ i : grid0.Coords, EltTy.bits .f32 = 32 ∨ (Rect.block (s := S128) S128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128.size a ≤ S128.size a
  hwx0_22 : ∀ i : grid0.Coords, EltTy.bits .f32 = 32 ∨ (Rect.block (s := S128) S128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1.size a ≤ S1.size a
  hwx0_23 : ∀ i : grid0.Coords, EltTy.bits .f32 = 32 ∨ (Rect.block (s := S1) S1.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S128x1.size a ≤ S4096x1.size a
  hwx0_24 : ∀ i : grid0.Coords, EltTy.bits .f32 = 32 ∨ (Rect.block (s := S4096x1) S128x1.size (cc0_transform_24 i) (hinb0_24 i)).WholeWords (EltTy.packing .f32)

variable [Facts₀]

def dot_S128x768_S768x768_S128x768_1_0_0_1_n_n : DotDims S128x768 S768x768 S128x768 where
  lhsContracting := [1]
  rhsContracting := [0]
  lhsNonContracting := [0]
  rhsNonContracting := [1]
  lhsBatch := []
  rhsBatch := []
  wf := dot_S128x768_S768x768_S128x768_1_0_0_1_n_n_wf
def dot_S128x768_S768x512_S128x512_1_0_0_1_n_n : DotDims S128x768 S768x512 S128x512 where
  lhsContracting := [1]
  rhsContracting := [0]
  lhsNonContracting := [0]
  rhsNonContracting := [1]
  lhsBatch := []
  rhsBatch := []
  wf := dot_S128x768_S768x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_v0) S128x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4x768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S4x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S4x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S4x768x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S4x768x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S4x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S4x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S4x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S4x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S6144x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v17) S512x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg20) S128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v18) S128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg22) S1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v19) S128x1.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S4096x6144 : Shape := ⟨2, ![4096, 6144]⟩
abbrev S4x2304x768 : Shape := ⟨3, ![4, 2304, 768]⟩
abbrev S4x2304 : Shape := ⟨2, ![4, 2304]⟩
abbrev S4x768x768 : Shape := ⟨3, ![4, 768, 768]⟩
abbrev S4x768 : Shape := ⟨2, ![4, 768]⟩
abbrev S512x6144 : Shape := ⟨2, ![512, 6144]⟩
abbrev S512 : Shape := ⟨1, ![512]⟩
abbrev S128x512 : Shape := ⟨2, ![128, 512]⟩
abbrev S128 : Shape := ⟨1, ![128]⟩
abbrev S1x128 : Shape := ⟨2, ![1, 128]⟩
abbrev S1 : Shape := ⟨1, ![1]⟩
abbrev S4096x768 : Shape := ⟨2, ![4096, 768]⟩
abbrev S1x2304x768 : Shape := ⟨3, ![1, 2304, 768]⟩
abbrev S2304x768 : Shape := ⟨2, ![2304, 768]⟩
abbrev S1x2304 : Shape := ⟨2, ![1, 2304]⟩
abbrev S2304 : Shape := ⟨1, ![2304]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S4096x4x192 : Shape := ⟨3, ![4096, 4, 192]⟩
abbrev S_ : Shape := ⟨0, ![]⟩
abbrev S4096x4 : Shape := ⟨2, ![4096, 4]⟩
abbrev S4096x4x1 : Shape := ⟨3, ![4096, 4, 1]⟩
abbrev S4096x3072 : Shape := ⟨2, ![4096, 3072]⟩
abbrev S6144x512 : Shape := ⟨2, ![6144, 512]⟩
abbrev S4096x512 : Shape := ⟨2, ![4096, 512]⟩
abbrev S1x512 : Shape := ⟨2, ![1, 512]⟩
abbrev S512x128 : Shape := ⟨2, ![512, 128]⟩
abbrev S4096x128 : Shape := ⟨2, ![4096, 128]⟩
abbrev S128x1 : Shape := ⟨2, ![128, 1]⟩
abbrev S4096x1 : Shape := ⟨2, ![4096, 1]⟩
abbrev S1x1 : Shape := ⟨2, ![1, 1]⟩

abbrev nBuf : Space → Nat
  | .hbm => 637
  | .vmem => 0
  | .smem => 0
  | _ => 0

abbrev hbmTy0_0 (i : Nat) : BufTy := match i % 128 with
  | 0 => ⟨S4096x6144, .f32⟩
  | 1 => ⟨S4x2304x768, .f32⟩
  | 2 => ⟨S4x2304, .f32⟩
  | 3 => ⟨S4x768x768, .f32⟩
  | 4 => ⟨S4x768, .f32⟩
  | 5 => ⟨S4x768, .f32⟩
  | 6 => ⟨S4x768, .f32⟩
  | 7 => ⟨S4x2304x768, .f32⟩
  | 8 => ⟨S4x2304, .f32⟩
  | 9 => ⟨S4x768x768, .f32⟩
  | 10 => ⟨S4x768, .f32⟩
  | 11 => ⟨S4x768, .f32⟩
  | 12 => ⟨S4x768, .f32⟩
  | 13 => ⟨S512x6144, .f32⟩
  | 14 => ⟨S512, .f32⟩
  | 15 => ⟨S512, .f32⟩
  | 16 => ⟨S512, .f32⟩
  | 17 => ⟨S128x512, .f32⟩
  | 18 => ⟨S128, .f32⟩
  | 19 => ⟨S128, .f32⟩
  | 20 => ⟨S128, .f32⟩
  | 21 => ⟨S1x128, .f32⟩
  | 22 => ⟨S1, .f32⟩
  | 23 => ⟨S4096x768, .f32⟩
  | 24 => ⟨S4096x768, .f32⟩
  | 25 => ⟨S4096x768, .f32⟩
  | 26 => ⟨S4096x768, .f32⟩
  | 27 => ⟨S1x2304x768, .f32⟩
  | 28 => ⟨S2304x768, .f32⟩
  | 29 => ⟨S1x2304, .f32⟩
  | 30 => ⟨S2304, .f32⟩
  | 31 => ⟨S1x768x768, .f32⟩
  | 32 => ⟨S768x768, .f32⟩
  | 33 => ⟨S1x768, .f32⟩
  | 34 => ⟨S768, .f32⟩
  | 35 => ⟨S768x768, .f32⟩
  | 36 => ⟨S768x768, .f32⟩
  | 37 => ⟨S768x768, .f32⟩
  | 38 => ⟨S768, .f32⟩
  | 39 => ⟨S768, .f32⟩
  | 40 => ⟨S768, .f32⟩
  | 41 => ⟨S768x768, .f32⟩
  | 42 => ⟨S4096x768, .f32⟩
  | 43 => ⟨S1x768, .f32⟩
  | 44 => ⟨S4096x768, .f32⟩
  | 45 => ⟨S4096x768, .f32⟩
  | 46 => ⟨S4096x4x192, .f32⟩
  | 47 => ⟨S768x768, .f32⟩
  | 48 => ⟨S4096x768, .f32⟩
  | 49 => ⟨S1x768, .f32⟩
  | 50 => ⟨S4096x768, .f32⟩
  | 51 => ⟨S4096x768, .f32⟩
  | 52 => ⟨S4096x4x192, .f32⟩
  | 53 => ⟨S768x768, .f32⟩
  | 54 => ⟨S4096x768, .f32⟩
  | 55 => ⟨S1x768, .f32⟩
  | 56 => ⟨S4096x768, .f32⟩
  | 57 => ⟨S4096x768, .f32⟩
  | 58 => ⟨S4096x4x192, .f32⟩
  | 59 => ⟨S4096x4x192, .f32⟩
  | 60 => ⟨S_, .f32⟩
  | 61 => ⟨S4096x4, .f32⟩
  | 62 => ⟨S4096x4x1, .f32⟩
  | 63 => ⟨S_, .f32⟩
  | 64 => ⟨S_, .f32⟩
  | 65 => ⟨S4096x4x1, .f32⟩
  | 66 => ⟨S4096x4x1, .f32⟩
  | 67 => ⟨S_, .f32⟩
  | 68 => ⟨S4096x4, .f32⟩
  | 69 => ⟨S_, .f32⟩
  | 70 => ⟨S4096x4, .f32⟩
  | 71 => ⟨S4096x4, .f32⟩
  | 72 => ⟨S4096x4x1, .f32⟩
  | 73 => ⟨S4096x4x1, .f32⟩
  | 74 => ⟨S4096x4x1, .f32⟩
  | 75 => ⟨S_, .f32⟩
  | 76 => ⟨S4096x4, .f32⟩
  | 77 => ⟨S4096x4x1, .f32⟩
  | 78 => ⟨S4096x4x1, .f32⟩
  | 79 => ⟨S4096x4x192, .f32⟩
  | 80 => ⟨S4096x4x192, .f32⟩
  | 81 => ⟨S4096x768, .f32⟩
  | 82 => ⟨S768x768, .f32⟩
  | 83 => ⟨S4096x768, .f32⟩
  | 84 => ⟨S1x768, .f32⟩
  | 85 => ⟨S4096x768, .f32⟩
  | 86 => ⟨S4096x768, .f32⟩
  | 87 => ⟨S1x2304x768, .f32⟩
  | 88 => ⟨S2304x768, .f32⟩
  | 89 => ⟨S1x2304, .f32⟩
  | 90 => ⟨S2304, .f32⟩
  | 91 => ⟨S1x768x768, .f32⟩
  | 92 => ⟨S768x768, .f32⟩
  | 93 => ⟨S1x768, .f32⟩
  | 94 => ⟨S768, .f32⟩
  | 95 => ⟨S768x768, .f32⟩
  | 96 => ⟨S768x768, .f32⟩
  | 97 => ⟨S768x768, .f32⟩
  | 98 => ⟨S768, .f32⟩
  | 99 => ⟨S768, .f32⟩
  | 100 => ⟨S768, .f32⟩
  | 101 => ⟨S768x768, .f32⟩
  | 102 => ⟨S4096x768, .f32⟩
  | 103 => ⟨S1x768, .f32⟩
  | 104 => ⟨S4096x768, .f32⟩
  | 105 => ⟨S4096x768, .f32⟩
  | 106 => ⟨S4096x4x192, .f32⟩
  | 107 => ⟨S768x768, .f32⟩
  | 108 => ⟨S4096x768, .f32⟩
  | 109 => ⟨S1x768, .f32⟩
  | 110 => ⟨S4096x768, .f32⟩
  | 111 => ⟨S4096x768, .f32⟩
  | 112 => ⟨S4096x4x192, .f32⟩
  | 113 => ⟨S768x768, .f32⟩
  | 114 => ⟨S4096x768, .f32⟩
  | 115 => ⟨S1x768, .f32⟩
  | 116 => ⟨S4096x768, .f32⟩
  | 117 => ⟨S4096x768, .f32⟩
  | 118 => ⟨S4096x4x192, .f32⟩
  | 119 => ⟨S4096x4x192, .f32⟩
  | 120 => ⟨S_, .f32⟩
  | 121 => ⟨S4096x4, .f32⟩
  | 122 => ⟨S4096x4x1, .f32⟩
  | 123 => ⟨S_, .f32⟩
  | 124 => ⟨S_, .f32⟩
  | 125 => ⟨S4096x4x1, .f32⟩
  | 126 => ⟨S4096x4x1, .f32⟩
  | 127 => ⟨S_, .f32⟩
  | _ => ⟨S4096x6144, .f32⟩

abbrev hbmTy0_1 (i : Nat) : BufTy := match i % 128 with
  | 0 => ⟨S4096x4, .f32⟩
  | 1 => ⟨S_, .f32⟩
  | 2 => ⟨S4096x4, .f32⟩
  | 3 => ⟨S4096x4, .f32⟩
  | 4 => ⟨S4096x4x1, .f32⟩
  | 5 => ⟨S4096x4x1, .f32⟩
  | 6 => ⟨S4096x4x1, .f32⟩
  | 7 => ⟨S_, .f32⟩
  | 8 => ⟨S4096x4, .f32⟩
  | 9 => ⟨S4096x4x1, .f32⟩
  | 10 => ⟨S4096x4x1, .f32⟩
  | 11 => ⟨S4096x4x192, .f32⟩
  | 12 => ⟨S4096x4x192, .f32⟩
  | 13 => ⟨S4096x768, .f32⟩
  | 14 => ⟨S768x768, .f32⟩
  | 15 => ⟨S4096x768, .f32⟩
  | 16 => ⟨S1x768, .f32⟩
  | 17 => ⟨S4096x768, .f32⟩
  | 18 => ⟨S4096x768, .f32⟩
  | 19 => ⟨S4096x768, .f32⟩
  | 20 => ⟨S1x768, .f32⟩
  | 21 => ⟨S768, .f32⟩
  | 22 => ⟨S1x768, .f32⟩
  | 23 => ⟨S768, .f32⟩
  | 24 => ⟨S_, .f32⟩
  | 25 => ⟨S768, .f32⟩
  | 26 => ⟨S768, .f32⟩
  | 27 => ⟨S1x768, .f32⟩
  | 28 => ⟨S4096x768, .f32⟩
  | 29 => ⟨S4096x768, .f32⟩
  | 30 => ⟨S1x768, .f32⟩
  | 31 => ⟨S4096x768, .f32⟩
  | 32 => ⟨S4096x768, .f32⟩
  | 33 => ⟨S1x2304x768, .f32⟩
  | 34 => ⟨S2304x768, .f32⟩
  | 35 => ⟨S1x2304, .f32⟩
  | 36 => ⟨S2304, .f32⟩
  | 37 => ⟨S1x768x768, .f32⟩
  | 38 => ⟨S768x768, .f32⟩
  | 39 => ⟨S1x768, .f32⟩
  | 40 => ⟨S768, .f32⟩
  | 41 => ⟨S768x768, .f32⟩
  | 42 => ⟨S768x768, .f32⟩
  | 43 => ⟨S768x768, .f32⟩
  | 44 => ⟨S768, .f32⟩
  | 45 => ⟨S768, .f32⟩
  | 46 => ⟨S768, .f32⟩
  | 47 => ⟨S768x768, .f32⟩
  | 48 => ⟨S4096x768, .f32⟩
  | 49 => ⟨S1x768, .f32⟩
  | 50 => ⟨S4096x768, .f32⟩
  | 51 => ⟨S4096x768, .f32⟩
  | 52 => ⟨S4096x4x192, .f32⟩
  | 53 => ⟨S768x768, .f32⟩
  | 54 => ⟨S4096x768, .f32⟩
  | 55 => ⟨S1x768, .f32⟩
  | 56 => ⟨S4096x768, .f32⟩
  | 57 => ⟨S4096x768, .f32⟩
  | 58 => ⟨S4096x4x192, .f32⟩
  | 59 => ⟨S768x768, .f32⟩
  | 60 => ⟨S4096x768, .f32⟩
  | 61 => ⟨S1x768, .f32⟩
  | 62 => ⟨S4096x768, .f32⟩
  | 63 => ⟨S4096x768, .f32⟩
  | 64 => ⟨S4096x4x192, .f32⟩
  | 65 => ⟨S4096x4x192, .f32⟩
  | 66 => ⟨S_, .f32⟩
  | 67 => ⟨S4096x4, .f32⟩
  | 68 => ⟨S4096x4x1, .f32⟩
  | 69 => ⟨S_, .f32⟩
  | 70 => ⟨S_, .f32⟩
  | 71 => ⟨S4096x4x1, .f32⟩
  | 72 => ⟨S4096x4x1, .f32⟩
  | 73 => ⟨S_, .f32⟩
  | 74 => ⟨S4096x4, .f32⟩
  | 75 => ⟨S_, .f32⟩
  | 76 => ⟨S4096x4, .f32⟩
  | 77 => ⟨S4096x4, .f32⟩
  | 78 => ⟨S4096x4x1, .f32⟩
  | 79 => ⟨S4096x4x1, .f32⟩
  | 80 => ⟨S4096x4x1, .f32⟩
  | 81 => ⟨S_, .f32⟩
  | 82 => ⟨S4096x4, .f32⟩
  | 83 => ⟨S4096x4x1, .f32⟩
  | 84 => ⟨S4096x4x1, .f32⟩
  | 85 => ⟨S4096x4x192, .f32⟩
  | 86 => ⟨S4096x4x192, .f32⟩
  | 87 => ⟨S4096x768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x768, .f32⟩
  | 94 => ⟨S1x768, .f32⟩
  | 95 => ⟨S768, .f32⟩
  | 96 => ⟨S1x768, .f32⟩
  | 97 => ⟨S768, .f32⟩
  | 98 => ⟨S_, .f32⟩
  | 99 => ⟨S768, .f32⟩
  | 100 => ⟨S768, .f32⟩
  | 101 => ⟨S1x768, .f32⟩
  | 102 => ⟨S4096x768, .f32⟩
  | 103 => ⟨S4096x768, .f32⟩
  | 104 => ⟨S1x768, .f32⟩
  | 105 => ⟨S4096x768, .f32⟩
  | 106 => ⟨S4096x768, .f32⟩
  | 107 => ⟨S1x2304x768, .f32⟩
  | 108 => ⟨S2304x768, .f32⟩
  | 109 => ⟨S1x2304, .f32⟩
  | 110 => ⟨S2304, .f32⟩
  | 111 => ⟨S1x768x768, .f32⟩
  | 112 => ⟨S768x768, .f32⟩
  | 113 => ⟨S1x768, .f32⟩
  | 114 => ⟨S768, .f32⟩
  | 115 => ⟨S768x768, .f32⟩
  | 116 => ⟨S768x768, .f32⟩
  | 117 => ⟨S768x768, .f32⟩
  | 118 => ⟨S768, .f32⟩
  | 119 => ⟨S768, .f32⟩
  | 120 => ⟨S768, .f32⟩
  | 121 => ⟨S768x768, .f32⟩
  | 122 => ⟨S4096x768, .f32⟩
  | 123 => ⟨S1x768, .f32⟩
  | 124 => ⟨S4096x768, .f32⟩
  | 125 => ⟨S4096x768, .f32⟩
  | 126 => ⟨S4096x4x192, .f32⟩
  | 127 => ⟨S768x768, .f32⟩
  | _ => ⟨S4096x6144, .f32⟩

abbrev hbmTy0_2 (i : Nat) : BufTy := match i % 128 with
  | 0 => ⟨S4096x768, .f32⟩
  | 1 => ⟨S1x768, .f32⟩
  | 2 => ⟨S4096x768, .f32⟩
  | 3 => ⟨S4096x768, .f32⟩
  | 4 => ⟨S4096x4x192, .f32⟩
  | 5 => ⟨S768x768, .f32⟩
  | 6 => ⟨S4096x768, .f32⟩
  | 7 => ⟨S1x768, .f32⟩
  | 8 => ⟨S4096x768, .f32⟩
  | 9 => ⟨S4096x768, .f32⟩
  | 10 => ⟨S4096x4x192, .f32⟩
  | 11 => ⟨S4096x4x192, .f32⟩
  | 12 => ⟨S_, .f32⟩
  | 13 => ⟨S4096x4, .f32⟩
  | 14 => ⟨S4096x4x1, .f32⟩
  | 15 => ⟨S_, .f32⟩
  | 16 => ⟨S_, .f32⟩
  | 17 => ⟨S4096x4x1, .f32⟩
  | 18 => ⟨S4096x4x1, .f32⟩
  | 19 => ⟨S_, .f32⟩
  | 20 => ⟨S4096x4, .f32⟩
  | 21 => ⟨S_, .f32⟩
  | 22 => ⟨S4096x4, .f32⟩
  | 23 => ⟨S4096x4, .f32⟩
  | 24 => ⟨S4096x4x1, .f32⟩
  | 25 => ⟨S4096x4x1, .f32⟩
  | 26 => ⟨S4096x4x1, .f32⟩
  | 27 => ⟨S_, .f32⟩
  | 28 => ⟨S4096x4, .f32⟩
  | 29 => ⟨S4096x4x1, .f32⟩
  | 30 => ⟨S4096x4x1, .f32⟩
  | 31 => ⟨S4096x4x192, .f32⟩
  | 32 => ⟨S4096x4x192, .f32⟩
  | 33 => ⟨S4096x768, .f32⟩
  | 34 => ⟨S768x768, .f32⟩
  | 35 => ⟨S4096x768, .f32⟩
  | 36 => ⟨S1x768, .f32⟩
  | 37 => ⟨S4096x768, .f32⟩
  | 38 => ⟨S4096x768, .f32⟩
  | 39 => ⟨S4096x768, .f32⟩
  | 40 => ⟨S1x768, .f32⟩
  | 41 => ⟨S768, .f32⟩
  | 42 => ⟨S1x768, .f32⟩
  | 43 => ⟨S768, .f32⟩
  | 44 => ⟨S_, .f32⟩
  | 45 => ⟨S768, .f32⟩
  | 46 => ⟨S768, .f32⟩
  | 47 => ⟨S1x768, .f32⟩
  | 48 => ⟨S4096x768, .f32⟩
  | 49 => ⟨S4096x768, .f32⟩
  | 50 => ⟨S1x768, .f32⟩
  | 51 => ⟨S4096x768, .f32⟩
  | 52 => ⟨S4096x768, .f32⟩
  | 53 => ⟨S4096x3072, .f32⟩
  | 54 => ⟨S4096x768, .f32⟩
  | 55 => ⟨S4096x768, .f32⟩
  | 56 => ⟨S4096x768, .f32⟩
  | 57 => ⟨S4096x768, .f32⟩
  | 58 => ⟨S1x2304x768, .f32⟩
  | 59 => ⟨S2304x768, .f32⟩
  | 60 => ⟨S1x2304, .f32⟩
  | 61 => ⟨S2304, .f32⟩
  | 62 => ⟨S1x768x768, .f32⟩
  | 63 => ⟨S768x768, .f32⟩
  | 64 => ⟨S1x768, .f32⟩
  | 65 => ⟨S768, .f32⟩
  | 66 => ⟨S768x768, .f32⟩
  | 67 => ⟨S768x768, .f32⟩
  | 68 => ⟨S768x768, .f32⟩
  | 69 => ⟨S768, .f32⟩
  | 70 => ⟨S768, .f32⟩
  | 71 => ⟨S768, .f32⟩
  | 72 => ⟨S768x768, .f32⟩
  | 73 => ⟨S4096x768, .f32⟩
  | 74 => ⟨S1x768, .f32⟩
  | 75 => ⟨S4096x768, .f32⟩
  | 76 => ⟨S4096x768, .f32⟩
  | 77 => ⟨S4096x4x192, .f32⟩
  | 78 => ⟨S768x768, .f32⟩
  | 79 => ⟨S4096x768, .f32⟩
  | 80 => ⟨S1x768, .f32⟩
  | 81 => ⟨S4096x768, .f32⟩
  | 82 => ⟨S4096x768, .f32⟩
  | 83 => ⟨S4096x4x192, .f32⟩
  | 84 => ⟨S768x768, .f32⟩
  | 85 => ⟨S4096x768, .f32⟩
  | 86 => ⟨S1x768, .f32⟩
  | 87 => ⟨S4096x768, .f32⟩
  | 88 => ⟨S4096x768, .f32⟩
  | 89 => ⟨S4096x4x192, .f32⟩
  | 90 => ⟨S4096x4x192, .f32⟩
  | 91 => ⟨S_, .f32⟩
  | 92 => ⟨S4096x4, .f32⟩
  | 93 => ⟨S4096x4x1, .f32⟩
  | 94 => ⟨S_, .f32⟩
  | 95 => ⟨S_, .f32⟩
  | 96 => ⟨S4096x4x1, .f32⟩
  | 97 => ⟨S4096x4x1, .f32⟩
  | 98 => ⟨S_, .f32⟩
  | 99 => ⟨S4096x4, .f32⟩
  | 100 => ⟨S_, .f32⟩
  | 101 => ⟨S4096x4, .f32⟩
  | 102 => ⟨S4096x4, .f32⟩
  | 103 => ⟨S4096x4x1, .f32⟩
  | 104 => ⟨S4096x4x1, .f32⟩
  | 105 => ⟨S4096x4x1, .f32⟩
  | 106 => ⟨S_, .f32⟩
  | 107 => ⟨S4096x4, .f32⟩
  | 108 => ⟨S4096x4x1, .f32⟩
  | 109 => ⟨S4096x4x1, .f32⟩
  | 110 => ⟨S4096x4x192, .f32⟩
  | 111 => ⟨S4096x4x192, .f32⟩
  | 112 => ⟨S4096x768, .f32⟩
  | 113 => ⟨S768x768, .f32⟩
  | 114 => ⟨S4096x768, .f32⟩
  | 115 => ⟨S1x768, .f32⟩
  | 116 => ⟨S4096x768, .f32⟩
  | 117 => ⟨S4096x768, .f32⟩
  | 118 => ⟨S1x2304x768, .f32⟩
  | 119 => ⟨S2304x768, .f32⟩
  | 120 => ⟨S1x2304, .f32⟩
  | 121 => ⟨S2304, .f32⟩
  | 122 => ⟨S1x768x768, .f32⟩
  | 123 => ⟨S768x768, .f32⟩
  | 124 => ⟨S1x768, .f32⟩
  | 125 => ⟨S768, .f32⟩
  | 126 => ⟨S768x768, .f32⟩
  | 127 => ⟨S768x768, .f32⟩
  | _ => ⟨S4096x6144, .f32⟩

abbrev hbmTy0_3 (i : Nat) : BufTy := match i % 128 with
  | 0 => ⟨S768x768, .f32⟩
  | 1 => ⟨S768, .f32⟩
  | 2 => ⟨S768, .f32⟩
  | 3 => ⟨S768, .f32⟩
  | 4 => ⟨S768x768, .f32⟩
  | 5 => ⟨S4096x768, .f32⟩
  | 6 => ⟨S1x768, .f32⟩
  | 7 => ⟨S4096x768, .f32⟩
  | 8 => ⟨S4096x768, .f32⟩
  | 9 => ⟨S4096x4x192, .f32⟩
  | 10 => ⟨S768x768, .f32⟩
  | 11 => ⟨S4096x768, .f32⟩
  | 12 => ⟨S1x768, .f32⟩
  | 13 => ⟨S4096x768, .f32⟩
  | 14 => ⟨S4096x768, .f32⟩
  | 15 => ⟨S4096x4x192, .f32⟩
  | 16 => ⟨S768x768, .f32⟩
  | 17 => ⟨S4096x768, .f32⟩
  | 18 => ⟨S1x768, .f32⟩
  | 19 => ⟨S4096x768, .f32⟩
  | 20 => ⟨S4096x768, .f32⟩
  | 21 => ⟨S4096x4x192, .f32⟩
  | 22 => ⟨S4096x4x192, .f32⟩
  | 23 => ⟨S_, .f32⟩
  | 24 => ⟨S4096x4, .f32⟩
  | 25 => ⟨S4096x4x1, .f32⟩
  | 26 => ⟨S_, .f32⟩
  | 27 => ⟨S_, .f32⟩
  | 28 => ⟨S4096x4x1, .f32⟩
  | 29 => ⟨S4096x4x1, .f32⟩
  | 30 => ⟨S_, .f32⟩
  | 31 => ⟨S4096x4, .f32⟩
  | 32 => ⟨S_, .f32⟩
  | 33 => ⟨S4096x4, .f32⟩
  | 34 => ⟨S4096x4, .f32⟩
  | 35 => ⟨S4096x4x1, .f32⟩
  | 36 => ⟨S4096x4x1, .f32⟩
  | 37 => ⟨S4096x4x1, .f32⟩
  | 38 => ⟨S_, .f32⟩
  | 39 => ⟨S4096x4, .f32⟩
  | 40 => ⟨S4096x4x1, .f32⟩
  | 41 => ⟨S4096x4x1, .f32⟩
  | 42 => ⟨S4096x4x192, .f32⟩
  | 43 => ⟨S4096x4x192, .f32⟩
  | 44 => ⟨S4096x768, .f32⟩
  | 45 => ⟨S768x768, .f32⟩
  | 46 => ⟨S4096x768, .f32⟩
  | 47 => ⟨S1x768, .f32⟩
  | 48 => ⟨S4096x768, .f32⟩
  | 49 => ⟨S4096x768, .f32⟩
  | 50 => ⟨S4096x768, .f32⟩
  | 51 => ⟨S1x768, .f32⟩
  | 52 => ⟨S768, .f32⟩
  | 53 => ⟨S1x768, .f32⟩
  | 54 => ⟨S768, .f32⟩
  | 55 => ⟨S_, .f32⟩
  | 56 => ⟨S768, .f32⟩
  | 57 => ⟨S768, .f32⟩
  | 58 => ⟨S1x768, .f32⟩
  | 59 => ⟨S4096x768, .f32⟩
  | 60 => ⟨S4096x768, .f32⟩
  | 61 => ⟨S1x768, .f32⟩
  | 62 => ⟨S4096x768, .f32⟩
  | 63 => ⟨S4096x768, .f32⟩
  | 64 => ⟨S1x2304x768, .f32⟩
  | 65 => ⟨S2304x768, .f32⟩
  | 66 => ⟨S1x2304, .f32⟩
  | 67 => ⟨S2304, .f32⟩
  | 68 => ⟨S1x768x768, .f32⟩
  | 69 => ⟨S768x768, .f32⟩
  | 70 => ⟨S1x768, .f32⟩
  | 71 => ⟨S768, .f32⟩
  | 72 => ⟨S768x768, .f32⟩
  | 73 => ⟨S768x768, .f32⟩
  | 74 => ⟨S768x768, .f32⟩
  | 75 => ⟨S768, .f32⟩
  | 76 => ⟨S768, .f32⟩
  | 77 => ⟨S768, .f32⟩
  | 78 => ⟨S768x768, .f32⟩
  | 79 => ⟨S4096x768, .f32⟩
  | 80 => ⟨S1x768, .f32⟩
  | 81 => ⟨S4096x768, .f32⟩
  | 82 => ⟨S4096x768, .f32⟩
  | 83 => ⟨S4096x4x192, .f32⟩
  | 84 => ⟨S768x768, .f32⟩
  | 85 => ⟨S4096x768, .f32⟩
  | 86 => ⟨S1x768, .f32⟩
  | 87 => ⟨S4096x768, .f32⟩
  | 88 => ⟨S4096x768, .f32⟩
  | 89 => ⟨S4096x4x192, .f32⟩
  | 90 => ⟨S768x768, .f32⟩
  | 91 => ⟨S4096x768, .f32⟩
  | 92 => ⟨S1x768, .f32⟩
  | 93 => ⟨S4096x768, .f32⟩
  | 94 => ⟨S4096x768, .f32⟩
  | 95 => ⟨S4096x4x192, .f32⟩
  | 96 => ⟨S4096x4x192, .f32⟩
  | 97 => ⟨S_, .f32⟩
  | 98 => ⟨S4096x4, .f32⟩
  | 99 => ⟨S4096x4x1, .f32⟩
  | 100 => ⟨S_, .f32⟩
  | 101 => ⟨S_, .f32⟩
  | 102 => ⟨S4096x4x1, .f32⟩
  | 103 => ⟨S4096x4x1, .f32⟩
  | 104 => ⟨S_, .f32⟩
  | 105 => ⟨S4096x4, .f32⟩
  | 106 => ⟨S_, .f32⟩
  | 107 => ⟨S4096x4, .f32⟩
  | 108 => ⟨S4096x4, .f32⟩
  | 109 => ⟨S4096x4x1, .f32⟩
  | 110 => ⟨S4096x4x1, .f32⟩
  | 111 => ⟨S4096x4x1, .f32⟩
  | 112 => ⟨S_, .f32⟩
  | 113 => ⟨S4096x4, .f32⟩
  | 114 => ⟨S4096x4x1, .f32⟩
  | 115 => ⟨S4096x4x1, .f32⟩
  | 116 => ⟨S4096x4x192, .f32⟩
  | 117 => ⟨S4096x4x192, .f32⟩
  | 118 => ⟨S4096x768, .f32⟩
  | 119 => ⟨S768x768, .f32⟩
  | 120 => ⟨S4096x768, .f32⟩
  | 121 => ⟨S1x768, .f32⟩
  | 122 => ⟨S4096x768, .f32⟩
  | 123 => ⟨S4096x768, .f32⟩
  | 124 => ⟨S4096x768, .f32⟩
  | 125 => ⟨S1x768, .f32⟩
  | 126 => ⟨S768, .f32⟩
  | 127 => ⟨S1x768, .f32⟩
  | _ => ⟨S4096x6144, .f32⟩

abbrev hbmTy0_4 (i : Nat) : BufTy := match i % 128 with
  | 0 => ⟨S768, .f32⟩
  | 1 => ⟨S_, .f32⟩
  | 2 => ⟨S768, .f32⟩
  | 3 => ⟨S768, .f32⟩
  | 4 => ⟨S1x768, .f32⟩
  | 5 => ⟨S4096x768, .f32⟩
  | 6 => ⟨S4096x768, .f32⟩
  | 7 => ⟨S1x768, .f32⟩
  | 8 => ⟨S4096x768, .f32⟩
  | 9 => ⟨S4096x768, .f32⟩
  | 10 => ⟨S1x2304x768, .f32⟩
  | 11 => ⟨S2304x768, .f32⟩
  | 12 => ⟨S1x2304, .f32⟩
  | 13 => ⟨S2304, .f32⟩
  | 14 => ⟨S1x768x768, .f32⟩
  | 15 => ⟨S768x768, .f32⟩
  | 16 => ⟨S1x768, .f32⟩
  | 17 => ⟨S768, .f32⟩
  | 18 => ⟨S768x768, .f32⟩
  | 19 => ⟨S768x768, .f32⟩
  | 20 => ⟨S768x768, .f32⟩
  | 21 => ⟨S768, .f32⟩
  | 22 => ⟨S768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x4x192, .f32⟩
  | 30 => ⟨S768x768, .f32⟩
  | 31 => ⟨S4096x768, .f32⟩
  | 32 => ⟨S1x768, .f32⟩
  | 33 => ⟨S4096x768, .f32⟩
  | 34 => ⟨S4096x768, .f32⟩
  | 35 => ⟨S4096x4x192, .f32⟩
  | 36 => ⟨S768x768, .f32⟩
  | 37 => ⟨S4096x768, .f32⟩
  | 38 => ⟨S1x768, .f32⟩
  | 39 => ⟨S4096x768, .f32⟩
  | 40 => ⟨S4096x768, .f32⟩
  | 41 => ⟨S4096x4x192, .f32⟩
  | 42 => ⟨S4096x4x192, .f32⟩
  | 43 => ⟨S_, .f32⟩
  | 44 => ⟨S4096x4, .f32⟩
  | 45 => ⟨S4096x4x1, .f32⟩
  | 46 => ⟨S_, .f32⟩
  | 47 => ⟨S_, .f32⟩
  | 48 => ⟨S4096x4x1, .f32⟩
  | 49 => ⟨S4096x4x1, .f32⟩
  | 50 => ⟨S_, .f32⟩
  | 51 => ⟨S4096x4, .f32⟩
  | 52 => ⟨S_, .f32⟩
  | 53 => ⟨S4096x4, .f32⟩
  | 54 => ⟨S4096x4, .f32⟩
  | 55 => ⟨S4096x4x1, .f32⟩
  | 56 => ⟨S4096x4x1, .f32⟩
  | 57 => ⟨S4096x4x1, .f32⟩
  | 58 => ⟨S_, .f32⟩
  | 59 => ⟨S4096x4, .f32⟩
  | 60 => ⟨S4096x4x1, .f32⟩
  | 61 => ⟨S4096x4x1, .f32⟩
  | 62 => ⟨S4096x4x192, .f32⟩
  | 63 => ⟨S4096x4x192, .f32⟩
  | 64 => ⟨S4096x768, .f32⟩
  | 65 => ⟨S768x768, .f32⟩
  | 66 => ⟨S4096x768, .f32⟩
  | 67 => ⟨S1x768, .f32⟩
  | 68 => ⟨S4096x768, .f32⟩
  | 69 => ⟨S4096x768, .f32⟩
  | 70 => ⟨S4096x768, .f32⟩
  | 71 => ⟨S1x768, .f32⟩
  | 72 => ⟨S768, .f32⟩
  | 73 => ⟨S1x768, .f32⟩
  | 74 => ⟨S768, .f32⟩
  | 75 => ⟨S_, .f32⟩
  | 76 => ⟨S768, .f32⟩
  | 77 => ⟨S768, .f32⟩
  | 78 => ⟨S1x768, .f32⟩
  | 79 => ⟨S4096x768, .f32⟩
  | 80 => ⟨S4096x768, .f32⟩
  | 81 => ⟨S1x768, .f32⟩
  | 82 => ⟨S4096x768, .f32⟩
  | 83 => ⟨S4096x768, .f32⟩
  | 84 => ⟨S4096x3072, .f32⟩
  | 85 => ⟨S4096x6144, .f32⟩
  | 86 => ⟨S6144x512, .f32⟩
  | 87 => ⟨S4096x512, .f32⟩
  | 88 => ⟨S1x512, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S_, .f32⟩
  | 95 => ⟨S512, .f32⟩
  | 96 => ⟨S512, .f32⟩
  | 97 => ⟨S1x512, .f32⟩
  | 98 => ⟨S4096x512, .f32⟩
  | 99 => ⟨S4096x512, .f32⟩
  | 100 => ⟨S1x512, .f32⟩
  | 101 => ⟨S4096x512, .f32⟩
  | 102 => ⟨S4096x512, .f32⟩
  | 103 => ⟨S512x128, .f32⟩
  | 104 => ⟨S4096x128, .f32⟩
  | 105 => ⟨S1x128, .f32⟩
  | 106 => ⟨S4096x128, .f32⟩
  | 107 => ⟨S4096x128, .f32⟩
  | 108 => ⟨S_, .f32⟩
  | 109 => ⟨S4096x128, .f32⟩
  | 110 => ⟨S4096x128, .f32⟩
  | 111 => ⟨S_, .f32⟩
  | 112 => ⟨S128, .f32⟩
  | 113 => ⟨S128, .f32⟩
  | 114 => ⟨S1x128, .f32⟩
  | 115 => ⟨S4096x128, .f32⟩
  | 116 => ⟨S4096x128, .f32⟩
  | 117 => ⟨S1x128, .f32⟩
  | 118 => ⟨S4096x128, .f32⟩
  | 119 => ⟨S4096x128, .f32⟩
  | 120 => ⟨S128x1, .f32⟩
  | 121 => ⟨S4096x1, .f32⟩
  | 122 => ⟨S1x1, .f32⟩
  | 123 => ⟨S4096x1, .f32⟩
  | 124 => ⟨S4096x1, .f32⟩
  | _ => ⟨S4096x6144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_cst_0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_cst_2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_3 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_4 : Ref sig .tc := ⟨.hbm, 120, rfl⟩
abbrev main_v92 : Ref sig .tc := ⟨.hbm, 121, rfl⟩
abbrev main_v93 : Ref sig .tc := ⟨.hbm, 122, rfl⟩
abbrev main_cst_5 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_6 : Ref sig .tc := ⟨.hbm, 127, rfl⟩
abbrev main_v97 : Ref sig .tc := ⟨.hbm, 128, rfl⟩
abbrev main_cst_7 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_8 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_9 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_cst_10 : Ref sig .tc := ⟨.hbm, 194, rfl⟩
abbrev main_v160 : Ref sig .tc := ⟨.hbm, 195, rfl⟩
abbrev main_v161 : Ref sig .tc := ⟨.hbm, 196, rfl⟩
abbrev main_cst_11 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_12 : Ref sig .tc := ⟨.hbm, 201, rfl⟩
abbrev main_v165 : Ref sig .tc := ⟨.hbm, 202, rfl⟩
abbrev main_cst_13 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_14 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_cst_15 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_cst_16 : Ref sig .tc := ⟨.hbm, 268, rfl⟩
abbrev main_v228 : Ref sig .tc := ⟨.hbm, 269, rfl⟩
abbrev main_v229 : Ref sig .tc := ⟨.hbm, 270, rfl⟩
abbrev main_cst_17 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_cst_18 : Ref sig .tc := ⟨.hbm, 275, rfl⟩
abbrev main_v233 : Ref sig .tc := ⟨.hbm, 276, rfl⟩
abbrev main_cst_19 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_cst_20 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_cst_21 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_cst_22 : Ref sig .tc := ⟨.hbm, 347, rfl⟩
abbrev main_v301 : Ref sig .tc := ⟨.hbm, 348, rfl⟩
abbrev main_v302 : Ref sig .tc := ⟨.hbm, 349, rfl⟩
abbrev main_cst_23 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_cst_24 : Ref sig .tc := ⟨.hbm, 354, rfl⟩
abbrev main_v306 : Ref sig .tc := ⟨.hbm, 355, rfl⟩
abbrev main_cst_25 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_cst_26 : Ref sig .tc := ⟨.hbm, 362, rfl⟩
abbrev main_v312 : Ref sig .tc := ⟨.hbm, 363, rfl⟩
abbrev main_v313 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_v328 : Ref sig .tc := ⟨.hbm, 379, rfl⟩
abbrev main_v329 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_v339 : Ref sig .tc := ⟨.hbm, 390, rfl⟩
abbrev main_v340 : Ref sig .tc := ⟨.hbm, 391, rfl⟩
abbrev main_v341 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_v348 : Ref sig .tc := ⟨.hbm, 399, rfl⟩
abbrev main_v349 : Ref sig .tc := ⟨.hbm, 400, rfl⟩
abbrev main_v350 : Ref sig .tc := ⟨.hbm, 401, rfl⟩
abbrev main_v351 : Ref sig .tc := ⟨.hbm, 402, rfl⟩
abbrev main_v352 : Ref sig .tc := ⟨.hbm, 403, rfl⟩
abbrev main_v353 : Ref sig .tc := ⟨.hbm, 404, rfl⟩
abbrev main_v354 : Ref sig .tc := ⟨.hbm, 405, rfl⟩
abbrev main_v355 : Ref sig .tc := ⟨.hbm, 406, rfl⟩
abbrev main_cst_27 : Ref sig .tc := ⟨.hbm, 407, rfl⟩
abbrev main_v356 : Ref sig .tc := ⟨.hbm, 408, rfl⟩
abbrev main_v357 : Ref sig .tc := ⟨.hbm, 409, rfl⟩
abbrev main_cst_28 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_cst_29 : Ref sig .tc := ⟨.hbm, 414, rfl⟩
abbrev main_v361 : Ref sig .tc := ⟨.hbm, 415, rfl⟩
abbrev main_cst_30 : Ref sig .tc := ⟨.hbm, 416, rfl⟩
abbrev main_v362 : Ref sig .tc := ⟨.hbm, 417, rfl⟩
abbrev main_v363 : Ref sig .tc := ⟨.hbm, 418, rfl⟩
abbrev main_v364 : Ref sig .tc := ⟨.hbm, 419, rfl⟩
abbrev main_v365 : Ref sig .tc := ⟨.hbm, 420, rfl⟩
abbrev main_v366 : Ref sig .tc := ⟨.hbm, 421, rfl⟩
abbrev main_cst_31 : Ref sig .tc := ⟨.hbm, 422, rfl⟩
abbrev main_v367 : Ref sig .tc := ⟨.hbm, 423, rfl⟩
abbrev main_v368 : Ref sig .tc := ⟨.hbm, 424, rfl⟩
abbrev main_v369 : Ref sig .tc := ⟨.hbm, 425, rfl⟩
abbrev main_v370 : Ref sig .tc := ⟨.hbm, 426, rfl⟩
abbrev main_v371 : Ref sig .tc := ⟨.hbm, 427, rfl⟩
abbrev main_v372 : Ref sig .tc := ⟨.hbm, 428, rfl⟩
abbrev main_v373 : Ref sig .tc := ⟨.hbm, 429, rfl⟩
abbrev main_v374 : Ref sig .tc := ⟨.hbm, 430, rfl⟩
abbrev main_v375 : Ref sig .tc := ⟨.hbm, 431, rfl⟩
abbrev main_v376 : Ref sig .tc := ⟨.hbm, 432, rfl⟩
abbrev main_v377 : Ref sig .tc := ⟨.hbm, 433, rfl⟩
abbrev main_v378 : Ref sig .tc := ⟨.hbm, 434, rfl⟩
abbrev main_v379 : Ref sig .tc := ⟨.hbm, 435, rfl⟩
abbrev main_v380 : Ref sig .tc := ⟨.hbm, 436, rfl⟩
abbrev main_v381 : Ref sig .tc := ⟨.hbm, 437, rfl⟩
abbrev main_v382 : Ref sig .tc := ⟨.hbm, 438, rfl⟩
abbrev main_cst_32 : Ref sig .tc := ⟨.hbm, 439, rfl⟩
abbrev main_v383 : Ref sig .tc := ⟨.hbm, 440, rfl⟩
abbrev main_v384 : Ref sig .tc := ⟨.hbm, 441, rfl⟩
abbrev main_v385 : Ref sig .tc := ⟨.hbm, 442, rfl⟩
abbrev main_v386 : Ref sig .tc := ⟨.hbm, 443, rfl⟩
abbrev main_v387 : Ref sig .tc := ⟨.hbm, 444, rfl⟩
abbrev main_v388 : Ref sig .tc := ⟨.hbm, 445, rfl⟩
abbrev main_v389 : Ref sig .tc := ⟨.hbm, 446, rfl⟩
abbrev main_v390 : Ref sig .tc := ⟨.hbm, 447, rfl⟩
abbrev main_v391 : Ref sig .tc := ⟨.hbm, 448, rfl⟩
abbrev main_v392 : Ref sig .tc := ⟨.hbm, 449, rfl⟩
abbrev main_v393 : Ref sig .tc := ⟨.hbm, 450, rfl⟩
abbrev main_v394 : Ref sig .tc := ⟨.hbm, 451, rfl⟩
abbrev main_v395 : Ref sig .tc := ⟨.hbm, 452, rfl⟩
abbrev main_v396 : Ref sig .tc := ⟨.hbm, 453, rfl⟩
abbrev main_v397 : Ref sig .tc := ⟨.hbm, 454, rfl⟩
abbrev main_v398 : Ref sig .tc := ⟨.hbm, 455, rfl⟩
abbrev main_v399 : Ref sig .tc := ⟨.hbm, 456, rfl⟩
abbrev main_v400 : Ref sig .tc := ⟨.hbm, 457, rfl⟩
abbrev main_v401 : Ref sig .tc := ⟨.hbm, 458, rfl⟩
abbrev main_v402 : Ref sig .tc := ⟨.hbm, 459, rfl⟩
abbrev main_v403 : Ref sig .tc := ⟨.hbm, 460, rfl⟩
abbrev main_v404 : Ref sig .tc := ⟨.hbm, 461, rfl⟩
abbrev main_v405 : Ref sig .tc := ⟨.hbm, 462, rfl⟩
abbrev main_v406 : Ref sig .tc := ⟨.hbm, 463, rfl⟩
abbrev main_v407 : Ref sig .tc := ⟨.hbm, 464, rfl⟩
abbrev main_v408 : Ref sig .tc := ⟨.hbm, 465, rfl⟩
abbrev main_v409 : Ref sig .tc := ⟨.hbm, 466, rfl⟩
abbrev main_v410 : Ref sig .tc := ⟨.hbm, 467, rfl⟩
abbrev main_v411 : Ref sig .tc := ⟨.hbm, 468, rfl⟩
abbrev main_v412 : Ref sig .tc := ⟨.hbm, 469, rfl⟩
abbrev main_v413 : Ref sig .tc := ⟨.hbm, 470, rfl⟩
abbrev main_v414 : Ref sig .tc := ⟨.hbm, 471, rfl⟩
abbrev main_v415 : Ref sig .tc := ⟨.hbm, 472, rfl⟩
abbrev main_v416 : Ref sig .tc := ⟨.hbm, 473, rfl⟩
abbrev main_v417 : Ref sig .tc := ⟨.hbm, 474, rfl⟩
abbrev main_v418 : Ref sig .tc := ⟨.hbm, 475, rfl⟩
abbrev main_v419 : Ref sig .tc := ⟨.hbm, 476, rfl⟩
abbrev main_v420 : Ref sig .tc := ⟨.hbm, 477, rfl⟩
abbrev main_v421 : Ref sig .tc := ⟨.hbm, 478, rfl⟩
abbrev main_v422 : Ref sig .tc := ⟨.hbm, 479, rfl⟩
abbrev main_v423 : Ref sig .tc := ⟨.hbm, 480, rfl⟩
abbrev main_cst_33 : Ref sig .tc := ⟨.hbm, 481, rfl⟩
abbrev main_v424 : Ref sig .tc := ⟨.hbm, 482, rfl⟩
abbrev main_v425 : Ref sig .tc := ⟨.hbm, 483, rfl⟩
abbrev main_cst_34 : Ref sig .tc := ⟨.hbm, 484, rfl⟩
abbrev main_v426 : Ref sig .tc := ⟨.hbm, 485, rfl⟩
abbrev main_v427 : Ref sig .tc := ⟨.hbm, 486, rfl⟩
abbrev main_v428 : Ref sig .tc := ⟨.hbm, 487, rfl⟩
abbrev main_cst_35 : Ref sig .tc := ⟨.hbm, 488, rfl⟩
abbrev main_v429 : Ref sig .tc := ⟨.hbm, 489, rfl⟩
abbrev main_cst_36 : Ref sig .tc := ⟨.hbm, 490, rfl⟩
abbrev main_v430 : Ref sig .tc := ⟨.hbm, 491, rfl⟩
abbrev main_v431 : Ref sig .tc := ⟨.hbm, 492, rfl⟩
abbrev main_v432 : Ref sig .tc := ⟨.hbm, 493, rfl⟩
abbrev main_v433 : Ref sig .tc := ⟨.hbm, 494, rfl⟩
abbrev main_v434 : Ref sig .tc := ⟨.hbm, 495, rfl⟩
abbrev main_cst_37 : Ref sig .tc := ⟨.hbm, 496, rfl⟩
abbrev main_v435 : Ref sig .tc := ⟨.hbm, 497, rfl⟩
abbrev main_v436 : Ref sig .tc := ⟨.hbm, 498, rfl⟩
abbrev main_v437 : Ref sig .tc := ⟨.hbm, 499, rfl⟩
abbrev main_v438 : Ref sig .tc := ⟨.hbm, 500, rfl⟩
abbrev main_v439 : Ref sig .tc := ⟨.hbm, 501, rfl⟩
abbrev main_v440 : Ref sig .tc := ⟨.hbm, 502, rfl⟩
abbrev main_v441 : Ref sig .tc := ⟨.hbm, 503, rfl⟩
abbrev main_v442 : Ref sig .tc := ⟨.hbm, 504, rfl⟩
abbrev main_v443 : Ref sig .tc := ⟨.hbm, 505, rfl⟩
abbrev main_v444 : Ref sig .tc := ⟨.hbm, 506, rfl⟩
abbrev main_v445 : Ref sig .tc := ⟨.hbm, 507, rfl⟩
abbrev main_v446 : Ref sig .tc := ⟨.hbm, 508, rfl⟩
abbrev main_v447 : Ref sig .tc := ⟨.hbm, 509, rfl⟩
abbrev main_v448 : Ref sig .tc := ⟨.hbm, 510, rfl⟩
abbrev main_v449 : Ref sig .tc := ⟨.hbm, 511, rfl⟩
abbrev main_v450 : Ref sig .tc := ⟨.hbm, 512, rfl⟩
abbrev main_cst_38 : Ref sig .tc := ⟨.hbm, 513, rfl⟩
abbrev main_v451 : Ref sig .tc := ⟨.hbm, 514, rfl⟩
abbrev main_v452 : Ref sig .tc := ⟨.hbm, 515, rfl⟩
abbrev main_v453 : Ref sig .tc := ⟨.hbm, 516, rfl⟩
abbrev main_v454 : Ref sig .tc := ⟨.hbm, 517, rfl⟩
abbrev main_v455 : Ref sig .tc := ⟨.hbm, 518, rfl⟩
abbrev main_v456 : Ref sig .tc := ⟨.hbm, 519, rfl⟩
abbrev main_v457 : Ref sig .tc := ⟨.hbm, 520, rfl⟩
abbrev main_v458 : Ref sig .tc := ⟨.hbm, 521, rfl⟩
abbrev main_v459 : Ref sig .tc := ⟨.hbm, 522, rfl⟩
abbrev main_v460 : Ref sig .tc := ⟨.hbm, 523, rfl⟩
abbrev main_v461 : Ref sig .tc := ⟨.hbm, 524, rfl⟩
abbrev main_v462 : Ref sig .tc := ⟨.hbm, 525, rfl⟩
abbrev main_v463 : Ref sig .tc := ⟨.hbm, 526, rfl⟩
abbrev main_v464 : Ref sig .tc := ⟨.hbm, 527, rfl⟩
abbrev main_v465 : Ref sig .tc := ⟨.hbm, 528, rfl⟩
abbrev main_v466 : Ref sig .tc := ⟨.hbm, 529, rfl⟩
abbrev main_v467 : Ref sig .tc := ⟨.hbm, 530, rfl⟩
abbrev main_v468 : Ref sig .tc := ⟨.hbm, 531, rfl⟩
abbrev main_v469 : Ref sig .tc := ⟨.hbm, 532, rfl⟩
abbrev main_v470 : Ref sig .tc := ⟨.hbm, 533, rfl⟩
abbrev main_v471 : Ref sig .tc := ⟨.hbm, 534, rfl⟩
abbrev main_v472 : Ref sig .tc := ⟨.hbm, 535, rfl⟩
abbrev main_v473 : Ref sig .tc := ⟨.hbm, 536, rfl⟩
abbrev main_v474 : Ref sig .tc := ⟨.hbm, 537, rfl⟩
abbrev main_v475 : Ref sig .tc := ⟨.hbm, 538, rfl⟩
abbrev main_v476 : Ref sig .tc := ⟨.hbm, 539, rfl⟩
abbrev main_v477 : Ref sig .tc := ⟨.hbm, 540, rfl⟩
abbrev main_v478 : Ref sig .tc := ⟨.hbm, 541, rfl⟩
abbrev main_v479 : Ref sig .tc := ⟨.hbm, 542, rfl⟩
abbrev main_v480 : Ref sig .tc := ⟨.hbm, 543, rfl⟩
abbrev main_v481 : Ref sig .tc := ⟨.hbm, 544, rfl⟩
abbrev main_v482 : Ref sig .tc := ⟨.hbm, 545, rfl⟩
abbrev main_v483 : Ref sig .tc := ⟨.hbm, 546, rfl⟩
abbrev main_v484 : Ref sig .tc := ⟨.hbm, 547, rfl⟩
abbrev main_v485 : Ref sig .tc := ⟨.hbm, 548, rfl⟩
abbrev main_v486 : Ref sig .tc := ⟨.hbm, 549, rfl⟩
abbrev main_v487 : Ref sig .tc := ⟨.hbm, 550, rfl⟩
abbrev main_v488 : Ref sig .tc := ⟨.hbm, 551, rfl⟩
abbrev main_v489 : Ref sig .tc := ⟨.hbm, 552, rfl⟩
abbrev main_v490 : Ref sig .tc := ⟨.hbm, 553, rfl⟩
abbrev main_v491 : Ref sig .tc := ⟨.hbm, 554, rfl⟩
abbrev main_cst_39 : Ref sig .tc := ⟨.hbm, 555, rfl⟩
abbrev main_v492 : Ref sig .tc := ⟨.hbm, 556, rfl⟩
abbrev main_v493 : Ref sig .tc := ⟨.hbm, 557, rfl⟩
abbrev main_cst_40 : Ref sig .tc := ⟨.hbm, 558, rfl⟩
abbrev main_v494 : Ref sig .tc := ⟨.hbm, 559, rfl⟩
abbrev main_v495 : Ref sig .tc := ⟨.hbm, 560, rfl⟩
abbrev main_v496 : Ref sig .tc := ⟨.hbm, 561, rfl⟩
abbrev main_cst_41 : Ref sig .tc := ⟨.hbm, 562, rfl⟩
abbrev main_v497 : Ref sig .tc := ⟨.hbm, 563, rfl⟩
abbrev main_cst_42 : Ref sig .tc := ⟨.hbm, 564, rfl⟩
abbrev main_v498 : Ref sig .tc := ⟨.hbm, 565, rfl⟩
abbrev main_v499 : Ref sig .tc := ⟨.hbm, 566, rfl⟩
abbrev main_v500 : Ref sig .tc := ⟨.hbm, 567, rfl⟩
abbrev main_v501 : Ref sig .tc := ⟨.hbm, 568, rfl⟩
abbrev main_v502 : Ref sig .tc := ⟨.hbm, 569, rfl⟩
abbrev main_cst_43 : Ref sig .tc := ⟨.hbm, 570, rfl⟩
abbrev main_v503 : Ref sig .tc := ⟨.hbm, 571, rfl⟩
abbrev main_v504 : Ref sig .tc := ⟨.hbm, 572, rfl⟩
abbrev main_v505 : Ref sig .tc := ⟨.hbm, 573, rfl⟩
abbrev main_v506 : Ref sig .tc := ⟨.hbm, 574, rfl⟩
abbrev main_v507 : Ref sig .tc := ⟨.hbm, 575, rfl⟩
abbrev main_v508 : Ref sig .tc := ⟨.hbm, 576, rfl⟩
abbrev main_v509 : Ref sig .tc := ⟨.hbm, 577, rfl⟩
abbrev main_v510 : Ref sig .tc := ⟨.hbm, 578, rfl⟩
abbrev main_v511 : Ref sig .tc := ⟨.hbm, 579, rfl⟩
abbrev main_v512 : Ref sig .tc := ⟨.hbm, 580, rfl⟩
abbrev main_v513 : Ref sig .tc := ⟨.hbm, 581, rfl⟩
abbrev main_v514 : Ref sig .tc := ⟨.hbm, 582, rfl⟩
abbrev main_v515 : Ref sig .tc := ⟨.hbm, 583, rfl⟩
abbrev main_v516 : Ref sig .tc := ⟨.hbm, 584, rfl⟩
abbrev main_v517 : Ref sig .tc := ⟨.hbm, 585, rfl⟩
abbrev main_v518 : Ref sig .tc := ⟨.hbm, 586, rfl⟩
abbrev main_cst_44 : Ref sig .tc := ⟨.hbm, 587, rfl⟩
abbrev main_v519 : Ref sig .tc := ⟨.hbm, 588, rfl⟩
abbrev main_v520 : Ref sig .tc := ⟨.hbm, 589, rfl⟩
abbrev main_v521 : Ref sig .tc := ⟨.hbm, 590, rfl⟩
abbrev main_v522 : Ref sig .tc := ⟨.hbm, 591, rfl⟩
abbrev main_v523 : Ref sig .tc := ⟨.hbm, 592, rfl⟩
abbrev main_v524 : Ref sig .tc := ⟨.hbm, 593, rfl⟩
abbrev main_v525 : Ref sig .tc := ⟨.hbm, 594, rfl⟩
abbrev main_v526 : Ref sig .tc := ⟨.hbm, 595, rfl⟩
abbrev main_v527 : Ref sig .tc := ⟨.hbm, 596, rfl⟩
abbrev main_v528 : Ref sig .tc := ⟨.hbm, 597, rfl⟩
abbrev main_v529 : Ref sig .tc := ⟨.hbm, 598, rfl⟩
abbrev main_v530 : Ref sig .tc := ⟨.hbm, 599, rfl⟩
abbrev main_v531 : Ref sig .tc := ⟨.hbm, 600, rfl⟩
abbrev main_v532 : Ref sig .tc := ⟨.hbm, 601, rfl⟩
abbrev main_v533 : Ref sig .tc := ⟨.hbm, 602, rfl⟩
abbrev main_call0_cst : Ref sig .tc := ⟨.hbm, 603, rfl⟩
abbrev main_call0_v0 : Ref sig .tc := ⟨.hbm, 604, rfl⟩
abbrev main_v534 : Ref sig .tc := ⟨.hbm, 605, rfl⟩
abbrev main_cst_45 : Ref sig .tc := ⟨.hbm, 606, rfl⟩
abbrev main_v535 : Ref sig .tc := ⟨.hbm, 607, rfl⟩
abbrev main_v536 : Ref sig .tc := ⟨.hbm, 608, rfl⟩
abbrev main_v537 : Ref sig .tc := ⟨.hbm, 609, rfl⟩
abbrev main_v538 : Ref sig .tc := ⟨.hbm, 610, rfl⟩
abbrev main_v539 : Ref sig .tc := ⟨.hbm, 611, rfl⟩
abbrev main_v540 : Ref sig .tc := ⟨.hbm, 612, rfl⟩
abbrev main_v541 : Ref sig .tc := ⟨.hbm, 613, rfl⟩
abbrev main_v542 : Ref sig .tc := ⟨.hbm, 614, rfl⟩
abbrev main_v543 : Ref sig .tc := ⟨.hbm, 615, rfl⟩
abbrev main_v544 : Ref sig .tc := ⟨.hbm, 616, rfl⟩
abbrev main_v545 : Ref sig .tc := ⟨.hbm, 617, rfl⟩
abbrev main_v546 : Ref sig .tc := ⟨.hbm, 618, rfl⟩
abbrev main_v547 : Ref sig .tc := ⟨.hbm, 619, rfl⟩
abbrev main_call1_cst : Ref sig .tc := ⟨.hbm, 620, rfl⟩
abbrev main_call1_v0 : Ref sig .tc := ⟨.hbm, 621, rfl⟩
abbrev main_v548 : Ref sig .tc := ⟨.hbm, 622, rfl⟩
abbrev main_cst_46 : Ref sig .tc := ⟨.hbm, 623, rfl⟩
abbrev main_v549 : Ref sig .tc := ⟨.hbm, 624, rfl⟩
abbrev main_v550 : Ref sig .tc := ⟨.hbm, 625, rfl⟩
abbrev main_v551 : Ref sig .tc := ⟨.hbm, 626, rfl⟩
abbrev main_v552 : Ref sig .tc := ⟨.hbm, 627, rfl⟩
abbrev main_v553 : Ref sig .tc := ⟨.hbm, 628, rfl⟩
abbrev main_v554 : Ref sig .tc := ⟨.hbm, 629, rfl⟩
abbrev main_v555 : Ref sig .tc := ⟨.hbm, 630, rfl⟩
abbrev main_v556 : Ref sig .tc := ⟨.hbm, 631, rfl⟩
abbrev main_v557 : Ref sig .tc := ⟨.hbm, 632, rfl⟩
abbrev main_v558 : Ref sig .tc := ⟨.hbm, 633, rfl⟩
abbrev main_v559 : Ref sig .tc := ⟨.hbm, 634, rfl⟩
abbrev main_v560 : Ref sig .tc := ⟨.hbm, 635, rfl⟩
abbrev main_v561 : Ref sig .tc := ⟨.hbm, 636, rfl⟩

abbrev nD : Nat := 1
abbrev τ : Topo := Topo.v7x

variable {F : FTy → Type} [FloatOps F]

class Facts₀ : Prop where
  slices_S4096x6144_S4096x768_0_0 : S4096x6144.Slices ![0, 0] S4096x768
  slices_S4096x6144_S4096x768_0_768 : S4096x6144.Slices ![0, 768] S4096x768
  slices_S4096x6144_S4096x768_0_1536 : S4096x6144.Slices ![0, 1536] S4096x768
  slices_S4096x6144_S4096x768_0_2304 : S4096x6144.Slices ![0, 2304] S4096x768
  slices_S4x2304x768_S1x2304x768_0_0_0 : S4x2304x768.Slices ![0, 0, 0] S1x2304x768
  shapeCasts_S1x2304x768_S2304x768 : S1x2304x768.ShapeCasts S2304x768
  slices_S4x2304_S1x2304_0_0 : S4x2304.Slices ![0, 0] S1x2304
  shapeCasts_S1x2304_S2304 : S1x2304.ShapeCasts S2304
  slices_S4x768x768_S1x768x768_0_0_0 : S4x768x768.Slices ![0, 0, 0] S1x768x768
  shapeCasts_S1x768x768_S768x768 : S1x768x768.ShapeCasts S768x768
  slices_S4x768_S1x768_0_0 : S4x768.Slices ![0, 0] S1x768
  shapeCasts_S1x768_S768 : S1x768.ShapeCasts S768
  slices_S2304x768_S768x768_0_0 : S2304x768.Slices ![0, 0] S768x768
  slices_S2304x768_S768x768_768_0 : S2304x768.Slices ![768, 0] S768x768
  slices_S2304x768_S768x768_1536_0 : S2304x768.Slices ![1536, 0] S768x768
  slices_S2304_S768_0 : S2304.Slices ![0] S768
  slices_S2304_S768_768 : S2304.Slices ![768] S768
  slices_S2304_S768_1536 : S2304.Slices ![1536] S768
  transposes_S768x768_S768x768_1_0 : S768x768.Transposes [1, 0] S768x768
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  shapeCasts_S4096x768_S4096x4x192 : S4096x768.ShapeCasts S4096x4x192
  reducesTo_S4096x4x192_S4096x4_d2 : S4096x4x192.ReducesTo [2] S4096x4
  h_S_ : 0 < S_.numel
  bcast_S4096x4_S4096x4x1_0_1 : S4096x4.BroadcastsInDim S4096x4x1 (![0, 1] : Fin 2 → Fin S4096x4x1.rank)
  bcast_S_S4096x4x1 : S_.BroadcastsInDim S4096x4x1 (![] : Fin 0 → Fin S4096x4x1.rank)
  reducesTo_S4096x4x1_S4096x4_d2 : S4096x4x1.ReducesTo [2] S4096x4
  bcast_S_S4096x4 : S_.BroadcastsInDim S4096x4 (![] : Fin 0 → Fin S4096x4.rank)
  bcast_S4096x4x1_S4096x4x192_0_1_2 : S4096x4x1.BroadcastsInDim S4096x4x192 (![0, 1, 2] : Fin 3 → Fin S4096x4x192.rank)
  shapeCasts_S4096x4x192_S4096x768 : S4096x4x192.ShapeCasts S4096x768
  slices_S4x2304x768_S1x2304x768_1_0_0 : S4x2304x768.Slices ![1, 0, 0] S1x2304x768
  slices_S4x2304_S1x2304_1_0 : S4x2304.Slices ![1, 0] S1x2304
  slices_S4x768x768_S1x768x768_1_0_0 : S4x768x768.Slices ![1, 0, 0] S1x768x768
  slices_S4x768_S1x768_1_0 : S4x768.Slices ![1, 0] S1x768
  bcast_S_S768 : S_.BroadcastsInDim S768 (![] : Fin 0 → Fin S768.rank)
  slices_S4x2304x768_S1x2304x768_2_0_0 : S4x2304x768.Slices ![2, 0, 0] S1x2304x768
  slices_S4x2304_S1x2304_2_0 : S4x2304.Slices ![2, 0] S1x2304
  slices_S4x768x768_S1x768x768_2_0_0 : S4x768x768.Slices ![2, 0, 0] S1x768x768
  slices_S4x768_S1x768_2_0 : S4x768.Slices ![2, 0] S1x768
  slices_S4x2304x768_S1x2304x768_3_0_0 : S4x2304x768.Slices ![3, 0, 0] S1x2304x768
  slices_S4x2304_S1x2304_3_0 : S4x2304.Slices ![3, 0] S1x2304
  slices_S4x768x768_S1x768x768_3_0_0 : S4x768x768.Slices ![3, 0, 0] S1x768x768
  slices_S4x768_S1x768_3_0 : S4x768.Slices ![3, 0] S1x768
  concatenates_S4096x768_S4096x768_S4096x768_S4096x768_S4096x3072_d1 : Shape.Concatenates [S4096x768, S4096x768, S4096x768, S4096x768] S4096x3072 1
  slices_S4096x6144_S4096x768_0_3072 : S4096x6144.Slices ![0, 3072] S4096x768
  slices_S4096x6144_S4096x768_0_3840 : S4096x6144.Slices ![0, 3840] S4096x768
  slices_S4096x6144_S4096x768_0_4608 : S4096x6144.Slices ![0, 4608] S4096x768
  slices_S4096x6144_S4096x768_0_5376 : S4096x6144.Slices ![0, 5376] S4096x768
  concatenates_S4096x3072_S4096x3072_S4096x6144_d1 : Shape.Concatenates [S4096x3072, S4096x3072] S4096x6144 1
  transposes_S512x6144_S6144x512_1_0 : S512x6144.Transposes [1, 0] S6144x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S_S512 : S_.BroadcastsInDim S512 (![] : Fin 0 → Fin S512.rank)
  transposes_S128x512_S512x128_1_0 : S128x512.Transposes [1, 0] S512x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S_S128 : S_.BroadcastsInDim S128 (![] : Fin 0 → Fin S128.rank)
  transposes_S1x128_S128x1_1_0 : S1x128.Transposes [1, 0] S128x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x768_S768x768_S4096x768_1_0_0_1_n_n_wf : DotDims.WF S4096x768 S768x768 S4096x768 [1] [0] [0] [1] [] []
  dot_S4096x6144_S6144x512_S4096x512_1_0_0_1_n_n_wf : DotDims.WF S4096x6144 S6144x512 S4096x512 [1] [0] [0] [1] [] []
  dot_S4096x512_S512x128_S4096x128_1_0_0_1_n_n_wf : DotDims.WF S4096x512 S512x128 S4096x128 [1] [0] [0] [1] [] []
  dot_S4096x128_S128x1_S4096x1_1_0_0_1_n_n_wf : DotDims.WF S4096x128 S128x1 S4096x1 [1] [0] [0] [1] [] []

variable [Facts₀]

def dot_S4096x768_S768x768_S4096x768_1_0_0_1_n_n : DotDims S4096x768 S768x768 S4096x768 where
  lhsContracting := [1]
  rhsContracting := [0]
  lhsNonContracting := [0]
  rhsNonContracting := [1]
  lhsBatch := []
  rhsBatch := []
  wf := dot_S4096x768_S768x768_S4096x768_1_0_0_1_n_n_wf
def dot_S4096x6144_S6144x512_S4096x512_1_0_0_1_n_n : DotDims S4096x6144 S6144x512 S4096x512 where
  lhsContracting := [1]
  rhsContracting := [0]
  lhsNonContracting := [0]
  rhsNonContracting := [1]
  lhsBatch := []
  rhsBatch := []
  wf := dot_S4096x6144_S6144x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

class Facts : Prop extends Facts₀ where

variable [Facts]
-- ==== Proof.Spec.lean ====
/-
  The function both programs compute, row by row, on the extended reals.

  A row of the input holds eight chunks of 768 numbers.  Each of the two branches (chunks 0–3 and chunks 4–7) runs a
  cascade of four single-token attention layers: with one query and one key the attention weight is 1, so a layer is
  the value projection followed by the output projection, `oproj (vproj x)`; from the second layer on the layer's
  output is added to the previous output, scaled per feature and shifted (`bnres`).  The eight cascade outputs are
  contracted against the matching 768 columns of `W1` and summed in chunk order from zero, then two
  affine–clip–scale layers and a final dot product with `W3` give the row's single output.
-/
import Idealize.ShloMosaic.PureOps.Ideal
import Idealize.ShloMosaic.Lib.ValueIdx

noncomputable section

open Idealize.ShloMosaic Idealize.ShloMosaic.ValueIdx
open scoped BigOperators

namespace Cert.Spec

abbrev SX : Shape := ⟨2, ![4096, 6144]⟩
abbrev SWin : Shape := ⟨3, ![4, 2304, 768]⟩
abbrev SBin : Shape := ⟨2, ![4, 2304]⟩
abbrev SWo : Shape := ⟨3, ![4, 768, 768]⟩
abbrev SV4 : Shape := ⟨2, ![4, 768]⟩
abbrev SW1 : Shape := ⟨2, ![512, 6144]⟩
abbrev SV512 : Shape := ⟨1, ![512]⟩
abbrev SW2 : Shape := ⟨2, ![128, 512]⟩
abbrev SV128 : Shape := ⟨1, ![128]⟩
abbrev SW3 : Shape := ⟨2, ![1, 128]⟩
abbrev SV1 : Shape := ⟨1, ![1]⟩
abbrev SOut : Shape := ⟨2, ![4096, 1]⟩

/-- The per-feature scale's constant factor, the single-precision number nearest 1/√(1 + 10⁻⁵), as its exact value. -/
def bnScale : EReal := (FloatOps.ofBits (F := Ideal) .f32 0x3F7FFFAC#32 : Ideal .f32)

/-- Column `k` of chunk `q` of an input row. -/
def xcol (q : Fin 8) (k : Fin 768) : Fin 6144 := ⟨768 * q.val + k.val, by have := q.isLt; have := k.isLt; omega⟩
/-- Row `j` of the value third of a layer's stacked input-projection matrix. -/
def vrow (j : Fin 768) : Fin 2304 := ⟨1536 + j.val, by have := j.isLt; omega⟩

/-- One branch's parameters: stacked input projections and their biases, output projections and biases, scales, shifts. -/
structure Branch where
  Win : SWin.Idx → EReal
  bin : SBin.Idx → EReal
  Wo : SWo.Idx → EReal
  bo : SV4.Idx → EReal
  g : SV4.Idx → EReal
  b : SV4.Idx → EReal

/-- The head's parameters. -/
structure Head where
  W1 : SW1.Idx → EReal
  b1 : SV512.Idx → EReal
  g1 : SV512.Idx → EReal
  be1 : SV512.Idx → EReal
  W2 : SW2.Idx → EReal
  b2 : SV128.Idx → EReal
  g2 : SV128.Idx → EReal
  be2 : SV128.Idx → EReal
  W3 : SW3.Idx → EReal
  b3 : SV1.Idx → EReal

/-- Value projection of layer `ℓ`: `x · Wvᵀ + bv`. -/
def vproj (B : Branch) (ℓ : Fin 4) (x : Fin 768 → EReal) (j : Fin 768) : EReal :=
  (∑ k : Fin 768, x k * B.Win (ix3 ℓ (vrow j) k)) + B.bin (ix2 ℓ (vrow j))
/-- Output projection of layer `ℓ`: `v · Woᵀ + bo`. -/
def oproj (B : Branch) (ℓ : Fin 4) (v : Fin 768 → EReal) (j : Fin 768) : EReal :=
  (∑ k : Fin 768, v k * B.Wo (ix3 ℓ j k)) + B.bo (ix2 ℓ j)
/-- A single-token attention layer. -/
def attn (B : Branch) (ℓ : Fin 4) (x : Fin 768 → EReal) : Fin 768 → EReal := oproj B ℓ (vproj B ℓ x)
/-- Residual, per-feature scale and shift of layer `ℓ`. -/
def bnres (B : Branch) (ℓ : Fin 4) (o prev : Fin 768 → EReal) (j : Fin 768) : EReal :=
  (o j + prev j) * (B.g (ix2 ℓ j) * bnScale) + B.b (ix2 ℓ j)

/-- Chunk `q` of row `r` of the input. -/
def xrow (X : SX.Idx → EReal) (r : Fin 4096) (q : Fin 8) (k : Fin 768) : EReal := X (ix2 r (xcol q k))

/-- The cascade's four outputs for the branch whose chunks are `q0 … q3`. -/
def casc0 (X : SX.Idx → EReal) (B : Branch) (q0 : Fin 8) (r : Fin 4096) : Fin 768 → EReal :=
  attn B 0 (xrow X r q0)
def casc1 (X : SX.Idx → EReal) (B : Branch) (q0 q1 : Fin 8) (r : Fin 4096) : Fin 768 → EReal :=
  bnres B 1 (attn B 1 (xrow X r q1)) (casc0 X B q0 r)
def casc2 (X : SX.Idx → EReal) (B : Branch) (q0 q1 q2 : Fin 8) (r : Fin 4096) : Fin 768 → EReal :=
  bnres B 2 (attn B 2 (xrow X r q2)) (casc1 X B q0 q1 r)
def casc3 (X : SX.Idx → EReal) (B : Branch) (q0 q1 q2 q3 : Fin 8) (r : Fin 4096) : Fin 768 → EReal :=
  bnres B 3 (attn B 3 (xrow X r q3)) (casc2 X B q0 q1 q2 r)

/-- The eight cascade outputs of a row, by chunk. -/
def hchunk (X : SX.Idx → EReal) (Bp Bj : Branch) (r : Fin 4096) (q : Fin 8) : Fin 768 → EReal :=
  match q with
  | ⟨0, _⟩ => casc0 X Bp 0 r
  | ⟨1, _⟩ => casc1 X Bp 0 1 r
  | ⟨2, _⟩ => casc2 X Bp 0 1 2 r
  | ⟨3, _⟩ => casc3 X Bp 0 1 2 3 r
  | ⟨4, _⟩ => casc0 X Bj 4 r
  | ⟨5, _⟩ => casc1 X Bj 4 5 r
  | ⟨6, _⟩ => casc2 X Bj 4 5 6 r
  | ⟨_ + 7, _⟩ => casc3 X Bj 4 5 6 7 r

/-- Chunk `q`'s contribution to the first head layer: its cascade output against its 768 columns of `W1`. -/
def w1part (H : Head) (c : Fin 768 → EReal) (q : Fin 8) (j : Fin 512) : EReal :=
  ∑ k : Fin 768, c k * H.W1 (ix2 j (xcol q k))

/-- The first head layer before its bias: the eight contributions summed in chunk order, from zero. -/
def a1 (X : SX.Idx → EReal) (Bp Bj : Branch) (H : Head) (r : Fin 4096) (j : Fin 512) : EReal :=
  ((((((((0 + w1part H (hchunk X Bp Bj r 0) 0 j) + w1part H (hchunk X Bp Bj r 1) 1 j) + w1part H (hchunk X Bp Bj r 2) 2 j)
    + w1part H (hchunk X Bp Bj r 3) 3 j) + w1part H (hchunk X Bp Bj r 4) 4 j) + w1part H (hchunk X Bp Bj r 5) 5 j)
    + w1part H (hchunk X Bp Bj r 6) 6 j) + w1part H (hchunk X Bp Bj r 7) 7 j)

def h1 (H : Head) (a : Fin 512 → EReal) (j : Fin 512) : EReal :=
  max (a j + H.b1 (ix1 j)) 0 * (H.g1 (ix1 j) * bnScale) + H.be1 (ix1 j)
def a2 (H : Head) (h : Fin 512 → EReal) (j : Fin 128) : EReal :=
  (∑ k : Fin 512, h k * H.W2 (ix2 j k)) + H.b2 (ix1 j)
def h2 (H : Head) (a : Fin 128 → EReal) (j : Fin 128) : EReal :=
  max (a j) 0 * (H.g2 (ix1 j) * bnScale) + H.be2 (ix1 j)
def outv (H : Head) (h : Fin 128 → EReal) : EReal :=
  (∑ k : Fin 128, h k * H.W3 (ix2 0 k)) + H.b3 (ix1 0)

/-- The output of row `r`. -/
def rowOut (X : SX.Idx → EReal) (Bp Bj : Branch) (H : Head) (r : Fin 4096) : EReal :=
  outv H (h2 H (a2 H (h1 H (a1 X Bp Bj H r))))

/-- The whole result array. -/
def G (X : SX.Idx → EReal) (Bp Bj : Branch) (H : Head) : SOut.Idx → EReal := fun i => rowOut X Bp Bj H (i 0)

/-! ## Finite extended reals -/

/-- An extended real that is a real number. -/
def IsFin (x : EReal) : Prop := x ≠ ⊥ ∧ x ≠ ⊤

theorem isFin_iff (x : EReal) : IsFin x ↔ ∃ r : ℝ, x = (r : EReal) := by
  constructor
  · rintro ⟨hb, ht⟩
    induction x using EReal.rec with
    | bot => exact absurd rfl hb
    | top => exact absurd rfl ht
    | coe r => exact ⟨r, rfl⟩
  · rintro ⟨r, rfl⟩; exact ⟨EReal.coe_ne_bot r, EReal.coe_ne_top r⟩

theorem isFin_coe (r : ℝ) : IsFin (r : EReal) := ⟨EReal.coe_ne_bot r, EReal.coe_ne_top r⟩
theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := (isFin_iff x).mp hx
  obtain ⟨b, rfl⟩ := (isFin_iff y).mp hy
  rw [← EReal.coe_add]; exact isFin_coe _

theorem IsFin.mul {x y : EReal} (hx : IsFin x) (hy : IsFin y) : IsFin (x * y) := by
  obtain ⟨a, rfl⟩ := (isFin_iff x).mp hx
  obtain ⟨b, rfl⟩ := (isFin_iff y).mp hy
  rw [← EReal.coe_mul]; exact isFin_coe _

theorem IsFin.max {x y : EReal} (hx : IsFin x) (hy : IsFin y) : IsFin (max x y) := by
  rcases max_choice x y with h | h <;> rw [h] <;> assumption

theorem IsFin.sum {ι : Type*} (s : Finset ι) (f : ι → EReal) (h : ∀ i ∈ s, IsFin (f i)) : IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- Every entry of an array is a real number. -/
def AllFin {ι : Type*} (x : ι → EReal) : Prop := ∀ i, IsFin (x i)

end Cert.Spec

end
-- ==== Proof.KerMemArgs.lean ====
/-
  The argument arrays of the kernel's program, as the row function of Spec.lean takes them: the input, the two
  branches' six parameter arrays each, and the head's ten; and the row of the whole input that row `p` of the
  block at grid point `t` is (blocks are 128 rows, point `t` holds rows `128 t … 128 t + 127`).
-/
import proofs.«171191_j1709396984333_2_alg».proof.Proof.Spec
import proofs.«171191_j1709396984333_2_alg».proof.Proof.Gen.KernelIdeal.Frame

noncomputable section

open Idealize.ShloMosaic Idealize.ShloMosaic.TcCoe Idealize.SL.Sem Idealize.ShloMosaic.ValueIdx
open Idealize.ShloMosaic.Pipeline (Dat)

namespace Cert.KerMem

open Cert.KernelIdeal Cert.KernelIdeal.Gen Cert.Spec

variable (m : (ℓ : Loc nD τ sig) → Buf (Elt Ideal) ℓ)

/-- The input array. -/
abbrev X (c : Dev nD) : SX.Idx → EReal := m ((c : Thread nD τ).loc main_arg0)

/-- The first branch's parameters. -/
abbrev Bp (c : Dev nD) : Branch :=
  ⟨m ((c : Thread nD τ).loc main_arg1), m ((c : Thread nD τ).loc main_arg2), m ((c : Thread nD τ).loc main_arg3),
   m ((c : Thread nD τ).loc main_arg4), m ((c : Thread nD τ).loc main_arg5), m ((c : Thread nD τ).loc main_arg6)⟩

/-- The second branch's parameters. -/
abbrev Bj (c : Dev nD) : Branch :=
  ⟨m ((c : Thread nD τ).loc main_arg7), m ((c : Thread nD τ).loc main_arg8), m ((c : Thread nD τ).loc main_arg9),
   m ((c : Thread nD τ).loc main_arg10), m ((c : Thread nD τ).loc main_arg11), m ((c : Thread nD τ).loc main_arg12)⟩

/-- The head's parameters. -/
abbrev Hd (c : Dev nD) : Head :=
  ⟨m ((c : Thread nD τ).loc main_arg13), m ((c : Thread nD τ).loc main_arg14), m ((c : Thread nD τ).loc main_arg15),
   m ((c : Thread nD τ).loc main_arg16), m ((c : Thread nD τ).loc main_arg17), m ((c : Thread nD τ).loc main_arg18),
   m ((c : Thread nD τ).loc main_arg19), m ((c : Thread nD τ).loc main_arg20), m ((c : Thread nD τ).loc main_arg21),
   m ((c : Thread nD τ).loc main_arg22)⟩

/-- The grid has 32 points, so row `p` of point `t`'s block is a row of the 4096-row array. -/
theorem row_lt (t : Fin cfg0.N) (p : Fin 128) : 128 * t.val + p.val < 4096 := by
  have ht : t.val < 32 := lt_of_lt_of_eq t.isLt (show cfg0.N = 32 from N_0)
  have hp := p.isLt
  omega

/-- Row `p` of the block at grid point `t`, as a row of the whole array. -/
abbrev rowOf (t : Fin cfg0.N) (p : Fin 128) : Fin 4096 := ⟨128 * t.val + p.val, row_lt t p⟩

end Cert.KerMem

end
-- ==== Proof.KerMemRun.lean ====
/-
  From the kernel's blocks to its whole result array.  The result array has 4096 rows of one number; grid point `t`
  (of 32) writes back rows `128 t … 128 t + 127`, and every row lies in exactly the block of point `row / 128`.  So if
  row `p` of what the body leaves at point `t` is the row function of Spec.lean at row `128 t + p` of the arguments,
  the array after the run is `Cert.Spec.G` of the arguments.
-/
import proofs.«171191_j1709396984333_2_alg».proof.Proof.KerMemArgs
import proofs.«171191_j1709396984333_2_alg».proof.Proof.KerValueP
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KerMem

open Cert.KernelIdeal Cert.KernelIdeal.Gen Cert.Spec

open Cert.KernelIdeal.ValueP

variable (m : (ℓ : Loc nD τ sig) → Buf (Elt Ideal) ℓ) (ρ : Dev nD → PrngReg)

/-- The result array as the row function of the arguments. -/
abbrev Gout (c : Dev nD) : Buf (Elt Ideal) ((c : Thread nD τ).loc main_v19) := Cert.Spec.G (X m c) (Bp m c) (Bj m c) (Hd m c)

/-- The result window's index map, decided over the grid: point `t` holds block row `t`, block column 0. -/
theorem idx24 : ∀ t : Fin cfg0.N, win0_24.index t (0 : Fin 2) = t.val ∧ win0_24.index t (1 : Fin 2) = 0 :=
  (by decide +kernel : ∀ t : Fin grid0.N, _)

/-- WHAT POINT `t` WRITES BACK is block `t` of the row function of the arguments, when each row of the body's result is. -/
theorem flushed24_eq
    (hrow : ∀ (c : Dev nD) (t : Fin cfg0.N) (p : Fin 128),
      out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 p 0)
        = Cert.Spec.rowOut (X m c) (Bp m c) (Bj m c) (Hd m c) ⟨128 * t.val + p.val, row_lt t p⟩)
    (c : Dev nD) (t : Fin cfg0.N) :
    (dats m 0 c).flushed 24 t = ((cfg0.win 24).blk t).view.read (Elt Ideal) (Gout m c) := by
  rw [flushed24]
  obtain ⟨e0, e1⟩ := idx24 t
  funext j
  show out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) j
    = Cert.Spec.rowOut (X m c) (Bp m c) (Bj m c) (Hd m c) ((((cfg0.win 24).blk t).view.emb j) 0)
  have hj0 : (j 0).val < 128 := (j 0).isLt
  have hj1 : (j 1).val < 1 := (j 1).isLt
  have ej : j = ix2 (⟨(j 0).val, hj0⟩ : Fin 128) (0 : Fin 1) := by
    funext a; apply Fin.ext
    match a with
    | ⟨0, _⟩ => rfl
    | ⟨1, _⟩ => show (j 1).val = 0; omega
  refine (congrArg (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) ej).trans ((hrow c t ⟨(j 0).val, hj0⟩).trans ?_)
  refine congrArg (Cert.Spec.rowOut (X m c) (Bp m c) (Bj m c) (Hd m c)) (Fin.ext ?_)
  show 128 * t.val + (j 0).val = win0_24.index t (0 : Fin 2) * 128 + 1 * (j 0).val
  rw [e0]; omega

/-- An index of the result array is in point `t`'s block iff each coordinate is in the block's range on its axis. -/
theorem mem_blk24 (t : Fin cfg0.N) (i : S4096x1.Idx) :
    i ∈ ((cfg0.win 24).blk t).view.set ↔ ∀ a : Fin 2, win0_24.index t a * S128x1.size a ≤ (i a).val ∧ (i a).val < win0_24.index t a * S128x1.size a + S128x1.size a := by
  show i ∈ ((View.whole main_v19).slice (win0_24.rect t)).set ↔ _
  rw [View.set_slice_whole, Rect.mem_set_unit]
  exact Iff.rfl

/-- Every row of the result array is in the block of the point `row / 128`, which writes back. -/
theorem cover24 (i : S4096x1.Idx) : ∃ t : Fin cfg0.N, (cfg0.win 24).flush t = true ∧ i ∈ ((cfg0.win 24).blk t).view.set := by
  have hi0 : (i 0).val < 4096 := (i 0).isLt
  have hi1 : (i 1).val < 1 := (i 1).isLt
  have hN : cfg0.N = 32 := N_0
  have hlt : (i 0).val / 128 < cfg0.N := by rw [hN]; omega
  obtain ⟨e0, e1⟩ := idx24 ⟨(i 0).val / 128, hlt⟩
  refine ⟨⟨(i 0).val / 128, hlt⟩, flush0_24 _, ?_⟩
  rw [mem_blk24]
  intro a
  match a with
  | ⟨0, _⟩ =>
    show win0_24.index ⟨(i 0).val / 128, hlt⟩ (0 : Fin 2) * 128 ≤ (i 0).val ∧ (i 0).val < win0_24.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_24.index ⟨(i 0).val / 128, hlt⟩ (1 : Fin 2) * 1 ≤ (i 1).val ∧ (i 1).val < win0_24.index ⟨(i 0).val / 128, hlt⟩ (1 : Fin 2) * 1 + 1
    rw [e1]; omega

/-- THE RESULT ARRAY after the run is the row function of the arguments. -/
theorem final24
    (hrow : ∀ (c : Dev nD) (t : Fin cfg0.N) (p : Fin 128),
      out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 p 0)
        = Cert.Spec.rowOut (X m c) (Bp m c) (Bj m c) (Hd m c) ⟨128 * t.val + p.val, row_lt t p⟩)
    (c : Dev nD) : (dats m 0 c).arrAt 24 cfg0.N = Gout m c :=
  (dats m 0 c).arrAt_eq_of_cover 24 (Gout m c) (fun t _ => flushed24_eq m hrow c t) cover24

/-- The kernel's run, read: the result array is `Cert.Spec.G` of the arguments, the arguments are unchanged. -/
theorem run_of
    (hrow : ∀ (c : Dev nD) (t : Fin cfg0.N) (p : Fin 128),
      out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 p 0)
        = Cert.Spec.rowOut (X m c) (Bp m c) (Bj m c) (Hd m c) ⟨128 * t.val + p.val, row_lt t p⟩) :
    θ_run defs (onTc (τ := τ) (main (F := Ideal))) ⟨m, fun _ => 0, ρ⟩ fun r => ∀ c : Dev nD,
      r.2.mem ((c : Thread nD τ).loc main_v19) = Cert.Spec.G (X m c) (Bp m c) (Bj m c) (Hd m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final24 m hrow c), (h c).2⟩) (run_blocks m ρ)

end Cert.KerMem

end
-- ==== Proof.KerMemBlk.lean ====
/-
  What each input window's block holds at a grid point.  The two input windows move with the point: block row = point,
  so the block is rows `128 t … 128 t + 127` of its array.  Every other window's index map is constant zero and its
  block is the whole array.  A block's coordinate in the array is always (block index) × (block size) + (coordinate
  inside the block); the block indices are decided over the 32 grid points.
-/
import proofs.«171191_j1709396984333_2_alg».proof.Proof.KerMemArgs

noncomputable section

open Idealize.ShloMosaic Idealize.ShloMosaic.TcCoe Idealize.SL.Sem Idealize.ShloMosaic.ValueIdx
open Idealize.ShloMosaic.Pipeline (Dat)

namespace Cert.KerMem

open Cert.KernelIdeal Cert.KernelIdeal.Gen Cert.Spec

variable (m : (ℓ : Loc nD τ sig) → Buf (Elt Ideal) ℓ)

/-! ## The index maps, decided over the grid -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)

theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 2) = 0 ∧ win0_14.index t (1 : Fin 2) = 0 :=
  (by decide +kernel : ∀ t : Fin grid0.N, _)

theorem idx15 : ∀ t : Fin cfg0.N, win0_15.index t (0 : Fin 1) = 0 :=
  (by decide +kernel : ∀ t : Fin grid0.N, _)

theorem idx16 : ∀ t : Fin cfg0.N, win0_16.index t (0 : Fin 1) = 0 :=
  (by decide +kernel : ∀ t : Fin grid0.N, _)

theorem idx17 : ∀ t : Fin cfg0.N, win0_17.index t (0 : Fin 1) = 0 :=
  (by decide +kernel : ∀ t : Fin grid0.N, _)

theorem idx18 : ∀ t : Fin cfg0.N, win0_18.index t (0 : Fin 2) = 0 ∧ win0_18.index t (1 : Fin 2) = 0 :=
  (by decide +kernel : ∀ t : Fin grid0.N, _)

theorem idx19 : ∀ t : Fin cfg0.N, win0_19.index t (0 : Fin 1) = 0 :=
  (by decide +kernel : ∀ t : Fin grid0.N, _)

theorem idx20 : ∀ t : Fin cfg0.N, win0_20.index t (0 : Fin 1) = 0 :=
  (by decide +kernel : ∀ t : Fin grid0.N, _)

theorem idx21 : ∀ t : Fin cfg0.N, win0_21.index t (0 : Fin 1) = 0 :=
  (by decide +kernel : ∀ t : Fin grid0.N, _)

theorem idx22 : ∀ t : Fin cfg0.N, win0_22.index t (0 : Fin 1) = 0 :=
  (by decide +kernel : ∀ t : Fin grid0.N, _)

theorem idx23 : ∀ t : Fin cfg0.N, win0_23.index t (0 : Fin 1) = 0 :=
  (by decide +kernel : ∀ t : Fin grid0.N, _)

/-! ## The blocks -/

/-- Window 0's block at point `t` is rows `128 t … 128 t + 127` of its array. -/
theorem iblk0_apply (c : Dev nD) (t : Fin cfg0.N) (x : S128x3072.Idx) (k : S4096x3072.Idx)
    (hk0 : (k 0).val = 128 * t.val + (x 0).val) (hk1 : (k 1).val = (x 1).val) :
    (iblk m c 0 t : Vec Ideal S128x3072 .f32) x = (V m c main_v0 : S4096x3072.Idx → EReal) k := by
  obtain ⟨e0, e1⟩ := idx0 t
  unfold iblk
  rw [View.read_apply]
  refine congrArg (V m c main_v0 : S4096x3072.Idx → EReal) (funext fun a => Fin.ext ?_)
  match a with
  | ⟨0, _⟩ => show win0_0.index t (0 : Fin 2) * 128 + 1 * (x 0).val = (k 0).val; rw [e0, hk0]; omega
  | ⟨1, _⟩ => show win0_0.index t (1 : Fin 2) * 3072 + 1 * (x 1).val = (k 1).val; rw [e1, hk1]; omega

/-- Window 1's block at point `t` is rows `128 t … 128 t + 127` of its array. -/
theorem iblk1_apply (c : Dev nD) (t : Fin cfg0.N) (x : S128x3072.Idx) (k : S4096x3072.Idx)
    (hk0 : (k 0).val = 128 * t.val + (x 0).val) (hk1 : (k 1).val = (x 1).val) :
    (iblk m c 1 t : Vec Ideal S128x3072 .f32) x = (V m c main_v1 : S4096x3072.Idx → EReal) k := by
  obtain ⟨e0, e1⟩ := idx1 t
  unfold iblk
  rw [View.read_apply]
  refine congrArg (V m c main_v1 : S4096x3072.Idx → EReal) (funext fun a => Fin.ext ?_)
  match a with
  | ⟨0, _⟩ => show win0_1.index t (0 : Fin 2) * 128 + 1 * (x 0).val = (k 0).val; rw [e0, hk0]; omega
  | ⟨1, _⟩ => show win0_1.index t (1 : Fin 2) * 3072 + 1 * (x 1).val = (k 1).val; rw [e1, hk1]; omega

/-- Window 2's block at every point is its whole array. -/
theorem iblk2_eq (c : Dev nD) (t : Fin cfg0.N) : (iblk m c 2 t : Vec Ideal S4x768x768 .bf16) = (V m c main_v5 : S4x768x768.Idx → EReal) := by
  obtain ⟨e0, e1, e2⟩ := idx2 t
  funext x
  unfold iblk
  rw [View.read_apply]
  refine congrArg (V m c main_v5 : S4x768x768.Idx → EReal) (funext fun a => Fin.ext ?_)
  match a with
  | ⟨0, _⟩ => show win0_2.index t (0 : Fin 3) * 4 + 1 * (x 0).val = (x 0).val; rw [e0]; omega
  | ⟨1, _⟩ => show win0_2.index t (1 : Fin 3) * 768 + 1 * (x 1).val = (x 1).val; rw [e1]; omega
  | ⟨2, _⟩ => show win0_2.index t (2 : Fin 3) * 768 + 1 * (x 2).val = (x 2).val; rw [e2]; omega

/-- Window 3's block at every point is its whole array. -/
theorem iblk3_eq (c : Dev nD) (t : Fin cfg0.N) : (iblk m c 3 t : Vec Ideal S4x768x768 .bf16) = (V m c main_v7 : S4x768x768.Idx → EReal) := by
  obtain ⟨e0, e1, e2⟩ := idx3 t
  funext x
  unfold iblk
  rw [View.read_apply]
  refine congrArg (V m c main_v7 : S4x768x768.Idx → EReal) (funext fun a => Fin.ext ?_)
  match a with
  | ⟨0, _⟩ => show win0_3.index t (0 : Fin 3) * 4 + 1 * (x 0).val = (x 0).val; rw [e0]; omega
  | ⟨1, _⟩ => show win0_3.index t (1 : Fin 3) * 768 + 1 * (x 1).val = (x 1).val; rw [e1]; omega
  | ⟨2, _⟩ => show win0_3.index t (2 : Fin 3) * 768 + 1 * (x 2).val = (x 2).val; rw [e2]; omega

/-- Window 4's block at every point is its whole array. -/
theorem iblk4_eq (c : Dev nD) (t : Fin cfg0.N) : (iblk m c 4 t : Vec Ideal S4x768 .f32) = (V m c main_v3 : S4x768.Idx → EReal) := by
  obtain ⟨e0, e1⟩ := idx4 t
  funext x
  unfold iblk
  rw [View.read_apply]
  refine congrArg (V m c main_v3 : S4x768.Idx → EReal) (funext fun a => Fin.ext ?_)
  match a with
  | ⟨0, _⟩ => show win0_4.index t (0 : Fin 2) * 4 + 1 * (x 0).val = (x 0).val; rw [e0]; omega
  | ⟨1, _⟩ => show win0_4.index t (1 : Fin 2) * 768 + 1 * (x 1).val = (x 1).val; rw [e1]; omega

/-- Window 5's block at every point is its whole array. -/
theorem iblk5_eq (c : Dev nD) (t : Fin cfg0.N) : (iblk m c 5 t : Vec Ideal S4x768 .f32) = (V m c main_arg4 : S4x768.Idx → EReal) := by
  obtain ⟨e0, e1⟩ := idx5 t
  funext x
  unfold iblk
  rw [View.read_apply]
  refine congrArg (V m c main_arg4 : S4x768.Idx → EReal) (funext fun a => Fin.ext ?_)
  match a with
  | ⟨0, _⟩ => show win0_5.index t (0 : Fin 2) * 4 + 1 * (x 0).val = (x 0).val; rw [e0]; omega
  | ⟨1, _⟩ => show win0_5.index t (1 : Fin 2) * 768 + 1 * (x 1).val = (x 1).val; rw [e1]; omega

/-- Window 6's block at every point is its whole array. -/
theorem iblk6_eq (c : Dev nD) (t : Fin cfg0.N) : (iblk m c 6 t : Vec Ideal S4x768 .f32) = (V m c main_arg5 : S4x768.Idx → EReal) := by
  obtain ⟨e0, e1⟩ := idx6 t
  funext x
  unfold iblk
  rw [View.read_apply]
  refine congrArg (V m c main_arg5 : S4x768.Idx → EReal) (funext fun a => Fin.ext ?_)
  match a with
  | ⟨0, _⟩ => show win0_6.index t (0 : Fin 2) * 4 + 1 * (x 0).val = (x 0).val; rw [e0]; omega
  | ⟨1, _⟩ => show win0_6.index t (1 : Fin 2) * 768 + 1 * (x 1).val = (x 1).val; rw [e1]; omega

/-- Window 7's block at every point is its whole array. -/
theorem iblk7_eq (c : Dev nD) (t : Fin cfg0.N) : (iblk m c 7 t : Vec Ideal S4x768 .f32) = (V m c main_arg6 : S4x768.Idx → EReal) := by
  obtain ⟨e0, e1⟩ := idx7 t
  funext x
  unfold iblk
  rw [View.read_apply]
  refine congrArg (V m c main_arg6 : S4x768.Idx → EReal) (funext fun a => Fin.ext ?_)
  match a with
  | ⟨0, _⟩ => show win0_7.index t (0 : Fin 2) * 4 + 1 * (x 0).val = (x 0).val; rw [e0]; omega
  | ⟨1, _⟩ => show win0_7.index t (1 : Fin 2) * 768 + 1 * (x 1).val = (x 1).val; rw [e1]; omega

/-- Window 8's block at every point is its whole array. -/
theorem iblk8_eq (c : Dev nD) (t : Fin cfg0.N) : (iblk m c 8 t : Vec Ideal S4x768x768 .bf16) = (V m c main_v11 : S4x768x768.Idx → EReal) := by
  obtain ⟨e0, e1, e2⟩ := idx8 t
  funext x
  unfold iblk
  rw [View.read_apply]
  refine congrArg (V m c main_v11 : S4x768x768.Idx → EReal) (funext fun a => Fin.ext ?_)
  match a with
  | ⟨0, _⟩ => show win0_8.index t (0 : Fin 3) * 4 + 1 * (x 0).val = (x 0).val; rw [e0]; omega
  | ⟨1, _⟩ => show win0_8.index t (1 : Fin 3) * 768 + 1 * (x 1).val = (x 1).val; rw [e1]; omega
  | ⟨2, _⟩ => show win0_8.index t (2 : Fin 3) * 768 + 1 * (x 2).val = (x 2).val; rw [e2]; omega

/-- Window 9's block at every point is its whole array. -/
theorem iblk9_eq (c : Dev nD) (t : Fin cfg0.N) : (iblk m c 9 t : Vec Ideal S4x768x768 .bf16) = (V m c main_v13 : S4x768x768.Idx → EReal) := by
  obtain ⟨e0, e1, e2⟩ := idx9 t
  funext x
  unfold iblk
  rw [View.read_apply]
  refine congrArg (V m c main_v13 : S4x768x768.Idx → EReal) (funext fun a => Fin.ext ?_)
  match a with
  | ⟨0, _⟩ => show win0_9.index t (0 : Fin 3) * 4 + 1 * (x 0).val = (x 0).val; rw [e0]; omega
  | ⟨1, _⟩ => show win0_9.index t (1 : Fin 3) * 768 + 1 * (x 1).val = (x 1).val; rw [e1]; omega
  | ⟨2, _⟩ => show win0_9.index t (2 : Fin 3) * 768 + 1 * (x 2).val = (x 2).val; rw [e2]; omega

/-- Window 10's block at every point is its whole array. -/
theorem iblk10_eq (c : Dev nD) (t : Fin cfg0.N) : (iblk m c 10 t : Vec Ideal S4x768 .f32) = (V m c main_v9 : S4x768.Idx → EReal) := by
  obtain ⟨e0, e1⟩ := idx10 t
  funext x
  unfold iblk
  rw [View.read_apply]
  refine congrArg (V m c main_v9 : S4x768.Idx → EReal) (funext fun a => Fin.ext ?_)
  match a with
  | ⟨0, _⟩ => show win0_10.index t (0 : Fin 2) * 4 + 1 * (x 0).val = (x 0).val; rw [e0]; omega
  | ⟨1, _⟩ => show win0_10.index t (1 : Fin 2) * 768 + 1 * (x 1).val = (x 1).val; rw [e1]; omega

/-- Window 11's block at every point is its whole array. -/
theorem iblk11_eq (c : Dev nD) (t : Fin cfg0.N) : (iblk m c 11 t : Vec Ideal S4x768 .f32) = (V m c main_arg10 : S4x768.Idx → EReal) := by
  obtain ⟨e0, e1⟩ := idx11 t
  funext x
  unfold iblk
  rw [View.read_apply]
  refine congrArg (V m c main_arg10 : S4x768.Idx → EReal) (funext fun a => Fin.ext ?_)
  match a with
  | ⟨0, _⟩ => show win0_11.index t (0 : Fin 2) * 4 + 1 * (x 0).val = (x 0).val; rw [e0]; omega
  | ⟨1, _⟩ => show win0_11.index t (1 : Fin 2) * 768 + 1 * (x 1).val = (x 1).val; rw [e1]; omega

/-- Window 12's block at every point is its whole array. -/
theorem iblk12_eq (c : Dev nD) (t : Fin cfg0.N) : (iblk m c 12 t : Vec Ideal S4x768 .f32) = (V m c main_arg11 : S4x768.Idx → EReal) := by
  obtain ⟨e0, e1⟩ := idx12 t
  funext x
  unfold iblk
  rw [View.read_apply]
  refine congrArg (V m c main_arg11 : S4x768.Idx → EReal) (funext fun a => Fin.ext ?_)
  match a with
  | ⟨0, _⟩ => show win0_12.index t (0 : Fin 2) * 4 + 1 * (x 0).val = (x 0).val; rw [e0]; omega
  | ⟨1, _⟩ => show win0_12.index t (1 : Fin 2) * 768 + 1 * (x 1).val = (x 1).val; rw [e1]; omega

/-- Window 13's block at every point is its whole array. -/
theorem iblk13_eq (c : Dev nD) (t : Fin cfg0.N) : (iblk m c 13 t : Vec Ideal S4x768 .f32) = (V m c main_arg12 : S4x768.Idx → EReal) := by
  obtain ⟨e0, e1⟩ := idx13 t
  funext x
  unfold iblk
  rw [View.read_apply]
  refine congrArg (V m c main_arg12 : S4x768.Idx → EReal) (funext fun a => Fin.ext ?_)
  match a with
  | ⟨0, _⟩ => show win0_13.index t (0 : Fin 2) * 4 + 1 * (x 0).val = (x 0).val; rw [e0]; omega
  | ⟨1, _⟩ => show win0_13.index t (1 : Fin 2) * 768 + 1 * (x 1).val = (x 1).val; rw [e1]; omega

/-- Window 14's block at every point is its whole array. -/
theorem iblk14_eq (c : Dev nD) (t : Fin cfg0.N) : (iblk m c 14 t : Vec Ideal S6144x512 .bf16) = (V m c main_v15 : S6144x512.Idx → EReal) := by
  obtain ⟨e0, e1⟩ := idx14 t
  funext x
  unfold iblk
  rw [View.read_apply]
  refine congrArg (V m c main_v15 : S6144x512.Idx → EReal) (funext fun a => Fin.ext ?_)
  match a with
  | ⟨0, _⟩ => show win0_14.index t (0 : Fin 2) * 6144 + 1 * (x 0).val = (x 0).val; rw [e0]; omega
  | ⟨1, _⟩ => show win0_14.index t (1 : Fin 2) * 512 + 1 * (x 1).val = (x 1).val; rw [e1]; omega

/-- Window 15's block at every point is its whole array. -/
theorem iblk15_eq (c : Dev nD) (t : Fin cfg0.N) : (iblk m c 15 t : Vec Ideal S512 .f32) = (V m c main_arg14 : S512.Idx → EReal) := by
  have e0 := idx15 t
  funext x
  unfold iblk
  rw [View.read_apply]
  refine congrArg (V m c main_arg14 : S512.Idx → EReal) (funext fun a => Fin.ext ?_)
  match a with
  | ⟨0, _⟩ => show win0_15.index t (0 : Fin 1) * 512 + 1 * (x 0).val = (x 0).val; rw [e0]; omega

/-- Window 16's block at every point is its whole array. -/
theorem iblk16_eq (c : Dev nD) (t : Fin cfg0.N) : (iblk m c 16 t : Vec Ideal S512 .f32) = (V m c main_arg15 : S512.Idx → EReal) := by
  have e0 := idx16 t
  funext x
  unfold iblk
  rw [View.read_apply]
  refine congrArg (V m c main_arg15 : S512.Idx → EReal) (funext fun a => Fin.ext ?_)
  match a with
  | ⟨0, _⟩ => show win0_16.index t (0 : Fin 1) * 512 + 1 * (x 0).val = (x 0).val; rw [e0]; omega

/-- Window 17's block at every point is its whole array. -/
theorem iblk17_eq (c : Dev nD) (t : Fin cfg0.N) : (iblk m c 17 t : Vec Ideal S512 .f32) = (V m c main_arg16 : S512.Idx → EReal) := by
  have e0 := idx17 t
  funext x
  unfold iblk
  rw [View.read_apply]
  refine congrArg (V m c main_arg16 : S512.Idx → EReal) (funext fun a => Fin.ext ?_)
  match a with
  | ⟨0, _⟩ => show win0_17.index t (0 : Fin 1) * 512 + 1 * (x 0).val = (x 0).val; rw [e0]; omega

/-- Window 18's block at every point is its whole array. -/
theorem iblk18_eq (c : Dev nD) (t : Fin cfg0.N) : (iblk m c 18 t : Vec Ideal S512x128 .bf16) = (V m c main_v17 : S512x128.Idx → EReal) := by
  obtain ⟨e0, e1⟩ := idx18 t
  funext x
  unfold iblk
  rw [View.read_apply]
  refine congrArg (V m c main_v17 : S512x128.Idx → EReal) (funext fun a => Fin.ext ?_)
  match a with
  | ⟨0, _⟩ => show win0_18.index t (0 : Fin 2) * 512 + 1 * (x 0).val = (x 0).val; rw [e0]; omega
  | ⟨1, _⟩ => show win0_18.index t (1 : Fin 2) * 128 + 1 * (x 1).val = (x 1).val; rw [e1]; omega

/-- Window 19's block at every point is its whole array. -/
theorem iblk19_eq (c : Dev nD) (t : Fin cfg0.N) : (iblk m c 19 t : Vec Ideal S128 .f32) = (V m c main_arg18 : S128.Idx → EReal) := by
  have e0 := idx19 t
  funext x
  unfold iblk
  rw [View.read_apply]
  refine congrArg (V m c main_arg18 : S128.Idx → EReal) (funext fun a => Fin.ext ?_)
  match a with
  | ⟨0, _⟩ => show win0_19.index t (0 : Fin 1) * 128 + 1 * (x 0).val = (x 0).val; rw [e0]; omega

/-- Window 20's block at every point is its whole array. -/
theorem iblk20_eq (c : Dev nD) (t : Fin cfg0.N) : (iblk m c 20 t : Vec Ideal S128 .f32) = (V m c main_arg19 : S128.Idx → EReal) := by
  have e0 := idx20 t
  funext x
  unfold iblk
  rw [View.read_apply]
  refine congrArg (V m c main_arg19 : S128.Idx → EReal) (funext fun a => Fin.ext ?_)
  match a with
  | ⟨0, _⟩ => show win0_20.index t (0 : Fin 1) * 128 + 1 * (x 0).val = (x 0).val; rw [e0]; omega

/-- Window 21's block at every point is its whole array. -/
theorem iblk21_eq (c : Dev nD) (t : Fin cfg0.N) : (iblk m c 21 t : Vec Ideal S128 .f32) = (V m c main_arg20 : S128.Idx → EReal) := by
  have e0 := idx21 t
  funext x
  unfold iblk
  rw [View.read_apply]
  refine congrArg (V m c main_arg20 : S128.Idx → EReal) (funext fun a => Fin.ext ?_)
  match a with
  | ⟨0, _⟩ => show win0_21.index t (0 : Fin 1) * 128 + 1 * (x 0).val = (x 0).val; rw [e0]; omega

/-- Window 22's block at every point is its whole array. -/
theorem iblk22_eq (c : Dev nD) (t : Fin cfg0.N) : (iblk m c 22 t : Vec Ideal S128 .f32) = (V m c main_v18 : S128.Idx → EReal) := by
  have e0 := idx22 t
  funext x
  unfold iblk
  rw [View.read_apply]
  refine congrArg (V m c main_v18 : S128.Idx → EReal) (funext fun a => Fin.ext ?_)
  match a with
  | ⟨0, _⟩ => show win0_22.index t (0 : Fin 1) * 128 + 1 * (x 0).val = (x 0).val; rw [e0]; omega

/-- Window 23's block at every point is its whole array. -/
theorem iblk23_eq (c : Dev nD) (t : Fin cfg0.N) : (iblk m c 23 t : Vec Ideal S1 .f32) = (V m c main_arg22 : S1.Idx → EReal) := by
  have e0 := idx23 t
  funext x
  unfold iblk
  rw [View.read_apply]
  refine congrArg (V m c main_arg22 : S1.Idx → EReal) (funext fun a => Fin.ext ?_)
  match a with
  | ⟨0, _⟩ => show win0_23.index t (0 : Fin 1) * 1 + 1 * (x 0).val = (x 0).val; rw [e0]; omega

end Cert.KerMem

end
-- ==== Proof.KerMemHost.lean ====
/-
  The arrays the kernel's windows read that the host wrote before the call, as terms of the arguments: the two halves
  of the input's columns, the value third of each stacked input projection (rows 1536 … 2303) transposed, the value
  third of its bias, each output projection transposed, the two head matrices transposed, the last head matrix as a
  vector.  The conversions to the narrower float type are the identity on the extended reals.
-/
import proofs.«171191_j1709396984333_2_alg».proof.Proof.KerMemArgs
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KerMem

open Cert.KernelIdeal Cert.KernelIdeal.Gen Cert.Spec

open Idealize.ShloMosaic.StableHlo

variable (m : (ℓ : Loc nD τ sig) → Buf (Elt Ideal) ℓ)

/-- Columns 0 … 3071 of the input. -/
theorem V_v0 (c : Dev nD) : (V m c main_v0 : S4096x3072.Idx → EReal) = extractStridedSlice S4096x3072 ![0, 0] (m ((c : Thread nD τ).loc main_arg0)) slices_S4096x6144_S4096x3072_0_0 := by
  dsimp only [Gen.V, Gen.hostOps0]; after_results
  all_goals rfl

/-- Columns 3072 … 6143 of the input. -/
theorem V_v1 (c : Dev nD) : (V m c main_v1 : S4096x3072.Idx → EReal) = extractStridedSlice S4096x3072 ![0, 3072] (m ((c : Thread nD τ).loc main_arg0)) slices_S4096x6144_S4096x3072_0_3072 := by
  dsimp only [Gen.V, Gen.hostOps0]; after_results
  all_goals rfl

/-- The first branch's value projections, transposed. -/
theorem V_v5 (c : Dev nD) : (V m c main_v5 : S4x768x768.Idx → EReal) = truncf (F := Ideal) .bf16 (transpose S4x768x768 [0, 2, 1] (extractStridedSlice S4x768x768 ![0, 1536, 0] (m ((c : Thread nD τ).loc main_arg1)) slices_S4x2304x768_S4x768x768_0_1536_0) transposes_S4x768x768_S4x768x768_0_2_1) bitsLt_bf16_f32 := by
  dsimp only [Gen.V, Gen.hostOps0]; after_results
  all_goals rfl

/-- The first branch's output projections, transposed. -/
theorem V_v7 (c : Dev nD) : (V m c main_v7 : S4x768x768.Idx → EReal) = truncf (F := Ideal) .bf16 (transpose S4x768x768 [0, 2, 1] (m ((c : Thread nD τ).loc main_arg3)) transposes_S4x768x768_S4x768x768_0_2_1) bitsLt_bf16_f32 := by
  dsimp only [Gen.V, Gen.hostOps0]; after_results
  all_goals rfl

/-- The first branch's value biases. -/
theorem V_v3 (c : Dev nD) : (V m c main_v3 : S4x768.Idx → EReal) = extractStridedSlice S4x768 ![0, 1536] (m ((c : Thread nD τ).loc main_arg2)) slices_S4x2304_S4x768_0_1536 := by
  dsimp only [Gen.V, Gen.hostOps0]; after_results
  all_goals rfl

/-- The second branch's value projections, transposed. -/
theorem V_v11 (c : Dev nD) : (V m c main_v11 : S4x768x768.Idx → EReal) = truncf (F := Ideal) .bf16 (transpose S4x768x768 [0, 2, 1] (extractStridedSlice S4x768x768 ![0, 1536, 0] (m ((c : Thread nD τ).loc main_arg7)) slices_S4x2304x768_S4x768x768_0_1536_0) transposes_S4x768x768_S4x768x768_0_2_1) bitsLt_bf16_f32 := by
  dsimp only [Gen.V, Gen.hostOps0]; after_results
  all_goals rfl

/-- The second branch's output projections, transposed. -/
theorem V_v13 (c : Dev nD) : (V m c main_v13 : S4x768x768.Idx → EReal) = truncf (F := Ideal) .bf16 (transpose S4x768x768 [0, 2, 1] (m ((c : Thread nD τ).loc main_arg9)) transposes_S4x768x768_S4x768x768_0_2_1) bitsLt_bf16_f32 := by
  dsimp only [Gen.V, Gen.hostOps0]; after_results
  all_goals rfl

/-- The second branch's value biases. -/
theorem V_v9 (c : Dev nD) : (V m c main_v9 : S4x768.Idx → EReal) = extractStridedSlice S4x768 ![0, 1536] (m ((c : Thread nD τ).loc main_arg8)) slices_S4x2304_S4x768_0_1536 := by
  dsimp only [Gen.V, Gen.hostOps0]; after_results
  all_goals rfl

/-- The first head matrix, transposed. -/
theorem V_v15 (c : Dev nD) : (V m c main_v15 : S6144x512.Idx → EReal) = truncf (F := Ideal) .bf16 (transpose S6144x512 [1, 0] (m ((c : Thread nD τ).loc main_arg13)) transposes_S512x6144_S6144x512_1_0) bitsLt_bf16_f32 := by
  dsimp only [Gen.V, Gen.hostOps0]; after_results
  all_goals rfl

/-- The second head matrix, transposed. -/
theorem V_v17 (c : Dev nD) : (V m c main_v17 : S512x128.Idx → EReal) = truncf (F := Ideal) .bf16 (transpose S512x128 [1, 0] (m ((c : Thread nD τ).loc main_arg17)) transposes_S128x512_S512x128_1_0) bitsLt_bf16_f32 := by
  dsimp only [Gen.V, Gen.hostOps0]; after_results
  all_goals rfl

/-- The last head matrix's one row, as a vector. -/
theorem V_v18 (c : Dev nD) : (V m c main_v18 : S128.Idx → EReal) = shapeCast S128 (m ((c : Thread nD τ).loc main_arg21)) shapeCasts_S1x128_S128 := by
  dsimp only [Gen.V, Gen.hostOps0]; after_results
  all_goals rfl

end Cert.KerMem

end
-- ==== Proof.KerIface.lean ====
/-
  How the kernel's blocks at one grid point present the argument arrays to the row function of Spec.lean:
  row `p` of the two input blocks is row `r` of the input (four chunks each), the projection matrices arrive transposed
  (and the value third of the stacked input projection only), the first head matrix arrives transposed, the last as a vector.
-/
import proofs.«171191_j1709396984333_2_alg».proof.Proof.Spec
import proofs.«171191_j1709396984333_2_alg».proof.Proof.Gen.KernelIdeal.Frame

noncomputable section

namespace Cert.KerIface

open Cert.KernelIdeal Cert.KernelIdeal.Gen Cert.Spec Idealize.ShloMosaic Idealize.ShloMosaic.ValueIdx

/-- Column `k` of chunk `q` of a four-chunk block row. -/
def bcol (q : Fin 4) (k : Fin 768) : Fin 3072 := ⟨768 * q.val + k.val, by have := q.isLt; have := k.isLt; omega⟩
/-- The first branch's chunk `q` among the eight. -/
def chunkP (q : Fin 4) : Fin 8 := ⟨q.val, by have := q.isLt; omega⟩
/-- The second branch's chunk `q` among the eight. -/
def chunkJ (q : Fin 4) : Fin 8 := ⟨4 + q.val, by have := q.isLt; omega⟩

/-- Row `p` of the blocks `x0 … x23` is row `r` of the arrays `X, Bp, Bj, H`. -/
structure RowHyps (x0 : Vec Ideal S128x3072 .f32) (x1 : Vec Ideal S128x3072 .f32) (x2 : Vec Ideal S4x768x768 .bf16) (x3 : Vec Ideal S4x768x768 .bf16)
    (x4 : Vec Ideal S4x768 .f32) (x5 : Vec Ideal S4x768 .f32) (x6 : Vec Ideal S4x768 .f32) (x7 : Vec Ideal S4x768 .f32)
    (x8 : Vec Ideal S4x768x768 .bf16) (x9 : Vec Ideal S4x768x768 .bf16) (x10 : Vec Ideal S4x768 .f32) (x11 : Vec Ideal S4x768 .f32)
    (x12 : Vec Ideal S4x768 .f32) (x13 : Vec Ideal S4x768 .f32) (x14 : Vec Ideal S6144x512 .bf16) (x15 : Vec Ideal S512 .f32)
    (x16 : Vec Ideal S512 .f32) (x17 : Vec Ideal S512 .f32) (x18 : Vec Ideal S512x128 .bf16) (x19 : Vec Ideal S128 .f32)
    (x20 : Vec Ideal S128 .f32) (x21 : Vec Ideal S128 .f32) (x22 : Vec Ideal S128 .f32) (x23 : Vec Ideal S1 .f32)
    (X : SX.Idx → EReal) (Bp Bj : Branch) (H : Head) (r : Fin 4096) (p : Fin 128) : Prop where
  xp : ∀ (q : Fin 4) (k : Fin 768), x0 (ix2 p (bcol q k)) = X (ix2 r (xcol (chunkP q) k))
  xj : ∀ (q : Fin 4) (k : Fin 768), x1 (ix2 p (bcol q k)) = X (ix2 r (xcol (chunkJ q) k))
  pWv : ∀ (ℓ : Fin 4) (k j : Fin 768), x2 (ix3 ℓ k j) = Bp.Win (ix3 ℓ (vrow j) k)
  pWo : ∀ (ℓ : Fin 4) (k j : Fin 768), x3 (ix3 ℓ k j) = Bp.Wo (ix3 ℓ j k)
  pbv : ∀ (ℓ : Fin 4) (j : Fin 768), x4 (ix2 ℓ j) = Bp.bin (ix2 ℓ (vrow j))
  pbo : ∀ (ℓ : Fin 4) (j : Fin 768), x5 (ix2 ℓ j) = Bp.bo (ix2 ℓ j)
  pg : ∀ (ℓ : Fin 4) (j : Fin 768), x6 (ix2 ℓ j) = Bp.g (ix2 ℓ j)
  pb : ∀ (ℓ : Fin 4) (j : Fin 768), x7 (ix2 ℓ j) = Bp.b (ix2 ℓ j)
  jWv : ∀ (ℓ : Fin 4) (k j : Fin 768), x8 (ix3 ℓ k j) = Bj.Win (ix3 ℓ (vrow j) k)
  jWo : ∀ (ℓ : Fin 4) (k j : Fin 768), x9 (ix3 ℓ k j) = Bj.Wo (ix3 ℓ j k)
  jbv : ∀ (ℓ : Fin 4) (j : Fin 768), x10 (ix2 ℓ j) = Bj.bin (ix2 ℓ (vrow j))
  jbo : ∀ (ℓ : Fin 4) (j : Fin 768), x11 (ix2 ℓ j) = Bj.bo (ix2 ℓ j)
  jg : ∀ (ℓ : Fin 4) (j : Fin 768), x12 (ix2 ℓ j) = Bj.g (ix2 ℓ j)
  jb : ∀ (ℓ : Fin 4) (j : Fin 768), x13 (ix2 ℓ j) = Bj.b (ix2 ℓ j)
  W1 : ∀ (n : Fin 6144) (j : Fin 512), x14 (ix2 n j) = H.W1 (ix2 j n)
  b1 : ∀ j : Fin 512, x15 (ix1 j) = H.b1 (ix1 j)
  g1 : ∀ j : Fin 512, x16 (ix1 j) = H.g1 (ix1 j)
  be1 : ∀ j : Fin 512, x17 (ix1 j) = H.be1 (ix1 j)
  W2 : ∀ (k : Fin 512) (j : Fin 128), x18 (ix2 k j) = H.W2 (ix2 j k)
  b2 : ∀ j : Fin 128, x19 (ix1 j) = H.b2 (ix1 j)
  g2 : ∀ j : Fin 128, x20 (ix1 j) = H.g2 (ix1 j)
  be2 : ∀ j : Fin 128, x21 (ix1 j) = H.be2 (ix1 j)
  w3 : ∀ k : Fin 128, x22 (ix1 k) = H.W3 (ix2 0 k)
  b3 : x23 (ix1 0) = H.b3 (ix1 0)

end Cert.KerIface

end
-- ==== Proof.KerMemRows.lean ====
/-
  Row `p` of the blocks at grid point `t` is row `128 t + p` of the argument arrays, as the kernel's row function
  takes them: each field reads the block through its place in the window's array, then the array as the host
  operations' term of the arguments — a slice shifts a coordinate by its offset, a transpose swaps the two last
  coordinates, the conversion to the narrower float type is the identity on the extended reals, the reshape of the
  one-row matrix to a vector keeps the row-major position.
-/
import proofs.«171191_j1709396984333_2_alg».proof.Proof.KerMemBlk
import proofs.«171191_j1709396984333_2_alg».proof.Proof.KerMemHost
import proofs.«171191_j1709396984333_2_alg».proof.Proof.KerIface
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KerMem

open Cert.KernelIdeal Cert.KernelIdeal.Gen Cert.Spec

open Cert.KerIface

/-! ## The host operations' terms read at an index, over a variable argument array -/

section Reads

/-- The left half of the input's columns: chunk `q` of the block row is chunk `q` of the input row. -/
theorem xleft_read (A : S4096x6144.Idx → EReal) (r : Fin 4096) (q : Fin 4) (k : Fin 768) :
    (extractStridedSlice S4096x3072 ![0, 0] A slices_S4096x6144_S4096x3072_0_0 : S4096x3072.Idx → EReal) (ix2 r (bcol q k))
      = A (ix2 r (xcol (chunkP q) k)) :=
  extractStridedSlice_apply _ _ _ (ix2 r (bcol q k)) (ix2 r (xcol (chunkP q) k)) fun a =>
    match a with
    | ⟨0, _⟩ => by show r.val = 0 + r.val; omega
    | ⟨1, _⟩ => by show 768 * q.val + k.val = 0 + (768 * q.val + k.val); omega

/-- The right half of the input's columns: chunk `q` of the block row is chunk `4 + q` of the input row. -/
theorem xright_read (A : S4096x6144.Idx → EReal) (r : Fin 4096) (q : Fin 4) (k : Fin 768) :
    (extractStridedSlice S4096x3072 ![0, 3072] A slices_S4096x6144_S4096x3072_0_3072 : S4096x3072.Idx → EReal) (ix2 r (bcol q k))
      = A (ix2 r (xcol (chunkJ q) k)) :=
  extractStridedSlice_apply _ _ _ (ix2 r (bcol q k)) (ix2 r (xcol (chunkJ q) k)) fun a =>
    match a with
    | ⟨0, _⟩ => by show r.val = 0 + r.val; omega
    | ⟨1, _⟩ => by show 768 * (4 + q.val) + k.val = 3072 + (768 * q.val + k.val); omega

/-- The value third of a stacked input projection, transposed: entry `(ℓ, k, j)` is row `1536 + j`, column `k` of layer `ℓ`. -/
theorem wv_read (A : S4x2304x768.Idx → EReal) (ℓ : Fin 4) (k j : Fin 768) :
    (truncf (F := Ideal) .bf16 (transpose S4x768x768 [0, 2, 1] (extractStridedSlice S4x768x768 ![0, 1536, 0] A slices_S4x2304x768_S4x768x768_0_1536_0) transposes_S4x768x768_S4x768x768_0_2_1) bitsLt_bf16_f32 : S4x768x768.Idx → EReal) (ix3 ℓ k j)
      = A (ix3 ℓ (vrow j) k) := by
  show transpose S4x768x768 [0, 2, 1] (extractStridedSlice S4x768x768 ![0, 1536, 0] A slices_S4x2304x768_S4x768x768_0_1536_0) transposes_S4x768x768_S4x768x768_0_2_1 (ix3 ℓ k j) = _
  refine (transpose_ix3_021_apply _ _ ℓ k j).trans ?_
  exact slice3_axis1_eq 1536 A _ ℓ j k

/-- An output projection, transposed. -/
theorem wo_read (A : S4x768x768.Idx → EReal) (ℓ : Fin 4) (k j : Fin 768) :
    (truncf (F := Ideal) .bf16 (transpose S4x768x768 [0, 2, 1] A transposes_S4x768x768_S4x768x768_0_2_1) bitsLt_bf16_f32 : S4x768x768.Idx → EReal) (ix3 ℓ k j)
      = A (ix3 ℓ j k) := by
  show transpose S4x768x768 [0, 2, 1] A transposes_S4x768x768_S4x768x768_0_2_1 (ix3 ℓ k j) = _
  exact transpose_ix3_021_apply _ _ ℓ k j

/-- The value third of a stacked input bias. -/
theorem bv_read (A : S4x2304.Idx → EReal) (ℓ : Fin 4) (j : Fin 768) :
    (extractStridedSlice S4x768 ![0, 1536] A slices_S4x2304_S4x768_0_1536 : S4x768.Idx → EReal) (ix2 ℓ j) = A (ix2 ℓ (vrow j)) :=
  slice2_axis1_eq 1536 A _ ℓ j

/-- The first head matrix, transposed. -/
theorem w1_read (A : S512x6144.Idx → EReal) (n : Fin 6144) (j : Fin 512) :
    (truncf (F := Ideal) .bf16 (transpose S6144x512 [1, 0] A transposes_S512x6144_S6144x512_1_0) bitsLt_bf16_f32 : S6144x512.Idx → EReal) (ix2 n j) = A (ix2 j n) := by
  show transpose S6144x512 [1, 0] A transposes_S512x6144_S6144x512_1_0 (ix2 n j) = _
  exact transpose_ix2_apply _ _ n j

/-- The second head matrix, transposed. -/
theorem w2_read (A : S128x512.Idx → EReal) (k : Fin 512) (j : Fin 128) :
    (truncf (F := Ideal) .bf16 (transpose S512x128 [1, 0] A transposes_S128x512_S512x128_1_0) bitsLt_bf16_f32 : S512x128.Idx → EReal) (ix2 k j) = A (ix2 j k) := by
  show transpose S512x128 [1, 0] A transposes_S128x512_S512x128_1_0 (ix2 k j) = _
  exact transpose_ix2_apply _ _ k j

/-- The last head matrix's one row as a vector. -/
theorem w3_read (A : S1x128.Idx → EReal) (k : Fin 128) :
    (shapeCast S128 A shapeCasts_S1x128_S128 : S128.Idx → EReal) (ix1 k) = A (ix2 0 k) :=
  shapeCast_1a_a_apply _ _ k

end Reads

/-! ## The fields -/

variable (m : (ℓ : Loc nD τ sig) → Buf (Elt Ideal) ℓ)

theorem row_xp (c : Dev nD) (t : Fin cfg0.N) (p : Fin 128) (q : Fin 4) (k : Fin 768) :
    (iblk m c 0 t : Vec Ideal S128x3072 .f32) (ix2 p (bcol q k)) = X m c (ix2 (rowOf t p) (xcol (chunkP q) k)) :=
  (iblk0_apply m c t (ix2 p (bcol q k)) (ix2 (rowOf t p) (bcol q k)) rfl rfl).trans
    ((congrFun (V_v0 m c) _).trans (xleft_read (X m c) (rowOf t p) q k))

theorem row_xj (c : Dev nD) (t : Fin cfg0.N) (p : Fin 128) (q : Fin 4) (k : Fin 768) :
    (iblk m c 1 t : Vec Ideal S128x3072 .f32) (ix2 p (bcol q k)) = X m c (ix2 (rowOf t p) (xcol (chunkJ q) k)) :=
  (iblk1_apply m c t (ix2 p (bcol q k)) (ix2 (rowOf t p) (bcol q k)) rfl rfl).trans
    ((congrFun (V_v1 m c) _).trans (xright_read (X m c) (rowOf t p) q k))

theorem row_pWv (c : Dev nD) (t : Fin cfg0.N) (ℓ : Fin 4) (k j : Fin 768) :
    (iblk m c 2 t : Vec Ideal S4x768x768 .bf16) (ix3 ℓ k j) = (Bp m c).Win (ix3 ℓ (vrow j) k) :=
  (congrFun (iblk2_eq m c t) _).trans ((congrFun (V_v5 m c) _).trans (wv_read (Bp m c).Win ℓ k j))

theorem row_pWo (c : Dev nD) (t : Fin cfg0.N) (ℓ : Fin 4) (k j : Fin 768) :
    (iblk m c 3 t : Vec Ideal S4x768x768 .bf16) (ix3 ℓ k j) = (Bp m c).Wo (ix3 ℓ j k) :=
  (congrFun (iblk3_eq m c t) _).trans ((congrFun (V_v7 m c) _).trans (wo_read (Bp m c).Wo ℓ k j))

theorem row_pbv (c : Dev nD) (t : Fin cfg0.N) (ℓ : Fin 4) (j : Fin 768) :
    (iblk m c 4 t : Vec Ideal S4x768 .f32) (ix2 ℓ j) = (Bp m c).bin (ix2 ℓ (vrow j)) :=
  (congrFun (iblk4_eq m c t) _).trans ((congrFun (V_v3 m c) _).trans (bv_read (Bp m c).bin ℓ j))

theorem row_pbo (c : Dev nD) (t : Fin cfg0.N) (ℓ : Fin 4) (j : Fin 768) :
    (iblk m c 5 t : Vec Ideal S4x768 .f32) (ix2 ℓ j) = (Bp m c).bo (ix2 ℓ j) :=
  (congrFun (iblk5_eq m c t) _).trans (congrFun (V_main_arg4 m c) _)

theorem row_pg (c : Dev nD) (t : Fin cfg0.N) (ℓ : Fin 4) (j : Fin 768) :
    (iblk m c 6 t : Vec Ideal S4x768 .f32) (ix2 ℓ j) = (Bp m c).g (ix2 ℓ j) :=
  (congrFun (iblk6_eq m c t) _).trans (congrFun (V_main_arg5 m c) _)

theorem row_pb (c : Dev nD) (t : Fin cfg0.N) (ℓ : Fin 4) (j : Fin 768) :
    (iblk m c 7 t : Vec Ideal S4x768 .f32) (ix2 ℓ j) = (Bp m c).b (ix2 ℓ j) :=
  (congrFun (iblk7_eq m c t) _).trans (congrFun (V_main_arg6 m c) _)

theorem row_jWv (c : Dev nD) (t : Fin cfg0.N) (ℓ : Fin 4) (k j : Fin 768) :
    (iblk m c 8 t : Vec Ideal S4x768x768 .bf16) (ix3 ℓ k j) = (Bj m c).Win (ix3 ℓ (vrow j) k) :=
  (congrFun (iblk8_eq m c t) _).trans ((congrFun (V_v11 m c) _).trans (wv_read (Bj m c).Win ℓ k j))

theorem row_jWo (c : Dev nD) (t : Fin cfg0.N) (ℓ : Fin 4) (k j : Fin 768) :
    (iblk m c 9 t : Vec Ideal S4x768x768 .bf16) (ix3 ℓ k j) = (Bj m c).Wo (ix3 ℓ j k) :=
  (congrFun (iblk9_eq m c t) _).trans ((congrFun (V_v13 m c) _).trans (wo_read (Bj m c).Wo ℓ k j))

theorem row_jbv (c : Dev nD) (t : Fin cfg0.N) (ℓ : Fin 4) (j : Fin 768) :
    (iblk m c 10 t : Vec Ideal S4x768 .f32) (ix2 ℓ j) = (Bj m c).bin (ix2 ℓ (vrow j)) :=
  (congrFun (iblk10_eq m c t) _).trans ((congrFun (V_v9 m c) _).trans (bv_read (Bj m c).bin ℓ j))

theorem row_jbo (c : Dev nD) (t : Fin cfg0.N) (ℓ : Fin 4) (j : Fin 768) :
    (iblk m c 11 t : Vec Ideal S4x768 .f32) (ix2 ℓ j) = (Bj m c).bo (ix2 ℓ j) :=
  (congrFun (iblk11_eq m c t) _).trans (congrFun (V_main_arg10 m c) _)

theorem row_jg (c : Dev nD) (t : Fin cfg0.N) (ℓ : Fin 4) (j : Fin 768) :
    (iblk m c 12 t : Vec Ideal S4x768 .f32) (ix2 ℓ j) = (Bj m c).g (ix2 ℓ j) :=
  (congrFun (iblk12_eq m c t) _).trans (congrFun (V_main_arg11 m c) _)

theorem row_jb (c : Dev nD) (t : Fin cfg0.N) (ℓ : Fin 4) (j : Fin 768) :
    (iblk m c 13 t : Vec Ideal S4x768 .f32) (ix2 ℓ j) = (Bj m c).b (ix2 ℓ j) :=
  (congrFun (iblk13_eq m c t) _).trans (congrFun (V_main_arg12 m c) _)

theorem row_W1 (c : Dev nD) (t : Fin cfg0.N) (n : Fin 6144) (j : Fin 512) :
    (iblk m c 14 t : Vec Ideal S6144x512 .bf16) (ix2 n j) = (Hd m c).W1 (ix2 j n) :=
  (congrFun (iblk14_eq m c t) _).trans ((congrFun (V_v15 m c) _).trans (w1_read (Hd m c).W1 n j))

theorem row_b1 (c : Dev nD) (t : Fin cfg0.N) (j : Fin 512) :
    (iblk m c 15 t : Vec Ideal S512 .f32) (ix1 j) = (Hd m c).b1 (ix1 j) :=
  (congrFun (iblk15_eq m c t) _).trans (congrFun (V_main_arg14 m c) _)

theorem row_g1 (c : Dev nD) (t : Fin cfg0.N) (j : Fin 512) :
    (iblk m c 16 t : Vec Ideal S512 .f32) (ix1 j) = (Hd m c).g1 (ix1 j) :=
  (congrFun (iblk16_eq m c t) _).trans (congrFun (V_main_arg15 m c) _)

theorem row_be1 (c : Dev nD) (t : Fin cfg0.N) (j : Fin 512) :
    (iblk m c 17 t : Vec Ideal S512 .f32) (ix1 j) = (Hd m c).be1 (ix1 j) :=
  (congrFun (iblk17_eq m c t) _).trans (congrFun (V_main_arg16 m c) _)

theorem row_W2 (c : Dev nD) (t : Fin cfg0.N) (k : Fin 512) (j : Fin 128) :
    (iblk m c 18 t : Vec Ideal S512x128 .bf16) (ix2 k j) = (Hd m c).W2 (ix2 j k) :=
  (congrFun (iblk18_eq m c t) _).trans ((congrFun (V_v17 m c) _).trans (w2_read (Hd m c).W2 k j))

theorem row_b2 (c : Dev nD) (t : Fin cfg0.N) (j : Fin 128) :
    (iblk m c 19 t : Vec Ideal S128 .f32) (ix1 j) = (Hd m c).b2 (ix1 j) :=
  (congrFun (iblk19_eq m c t) _).trans (congrFun (V_main_arg18 m c) _)

theorem row_g2 (c : Dev nD) (t : Fin cfg0.N) (j : Fin 128) :
    (iblk m c 20 t : Vec Ideal S128 .f32) (ix1 j) = (Hd m c).g2 (ix1 j) :=
  (congrFun (iblk20_eq m c t) _).trans (congrFun (V_main_arg19 m c) _)

theorem row_be2 (c : Dev nD) (t : Fin cfg0.N) (j : Fin 128) :
    (iblk m c 21 t : Vec Ideal S128 .f32) (ix1 j) = (Hd m c).be2 (ix1 j) :=
  (congrFun (iblk21_eq m c t) _).trans (congrFun (V_main_arg20 m c) _)

theorem row_w3 (c : Dev nD) (t : Fin cfg0.N) (k : Fin 128) :
    (iblk m c 22 t : Vec Ideal S128 .f32) (ix1 k) = (Hd m c).W3 (ix2 0 k) :=
  (congrFun (iblk22_eq m c t) _).trans ((congrFun (V_v18 m c) _).trans (w3_read (Hd m c).W3 k))

theorem row_b3 (c : Dev nD) (t : Fin cfg0.N) :
    (iblk m c 23 t : Vec Ideal S1 .f32) (ix1 0) = (Hd m c).b3 (ix1 0) :=
  (congrFun (iblk23_eq m c t) _).trans (congrFun (V_main_arg22 m c) _)

/-- Row `p` of the blocks at grid point `t` is row `128 t + p` of the arguments. -/
theorem rowHyps (c : Dev nD) (t : Fin cfg0.N) (p : Fin 128) :
    RowHyps (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
      (X m c) (Bp m c) (Bj m c) (Hd m c) ⟨128 * t.val + p.val, row_lt t p⟩ p where
  xp := row_xp m c t p
  xj := row_xj m c t p
  pWv := row_pWv m c t
  pWo := row_pWo m c t
  pbv := row_pbv m c t
  pbo := row_pbo m c t
  pg := row_pg m c t
  pb := row_pb m c t
  jWv := row_jWv m c t
  jWo := row_jWo m c t
  jbv := row_jbv m c t
  jbo := row_jbo m c t
  jg := row_jg m c t
  jb := row_jb m c t
  W1 := row_W1 m c t
  b1 := row_b1 m c t
  g1 := row_g1 m c t
  be1 := row_be1 m c t
  W2 := row_W2 m c t
  b2 := row_b2 m c t
  g2 := row_g2 m c t
  be2 := row_be2 m c t
  w3 := row_w3 m c t
  b3 := row_b3 m c t

end Cert.KerMem

end
-- ==== Proof.KerRowDots.lean ====
/-
  The kernel body's vector operations, named and read at one row.

  Every [128, n] value of the body is a stack of 128 rows, and each operation acts on a row at a time: a product
  [128, K] · [K, N] into a zero accumulator has at (p, j) the sum over k of the left operand's row p at k times the
  right operand at (k, j); a vector [1, N] broadcast down the rows has at (p, j) its entry j. The definitions below
  name the few compound operations the body repeats (a product with one slice of a stacked weight, a bias row, a
  scale row times the scale constant), and the lemmas read each at an index (p, j) from row p of its operands.
-/
import proofs.«171191_j1709396984333_2_alg».proof.Proof.Gen.KernelIdeal.Skeleton
import Idealize.ShloMosaic.Lib.ValueLayout
import Idealize.ShloMosaic.PureOps.Ideal.Laws

noncomputable section

namespace Cert.KerRow

open Cert.KernelIdeal Cert.KernelIdeal.Gen Idealize.ShloMosaic Idealize.ShloMosaic.ValueIdx
open scoped BigOperators

/-! ## Products into a zero accumulator -/

section Dots

theorem lhs768_0 (i : S128x768.Idx) (q : dot_S128x768_S768x768_S128x768_1_0_0_1_n_n.contr.Idx) :
    (dot_S128x768_S768x768_S128x768_1_0_0_1_n_n.lhsIdx i q 0).val = (i 0).val := by
  unfold DotDims.lhsIdx
  rw [dif_neg (show ¬(0 : Fin S128x768.rank) ∈ dot_S128x768_S768x768_S128x768_1_0_0_1_n_n.lhsBatch by decide), dif_pos (show (0 : Fin S128x768.rank) ∈ dot_S128x768_S768x768_S128x768_1_0_0_1_n_n.lhsNonContracting by decide)]
  rfl
theorem rhs768_1 (i : S128x768.Idx) (q : dot_S128x768_S768x768_S128x768_1_0_0_1_n_n.contr.Idx) :
    (dot_S128x768_S768x768_S128x768_1_0_0_1_n_n.rhsIdx i q 1).val = (i 1).val := by
  unfold DotDims.rhsIdx
  rw [dif_neg (show ¬(1 : Fin S768x768.rank) ∈ dot_S128x768_S768x768_S128x768_1_0_0_1_n_n.rhsBatch by decide), dif_pos (show (1 : Fin S768x768.rank) ∈ dot_S128x768_S768x768_S128x768_1_0_0_1_n_n.rhsNonContracting by decide)]
  rfl

/-- A [128, 768] · [768, 768] product into zero, at (p, j): row p of the left operand against column j of the right. -/
theorem dot768_apply (l : FVec Ideal S128x768 .bf16) (r : FVec Ideal S768x768 .bf16) (p : Fin 128) (j : Fin 768) :
    matmul dot_S128x768_S768x768_S128x768_1_0_0_1_n_n none l r (constant (F := Ideal) S128x768 .f32 0x00000000#32) (ix2 p j)
      = ∑ k : Fin 768, l (ix2 p k) * r (ix2 k j) := by
  simp only [matmul]
  rw [Ideal.matmul_constant_zero_apply, ← Equiv.sum_comp (contrEquiv1 dot_S128x768_S768x768_S128x768_1_0_0_1_n_n 768 rfl rfl).symm]
  refine Finset.sum_congr rfl fun k _ => ?_
  have hk := contrEquiv1_symm_val dot_S128x768_S768x768_S128x768_1_0_0_1_n_n 768 rfl rfl k
  have el : dot_S128x768_S768x768_S128x768_1_0_0_1_n_n.lhsIdx (ix2 p j) ((contrEquiv1 dot_S128x768_S768x768_S128x768_1_0_0_1_n_n 768 rfl rfl).symm k) = ix2 p k := funext fun a => Fin.ext (by
    match a with
    | ⟨0, _⟩ => exact lhs768_0 _ _
    | ⟨1, _⟩ => exact (dot_S128x768_S768x768_S128x768_1_0_0_1_n_n.lhsIdx_val_of_single rfl _ _).trans hk)
  have er : dot_S128x768_S768x768_S128x768_1_0_0_1_n_n.rhsIdx (ix2 p j) ((contrEquiv1 dot_S128x768_S768x768_S128x768_1_0_0_1_n_n 768 rfl rfl).symm k) = ix2 k j := funext fun a => Fin.ext (by
    match a with
    | ⟨0, _⟩ => exact (dot_S128x768_S768x768_S128x768_1_0_0_1_n_n.rhsIdx_val_of_single rfl _ _).trans hk
    | ⟨1, _⟩ => exact rhs768_1 _ _)
  rw [el, er]

theorem lhs512_0 (i : S128x512.Idx) (q : dot_S128x768_S768x512_S128x512_1_0_0_1_n_n.contr.Idx) :
    (dot_S128x768_S768x512_S128x512_1_0_0_1_n_n.lhsIdx i q 0).val = (i 0).val := by
  unfold DotDims.lhsIdx
  rw [dif_neg (show ¬(0 : Fin S128x768.rank) ∈ dot_S128x768_S768x512_S128x512_1_0_0_1_n_n.lhsBatch by decide), dif_pos (show (0 : Fin S128x768.rank) ∈ dot_S128x768_S768x512_S128x512_1_0_0_1_n_n.lhsNonContracting by decide)]
  rfl
theorem rhs512_1 (i : S128x512.Idx) (q : dot_S128x768_S768x512_S128x512_1_0_0_1_n_n.contr.Idx) :
    (dot_S128x768_S768x512_S128x512_1_0_0_1_n_n.rhsIdx i q 1).val = (i 1).val := by
  unfold DotDims.rhsIdx
  rw [dif_neg (show ¬(1 : Fin S768x512.rank) ∈ dot_S128x768_S768x512_S128x512_1_0_0_1_n_n.rhsBatch by decide), dif_pos (show (1 : Fin S768x512.rank) ∈ dot_S128x768_S768x512_S128x512_1_0_0_1_n_n.rhsNonContracting by decide)]
  rfl

/-- A [128, 768] · [768, 512] product into zero, at (p, j). -/
theorem dot512_apply (l : FVec Ideal S128x768 .bf16) (r : FVec Ideal S768x512 .bf16) (p : Fin 128) (j : Fin 512) :
    matmul dot_S128x768_S768x512_S128x512_1_0_0_1_n_n none l r (constant (F := Ideal) S128x512 .f32 0x00000000#32) (ix2 p j)
      = ∑ k : Fin 768, l (ix2 p k) * r (ix2 k j) := by
  simp only [matmul]
  rw [Ideal.matmul_constant_zero_apply, ← Equiv.sum_comp (contrEquiv1 dot_S128x768_S768x512_S128x512_1_0_0_1_n_n 768 rfl rfl).symm]
  refine Finset.sum_congr rfl fun k _ => ?_
  have hk := contrEquiv1_symm_val dot_S128x768_S768x512_S128x512_1_0_0_1_n_n 768 rfl rfl k
  have el : dot_S128x768_S768x512_S128x512_1_0_0_1_n_n.lhsIdx (ix2 p j) ((contrEquiv1 dot_S128x768_S768x512_S128x512_1_0_0_1_n_n 768 rfl rfl).symm k) = ix2 p k := funext fun a => Fin.ext (by
    match a with
    | ⟨0, _⟩ => exact lhs512_0 _ _
    | ⟨1, _⟩ => exact (dot_S128x768_S768x512_S128x512_1_0_0_1_n_n.lhsIdx_val_of_single rfl _ _).trans hk)
  have er : dot_S128x768_S768x512_S128x512_1_0_0_1_n_n.rhsIdx (ix2 p j) ((contrEquiv1 dot_S128x768_S768x512_S128x512_1_0_0_1_n_n 768 rfl rfl).symm k) = ix2 k j := funext fun a => Fin.ext (by
    match a with
    | ⟨0, _⟩ => exact (dot_S128x768_S768x512_S128x512_1_0_0_1_n_n.rhsIdx_val_of_single rfl _ _).trans hk
    | ⟨1, _⟩ => exact rhs512_1 _ _)
  rw [el, er]

theorem lhs128_0 (i : S128x128.Idx) (q : dot_S128x512_S512x128_S128x128_1_0_0_1_n_n.contr.Idx) :
    (dot_S128x512_S512x128_S128x128_1_0_0_1_n_n.lhsIdx i q 0).val = (i 0).val := by
  unfold DotDims.lhsIdx
  rw [dif_neg (show ¬(0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
  rfl
theorem rhs128_1 (i : S128x128.Idx) (q : dot_S128x512_S512x128_S128x128_1_0_0_1_n_n.contr.Idx) :
    (dot_S128x512_S512x128_S128x128_1_0_0_1_n_n.rhsIdx i q 1).val = (i 1).val := by
  unfold DotDims.rhsIdx
  rw [dif_neg (show ¬(1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
  rfl

/-- A [128, 512] · [512, 128] product into zero, at (p, j). -/
theorem dot128_apply (l : FVec Ideal S128x512 .bf16) (r : FVec Ideal S512x128 .bf16) (p : Fin 128) (j : Fin 128) :
    matmul dot_S128x512_S512x128_S128x128_1_0_0_1_n_n none l r (constant (F := Ideal) S128x128 .f32 0x00000000#32) (ix2 p j)
      = ∑ k : Fin 512, l (ix2 p k) * r (ix2 k j) := by
  simp only [matmul]
  rw [Ideal.matmul_constant_zero_apply, ← Equiv.sum_comp (contrEquiv1 dot_S128x512_S512x128_S128x128_1_0_0_1_n_n 512 rfl rfl).symm]
  refine Finset.sum_congr rfl fun k _ => ?_
  have hk := contrEquiv1_symm_val dot_S128x512_S512x128_S128x128_1_0_0_1_n_n 512 rfl rfl k
  have el : dot_S128x512_S512x128_S128x128_1_0_0_1_n_n.lhsIdx (ix2 p j) ((contrEquiv1 dot_S128x512_S512x128_S128x128_1_0_0_1_n_n 512 rfl rfl).symm k) = ix2 p k := funext fun a => Fin.ext (by
    match a with
    | ⟨0, _⟩ => exact lhs128_0 _ _
    | ⟨1, _⟩ => exact (dot_S128x512_S512x128_S128x128_1_0_0_1_n_n.lhsIdx_val_of_single rfl _ _).trans hk)
  have er : dot_S128x512_S512x128_S128x128_1_0_0_1_n_n.rhsIdx (ix2 p j) ((contrEquiv1 dot_S128x512_S512x128_S128x128_1_0_0_1_n_n 512 rfl rfl).symm k) = ix2 k j := funext fun a => Fin.ext (by
    match a with
    | ⟨0, _⟩ => exact (dot_S128x512_S512x128_S128x128_1_0_0_1_n_n.rhsIdx_val_of_single rfl _ _).trans hk
    | ⟨1, _⟩ => exact rhs128_1 _ _)
  rw [el, er]

end Dots

end Cert.KerRow

end
-- ==== Proof.KerRowLayout.lean ====
/-
  Layout operations of the kernel body read at an index given by coordinates.

  A vector [N] viewed as one row [1, N] and broadcast down the rows reads, at (p, j), its entry j; the same through a
  flattening [1, N] → [N] first; a vector [N] viewed as a column [N, 1] reads, at (i, 0), its entry i; the sum along the
  lanes of a [128, 128] value reads, at p, the sum of row p.
-/
import proofs.«171191_j1709396984333_2_alg».proof.Proof.Gen.KernelIdeal.Skeleton
import Idealize.ShloMosaic.Lib.ValueLayout
import Idealize.ShloMosaic.PureOps.Ideal.Laws

noncomputable section

namespace Cert.KerRow

open Cert.KernelIdeal Cert.KernelIdeal.Gen Idealize.ShloMosaic Idealize.ShloMosaic.ValueIdx
open scoped BigOperators

section Layout
variable {α : Type}

/-- A vector [b] as one row, broadcast down `a` rows: at (p, j) its entry j. -/
theorem rowB_apply {a b : ℕ} (v : (⟨1, ![b]⟩ : Shape).Idx → α) (h : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ v h) hb (ix2 p j) = v (ix1 j) :=
  (broadcastTo_1b_ab_apply _ hb p j).trans (shapeCast_a_1a_apply v h 0 j)

/-- A row [1, b] flattened, restored and broadcast down `a` rows: at (p, j) its entry (0, j). -/
theorem rowB2_apply {a b : ℕ} (v : (⟨2, ![1, b]⟩ : Shape).Idx → α) (h1 : (⟨2, ![1, b]⟩ : Shape).ShapeCasts ⟨1, ![b]⟩)
    (h2 : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ (shapeCast ⟨1, ![b]⟩ v h1) h2) hb (ix2 p j) = v (ix2 (0 : Fin 1) j) :=
  (rowB_apply _ h2 hb p j).trans (shapeCast_1a_a_apply v h1 j)

/-- A vector [a] as a column [a, 1]: at (i, u) its entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The sum along the lanes of a [128, 128] value: at p, the sum of row p. -/
theorem laneSum_apply (src : FVec Ideal S128x128 .f32) (h : S128x128.Reduces [1] S128) (hφ : FKind.Formats .f32)
    (hacc : (0x00000000#32 : BitVec 32) = FKind.add.neutral .f32 hφ) (p : Fin 128) :
    multiReduction (F := Ideal) .add [1] S128 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

end Cert.KerRow

end
-- ==== Proof.KerRowOps.lean ====
/-
  The kernel body's compound operations, named, and each payload of the body as a composition of them.

  `mmW l w` is the product of a [128, 768] value with one [768, 768] slice of a stacked weight, `mmW1 l w` the product
  with a [768, 512] block of the first head matrix, `biasB v` a [1, 768] row broadcast down the rows, `scaleB g` the row
  `g` times the scale constant broadcast down the rows, `rowV512` / `rowV128` a vector as a row broadcast down the
  rows, `headA` the first head layer's affine–clip–scale step followed by the second layer's product and bias, and
  `headB` the second layer's clip–scale step, the product with the last weight vector summed along the lanes, and the
  last bias. Each is read at an index (p, j) from row p of its [128, ·] operands; each payload equals, by unfolding,
  a composition of these.
-/
import proofs.«171191_j1709396984333_2_alg».proof.Proof.KerRowDots
import proofs.«171191_j1709396984333_2_alg».proof.Proof.KerRowLayout

noncomputable section

namespace Cert.KerRow

open Cert.KernelIdeal Cert.KernelIdeal.Gen Idealize.ShloMosaic Idealize.ShloMosaic.ValueIdx
open scoped BigOperators

/-- The scale constant of the per-feature scaling, as the body spells it. -/
abbrev cS : Ideal .f32 := Scalar.ofBits (F := Ideal) .f32 0x3F7FFFAC#32
/-- The zero the body clips against and starts its accumulator from. -/
abbrev cZ : Ideal .f32 := Scalar.ofBits (F := Ideal) .f32 0x00000000#32

/-! ## The compound operations -/

def mmW (l : FVec Ideal S128x768 .f32) (w : Vec Ideal S1x768x768 .bf16) : FVec Ideal S128x768 .f32 :=
  matmul dot_S128x768_S768x768_S128x768_1_0_0_1_n_n none (truncf .bf16 l bitsLt_bf16_f32 : FVec Ideal S128x768 .bf16)
    (shapeCast S768x768 w shapeCasts_S1x768x768_S768x768 : FVec Ideal S768x768 .bf16) (constant S128x768 .f32 0x00000000#32)

def mmW1 (l : FVec Ideal S128x768 .f32) (w : Vec Ideal S768x512 .bf16) : FVec Ideal S128x512 .f32 :=
  matmul dot_S128x768_S768x512_S128x512_1_0_0_1_n_n none (truncf .bf16 l bitsLt_bf16_f32 : FVec Ideal S128x768 .bf16)
    (shapeCast S768x512 w shapeCasts_S768x512_S768x512 : FVec Ideal S768x512 .bf16) (constant S128x512 .f32 0x00000000#32)

def biasB (v : Vec Ideal S1x768 .f32) : FVec Ideal S128x768 .f32 :=
  broadcastTo S128x768 (shapeCast S1x768 (shapeCast S768 v shapeCasts_S1x768_S768 : FVec Ideal S768 .f32) shapeCasts_S768_S1x768 : FVec Ideal S1x768 .f32)
    broadcasts_S1x768_S128x768

def scaleB (g : Vec Ideal S1x768 .f32) : FVec Ideal S128x768 .f32 :=
  broadcastTo S128x768 (shapeCast S1x768 (mulf (shapeCast S768 g shapeCasts_S1x768_S768 : FVec Ideal S768 .f32) (broadcast S768 cS) : FVec Ideal S768 .f32)
    shapeCasts_S768_S1x768 : FVec Ideal S1x768 .f32) broadcasts_S1x768_S128x768

def rowV512 (v : FVec Ideal S512 .f32) : FVec Ideal S128x512 .f32 :=
  broadcastTo S128x512 (shapeCast S1x512 v shapeCasts_S512_S1x512 : FVec Ideal S1x512 .f32) broadcasts_S1x512_S128x512

def rowV128 (v : FVec Ideal S128 .f32) : FVec Ideal S128x128 .f32 :=
  broadcastTo S128x128 (shapeCast S1x128 v shapeCasts_S128_S1x128 : FVec Ideal S1x128 .f32) broadcasts_S1x128_S128x128

/-- One cascade layer after its value projection `v` (before bias): bias, output projection, bias. -/
def layerO (v : FVec Ideal S128x768 .f32) (bv : Vec Ideal S1x768 .f32) (wo : Vec Ideal S1x768x768 .bf16) (bo : Vec Ideal S1x768 .f32) :
    FVec Ideal S128x768 .f32 :=
  addf (mmW (addf v (biasB bv)) wo) (biasB bo)

/-- Residual with the previous output, per-feature scale and shift. -/
def bnR (o prev : FVec Ideal S128x768 .f32) (g b : Vec Ideal S1x768 .f32) : FVec Ideal S128x768 .f32 :=
  addf (mulf (addf o prev) (scaleB g)) (biasB b)

def headA (a : FVec Ideal S128x512 .f32) (b1 g1 be1 : Vec Ideal S512 .f32) (w2 : Vec Ideal S512x128 .bf16) (b2 : Vec Ideal S128 .f32) :
    FVec Ideal S128x128 .f32 :=
  addf (matmul dot_S128x512_S512x128_S128x128_1_0_0_1_n_n none
      (truncf .bf16 (addf (mulf (maximumf (addf a (rowV512 b1)) (broadcast S128x512 cZ)) (rowV512 (mulf (g1 : FVec Ideal S512 .f32) (broadcast S512 cS)))) (rowV512 be1)) bitsLt_bf16_f32 : FVec Ideal S128x512 .bf16)
      (shapeCast S512x128 w2 shapeCasts_S512x128_S512x128 : FVec Ideal S512x128 .bf16) (constant S128x128 .f32 0x00000000#32))
    (rowV128 b2)

def headB (a : FVec Ideal S128x128 .f32) (g2 be2 w3 : Vec Ideal S128 .f32) (b3 : Vec Ideal S1 .f32) : FVec Ideal S128x1 .f32 :=
  addf (shapeCast S128x1 (multiReduction (F := Ideal) .add [1] S128
        (mulf (addf (mulf (maximumf a (broadcast S128x128 cZ)) (rowV128 (mulf (g2 : FVec Ideal S128 .f32) (broadcast S128 cS)))) (rowV128 be2))
          (rowV128 (shapeCast S128 w3 shapeCasts_S128_S128)))
        0x00000000#32 reduces_S128x128_S128 (.inl rfl) rfl) shapeCasts_S128_S128x1 : FVec Ideal S128x1 .f32)
    (broadcastTo S128x1 (shapeCast S1x1 b3 shapeCasts_S1_S1x1 : FVec Ideal S1x1 .f32) broadcasts_S1x1_S128x1)

/-! ## Each at an index -/

theorem mmW_apply (l : FVec Ideal S128x768 .f32) (w : Vec Ideal S1x768x768 .bf16) (p : Fin 128) (j : Fin 768) :
    mmW l w (ix2 p j) = ∑ k : Fin 768, l (ix2 p k) * w (ix3 (0 : Fin 1) k j) := by
  unfold mmW
  rw [dot768_apply]
  exact Finset.sum_congr rfl fun k _ => congrArg (l (ix2 p k) * ·) (shapeCast_1ab_ab_apply w _ k j)

theorem mmW1_apply (l : FVec Ideal S128x768 .f32) (w : Vec Ideal S768x512 .bf16) (p : Fin 128) (j : Fin 512) :
    mmW1 l w (ix2 p j) = ∑ k : Fin 768, l (ix2 p k) * w (ix2 k j) := by
  unfold mmW1
  rw [dot512_apply, shapeCast_self]
  rfl

theorem biasB_apply (v : Vec Ideal S1x768 .f32) (p : Fin 128) (j : Fin 768) : biasB v (ix2 p j) = v (ix2 (0 : Fin 1) j) :=
  rowB2_apply v _ _ _ p j

theorem scaleB_apply (g : Vec Ideal S1x768 .f32) (p : Fin 128) (j : Fin 768) : scaleB g (ix2 p j) = g (ix2 (0 : Fin 1) j) * cS := by
  unfold scaleB
  refine (rowB_apply _ _ _ p j).trans ?_
  rw [mulf_apply, broadcast_apply]
  exact congrArg (· * cS) (shapeCast_1a_a_apply g _ j)

theorem rowV512_apply (v : FVec Ideal S512 .f32) (p : Fin 128) (j : Fin 512) : rowV512 v (ix2 p j) = v (ix1 j) :=
  rowB_apply v _ _ p j

theorem rowV128_apply (v : FVec Ideal S128 .f32) (p : Fin 128) (j : Fin 128) : rowV128 v (ix2 p j) = v (ix1 j) :=
  rowB_apply v _ _ p j

theorem layerO_apply (v : FVec Ideal S128x768 .f32) (bv : Vec Ideal S1x768 .f32) (wo : Vec Ideal S1x768x768 .bf16) (bo : Vec Ideal S1x768 .f32)
    (p : Fin 128) (j : Fin 768) :
    layerO v bv wo bo (ix2 p j)
      = (∑ k : Fin 768, (v (ix2 p k) + bv (ix2 (0 : Fin 1) k)) * wo (ix3 (0 : Fin 1) k j)) + bo (ix2 (0 : Fin 1) j) := by
  unfold layerO
  rw [addf_apply, mmW_apply, biasB_apply]
  refine congrArg (· + bo (ix2 (0 : Fin 1) j)) (Finset.sum_congr rfl fun k _ => ?_)
  rw [addf_apply, biasB_apply]

theorem bnR_apply (o prev : FVec Ideal S128x768 .f32) (g b : Vec Ideal S1x768 .f32) (p : Fin 128) (j : Fin 768) :
    bnR o prev g b (ix2 p j) = (o (ix2 p j) + prev (ix2 p j)) * (g (ix2 (0 : Fin 1) j) * cS) + b (ix2 (0 : Fin 1) j) := by
  unfold bnR
  rw [addf_apply, mulf_apply, addf_apply, scaleB_apply, biasB_apply]

theorem headA_apply (a : FVec Ideal S128x512 .f32) (b1 g1 be1 : Vec Ideal S512 .f32) (w2 : Vec Ideal S512x128 .bf16) (b2 : Vec Ideal S128 .f32)
    (p : Fin 128) (j : Fin 128) :
    headA a b1 g1 be1 w2 b2 (ix2 p j)
      = (∑ k : Fin 512, (max (a (ix2 p k) + b1 (ix1 k)) cZ * (g1 (ix1 k) * cS) + be1 (ix1 k)) * w2 (ix2 k j)) + b2 (ix1 j) := by
  unfold headA
  rw [addf_apply, dot128_apply, rowV128_apply, shapeCast_self]
  refine congrArg (· + b2 (ix1 j)) (Finset.sum_congr rfl fun k _ => ?_)
  rw [truncf_apply, addf_apply, mulf_apply, maximumf_apply, addf_apply, rowV512_apply, rowV512_apply, rowV512_apply, mulf_apply,
    broadcast_apply, broadcast_apply]

theorem headB_apply (a : FVec Ideal S128x128 .f32) (g2 be2 w3 : Vec Ideal S128 .f32) (b3 : Vec Ideal S1 .f32) (p : Fin 128) :
    headB a g2 be2 w3 b3 (ix2 p (0 : Fin 1))
      = (∑ k : Fin 128, (max (a (ix2 p k)) cZ * (g2 (ix1 k) * cS) + be2 (ix1 k)) * w3 (ix1 k)) + b3 (ix1 (0 : Fin 1)) := by
  unfold headB
  rw [addf_apply]
  refine congrArg₂ (· + ·) ?_ ?_
  · refine (shapeCast_a_a1_apply _ _ p 0).trans ?_
    refine (laneSum_apply _ _ _ _ p).trans ?_
    refine Finset.sum_congr rfl fun k _ => ?_
    rw [mulf_apply, addf_apply, mulf_apply, maximumf_apply, rowV128_apply, rowV128_apply, rowV128_apply, mulf_apply,
      broadcast_apply, broadcast_apply, shapeCast_self]
  · exact rowB_apply b3 _ _ p 0

/-! ## The payloads as compositions -/

theorem pay4_eq (x : Vec Ideal S128x768 .f32) (w : Vec Ideal S1x768x768 .bf16) : k0_pay4 x w = mmW x w :=
  (rfl : k0_pay4 x w = mmW (shapeCast S128x768 x shapeCasts_S128x768_S128x768) w).trans
    (congrArg (mmW · w) (shapeCast_self x _))
theorem pay7_eq (x : Vec Ideal S128x768 .f32) (w : Vec Ideal S1x768x768 .bf16) : k0_pay7 x w = mmW x w := pay4_eq x w
theorem pay10_eq (x : Vec Ideal S128x768 .f32) (w : Vec Ideal S1x768x768 .bf16) : k0_pay10 x w = mmW x w := pay4_eq x w
theorem pay12_eq (x : Vec Ideal S128x768 .f32) (w : Vec Ideal S1x768x768 .bf16) : k0_pay12 x w = mmW x w := pay4_eq x w

theorem pay2_eq (x : Vec Ideal S128x768 .f32) (wv : Vec Ideal S1x768x768 .bf16) (bv : Vec Ideal S1x768 .f32) (wo : Vec Ideal S1x768x768 .bf16)
    (bo : Vec Ideal S1x768 .f32) : k0_pay2 x wv bv wo bo = layerO (mmW x wv) bv wo bo :=
  (rfl : k0_pay2 x wv bv wo bo = layerO (mmW (shapeCast S128x768 x shapeCasts_S128x768_S128x768) wv) bv wo bo).trans
    (congrArg (fun y => layerO (mmW y wv) bv wo bo) (shapeCast_self x _))

theorem pay3_eq (x : Vec Ideal S128x768 .f32) (wv : Vec Ideal S1x768x768 .bf16) (bv : Vec Ideal S1x768 .f32) (wo : Vec Ideal S1x768x768 .bf16)
    (bo : Vec Ideal S1x768 .f32) (w1 : Vec Ideal S768x512 .bf16) :
    k0_pay3 x wv bv wo bo w1 = addf (broadcast S128x512 cZ) (mmW1 (k0_pay2 x wv bv wo bo) w1) := rfl

theorem pay5_eq (v20 v31 : FVec Ideal S128x768 .f32) (bv : Vec Ideal S1x768 .f32) (wo : Vec Ideal S1x768x768 .bf16) (bo g b : Vec Ideal S1x768 .f32) :
    k0_pay5 v20 v31 bv wo bo g b = bnR (layerO v31 bv wo bo) v20 g b := rfl
theorem pay8_eq (v20 v31 : FVec Ideal S128x768 .f32) (bv : Vec Ideal S1x768 .f32) (wo : Vec Ideal S1x768x768 .bf16) (bo g b : Vec Ideal S1x768 .f32) :
    k0_pay8 v20 v31 bv wo bo g b = bnR (layerO v31 bv wo bo) v20 g b := rfl

theorem pay6_eq (v20 : FVec Ideal S128x768 .f32) (v25 : FVec Ideal S128x512 .f32) (v31 : FVec Ideal S128x768 .f32) (bv : Vec Ideal S1x768 .f32)
    (wo : Vec Ideal S1x768x768 .bf16) (bo g b : Vec Ideal S1x768 .f32) (w1 : Vec Ideal S768x512 .bf16) :
    k0_pay6 v20 v25 v31 bv wo bo g b w1 = addf v25 (mmW1 (k0_pay5 v20 v31 bv wo bo g b) w1) := rfl
theorem pay9_eq (v20 : FVec Ideal S128x768 .f32) (v25 : FVec Ideal S128x512 .f32) (v31 : FVec Ideal S128x768 .f32) (bv : Vec Ideal S1x768 .f32)
    (wo : Vec Ideal S1x768x768 .bf16) (bo g b : Vec Ideal S1x768 .f32) (w1 : Vec Ideal S768x512 .bf16) :
    k0_pay9 v20 v25 v31 bv wo bo g b w1 = addf v25 (mmW1 (k0_pay8 v20 v31 bv wo bo g b) w1) := rfl
theorem pay11_eq (v20 : FVec Ideal S128x768 .f32) (v25 : FVec Ideal S128x512 .f32) (v31 : FVec Ideal S128x768 .f32) (bv : Vec Ideal S1x768 .f32)
    (wo : Vec Ideal S1x768x768 .bf16) (bo g b : Vec Ideal S1x768 .f32) (w1 : Vec Ideal S768x512 .bf16) :
    k0_pay11 v20 v25 v31 bv wo bo g b w1 = addf v25 (mmW1 (bnR (layerO v31 bv wo bo) v20 g b) w1) := rfl

theorem pay13_eq (v : FVec Ideal S128x768 .f32) (bv : Vec Ideal S1x768 .f32) (wo : Vec Ideal S1x768x768 .bf16) (bo : Vec Ideal S1x768 .f32) :
    k0_pay13 v bv wo bo = layerO v bv wo bo := rfl
theorem pay14_eq (a : FVec Ideal S128x512 .f32) (v : FVec Ideal S128x768 .f32) (bv : Vec Ideal S1x768 .f32) (wo : Vec Ideal S1x768x768 .bf16)
    (bo : Vec Ideal S1x768 .f32) (w1 : Vec Ideal S768x512 .bf16) :
    k0_pay14 a v bv wo bo w1 = addf a (mmW1 (k0_pay13 v bv wo bo) w1) := rfl

theorem pay15_eq (x : Vec Ideal S128x768 .f32) (wv : Vec Ideal S1x768x768 .bf16) (bv : Vec Ideal S1x768 .f32) (wo : Vec Ideal S1x768x768 .bf16) :
    k0_pay15 x wv bv wo = mmW (addf (mmW x wv) (biasB bv)) wo :=
  (rfl : k0_pay15 x wv bv wo = mmW (addf (mmW (shapeCast S128x768 x shapeCasts_S128x768_S128x768) wv) (biasB bv)) wo).trans
    (congrArg (fun y => mmW (addf (mmW y wv) (biasB bv)) wo) (shapeCast_self x _))
theorem pay19_eq (x : Vec Ideal S128x768 .f32) (wv : Vec Ideal S1x768x768 .bf16) (bv : Vec Ideal S1x768 .f32) (wo : Vec Ideal S1x768x768 .bf16) :
    k0_pay19 x wv bv wo = mmW (addf (mmW x wv) (biasB bv)) wo := pay15_eq x wv bv wo
theorem pay23_eq (x : Vec Ideal S128x768 .f32) (wv : Vec Ideal S1x768x768 .bf16) (bv : Vec Ideal S1x768 .f32) (wo : Vec Ideal S1x768x768 .bf16) :
    k0_pay23 x wv bv wo = mmW (addf (mmW x wv) (biasB bv)) wo := pay15_eq x wv bv wo

theorem pay16_eq (bo : Vec Ideal S1x768 .f32) : k0_pay16 bo = biasB bo := rfl
theorem pay20_eq (bo : Vec Ideal S1x768 .f32) : k0_pay20 bo = biasB bo := rfl
theorem pay24_eq (bo : Vec Ideal S1x768 .f32) : k0_pay24 bo = biasB bo := rfl

theorem pay17_eq (prev o bo : FVec Ideal S128x768 .f32) (g b : Vec Ideal S1x768 .f32) :
    k0_pay17 prev o bo g b = bnR (addf o bo) prev g b := rfl
theorem pay21_eq (prev o bo : FVec Ideal S128x768 .f32) (g b : Vec Ideal S1x768 .f32) :
    k0_pay21 prev o bo g b = bnR (addf o bo) prev g b := rfl

theorem pay18_eq (prev : FVec Ideal S128x768 .f32) (a : FVec Ideal S128x512 .f32) (o bo : FVec Ideal S128x768 .f32) (g b : Vec Ideal S1x768 .f32)
    (w1 : Vec Ideal S768x512 .bf16) : k0_pay18 prev a o bo g b w1 = addf a (mmW1 (k0_pay17 prev o bo g b) w1) := rfl
theorem pay22_eq (prev : FVec Ideal S128x768 .f32) (a : FVec Ideal S128x512 .f32) (o bo : FVec Ideal S128x768 .f32) (g b : Vec Ideal S1x768 .f32)
    (w1 : Vec Ideal S768x512 .bf16) : k0_pay22 prev a o bo g b w1 = addf a (mmW1 (k0_pay21 prev o bo g b) w1) := rfl

theorem pay25_eq (prev : FVec Ideal S128x768 .f32) (a : FVec Ideal S128x512 .f32) (o bo : FVec Ideal S128x768 .f32) (g b : Vec Ideal S1x768 .f32)
    (w1 : Vec Ideal S768x512 .bf16) (b1 g1 be1 : Vec Ideal S512 .f32) (w2 : Vec Ideal S512x128 .bf16) (b2 : Vec Ideal S128 .f32) :
    k0_pay25 prev a o bo g b w1 b1 g1 be1 w2 b2 = headA (addf a (mmW1 (bnR (addf o bo) prev g b) w1)) b1 g1 be1 w2 b2 := rfl

theorem pay1_eq (a : FVec Ideal S128x128 .f32) (g2 be2 w3 : Vec Ideal S128 .f32) (b3 : Vec Ideal S1 .f32) :
    k0_pay1 a g2 be2 w3 b3 = headB a g2 be2 w3 b3 := rfl

end Cert.KerRow

end
-- ==== Proof.KerRowPays.lean ====
/-
  Row p of each compound operation of the kernel body, in terms of the row functions of the specification.

  `RowIs v p f` says that row p of a [128, n] value is the function f. Given how the loaded blocks present a branch's
  layer (`IsWv`, `IsWo`, `IsBv`, `IsBo`, `IsG`, `IsB`) or the head's first matrix (`IsW1`): a product with the value weights
  has as row p the value projection before its bias (`vpre`); bias, output projection and bias turn that row into the
  layer's output (`attn`); residual, scale and shift into `bnres`; a product with a block of the first head matrix into
  that chunk's contribution (`w1part`); the head steps into `a2 (h1 ·)` and `outv (h2 ·)`. The last part reads a load
  through a unit-stride rectangle at an offset as the block at offset + index, for each kind of block.
-/
import proofs.«171191_j1709396984333_2_alg».proof.Proof.KerRowOps
import proofs.«171191_j1709396984333_2_alg».proof.Proof.KerIface

noncomputable section

namespace Cert.KerRow

open Cert.KernelIdeal Cert.KernelIdeal.Gen Idealize.ShloMosaic Idealize.ShloMosaic.ValueIdx
open scoped BigOperators

open Cert.Spec Cert.KerIface

/-- Row `p` of a [128, n] value is `f`. -/
def RowIs {n : ℕ} (v : FVec Ideal ⟨2, ![128, n]⟩ .f32) (p : Fin 128) (f : Fin n → EReal) : Prop := ∀ j : Fin n, v (ix2 p j) = f j

/-- A loaded weight slice is the value third of layer `ℓ`'s input projection, transposed. -/
def IsWv (w : Vec Ideal S1x768x768 .bf16) (B : Branch) (ℓ : Fin 4) : Prop :=
  ∀ k j : Fin 768, w (ix3 (0 : Fin 1) k j) = B.Win (ix3 ℓ (vrow j) k)
/-- A loaded weight slice is layer `ℓ`'s output projection, transposed. -/
def IsWo (w : Vec Ideal S1x768x768 .bf16) (B : Branch) (ℓ : Fin 4) : Prop :=
  ∀ k j : Fin 768, w (ix3 (0 : Fin 1) k j) = B.Wo (ix3 ℓ j k)
def IsBv (v : Vec Ideal S1x768 .f32) (B : Branch) (ℓ : Fin 4) : Prop := ∀ j : Fin 768, v (ix2 (0 : Fin 1) j) = B.bin (ix2 ℓ (vrow j))
def IsBo (v : Vec Ideal S1x768 .f32) (B : Branch) (ℓ : Fin 4) : Prop := ∀ j : Fin 768, v (ix2 (0 : Fin 1) j) = B.bo (ix2 ℓ j)
def IsG (v : Vec Ideal S1x768 .f32) (B : Branch) (ℓ : Fin 4) : Prop := ∀ j : Fin 768, v (ix2 (0 : Fin 1) j) = B.g (ix2 ℓ j)
def IsB (v : Vec Ideal S1x768 .f32) (B : Branch) (ℓ : Fin 4) : Prop := ∀ j : Fin 768, v (ix2 (0 : Fin 1) j) = B.b (ix2 ℓ j)
/-- A loaded block of the first head matrix is chunk `q`'s 768 columns, transposed. -/
def IsW1 (w : Vec Ideal S768x512 .bf16) (H : Head) (q : Fin 8) : Prop :=
  ∀ (k : Fin 768) (j : Fin 512), w (ix2 k j) = H.W1 (ix2 j (xcol q k))

/-- The value projection before its bias. -/
def vpre (B : Branch) (ℓ : Fin 4) (x : Fin 768 → EReal) (j : Fin 768) : EReal := ∑ k : Fin 768, x k * B.Win (ix3 ℓ (vrow j) k)

theorem cS_eq : cS = bnScale := rfl
theorem cZ_eq : cZ = 0 := Ideal.ofBits_zero_f32

section Rows
variable {p : Fin 128}

theorem mmW_row {x : FVec Ideal S128x768 .f32} {w : Vec Ideal S1x768x768 .bf16} {B : Branch} {ℓ : Fin 4} {xr : Fin 768 → EReal}
    (hx : RowIs x p xr) (hw : IsWv w B ℓ) : RowIs (mmW x w) p (vpre B ℓ xr) := fun j => by
  rw [mmW_apply]
  exact Finset.sum_congr rfl fun k _ => by rw [hx k, hw k j]

theorem layerO_row {v : FVec Ideal S128x768 .f32} {bv : Vec Ideal S1x768 .f32} {wo : Vec Ideal S1x768x768 .bf16} {bo : Vec Ideal S1x768 .f32}
    {B : Branch} {ℓ : Fin 4} {xr : Fin 768 → EReal}
    (hv : RowIs v p (vpre B ℓ xr)) (hbv : IsBv bv B ℓ) (hwo : IsWo wo B ℓ) (hbo : IsBo bo B ℓ) :
    RowIs (layerO v bv wo bo) p (attn B ℓ xr) := fun j => by
  rw [layerO_apply, hbo j]
  show _ = (∑ k : Fin 768, vproj B ℓ xr k * B.Wo (ix3 ℓ j k)) + B.bo (ix2 ℓ j)
  refine congrArg (· + B.bo (ix2 ℓ j)) (Finset.sum_congr rfl fun k _ => ?_)
  rw [hv k, hbv k, hwo k j]
  rfl

theorem bnR_row {o prev : FVec Ideal S128x768 .f32} {g b : Vec Ideal S1x768 .f32} {B : Branch} {ℓ : Fin 4} {or pr : Fin 768 → EReal}
    (ho : RowIs o p or) (hprev : RowIs prev p pr) (hg : IsG g B ℓ) (hb : IsB b B ℓ) :
    RowIs (bnR o prev g b) p (bnres B ℓ or pr) := fun j => by
  rw [bnR_apply, ho j, hprev j, hg j, hb j]
  rfl

theorem mmW1_row {c : FVec Ideal S128x768 .f32} {w : Vec Ideal S768x512 .bf16} {H : Head} {q : Fin 8} {cr : Fin 768 → EReal}
    (hc : RowIs c p cr) (hw : IsW1 w H q) : RowIs (mmW1 c w) p (w1part H cr q) := fun j => by
  rw [mmW1_apply]
  exact Finset.sum_congr rfl fun k _ => by rw [hc k, hw k j]

theorem zero_row : RowIs (broadcast S128x512 cZ) p (fun _ : Fin 512 => (0 : EReal)) := fun _ => cZ_eq

theorem acc_row {a : FVec Ideal S128x512 .f32} {c : FVec Ideal S128x768 .f32} {w : Vec Ideal S768x512 .bf16} {H : Head} {q : Fin 8}
    {ar : Fin 512 → EReal} {cr : Fin 768 → EReal}
    (ha : RowIs a p ar) (hc : RowIs c p cr) (hw : IsW1 w H q) :
    RowIs (addf a (mmW1 c w)) p (fun j => ar j + w1part H cr q j) := fun j => by
  rw [addf_apply, ha j, mmW1_row hc hw j]

theorem headA_row {a : FVec Ideal S128x512 .f32} {b1 g1 be1 : Vec Ideal S512 .f32} {w2 : Vec Ideal S512x128 .bf16} {b2 : Vec Ideal S128 .f32}
    {H : Head} {ar : Fin 512 → EReal} (ha : RowIs a p ar)
    (hb1 : ∀ j : Fin 512, b1 (ix1 j) = H.b1 (ix1 j)) (hg1 : ∀ j : Fin 512, g1 (ix1 j) = H.g1 (ix1 j))
    (hbe1 : ∀ j : Fin 512, be1 (ix1 j) = H.be1 (ix1 j)) (hw2 : ∀ (k : Fin 512) (j : Fin 128), w2 (ix2 k j) = H.W2 (ix2 j k))
    (hb2 : ∀ j : Fin 128, b2 (ix1 j) = H.b2 (ix1 j)) :
    RowIs (headA a b1 g1 be1 w2 b2) p (a2 H (h1 H ar)) := fun j => by
  rw [headA_apply, hb2 j]
  refine congrArg (· + H.b2 (ix1 j)) (Finset.sum_congr rfl fun k _ => ?_)
  rw [ha k, hb1 k, hg1 k, hbe1 k, hw2 k j, cZ_eq]
  rfl

theorem headB_row {a : FVec Ideal S128x128 .f32} {g2 be2 w3 : Vec Ideal S128 .f32} {b3 : Vec Ideal S1 .f32}
    {H : Head} {ar : Fin 128 → EReal} (ha : RowIs a p ar)
    (hg2 : ∀ j : Fin 128, g2 (ix1 j) = H.g2 (ix1 j)) (hbe2 : ∀ j : Fin 128, be2 (ix1 j) = H.be2 (ix1 j))
    (hw3 : ∀ k : Fin 128, w3 (ix1 k) = H.W3 (ix2 0 k)) (hb3 : b3 (ix1 (0 : Fin 1)) = H.b3 (ix1 0)) :
    headB a g2 be2 w3 b3 (ix2 p (0 : Fin 1)) = outv H (h2 H ar) := by
  rw [headB_apply, hb3]
  refine congrArg (· + H.b3 (ix1 0)) (Finset.sum_congr rfl fun k _ => ?_)
  rw [ha k, hg2 k, hbe2 k, hw3 k, cZ_eq]
  rfl

end Rows

/-! ## Loads through unit-stride rectangles -/

section Loads

/-- Chunk `q` of a four-chunk input block, row by row. -/
theorem ldx_apply (x : Vec Ideal S128x3072 .f32) (q : Fin 4) (o : ℕ) (ho : o = 768 * q.val)
    (inb : ∀ a, (![0, o] : Fin 2 → ℕ) a + S128x768.size a ≤ S128x3072.size a) (p : Fin 128) (k : Fin 768) :
    (View.ld x (Rect.unit (s := S128x3072) ![0, o] S128x768.size inb) : Vec Ideal S128x768 .f32) (ix2 p k) = x (ix2 p (bcol q k)) := by
  refine congrArg x (funext fun a => Fin.ext ?_)
  match a with
  | ⟨0, _⟩ => show 0 + 1 * p.val = p.val; omega
  | ⟨1, _⟩ => show o + 1 * k.val = 768 * q.val + k.val; omega

/-- Slice `ℓ` of a stack of four matrices. -/
theorem ldw_apply (x : Vec Ideal S4x768x768 .bf16) (ℓ : Fin 4) (o : ℕ) (ho : o = ℓ.val)
    (inb : ∀ a, (![o, 0, 0] : Fin 3 → ℕ) a + S1x768x768.size a ≤ S4x768x768.size a) (u : Fin 1) (k j : Fin 768) :
    (View.ld x (Rect.unit (s := S4x768x768) ![o, 0, 0] S1x768x768.size inb) : Vec Ideal S1x768x768 .bf16) (ix3 u k j) = x (ix3 ℓ k j) := by
  refine congrArg x (funext fun a => Fin.ext ?_)
  have hu : u.val = 0 := by omega
  match a with
  | ⟨0, _⟩ => show o + 1 * u.val = ℓ.val; omega
  | ⟨1, _⟩ => show 0 + 1 * k.val = k.val; omega
  | ⟨2, _⟩ => show 0 + 1 * j.val = j.val; omega

/-- Row `ℓ` of a stack of four vectors. -/
theorem ldv_apply (x : Vec Ideal S4x768 .f32) (ℓ : Fin 4) (o : ℕ) (ho : o = ℓ.val)
    (inb : ∀ a, (![o, 0] : Fin 2 → ℕ) a + S1x768.size a ≤ S4x768.size a) (u : Fin 1) (j : Fin 768) :
    (View.ld x (Rect.unit (s := S4x768) ![o, 0] S1x768.size inb) : Vec Ideal S1x768 .f32) (ix2 u j) = x (ix2 ℓ j) := by
  refine congrArg x (funext fun a => Fin.ext ?_)
  have hu : u.val = 0 := by omega
  match a with
  | ⟨0, _⟩ => show o + 1 * u.val = ℓ.val; omega
  | ⟨1, _⟩ => show 0 + 1 * j.val = j.val; omega

/-- The 768 rows of chunk `q` of the transposed first head matrix. -/
theorem ldw1_apply (x : Vec Ideal S6144x512 .bf16) (q : Fin 8) (o : ℕ) (ho : o = 768 * q.val)
    (inb : ∀ a, (![o, 0] : Fin 2 → ℕ) a + S768x512.size a ≤ S6144x512.size a) (k : Fin 768) (j : Fin 512) :
    (View.ld x (Rect.unit (s := S6144x512) ![o, 0] S768x512.size inb) : Vec Ideal S768x512 .bf16) (ix2 k j) = x (ix2 (xcol q k) j) := by
  refine congrArg x (funext fun a => Fin.ext ?_)
  match a with
  | ⟨0, _⟩ => show o + 1 * k.val = 768 * q.val + k.val; omega
  | ⟨1, _⟩ => show 0 + 1 * j.val = j.val; omega

variable {p : Fin 128}

theorem xrow_ld {x : Vec Ideal S128x3072 .f32} {X : SX.Idx → EReal} {r : Fin 4096} {c : Fin 4 → Fin 8}
    (hx : ∀ (q : Fin 4) (k : Fin 768), x (ix2 p (bcol q k)) = X (ix2 r (xcol (c q) k))) (q : Fin 4) (o : ℕ) (ho : o = 768 * q.val)
    (inb : ∀ a, (![0, o] : Fin 2 → ℕ) a + S128x768.size a ≤ S128x3072.size a) (q' : Fin 8) (hq : c q = q') :
    RowIs (View.ld x (Rect.unit (s := S128x3072) ![0, o] S128x768.size inb) : Vec Ideal S128x768 .f32) p (xrow X r q') := fun k => by
  rw [ldx_apply x q o ho inb p k, hx q k, hq]
  rfl

theorem isWv_ld {x : Vec Ideal S4x768x768 .bf16} {B : Branch}
    (hx : ∀ (ℓ : Fin 4) (k j : Fin 768), x (ix3 ℓ k j) = B.Win (ix3 ℓ (vrow j) k)) (ℓ : Fin 4) (o : ℕ) (ho : o = ℓ.val)
    (inb : ∀ a, (![o, 0, 0] : Fin 3 → ℕ) a + S1x768x768.size a ≤ S4x768x768.size a) :
    IsWv (View.ld x (Rect.unit (s := S4x768x768) ![o, 0, 0] S1x768x768.size inb)) B ℓ := fun k j => by
  rw [ldw_apply x ℓ o ho inb 0 k j, hx ℓ k j]

theorem isWo_ld {x : Vec Ideal S4x768x768 .bf16} {B : Branch}
    (hx : ∀ (ℓ : Fin 4) (k j : Fin 768), x (ix3 ℓ k j) = B.Wo (ix3 ℓ j k)) (ℓ : Fin 4) (o : ℕ) (ho : o = ℓ.val)
    (inb : ∀ a, (![o, 0, 0] : Fin 3 → ℕ) a + S1x768x768.size a ≤ S4x768x768.size a) :
    IsWo (View.ld x (Rect.unit (s := S4x768x768) ![o, 0, 0] S1x768x768.size inb)) B ℓ := fun k j => by
  rw [ldw_apply x ℓ o ho inb 0 k j, hx ℓ k j]

/-- A loaded row of a stack of four vectors is row `ℓ` of whatever the stack presents. -/
theorem vec_ld {x : Vec Ideal S4x768 .f32} {f : Fin 4 → Fin 768 → EReal}
    (hx : ∀ (ℓ : Fin 4) (j : Fin 768), x (ix2 ℓ j) = f ℓ j) (ℓ : Fin 4) (o : ℕ) (ho : o = ℓ.val)
    (inb : ∀ a, (![o, 0] : Fin 2 → ℕ) a + S1x768.size a ≤ S4x768.size a) (j : Fin 768) :
    (View.ld x (Rect.unit (s := S4x768) ![o, 0] S1x768.size inb) : Vec Ideal S1x768 .f32) (ix2 (0 : Fin 1) j) = f ℓ j := by
  rw [ldv_apply x ℓ o ho inb 0 j, hx ℓ j]

theorem isW1_ld {x : Vec Ideal S6144x512 .bf16} {H : Head}
    (hx : ∀ (n : Fin 6144) (j : Fin 512), x (ix2 n j) = H.W1 (ix2 j n)) (q : Fin 8) (o : ℕ) (ho : o = 768 * q.val)
    (inb : ∀ a, (![o, 0] : Fin 2 → ℕ) a + S768x512.size a ≤ S6144x512.size a) :
    IsW1 (View.ld x (Rect.unit (s := S6144x512) ![o, 0] S768x512.size inb)) H q := fun k j => by
  rw [ldw1_apply x q o ho inb k j, hx _ j]

end Loads

/-! ## Row p of each payload -/

section PayRows
variable {p : Fin 128} {B : Branch} {ℓ : Fin 4} {H : Head} {q : Fin 8} {xr pr : Fin 768 → EReal} {ar : Fin 512 → EReal}
  {x : Vec Ideal S128x768 .f32} {wv wo : Vec Ideal S1x768x768 .bf16} {bv bo g b : Vec Ideal S1x768 .f32} {w1 : Vec Ideal S768x512 .bf16}
  {prev v : FVec Ideal S128x768 .f32} {a : FVec Ideal S128x512 .f32}

theorem pay4_row (hx : RowIs x p xr) (hwv : IsWv wv B ℓ) : RowIs (k0_pay4 x wv) p (vpre B ℓ xr) := by
  rw [pay4_eq]; exact mmW_row hx hwv
theorem pay7_row (hx : RowIs x p xr) (hwv : IsWv wv B ℓ) : RowIs (k0_pay7 x wv) p (vpre B ℓ xr) := pay4_row hx hwv
theorem pay10_row (hx : RowIs x p xr) (hwv : IsWv wv B ℓ) : RowIs (k0_pay10 x wv) p (vpre B ℓ xr) := pay4_row hx hwv
theorem pay12_row (hx : RowIs x p xr) (hwv : IsWv wv B ℓ) : RowIs (k0_pay12 x wv) p (vpre B ℓ xr) := pay4_row hx hwv

theorem pay2_row (hx : RowIs x p xr) (hwv : IsWv wv B ℓ) (hbv : IsBv bv B ℓ) (hwo : IsWo wo B ℓ) (hbo : IsBo bo B ℓ) :
    RowIs (k0_pay2 x wv bv wo bo) p (attn B ℓ xr) := by
  rw [pay2_eq]; exact layerO_row (mmW_row hx hwv) hbv hwo hbo

theorem pay3_row (hx : RowIs x p xr) (hwv : IsWv wv B ℓ) (hbv : IsBv bv B ℓ) (hwo : IsWo wo B ℓ) (hbo : IsBo bo B ℓ) (hw1 : IsW1 w1 H q) :
    RowIs (k0_pay3 x wv bv wo bo w1) p (fun j => 0 + w1part H (attn B ℓ xr) q j) := by
  rw [pay3_eq]; exact acc_row zero_row (pay2_row hx hwv hbv hwo hbo) hw1

theorem pay5_row (hprev : RowIs prev p pr) (hv : RowIs v p (vpre B ℓ xr)) (hbv : IsBv bv B ℓ) (hwo : IsWo wo B ℓ) (hbo : IsBo bo B ℓ)
    (hg : IsG g B ℓ) (hb : IsB b B ℓ) : RowIs (k0_pay5 prev v bv wo bo g b) p (bnres B ℓ (attn B ℓ xr) pr) := by
  rw [pay5_eq]; exact bnR_row (layerO_row hv hbv hwo hbo) hprev hg hb
theorem pay8_row (hprev : RowIs prev p pr) (hv : RowIs v p (vpre B ℓ xr)) (hbv : IsBv bv B ℓ) (hwo : IsWo wo B ℓ) (hbo : IsBo bo B ℓ)
    (hg : IsG g B ℓ) (hb : IsB b B ℓ) : RowIs (k0_pay8 prev v bv wo bo g b) p (bnres B ℓ (attn B ℓ xr) pr) := pay5_row hprev hv hbv hwo hbo hg hb

theorem pay6_row (hprev : RowIs prev p pr) (ha : RowIs a p ar) (hv : RowIs v p (vpre B ℓ xr)) (hbv : IsBv bv B ℓ) (hwo : IsWo wo B ℓ)
    (hbo : IsBo bo B ℓ) (hg : IsG g B ℓ) (hb : IsB b B ℓ) (hw1 : IsW1 w1 H q) :
    RowIs (k0_pay6 prev a v bv wo bo g b w1) p (fun j => ar j + w1part H (bnres B ℓ (attn B ℓ xr) pr) q j) := by
  rw [pay6_eq]; exact acc_row ha (pay5_row hprev hv hbv hwo hbo hg hb) hw1
theorem pay9_row (hprev : RowIs prev p pr) (ha : RowIs a p ar) (hv : RowIs v p (vpre B ℓ xr)) (hbv : IsBv bv B ℓ) (hwo : IsWo wo B ℓ)
    (hbo : IsBo bo B ℓ) (hg : IsG g B ℓ) (hb : IsB b B ℓ) (hw1 : IsW1 w1 H q) :
    RowIs (k0_pay9 prev a v bv wo bo g b w1) p (fun j => ar j + w1part H (bnres B ℓ (attn B ℓ xr) pr) q j) :=
  pay6_row hprev ha hv hbv hwo hbo hg hb hw1
theorem pay11_row (hprev : RowIs prev p pr) (ha : RowIs a p ar) (hv : RowIs v p (vpre B ℓ xr)) (hbv : IsBv bv B ℓ) (hwo : IsWo wo B ℓ)
    (hbo : IsBo bo B ℓ) (hg : IsG g B ℓ) (hb : IsB b B ℓ) (hw1 : IsW1 w1 H q) :
    RowIs (k0_pay11 prev a v bv wo bo g b w1) p (fun j => ar j + w1part H (bnres B ℓ (attn B ℓ xr) pr) q j) :=
  pay6_row hprev ha hv hbv hwo hbo hg hb hw1

theorem pay13_row (hv : RowIs v p (vpre B ℓ xr)) (hbv : IsBv bv B ℓ) (hwo : IsWo wo B ℓ) (hbo : IsBo bo B ℓ) :
    RowIs (k0_pay13 v bv wo bo) p (attn B ℓ xr) := by
  rw [pay13_eq]; exact layerO_row hv hbv hwo hbo
theorem pay14_row (ha : RowIs a p ar) (hv : RowIs v p (vpre B ℓ xr)) (hbv : IsBv bv B ℓ) (hwo : IsWo wo B ℓ) (hbo : IsBo bo B ℓ)
    (hw1 : IsW1 w1 H q) : RowIs (k0_pay14 a v bv wo bo w1) p (fun j => ar j + w1part H (attn B ℓ xr) q j) := by
  rw [pay14_eq]; exact acc_row ha (pay13_row hv hbv hwo hbo) hw1

theorem pay17_row (hprev : RowIs prev p pr) (hx : RowIs x p xr) (hwv : IsWv wv B ℓ) (hbv : IsBv bv B ℓ) (hwo : IsWo wo B ℓ) (hbo : IsBo bo B ℓ)
    (hg : IsG g B ℓ) (hb : IsB b B ℓ) :
    RowIs (k0_pay17 prev (k0_pay15 x wv bv wo) (k0_pay16 bo) g b) p (bnres B ℓ (attn B ℓ xr) pr) := by
  rw [pay17_eq, pay15_eq, pay16_eq]
  exact bnR_row (layerO_row (mmW_row hx hwv) hbv hwo hbo) hprev hg hb
theorem pay21_row (hprev : RowIs prev p pr) (hx : RowIs x p xr) (hwv : IsWv wv B ℓ) (hbv : IsBv bv B ℓ) (hwo : IsWo wo B ℓ) (hbo : IsBo bo B ℓ)
    (hg : IsG g B ℓ) (hb : IsB b B ℓ) :
    RowIs (k0_pay21 prev (k0_pay19 x wv bv wo) (k0_pay20 bo) g b) p (bnres B ℓ (attn B ℓ xr) pr) :=
  pay17_row hprev hx hwv hbv hwo hbo hg hb

theorem pay18_row (hprev : RowIs prev p pr) (ha : RowIs a p ar) (hx : RowIs x p xr) (hwv : IsWv wv B ℓ) (hbv : IsBv bv B ℓ) (hwo : IsWo wo B ℓ)
    (hbo : IsBo bo B ℓ) (hg : IsG g B ℓ) (hb : IsB b B ℓ) (hw1 : IsW1 w1 H q) :
    RowIs (k0_pay18 prev a (k0_pay15 x wv bv wo) (k0_pay16 bo) g b w1) p (fun j => ar j + w1part H (bnres B ℓ (attn B ℓ xr) pr) q j) := by
  rw [pay18_eq]; exact acc_row ha (pay17_row hprev hx hwv hbv hwo hbo hg hb) hw1
theorem pay22_row (hprev : RowIs prev p pr) (ha : RowIs a p ar) (hx : RowIs x p xr) (hwv : IsWv wv B ℓ) (hbv : IsBv bv B ℓ) (hwo : IsWo wo B ℓ)
    (hbo : IsBo bo B ℓ) (hg : IsG g B ℓ) (hb : IsB b B ℓ) (hw1 : IsW1 w1 H q) :
    RowIs (k0_pay22 prev a (k0_pay19 x wv bv wo) (k0_pay20 bo) g b w1) p (fun j => ar j + w1part H (bnres B ℓ (attn B ℓ xr) pr) q j) :=
  pay18_row hprev ha hx hwv hbv hwo hbo hg hb hw1

theorem pay25_row {b1 g1 be1 : Vec Ideal S512 .f32} {w2 : Vec Ideal S512x128 .bf16} {b2 : Vec Ideal S128 .f32}
    (hprev : RowIs prev p pr) (ha : RowIs a p ar) (hx : RowIs x p xr) (hwv : IsWv wv B ℓ) (hbv : IsBv bv B ℓ) (hwo : IsWo wo B ℓ)
    (hbo : IsBo bo B ℓ) (hg : IsG g B ℓ) (hb : IsB b B ℓ) (hw1 : IsW1 w1 H q)
    (hb1 : ∀ j : Fin 512, b1 (ix1 j) = H.b1 (ix1 j)) (hg1 : ∀ j : Fin 512, g1 (ix1 j) = H.g1 (ix1 j))
    (hbe1 : ∀ j : Fin 512, be1 (ix1 j) = H.be1 (ix1 j)) (hw2 : ∀ (k : Fin 512) (j : Fin 128), w2 (ix2 k j) = H.W2 (ix2 j k))
    (hb2 : ∀ j : Fin 128, b2 (ix1 j) = H.b2 (ix1 j)) :
    RowIs (k0_pay25 prev a (k0_pay23 x wv bv wo) (k0_pay24 bo) g b w1 b1 g1 be1 w2 b2) p
      (a2 H (h1 H (fun j => ar j + w1part H (bnres B ℓ (attn B ℓ xr) pr) q j))) := by
  rw [pay25_eq, pay23_eq, pay24_eq]
  exact headA_row (acc_row ha (bnR_row (layerO_row (mmW_row hx hwv) hbv hwo hbo) hprev hg hb) hw1) hb1 hg1 hbe1 hw2 hb2

theorem pay1_row {a' : FVec Ideal S128x128 .f32} {g2 be2 w3 : Vec Ideal S128 .f32} {b3 : Vec Ideal S1 .f32} {ar' : Fin 128 → EReal}
    (ha : RowIs a' p ar') (hg2 : ∀ j : Fin 128, g2 (ix1 j) = H.g2 (ix1 j)) (hbe2 : ∀ j : Fin 128, be2 (ix1 j) = H.be2 (ix1 j))
    (hw3 : ∀ k : Fin 128, w3 (ix1 k) = H.W3 (ix2 0 k)) (hb3 : b3 (ix1 (0 : Fin 1)) = H.b3 (ix1 0)) :
    k0_pay1 a' g2 be2 w3 b3 (ix2 p (0 : Fin 1)) = outv H (h2 H ar') := by
  rw [pay1_eq]; exact headB_row ha hg2 hbe2 hw3 hb3

end PayRows

end Cert.KerRow

end
-- ==== Proof.KerRowOut.lean ====
/-
  Row p of the block the kernel body leaves is the specification's output of row r.

  The body's result is a tree of payloads over loads of the 24 input blocks, in which each cascade output and each
  partial sum of the first head layer occurs several times; the nodes are named here once (the cascade outputs
  `cP0 … cP2`, `cJ0 … cJ2`, the partial sums `a0 … a6n`, the projections feeding them), and the tree is these names
  composed (`out_eq`, by unfolding). Row p of each node is then read off in order: the cascade outputs are the
  specification's `casc0 … casc3` of the branch's chunks, the partial sums are the left-nested sums of the chunks'
  contributions from zero, and the last two payloads are the head's two layers and the final dot product.
-/
import proofs.«171191_j1709396984333_2_alg».proof.Proof.KerRowPays

noncomputable section

namespace Cert.KerRow

open Cert.KernelIdeal Cert.KernelIdeal.Gen Idealize.ShloMosaic Idealize.ShloMosaic.ValueIdx
open scoped BigOperators

open Cert.Spec Cert.KerIface

/-- The 24 input blocks at a grid point. -/
structure Blocks where
  x0 : Vec Ideal S128x3072 .f32
  x1 : Vec Ideal S128x3072 .f32
  x2 : Vec Ideal S4x768x768 .bf16
  x3 : Vec Ideal S4x768x768 .bf16
  x4 : Vec Ideal S4x768 .f32
  x5 : Vec Ideal S4x768 .f32
  x6 : Vec Ideal S4x768 .f32
  x7 : Vec Ideal S4x768 .f32
  x8 : Vec Ideal S4x768x768 .bf16
  x9 : Vec Ideal S4x768x768 .bf16
  x10 : Vec Ideal S4x768 .f32
  x11 : Vec Ideal S4x768 .f32
  x12 : Vec Ideal S4x768 .f32
  x13 : Vec Ideal S4x768 .f32
  x14 : Vec Ideal S6144x512 .bf16
  x15 : Vec Ideal S512 .f32
  x16 : Vec Ideal S512 .f32
  x17 : Vec Ideal S512 .f32
  x18 : Vec Ideal S512x128 .bf16
  x19 : Vec Ideal S128 .f32
  x20 : Vec Ideal S128 .f32
  x21 : Vec Ideal S128 .f32
  x22 : Vec Ideal S128 .f32
  x23 : Vec Ideal S1 .f32

namespace Blocks
variable (b : Blocks)

def cP0 := k0_pay2 (View.ld b.x0 r0_0) (View.ld b.x2 r0_1) (View.ld b.x4 r0_2) (View.ld b.x3 r0_1) (View.ld b.x5 r0_2)
def a0 := k0_pay3 (View.ld b.x0 r0_0) (View.ld b.x2 r0_1) (View.ld b.x4 r0_2) (View.ld b.x3 r0_1) (View.ld b.x5 r0_2) (View.ld b.x14 r0_3)
def vP1 := k0_pay4 (View.ld b.x0 r0_4) (View.ld b.x2 r0_5)
def cP1 := k0_pay5 b.cP0 b.vP1 (View.ld b.x4 r0_6) (View.ld b.x3 r0_5) (View.ld b.x5 r0_6) (View.ld b.x6 r0_6) (View.ld b.x7 r0_6)
def a1n := k0_pay6 b.cP0 b.a0 b.vP1 (View.ld b.x4 r0_6) (View.ld b.x3 r0_5) (View.ld b.x5 r0_6) (View.ld b.x6 r0_6) (View.ld b.x7 r0_6) (View.ld b.x14 r0_7)
def vP2 := k0_pay7 (View.ld b.x0 r0_8) (View.ld b.x2 r0_9)
def cP2 := k0_pay8 b.cP1 b.vP2 (View.ld b.x4 r0_10) (View.ld b.x3 r0_9) (View.ld b.x5 r0_10) (View.ld b.x6 r0_10) (View.ld b.x7 r0_10)
def a2n := k0_pay9 b.cP1 b.a1n b.vP2 (View.ld b.x4 r0_10) (View.ld b.x3 r0_9) (View.ld b.x5 r0_10) (View.ld b.x6 r0_10) (View.ld b.x7 r0_10) (View.ld b.x14 r0_11)
def vP3 := k0_pay10 (View.ld b.x0 r0_12) (View.ld b.x2 r0_13)
def a3n := k0_pay11 b.cP2 b.a2n b.vP3 (View.ld b.x4 r0_14) (View.ld b.x3 r0_13) (View.ld b.x5 r0_14) (View.ld b.x6 r0_14) (View.ld b.x7 r0_14) (View.ld b.x14 r0_15)
def vJ0 := k0_pay12 (View.ld b.x1 r0_0) (View.ld b.x8 r0_1)
def cJ0 := k0_pay13 b.vJ0 (View.ld b.x10 r0_2) (View.ld b.x9 r0_1) (View.ld b.x11 r0_2)
def a4n := k0_pay14 b.a3n b.vJ0 (View.ld b.x10 r0_2) (View.ld b.x9 r0_1) (View.ld b.x11 r0_2) (View.ld b.x14 r0_16)
def oJ1 := k0_pay15 (View.ld b.x1 r0_4) (View.ld b.x8 r0_5) (View.ld b.x10 r0_6) (View.ld b.x9 r0_5)
def bJ1 := k0_pay16 (View.ld b.x11 r0_6)
def cJ1 := k0_pay17 b.cJ0 b.oJ1 b.bJ1 (View.ld b.x12 r0_6) (View.ld b.x13 r0_6)
def a5n := k0_pay18 b.cJ0 b.a4n b.oJ1 b.bJ1 (View.ld b.x12 r0_6) (View.ld b.x13 r0_6) (View.ld b.x14 r0_17)
def oJ2 := k0_pay19 (View.ld b.x1 r0_8) (View.ld b.x8 r0_9) (View.ld b.x10 r0_10) (View.ld b.x9 r0_9)
def bJ2 := k0_pay20 (View.ld b.x11 r0_10)
def cJ2 := k0_pay21 b.cJ1 b.oJ2 b.bJ2 (View.ld b.x12 r0_10) (View.ld b.x13 r0_10)
def a6n := k0_pay22 b.cJ1 b.a5n b.oJ2 b.bJ2 (View.ld b.x12 r0_10) (View.ld b.x13 r0_10) (View.ld b.x14 r0_18)
def oJ3 := k0_pay23 (View.ld b.x1 r0_12) (View.ld b.x8 r0_13) (View.ld b.x10 r0_14) (View.ld b.x9 r0_13)
def bJ3 := k0_pay24 (View.ld b.x11 r0_14)
def hA := k0_pay25 b.cJ2 b.a6n b.oJ3 b.bJ3 (View.ld b.x12 r0_14) (View.ld b.x13 r0_14) (View.ld b.x14 r0_19) (View.ld b.x15 r0_20) (View.ld b.x16 r0_20) (View.ld b.x17 r0_20) (View.ld b.x18 r0_21) (View.ld b.x19 r0_22)
def outB := k0_pay1 b.hA (View.ld b.x20 r0_22) (View.ld b.x21 r0_22) (View.ld b.x22 r0_22) (View.ld b.x23 r0_23)

/-- The body's result is its one store's payload, and that payload is the named nodes composed. -/
theorem out_eq : out0_24 (F := Ideal) b.x0 b.x1 b.x2 b.x3 b.x4 b.x5 b.x6 b.x7 b.x8 b.x9 b.x10 b.x11 b.x12 b.x13 b.x14 b.x15 b.x16 b.x17 b.x18 b.x19 b.x20 b.x21 b.x22 b.x23 = View.canon [⟨r0_24, b.outB⟩] := rfl

end Blocks

theorem hz1 : (![0] : Fin 1 → ℕ) = fun _ => 0 := funext fun a => by match a with | ⟨0, _⟩ => rfl
theorem hz2 : (![0, 0] : Fin 2 → ℕ) = fun _ => 0 := funext fun a => by match a with | ⟨0, _⟩ => rfl | ⟨1, _⟩ => rfl

theorem out_row_blocks (b : Blocks) (X : SX.Idx → EReal) (Bp Bj : Branch) (H : Head) (r : Fin 4096) (p : Fin 128)
    (h : RowHyps b.x0 b.x1 b.x2 b.x3 b.x4 b.x5 b.x6 b.x7 b.x8 b.x9 b.x10 b.x11 b.x12 b.x13 b.x14 b.x15 b.x16 b.x17 b.x18 b.x19 b.x20 b.x21 b.x22 b.x23 X Bp Bj H r p) :
    out0_24 (F := Ideal) b.x0 b.x1 b.x2 b.x3 b.x4 b.x5 b.x6 b.x7 b.x8 b.x9 b.x10 b.x11 b.x12 b.x13 b.x14 b.x15 b.x16 b.x17 b.x18 b.x19 b.x20 b.x21 b.x22 b.x23 (ix2 p 0) = rowOut X Bp Bj H r := by
  -- the input chunks
  have xP0 := xrow_ld h.xp 0 0 rfl inb_S128x3072_S128x768_0_0 0 rfl
  have xP1 := xrow_ld h.xp 1 768 rfl inb_S128x3072_S128x768_0_768 1 rfl
  have xP2 := xrow_ld h.xp 2 1536 rfl inb_S128x3072_S128x768_0_1536 2 rfl
  have xP3 := xrow_ld h.xp 3 2304 rfl inb_S128x3072_S128x768_0_2304 3 rfl
  have xJ0 := xrow_ld h.xj 0 0 rfl inb_S128x3072_S128x768_0_0 4 rfl
  have xJ1 := xrow_ld h.xj 1 768 rfl inb_S128x3072_S128x768_0_768 5 rfl
  have xJ2 := xrow_ld h.xj 2 1536 rfl inb_S128x3072_S128x768_0_1536 6 rfl
  have xJ3 := xrow_ld h.xj 3 2304 rfl inb_S128x3072_S128x768_0_2304 7 rfl
  -- the first branch's layers
  have wvP0 := isWv_ld h.pWv 0 0 rfl inb_S4x768x768_S1x768x768_0_0_0
  have wvP1 := isWv_ld h.pWv 1 1 rfl inb_S4x768x768_S1x768x768_1_0_0
  have wvP2 := isWv_ld h.pWv 2 2 rfl inb_S4x768x768_S1x768x768_2_0_0
  have wvP3 := isWv_ld h.pWv 3 3 rfl inb_S4x768x768_S1x768x768_3_0_0
  have woP0 := isWo_ld h.pWo 0 0 rfl inb_S4x768x768_S1x768x768_0_0_0
  have woP1 := isWo_ld h.pWo 1 1 rfl inb_S4x768x768_S1x768x768_1_0_0
  have woP2 := isWo_ld h.pWo 2 2 rfl inb_S4x768x768_S1x768x768_2_0_0
  have woP3 := isWo_ld h.pWo 3 3 rfl inb_S4x768x768_S1x768x768_3_0_0
  have bvP0 : IsBv (View.ld b.x4 r0_2) Bp 0 := vec_ld h.pbv 0 0 rfl inb_S4x768_S1x768_0_0
  have bvP1 : IsBv (View.ld b.x4 r0_6) Bp 1 := vec_ld h.pbv 1 1 rfl inb_S4x768_S1x768_1_0
  have bvP2 : IsBv (View.ld b.x4 r0_10) Bp 2 := vec_ld h.pbv 2 2 rfl inb_S4x768_S1x768_2_0
  have bvP3 : IsBv (View.ld b.x4 r0_14) Bp 3 := vec_ld h.pbv 3 3 rfl inb_S4x768_S1x768_3_0
  have boP0 : IsBo (View.ld b.x5 r0_2) Bp 0 := vec_ld h.pbo 0 0 rfl inb_S4x768_S1x768_0_0
  have boP1 : IsBo (View.ld b.x5 r0_6) Bp 1 := vec_ld h.pbo 1 1 rfl inb_S4x768_S1x768_1_0
  have boP2 : IsBo (View.ld b.x5 r0_10) Bp 2 := vec_ld h.pbo 2 2 rfl inb_S4x768_S1x768_2_0
  have boP3 : IsBo (View.ld b.x5 r0_14) Bp 3 := vec_ld h.pbo 3 3 rfl inb_S4x768_S1x768_3_0
  have gP1 : IsG (View.ld b.x6 r0_6) Bp 1 := vec_ld h.pg 1 1 rfl inb_S4x768_S1x768_1_0
  have gP2 : IsG (View.ld b.x6 r0_10) Bp 2 := vec_ld h.pg 2 2 rfl inb_S4x768_S1x768_2_0
  have gP3 : IsG (View.ld b.x6 r0_14) Bp 3 := vec_ld h.pg 3 3 rfl inb_S4x768_S1x768_3_0
  have bP1 : IsB (View.ld b.x7 r0_6) Bp 1 := vec_ld h.pb 1 1 rfl inb_S4x768_S1x768_1_0
  have bP2 : IsB (View.ld b.x7 r0_10) Bp 2 := vec_ld h.pb 2 2 rfl inb_S4x768_S1x768_2_0
  have bP3 : IsB (View.ld b.x7 r0_14) Bp 3 := vec_ld h.pb 3 3 rfl inb_S4x768_S1x768_3_0
  -- the second branch's layers
  have wvJ0 := isWv_ld h.jWv 0 0 rfl inb_S4x768x768_S1x768x768_0_0_0
  have wvJ1 := isWv_ld h.jWv 1 1 rfl inb_S4x768x768_S1x768x768_1_0_0
  have wvJ2 := isWv_ld h.jWv 2 2 rfl inb_S4x768x768_S1x768x768_2_0_0
  have wvJ3 := isWv_ld h.jWv 3 3 rfl inb_S4x768x768_S1x768x768_3_0_0
  have woJ0 := isWo_ld h.jWo 0 0 rfl inb_S4x768x768_S1x768x768_0_0_0
  have woJ1 := isWo_ld h.jWo 1 1 rfl inb_S4x768x768_S1x768x768_1_0_0
  have woJ2 := isWo_ld h.jWo 2 2 rfl inb_S4x768x768_S1x768x768_2_0_0
  have woJ3 := isWo_ld h.jWo 3 3 rfl inb_S4x768x768_S1x768x768_3_0_0
  have bvJ0 : IsBv (View.ld b.x10 r0_2) Bj 0 := vec_ld h.jbv 0 0 rfl inb_S4x768_S1x768_0_0
  have bvJ1 : IsBv (View.ld b.x10 r0_6) Bj 1 := vec_ld h.jbv 1 1 rfl inb_S4x768_S1x768_1_0
  have bvJ2 : IsBv (View.ld b.x10 r0_10) Bj 2 := vec_ld h.jbv 2 2 rfl inb_S4x768_S1x768_2_0
  have bvJ3 : IsBv (View.ld b.x10 r0_14) Bj 3 := vec_ld h.jbv 3 3 rfl inb_S4x768_S1x768_3_0
  have boJ0 : IsBo (View.ld b.x11 r0_2) Bj 0 := vec_ld h.jbo 0 0 rfl inb_S4x768_S1x768_0_0
  have boJ1 : IsBo (View.ld b.x11 r0_6) Bj 1 := vec_ld h.jbo 1 1 rfl inb_S4x768_S1x768_1_0
  have boJ2 : IsBo (View.ld b.x11 r0_10) Bj 2 := vec_ld h.jbo 2 2 rfl inb_S4x768_S1x768_2_0
  have boJ3 : IsBo (View.ld b.x11 r0_14) Bj 3 := vec_ld h.jbo 3 3 rfl inb_S4x768_S1x768_3_0
  have gJ1 : IsG (View.ld b.x12 r0_6) Bj 1 := vec_ld h.jg 1 1 rfl inb_S4x768_S1x768_1_0
  have gJ2 : IsG (View.ld b.x12 r0_10) Bj 2 := vec_ld h.jg 2 2 rfl inb_S4x768_S1x768_2_0
  have gJ3 : IsG (View.ld b.x12 r0_14) Bj 3 := vec_ld h.jg 3 3 rfl inb_S4x768_S1x768_3_0
  have bJ1 : IsB (View.ld b.x13 r0_6) Bj 1 := vec_ld h.jb 1 1 rfl inb_S4x768_S1x768_1_0
  have bJ2 : IsB (View.ld b.x13 r0_10) Bj 2 := vec_ld h.jb 2 2 rfl inb_S4x768_S1x768_2_0
  have bJ3 : IsB (View.ld b.x13 r0_14) Bj 3 := vec_ld h.jb 3 3 rfl inb_S4x768_S1x768_3_0
  -- the first head matrix, chunk by chunk
  have w10 := isW1_ld h.W1 0 0 rfl inb_S6144x512_S768x512_0_0
  have w11 := isW1_ld h.W1 1 768 rfl inb_S6144x512_S768x512_768_0
  have w12 := isW1_ld h.W1 2 1536 rfl inb_S6144x512_S768x512_1536_0
  have w13 := isW1_ld h.W1 3 2304 rfl inb_S6144x512_S768x512_2304_0
  have w14 := isW1_ld h.W1 4 3072 rfl inb_S6144x512_S768x512_3072_0
  have w15 := isW1_ld h.W1 5 3840 rfl inb_S6144x512_S768x512_3840_0
  have w16 := isW1_ld h.W1 6 4608 rfl inb_S6144x512_S768x512_4608_0
  have w17 := isW1_ld h.W1 7 5376 rfl inb_S6144x512_S768x512_5376_0
  -- the head's vectors and second matrix, loaded whole
  have e15 : (View.ld b.x15 r0_20) = b.x15 := View.ld_unit_zero hz1 inb_S512_S512_0 b.x15
  have e16 : (View.ld b.x16 r0_20) = b.x16 := View.ld_unit_zero hz1 inb_S512_S512_0 b.x16
  have e17 : (View.ld b.x17 r0_20) = b.x17 := View.ld_unit_zero hz1 inb_S512_S512_0 b.x17
  have e18 : (View.ld b.x18 r0_21) = b.x18 := View.ld_unit_zero hz2 inb_S512x128_S512x128_0_0 b.x18
  have e19 : (View.ld b.x19 r0_22) = b.x19 := View.ld_unit_zero hz1 inb_S128_S128_0 b.x19
  have e20 : (View.ld b.x20 r0_22) = b.x20 := View.ld_unit_zero hz1 inb_S128_S128_0 b.x20
  have e21 : (View.ld b.x21 r0_22) = b.x21 := View.ld_unit_zero hz1 inb_S128_S128_0 b.x21
  have e22 : (View.ld b.x22 r0_22) = b.x22 := View.ld_unit_zero hz1 inb_S128_S128_0 b.x22
  have e23 : (View.ld b.x23 r0_23) = b.x23 := View.ld_unit_zero hz1 inb_S1_S1_0 b.x23
  -- the first branch's cascade and its contributions
  have hcP0 : RowIs b.cP0 p (casc0 X Bp 0 r) := pay2_row xP0 wvP0 bvP0 woP0 boP0
  have ha0 : RowIs b.a0 p (fun j => 0 + w1part H (hchunk X Bp Bj r 0) 0 j) := pay3_row xP0 wvP0 bvP0 woP0 boP0 w10
  have hvP1 : RowIs b.vP1 p (vpre Bp 1 (xrow X r 1)) := pay4_row xP1 wvP1
  have hcP1 : RowIs b.cP1 p (casc1 X Bp 0 1 r) := pay5_row hcP0 hvP1 bvP1 woP1 boP1 gP1 bP1
  have ha1 : RowIs b.a1n p (fun j => (0 + w1part H (hchunk X Bp Bj r 0) 0 j) + w1part H (hchunk X Bp Bj r 1) 1 j) :=
    pay6_row hcP0 ha0 hvP1 bvP1 woP1 boP1 gP1 bP1 w11
  have hvP2 : RowIs b.vP2 p (vpre Bp 2 (xrow X r 2)) := pay7_row xP2 wvP2
  have hcP2 : RowIs b.cP2 p (casc2 X Bp 0 1 2 r) := pay8_row hcP1 hvP2 bvP2 woP2 boP2 gP2 bP2
  have ha2 : RowIs b.a2n p (fun j => ((0 + w1part H (hchunk X Bp Bj r 0) 0 j) + w1part H (hchunk X Bp Bj r 1) 1 j)
      + w1part H (hchunk X Bp Bj r 2) 2 j) := pay9_row hcP1 ha1 hvP2 bvP2 woP2 boP2 gP2 bP2 w12
  have hvP3 : RowIs b.vP3 p (vpre Bp 3 (xrow X r 3)) := pay10_row xP3 wvP3
  have ha3 : RowIs b.a3n p (fun j => (((0 + w1part H (hchunk X Bp Bj r 0) 0 j) + w1part H (hchunk X Bp Bj r 1) 1 j)
      + w1part H (hchunk X Bp Bj r 2) 2 j) + w1part H (hchunk X Bp Bj r 3) 3 j) :=
    pay11_row hcP2 ha2 hvP3 bvP3 woP3 boP3 gP3 bP3 w13
  -- the second branch's
  have hvJ0 : RowIs b.vJ0 p (vpre Bj 0 (xrow X r 4)) := pay12_row xJ0 wvJ0
  have hcJ0 : RowIs b.cJ0 p (casc0 X Bj 4 r) := pay13_row hvJ0 bvJ0 woJ0 boJ0
  have ha4 : RowIs b.a4n p (fun j => ((((0 + w1part H (hchunk X Bp Bj r 0) 0 j) + w1part H (hchunk X Bp Bj r 1) 1 j)
      + w1part H (hchunk X Bp Bj r 2) 2 j) + w1part H (hchunk X Bp Bj r 3) 3 j) + w1part H (hchunk X Bp Bj r 4) 4 j) :=
    pay14_row ha3 hvJ0 bvJ0 woJ0 boJ0 w14
  have hcJ1 : RowIs b.cJ1 p (casc1 X Bj 4 5 r) := pay17_row hcJ0 xJ1 wvJ1 bvJ1 woJ1 boJ1 gJ1 bJ1
  have ha5 : RowIs b.a5n p (fun j => (((((0 + w1part H (hchunk X Bp Bj r 0) 0 j) + w1part H (hchunk X Bp Bj r 1) 1 j)
      + w1part H (hchunk X Bp Bj r 2) 2 j) + w1part H (hchunk X Bp Bj r 3) 3 j) + w1part H (hchunk X Bp Bj r 4) 4 j)
      + w1part H (hchunk X Bp Bj r 5) 5 j) := pay18_row hcJ0 ha4 xJ1 wvJ1 bvJ1 woJ1 boJ1 gJ1 bJ1 w15
  have hcJ2 : RowIs b.cJ2 p (casc2 X Bj 4 5 6 r) := pay21_row hcJ1 xJ2 wvJ2 bvJ2 woJ2 boJ2 gJ2 bJ2
  have ha6 : RowIs b.a6n p (fun j => ((((((0 + w1part H (hchunk X Bp Bj r 0) 0 j) + w1part H (hchunk X Bp Bj r 1) 1 j)
      + w1part H (hchunk X Bp Bj r 2) 2 j) + w1part H (hchunk X Bp Bj r 3) 3 j) + w1part H (hchunk X Bp Bj r 4) 4 j)
      + w1part H (hchunk X Bp Bj r 5) 5 j) + w1part H (hchunk X Bp Bj r 6) 6 j) :=
    pay22_row hcJ1 ha5 xJ2 wvJ2 bvJ2 woJ2 boJ2 gJ2 bJ2 w16
  -- the head
  have hhA : RowIs b.hA p (a2 H (h1 H (a1 X Bp Bj H r))) :=
    pay25_row hcJ2 ha6 xJ3 wvJ3 bvJ3 woJ3 boJ3 gJ3 bJ3 w17
      (fun j => (congrFun e15 (ix1 j)).trans (h.b1 j)) (fun j => (congrFun e16 (ix1 j)).trans (h.g1 j))
      (fun j => (congrFun e17 (ix1 j)).trans (h.be1 j)) (fun k j => (congrFun e18 (ix2 k j)).trans (h.W2 k j))
      (fun j => (congrFun e19 (ix1 j)).trans (h.b2 j))
  have hout : b.outB (ix2 p (0 : Fin 1)) = outv H (h2 H (a2 H (h1 H (a1 X Bp Bj H r)))) :=
    pay1_row hhA (fun j => (congrFun e20 (ix1 j)).trans (h.g2 j)) (fun j => (congrFun e21 (ix1 j)).trans (h.be2 j))
      (fun k => (congrFun e22 (ix1 k)).trans (h.w3 k)) ((congrFun e23 (ix1 (0 : Fin 1))).trans h.b3)
  have e : out0_24 (F := Ideal) b.x0 b.x1 b.x2 b.x3 b.x4 b.x5 b.x6 b.x7 b.x8 b.x9 b.x10 b.x11 b.x12 b.x13 b.x14 b.x15 b.x16 b.x17 b.x18 b.x19 b.x20 b.x21 b.x22 b.x23 = b.outB := b.out_eq.trans (View.canon_unit_zero (Val := Elt Ideal) (S := S128x1) (e := .f32) hz2 inb_S128x1_S128x1_0_0 b.outB)
  exact (congrFun e (ix2 p (0 : Fin 1))).trans hout

/-- Row `p` of the block the body leaves, given that row `p` of the input blocks is row `r` of the arrays: the
    specification's output of row `r`. -/
theorem out_row (x0 : Vec Ideal S128x3072 .f32) (x1 : Vec Ideal S128x3072 .f32) (x2 : Vec Ideal S4x768x768 .bf16) (x3 : Vec Ideal S4x768x768 .bf16) (x4 : Vec Ideal S4x768 .f32) (x5 : Vec Ideal S4x768 .f32) (x6 : Vec Ideal S4x768 .f32) (x7 : Vec Ideal S4x768 .f32) (x8 : Vec Ideal S4x768x768 .bf16) (x9 : Vec Ideal S4x768x768 .bf16) (x10 : Vec Ideal S4x768 .f32) (x11 : Vec Ideal S4x768 .f32) (x12 : Vec Ideal S4x768 .f32) (x13 : Vec Ideal S4x768 .f32) (x14 : Vec Ideal S6144x512 .bf16) (x15 : Vec Ideal S512 .f32) (x16 : Vec Ideal S512 .f32) (x17 : Vec Ideal S512 .f32) (x18 : Vec Ideal S512x128 .bf16) (x19 : Vec Ideal S128 .f32) (x20 : Vec Ideal S128 .f32) (x21 : Vec Ideal S128 .f32) (x22 : Vec Ideal S128 .f32) (x23 : Vec Ideal S1 .f32)
    (X : SX.Idx → EReal) (Bp Bj : Branch) (H : Head) (r : Fin 4096) (p : Fin 128)
    (h : RowHyps x0 x1 x2 x3 x4 x5 x6 x7 x8 x9 x10 x11 x12 x13 x14 x15 x16 x17 x18 x19 x20 x21 x22 x23 X Bp Bj H r p) :
    out0_24 (F := Ideal) x0 x1 x2 x3 x4 x5 x6 x7 x8 x9 x10 x11 x12 x13 x14 x15 x16 x17 x18 x19 x20 x21 x22 x23 (ix2 p 0) = rowOut X Bp Bj H r :=
  out_row_blocks ⟨x0, x1, x2, x3, x4, x5, x6, x7, x8, x9, x10, x11, x12, x13, x14, x15, x16, x17, x18, x19, x20, x21, x22, x23⟩ X Bp Bj H r p h

end Cert.KerRow

end
-- ==== Proof.PreFin.lean ====
/-
  From the precondition to finiteness of the arguments.

  The precondition is the conjunction, over the twenty-three argument arrays, of "every entry x has |x| < +∞", each
  conjunct a reduction by `and` over all axes of the array of comparisons, the conjuncts and-ed from the left.  On the
  extended reals |x| = max x (-x), and max x (-x) < ⊤ excludes both x = ⊤ and x = ⊥: so every entry of every array is a
  real number.  Here the first thirteen conjuncts are read back; the remaining ten are dropped.
-/
import proofs.«171191_j1709396984333_2_alg».proof.Defs
import proofs.«171191_j1709396984333_2_alg».proof.Proof.Spec
import Idealize.ShloMosaic.Lib.ReduceAll
import Idealize.ShloMosaic.Lib.ValueIdx

noncomputable section

namespace Cert.PreFin

open Idealize.ShloMosaic Idealize.SL.Sem

/-- A rank-0 array has one index. -/
instance : Subsingleton Cert.Pre_finite_inputs.S_.Idx := ⟨fun a b => funext fun d => d.elim0⟩

/-- The bit pattern 0x7F800000 denotes +∞. -/
theorem inf_eq : Ideal.ofBits .f32 0x7F800000#32 = (⊤ : EReal) := by simp [Ideal.ofBits, Ideal.ieee]

/-- An extended real whose absolute value max x (-x) is below +∞ is a real number. -/
theorem isFin_of_abs_lt (x : EReal) (h : max x (-x) < (⊤ : EReal)) : Cert.Spec.IsFin x := by
  induction x using EReal.rec with
  | bot => simp at h
  | top => simp at h
  | coe r => exact Cert.Spec.isFin_coe r

/-- The element test read back: the comparison |x| < +∞ being 1 makes x a real number. -/
theorem isFin_of_test (x : Ideal .f32)
    (h : FloatOps.cmpf (F := Ideal) .olt (FloatOps.hostAbsf x) (FloatOps.ofBits (F := Ideal) .f32 0x7F800000#32) = 1#1) :
    Cert.Spec.IsFin x := by
  apply isFin_of_abs_lt
  have h' : Ideal.cmp .olt (max x (-x)) (Ideal.ofBits .f32 0x7F800000#32) = 1#1 := h
  rw [inf_eq] at h'
  unfold Ideal.cmp at h'
  by_contra hn
  simp [hn] at h'

/-- The array test read back: for an array x of any shape, if the reduction by `and` over all axes of the comparisons
    |x i| < +∞ (the bound broadcast from a rank-0 constant) is 1, every entry of x is a real number. -/
theorem allFin_of_test {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim S ![] hb (constant Cert.Pre_finite_inputs.S_ .f32 0x7F800000#32)))
          (constantI Cert.Pre_finite_inputs.S_ 1 1#1) hr hu j = 1#1) :
    Cert.Spec.AllFin x := fun i =>
  isFin_of_test (x i) (Host.reduce_andi_all _ _ hr hu j e i)

/-- A conjunction of two rank-0 `i1` arrays that is 1 at an index has both conjuncts 1 there. -/
theorem and_split (a b : IVec Cert.Pre_finite_inputs.S_ 1) (j : Cert.Pre_finite_inputs.S_.Idx)
    (e : andi a b j = 1#1) : a j = 1#1 ∧ b j = 1#1 :=
  IntOp.andi_eq_one.1 e

/-- THE PRECONDITION DECODED: on every device, every entry of each of the first thirteen argument arrays is a real
    number. -/
theorem args_fin [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.AllFin (m ((c.tc : Thread Cert.KernelIdeal.nD Cert.KernelIdeal.τ).loc Cert.KernelIdeal.main_arg0))
      ∧ Cert.Spec.AllFin (m ((c.tc : Thread Cert.KernelIdeal.nD Cert.KernelIdeal.τ).loc Cert.KernelIdeal.main_arg1))
      ∧ Cert.Spec.AllFin (m ((c.tc : Thread Cert.KernelIdeal.nD Cert.KernelIdeal.τ).loc Cert.KernelIdeal.main_arg2))
      ∧ Cert.Spec.AllFin (m ((c.tc : Thread Cert.KernelIdeal.nD Cert.KernelIdeal.τ).loc Cert.KernelIdeal.main_arg3))
      ∧ Cert.Spec.AllFin (m ((c.tc : Thread Cert.KernelIdeal.nD Cert.KernelIdeal.τ).loc Cert.KernelIdeal.main_arg4))
      ∧ Cert.Spec.AllFin (m ((c.tc : Thread Cert.KernelIdeal.nD Cert.KernelIdeal.τ).loc Cert.KernelIdeal.main_arg5))
      ∧ Cert.Spec.AllFin (m ((c.tc : Thread Cert.KernelIdeal.nD Cert.KernelIdeal.τ).loc Cert.KernelIdeal.main_arg6))
      ∧ Cert.Spec.AllFin (m ((c.tc : Thread Cert.KernelIdeal.nD Cert.KernelIdeal.τ).loc Cert.KernelIdeal.main_arg7))
      ∧ Cert.Spec.AllFin (m ((c.tc : Thread Cert.KernelIdeal.nD Cert.KernelIdeal.τ).loc Cert.KernelIdeal.main_arg8))
      ∧ Cert.Spec.AllFin (m ((c.tc : Thread Cert.KernelIdeal.nD Cert.KernelIdeal.τ).loc Cert.KernelIdeal.main_arg9))
      ∧ Cert.Spec.AllFin (m ((c.tc : Thread Cert.KernelIdeal.nD Cert.KernelIdeal.τ).loc Cert.KernelIdeal.main_arg10))
      ∧ Cert.Spec.AllFin (m ((c.tc : Thread Cert.KernelIdeal.nD Cert.KernelIdeal.τ).loc Cert.KernelIdeal.main_arg11))
      ∧ Cert.Spec.AllFin (m ((c.tc : Thread Cert.KernelIdeal.nD Cert.KernelIdeal.τ).loc Cert.KernelIdeal.main_arg12)) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  -- the last ten conjuncts (the arrays of the head) are dropped
  obtain ⟨e, -⟩ := and_split _ _ _ e
  obtain ⟨e, -⟩ := and_split _ _ _ e
  obtain ⟨e, -⟩ := and_split _ _ _ e
  obtain ⟨e, -⟩ := and_split _ _ _ e
  obtain ⟨e, -⟩ := and_split _ _ _ e
  obtain ⟨e, -⟩ := and_split _ _ _ e
  obtain ⟨e, -⟩ := and_split _ _ _ e
  obtain ⟨e, -⟩ := and_split _ _ _ e
  obtain ⟨e, -⟩ := and_split _ _ _ e
  obtain ⟨e, -⟩ := and_split _ _ _ e
  -- the first thirteen, from the last to the first
  obtain ⟨e, h12⟩ := and_split _ _ _ e
  obtain ⟨e, h11⟩ := and_split _ _ _ e
  obtain ⟨e, h10⟩ := and_split _ _ _ e
  obtain ⟨e, h9⟩ := and_split _ _ _ e
  obtain ⟨e, h8⟩ := and_split _ _ _ e
  obtain ⟨e, h7⟩ := and_split _ _ _ e
  obtain ⟨e, h6⟩ := and_split _ _ _ e
  obtain ⟨e, h5⟩ := and_split _ _ _ e
  obtain ⟨e, h4⟩ := and_split _ _ _ e
  obtain ⟨e, h3⟩ := and_split _ _ _ e
  obtain ⟨e, h2⟩ := and_split _ _ _ e
  obtain ⟨h0, h1⟩ := and_split _ _ _ e
  exact ⟨allFin_of_test _ _ _ _ _ h0, allFin_of_test _ _ _ _ _ h1, allFin_of_test _ _ _ _ _ h2,
    allFin_of_test _ _ _ _ _ h3, allFin_of_test _ _ _ _ _ h4, allFin_of_test _ _ _ _ _ h5,
    allFin_of_test _ _ _ _ _ h6, allFin_of_test _ _ _ _ _ h7, allFin_of_test _ _ _ _ _ h8,
    allFin_of_test _ _ _ _ _ h9, allFin_of_test _ _ _ _ _ h10, allFin_of_test _ _ _ _ _ h11,
    allFin_of_test _ _ _ _ _ h12⟩

end Cert.PreFin

end
-- ==== Proof.RefHeadSum.lean ====
/-
  A sum over the 6144 columns of a row, regrouped as the eight sums over its chunks of 768 columns, added in chunk
  order from zero.  Addition of extended reals is commutative and associative, so this is only a re-indexing of the
  sum along the bijection (chunk, offset) ↦ 768 · chunk + offset.
-/
import Idealize.ShloMosaic.PureOps.Ideal
import Idealize.ShloMosaic.Lib.ValueIdx

noncomputable section

open scoped BigOperators

namespace Cert.RefHead

/-- The sum over `Fin 6144` is the sum over chunk `q : Fin 8` of the sums over offset `k : Fin 768`, for any
    enumeration `c q k` of the columns with `c q k = 768 q + k`. -/
theorem sum_by_chunks {M : Type*} [AddCommMonoid M] (f : Fin 6144 → M) (c : Fin 8 → Fin 768 → Fin 6144)
    (hc : ∀ q k, (c q k).val = 768 * q.val + k.val) :
    ∑ k : Fin 6144, f k = ∑ q : Fin 8, ∑ k : Fin 768, f (c q k) := by
  have e : ∑ k : Fin 6144, f k = ∑ p : Fin 8 × Fin 768, f (finProdFinEquiv p) :=
    (Equiv.sum_comp (finProdFinEquiv (m := 8) (n := 768)) f).symm
  rw [e, Fintype.sum_prod_type]
  refine Finset.sum_congr rfl fun q _ => Finset.sum_congr rfl fun k _ => ?_
  congr 1
  apply Fin.ext
  rw [hc q k]
  show k.val + 768 * q.val = 768 * q.val + k.val
  omega

/-- The same, with the eight chunk sums written out and added in chunk order starting from zero. -/
theorem sum_by_chunks_from_zero (f : Fin 6144 → EReal) (c : Fin 8 → Fin 768 → Fin 6144)
    (hc : ∀ q k, (c q k).val = 768 * q.val + k.val) :
    ∑ k : Fin 6144, f k =
      ((((((((0 + ∑ k : Fin 768, f (c 0 k)) + ∑ k : Fin 768, f (c 1 k)) + ∑ k : Fin 768, f (c 2 k))
        + ∑ k : Fin 768, f (c 3 k)) + ∑ k : Fin 768, f (c 4 k)) + ∑ k : Fin 768, f (c 5 k))
        + ∑ k : Fin 768, f (c 6 k)) + ∑ k : Fin 768, f (c 7 k)) := by
  rw [sum_by_chunks f c hc, Fin.sum_univ_eight, zero_add]

end Cert.RefHead

end
-- ==== Proof.RefHeadCat.lean ====
/-
  A row of 6144 numbers laid out as two halves of 3072, each half four pieces of 768 joined along the column axis,
  read at column 768 · q + k: it is piece q at column k.  The pieces are arbitrary arrays; only the joins are read.
-/
import Idealize.ShloMosaic.Lib.Pipeline.Value
import Idealize.ShloMosaic.Lib.ValueIdx

noncomputable section

open Idealize.ShloMosaic Idealize.ShloMosaic.ValueIdx

namespace Cert.RefHead

abbrev T768 : Shape := ⟨2, ![4096, 768]⟩
abbrev T3072 : Shape := ⟨2, ![4096, 3072]⟩
abbrev T6144 : Shape := ⟨2, ![4096, 6144]⟩

section
variable {α : Type}

/-- Off the joined axis (the row) a piece's index has the joined array's coordinate. -/
private theorem off_axis {n1 n2 : Nat} (r : Fin 4096) (k : Fin n1) (d : Fin n2)
    (hr : (⟨2, ![4096, n1]⟩ : Shape).rank = (⟨2, ![4096, n2]⟩ : Shape).rank) :
    ∀ b : Fin (⟨2, ![4096, n1]⟩ : Shape).rank, b.cast hr ≠ (1 : Fin (⟨2, ![4096, n2]⟩ : Shape).rank) →
      ((ix2 r k : (⟨2, ![4096, n1]⟩ : Shape).Idx) b).val = ((ix2 r d : (⟨2, ![4096, n2]⟩ : Shape).Idx) (b.cast hr)).val :=
  fun b => match b with
    | ⟨0, _⟩ => fun _ => rfl
    | ⟨1, _⟩ => fun hne => absurd (Fin.ext rfl) hne

/-- The left half of a two-piece join. -/
theorem cat2_left (y0 y1 : T3072.Idx → α) (h : Shape.Concatenates [T3072, T3072] T6144 1)
    (r : Fin 4096) (c : Fin 6144) (d : Fin 3072) (hd : d.val = c.val) :
    concatenate T6144 1 [⟨T3072, y0⟩, ⟨T3072, y1⟩] h (ix2 r c) = y0 (ix2 r d) :=
  concatenate_pair_apply_left 1 y0 y1 h (ix2 r c) rfl (ix2 r d) (fun b => match b with
    | ⟨0, _⟩ => rfl
    | ⟨1, _⟩ => hd)

/-- The right half of a two-piece join. -/
theorem cat2_right (y0 y1 : T3072.Idx → α) (h : Shape.Concatenates [T3072, T3072] T6144 1)
    (r : Fin 4096) (c : Fin 6144) (d : Fin 3072) (hd : d.val + 3072 = c.val) :
    concatenate T6144 1 [⟨T3072, y0⟩, ⟨T3072, y1⟩] h (ix2 r c) = y1 (ix2 r d) :=
  concatenate_pair_apply_right 1 y0 y1 h (ix2 r c) rfl rfl (ix2 r d) (off_axis r d c rfl) hd

/-- Piece 0 of a four-piece join. -/
theorem cat4_0 (p0 p1 p2 p3 : T768.Idx → α) (h : Shape.Concatenates [T768, T768, T768, T768] T3072 1)
    (r : Fin 4096) (d : Fin 3072) (k : Fin 768) (hd : 0 + k.val = d.val) :
    concatenate T3072 1 [⟨T768, p0⟩, ⟨T768, p1⟩, ⟨T768, p2⟩, ⟨T768, p3⟩] h (ix2 r d) = p0 (ix2 r k) :=
  concatenate_apply_piece 1 [⟨T768, p0⟩, ⟨T768, p1⟩, ⟨T768, p2⟩, ⟨T768, p3⟩] h (ix2 r d) 0 (by simp) T768 p0 rfl rfl 0 rfl (ix2 r k) (off_axis r k d rfl) hd

/-- Piece 1 of a four-piece join. -/
theorem cat4_1 (p0 p1 p2 p3 : T768.Idx → α) (h : Shape.Concatenates [T768, T768, T768, T768] T3072 1)
    (r : Fin 4096) (d : Fin 3072) (k : Fin 768) (hd : 768 + k.val = d.val) :
    concatenate T3072 1 [⟨T768, p0⟩, ⟨T768, p1⟩, ⟨T768, p2⟩, ⟨T768, p3⟩] h (ix2 r d) = p1 (ix2 r k) :=
  concatenate_apply_piece 1 [⟨T768, p0⟩, ⟨T768, p1⟩, ⟨T768, p2⟩, ⟨T768, p3⟩] h (ix2 r d) 1 (by simp) T768 p1 rfl rfl 768 rfl (ix2 r k) (off_axis r k d rfl) hd

/-- Piece 2 of a four-piece join. -/
theorem cat4_2 (p0 p1 p2 p3 : T768.Idx → α) (h : Shape.Concatenates [T768, T768, T768, T768] T3072 1)
    (r : Fin 4096) (d : Fin 3072) (k : Fin 768) (hd : 1536 + k.val = d.val) :
    concatenate T3072 1 [⟨T768, p0⟩, ⟨T768, p1⟩, ⟨T768, p2⟩, ⟨T768, p3⟩] h (ix2 r d) = p2 (ix2 r k) :=
  concatenate_apply_piece 1 [⟨T768, p0⟩, ⟨T768, p1⟩, ⟨T768, p2⟩, ⟨T768, p3⟩] h (ix2 r d) 2 (by simp) T768 p2 rfl rfl 1536 rfl (ix2 r k) (off_axis r k d rfl) hd

/-- Piece 3 of a four-piece join. -/
theorem cat4_3 (p0 p1 p2 p3 : T768.Idx → α) (h : Shape.Concatenates [T768, T768, T768, T768] T3072 1)
    (r : Fin 4096) (d : Fin 3072) (k : Fin 768) (hd : 2304 + k.val = d.val) :
    concatenate T3072 1 [⟨T768, p0⟩, ⟨T768, p1⟩, ⟨T768, p2⟩, ⟨T768, p3⟩] h (ix2 r d) = p3 (ix2 r k) :=
  concatenate_apply_piece 1 [⟨T768, p0⟩, ⟨T768, p1⟩, ⟨T768, p2⟩, ⟨T768, p3⟩] h (ix2 r d) 3 (by simp) T768 p3 rfl rfl 2304 rfl (ix2 r k) (off_axis r k d rfl) hd

/-- The two-level join of eight pieces. -/
abbrev cat8 (p0 p1 p2 p3 p4 p5 p6 p7 : T768.Idx → α) (ha hb : Shape.Concatenates [T768, T768, T768, T768] T3072 1)
    (h : Shape.Concatenates [T3072, T3072] T6144 1) : T6144.Idx → α :=
  concatenate T6144 1 [⟨T3072, concatenate T3072 1 [⟨T768, p0⟩, ⟨T768, p1⟩, ⟨T768, p2⟩, ⟨T768, p3⟩] ha⟩,
    ⟨T3072, concatenate T3072 1 [⟨T768, p4⟩, ⟨T768, p5⟩, ⟨T768, p6⟩, ⟨T768, p7⟩] hb⟩] h

theorem cat8_0 (p0 p1 p2 p3 p4 p5 p6 p7 : T768.Idx → α) (ha hb : Shape.Concatenates [T768, T768, T768, T768] T3072 1)
    (h : Shape.Concatenates [T3072, T3072] T6144 1) (r : Fin 4096) (c : Fin 6144) (k : Fin 768) (hc : c.val = 0 + k.val) :
    cat8 p0 p1 p2 p3 p4 p5 p6 p7 ha hb h (ix2 r c) = p0 (ix2 r k) := by
  have hk := k.isLt
  rw [cat8, cat2_left _ _ h r c ⟨0 + k.val, by omega⟩ (by show 0 + k.val = c.val; omega),
    cat4_0 _ _ _ _ _ r _ k rfl]

theorem cat8_1 (p0 p1 p2 p3 p4 p5 p6 p7 : T768.Idx → α) (ha hb : Shape.Concatenates [T768, T768, T768, T768] T3072 1)
    (h : Shape.Concatenates [T3072, T3072] T6144 1) (r : Fin 4096) (c : Fin 6144) (k : Fin 768) (hc : c.val = 768 + k.val) :
    cat8 p0 p1 p2 p3 p4 p5 p6 p7 ha hb h (ix2 r c) = p1 (ix2 r k) := by
  have hk := k.isLt
  rw [cat8, cat2_left _ _ h r c ⟨768 + k.val, by omega⟩ (by show 768 + k.val = c.val; omega),
    cat4_1 _ _ _ _ _ r _ k rfl]

theorem cat8_2 (p0 p1 p2 p3 p4 p5 p6 p7 : T768.Idx → α) (ha hb : Shape.Concatenates [T768, T768, T768, T768] T3072 1)
    (h : Shape.Concatenates [T3072, T3072] T6144 1) (r : Fin 4096) (c : Fin 6144) (k : Fin 768) (hc : c.val = 1536 + k.val) :
    cat8 p0 p1 p2 p3 p4 p5 p6 p7 ha hb h (ix2 r c) = p2 (ix2 r k) := by
  have hk := k.isLt
  rw [cat8, cat2_left _ _ h r c ⟨1536 + k.val, by omega⟩ (by show 1536 + k.val = c.val; omega),
    cat4_2 _ _ _ _ _ r _ k rfl]

theorem cat8_3 (p0 p1 p2 p3 p4 p5 p6 p7 : T768.Idx → α) (ha hb : Shape.Concatenates [T768, T768, T768, T768] T3072 1)
    (h : Shape.Concatenates [T3072, T3072] T6144 1) (r : Fin 4096) (c : Fin 6144) (k : Fin 768) (hc : c.val = 2304 + k.val) :
    cat8 p0 p1 p2 p3 p4 p5 p6 p7 ha hb h (ix2 r c) = p3 (ix2 r k) := by
  have hk := k.isLt
  rw [cat8, cat2_left _ _ h r c ⟨2304 + k.val, by omega⟩ (by show 2304 + k.val = c.val; omega),
    cat4_3 _ _ _ _ _ r _ k rfl]

theorem cat8_4 (p0 p1 p2 p3 p4 p5 p6 p7 : T768.Idx → α) (ha hb : Shape.Concatenates [T768, T768, T768, T768] T3072 1)
    (h : Shape.Concatenates [T3072, T3072] T6144 1) (r : Fin 4096) (c : Fin 6144) (k : Fin 768) (hc : c.val = 3072 + k.val) :
    cat8 p0 p1 p2 p3 p4 p5 p6 p7 ha hb h (ix2 r c) = p4 (ix2 r k) := by
  have hk := k.isLt
  rw [cat8, cat2_right _ _ h r c ⟨0 + k.val, by omega⟩ (by show 0 + k.val + 3072 = c.val; omega),
    cat4_0 _ _ _ _ _ r _ k rfl]

theorem cat8_5 (p0 p1 p2 p3 p4 p5 p6 p7 : T768.Idx → α) (ha hb : Shape.Concatenates [T768, T768, T768, T768] T3072 1)
    (h : Shape.Concatenates [T3072, T3072] T6144 1) (r : Fin 4096) (c : Fin 6144) (k : Fin 768) (hc : c.val = 3840 + k.val) :
    cat8 p0 p1 p2 p3 p4 p5 p6 p7 ha hb h (ix2 r c) = p5 (ix2 r k) := by
  have hk := k.isLt
  rw [cat8, cat2_right _ _ h r c ⟨768 + k.val, by omega⟩ (by show 768 + k.val + 3072 = c.val; omega),
    cat4_1 _ _ _ _ _ r _ k rfl]

theorem cat8_6 (p0 p1 p2 p3 p4 p5 p6 p7 : T768.Idx → α) (ha hb : Shape.Concatenates [T768, T768, T768, T768] T3072 1)
    (h : Shape.Concatenates [T3072, T3072] T6144 1) (r : Fin 4096) (c : Fin 6144) (k : Fin 768) (hc : c.val = 4608 + k.val) :
    cat8 p0 p1 p2 p3 p4 p5 p6 p7 ha hb h (ix2 r c) = p6 (ix2 r k) := by
  have hk := k.isLt
  rw [cat8, cat2_right _ _ h r c ⟨1536 + k.val, by omega⟩ (by show 1536 + k.val + 3072 = c.val; omega),
    cat4_2 _ _ _ _ _ r _ k rfl]

theorem cat8_7 (p0 p1 p2 p3 p4 p5 p6 p7 : T768.Idx → α) (ha hb : Shape.Concatenates [T768, T768, T768, T768] T3072 1)
    (h : Shape.Concatenates [T3072, T3072] T6144 1) (r : Fin 4096) (c : Fin 6144) (k : Fin 768) (hc : c.val = 5376 + k.val) :
    cat8 p0 p1 p2 p3 p4 p5 p6 p7 ha hb h (ix2 r c) = p7 (ix2 r k) := by
  have hk := k.isLt
  rw [cat8, cat2_right _ _ h r c ⟨2304 + k.val, by omega⟩ (by show 2304 + k.val + 3072 = c.val; omega),
    cat4_3 _ _ _ _ _ r _ k rfl]

end

end Cert.RefHead

end
-- ==== Proof.RefHeadA1.lean ====
/-
  The first layer of the reference's head before its bias.  The reference joins the eight cascade outputs of a row
  side by side and contracts the 6144 columns against W1; regrouping the sum by chunk gives the eight partial
  contractions added in chunk order from zero.
-/
import proofs.«171191_j1709396984333_2_alg».proof.Proof.RefReadP
import proofs.«171191_j1709396984333_2_alg».proof.Proof.Spec
import proofs.«171191_j1709396984333_2_alg».proof.Proof.RefHeadSum
import proofs.«171191_j1709396984333_2_alg».proof.Proof.RefHeadCat

noncomputable section

open Cert.ReferenceIdeal Cert.ReferenceIdeal.ReadP Idealize.ShloMosaic Idealize.ShloMosaic.ValueIdx
open scoped BigOperators

namespace Cert.RefHead

/-- An argument array of the reference at the extended reals. -/
abbrev A (s : Shape) : Type := (⟨s, .f32⟩ : BufTy).Contents (Elt Ideal)

/-- The two branches' and the head's parameters, from the argument arrays. -/
abbrev Bp (x1 : A S4x2304x768) (x2 : A S4x2304) (x3 : A S4x768x768) (x4 x5 x6 : A S4x768) : Cert.Spec.Branch := ⟨x1, x2, x3, x4, x5, x6⟩
abbrev Bj (x7 : A S4x2304x768) (x8 : A S4x2304) (x9 : A S4x768x768) (x10 x11 x12 : A S4x768) : Cert.Spec.Branch := ⟨x7, x8, x9, x10, x11, x12⟩
abbrev Hd (x13 : A S512x6144) (x14 x15 x16 : A S512) (x17 : A S128x512) (x18 x19 x20 : A S128) (x21 : A S1x128) (x22 : A S1) : Cert.Spec.Head :=
  ⟨x13, x14, x15, x16, x17, x18, x19, x20, x21, x22⟩

/-- The joined row at column 768 q + k is chunk q's cascade output at k. -/
theorem v528_at (x0 : A S4096x6144) (x1 : A S4x2304x768) (x2 : A S4x2304) (x3 : A S4x768x768) (x4 x5 x6 : A S4x768)
    (x7 : A S4x2304x768) (x8 : A S4x2304) (x9 : A S4x768x768) (x10 x11 x12 : A S4x768)
    (hc0 : ∀ (r : Fin 4096) (j : Fin 768), val_main_v58 (F := Ideal) x0 x1 x2 x3 x4 (ix2 r j) = Cert.Spec.hchunk x0 (Bp x1 x2 x3 x4 x5 x6) (Bj x7 x8 x9 x10 x11 x12) r 0 j)
    (hc1 : ∀ (r : Fin 4096) (j : Fin 768), val_main_v126 (F := Ideal) x0 x1 x2 x3 x4 x5 x6 (ix2 r j) = Cert.Spec.hchunk x0 (Bp x1 x2 x3 x4 x5 x6) (Bj x7 x8 x9 x10 x11 x12) r 1 j)
    (hc2 : ∀ (r : Fin 4096) (j : Fin 768), val_main_v194 (F := Ideal) x0 x1 x2 x3 x4 x5 x6 (ix2 r j) = Cert.Spec.hchunk x0 (Bp x1 x2 x3 x4 x5 x6) (Bj x7 x8 x9 x10 x11 x12) r 2 j)
    (hc3 : ∀ (r : Fin 4096) (j : Fin 768), val_main_v262 (F := Ideal) x0 x1 x2 x3 x4 x5 x6 (ix2 r j) = Cert.Spec.hchunk x0 (Bp x1 x2 x3 x4 x5 x6) (Bj x7 x8 x9 x10 x11 x12) r 3 j)
    (hc4 : ∀ (r : Fin 4096) (j : Fin 768), val_main_v322 (F := Ideal) x0 x7 x8 x9 x10 (ix2 r j) = Cert.Spec.hchunk x0 (Bp x1 x2 x3 x4 x5 x6) (Bj x7 x8 x9 x10 x11 x12) r 4 j)
    (hc5 : ∀ (r : Fin 4096) (j : Fin 768), val_main_v390 (F := Ideal) x0 x7 x8 x9 x10 x11 x12 (ix2 r j) = Cert.Spec.hchunk x0 (Bp x1 x2 x3 x4 x5 x6) (Bj x7 x8 x9 x10 x11 x12) r 5 j)
    (hc6 : ∀ (r : Fin 4096) (j : Fin 768), val_main_v458 (F := Ideal) x0 x7 x8 x9 x10 x11 x12 (ix2 r j) = Cert.Spec.hchunk x0 (Bp x1 x2 x3 x4 x5 x6) (Bj x7 x8 x9 x10 x11 x12) r 6 j)
    (hc7 : ∀ (r : Fin 4096) (j : Fin 768), val_main_v526 (F := Ideal) x0 x7 x8 x9 x10 x11 x12 (ix2 r j) = Cert.Spec.hchunk x0 (Bp x1 x2 x3 x4 x5 x6) (Bj x7 x8 x9 x10 x11 x12) r 7 j)
    (r : Fin 4096) (q : Fin 8) (k : Fin 768) :
    val_main_v528 (F := Ideal) x0 x1 x2 x3 x4 x5 x6 x7 x8 x9 x10 x11 x12 (ix2 r (Cert.Spec.xcol q k)) = Cert.Spec.hchunk x0 (Bp x1 x2 x3 x4 x5 x6) (Bj x7 x8 x9 x10 x11 x12) r q k :=
  match q with
  | ⟨0, _⟩ => (cat8_0 _ _ _ _ _ _ _ _ _ _ _ r _ k rfl).trans (hc0 r k)
  | ⟨1, _⟩ => (cat8_1 _ _ _ _ _ _ _ _ _ _ _ r _ k rfl).trans (hc1 r k)
  | ⟨2, _⟩ => (cat8_2 _ _ _ _ _ _ _ _ _ _ _ r _ k rfl).trans (hc2 r k)
  | ⟨3, _⟩ => (cat8_3 _ _ _ _ _ _ _ _ _ _ _ r _ k rfl).trans (hc3 r k)
  | ⟨4, _⟩ => (cat8_4 _ _ _ _ _ _ _ _ _ _ _ r _ k rfl).trans (hc4 r k)
  | ⟨5, _⟩ => (cat8_5 _ _ _ _ _ _ _ _ _ _ _ r _ k rfl).trans (hc5 r k)
  | ⟨6, _⟩ => (cat8_6 _ _ _ _ _ _ _ _ _ _ _ r _ k rfl).trans (hc6 r k)
  | ⟨7, _⟩ => (cat8_7 _ _ _ _ _ _ _ _ _ _ _ r _ k rfl).trans (hc7 r k)

/-- The left operand's index in the first contraction is (row, column). -/
theorem lidx530 (r : Fin 4096) (j : Fin 512) (c : Fin 6144) : lidx_main_v530 (ix2 r j) c = ix2 r c :=
  funext fun a => match a with | ⟨0, _⟩ => rfl | ⟨1, _⟩ => rfl
/-- The right operand of the first contraction is W1 transposed. -/
theorem w1_at (x13 : A S512x6144) (r : Fin 4096) (j : Fin 512) (c : Fin 6144) :
    val_main_v529 (F := Ideal) x13 (ridx_main_v530 (ix2 r j) c) = x13 (ix2 j c) := by
  rw [val_main_v529_apply]
  exact congrArg x13 (funext fun a => match a with | ⟨0, _⟩ => rfl | ⟨1, _⟩ => rfl)

/-- The first contraction is the specification's `a1`. -/
theorem v530_at (x0 : A S4096x6144) (x1 : A S4x2304x768) (x2 : A S4x2304) (x3 : A S4x768x768) (x4 x5 x6 : A S4x768)
    (x7 : A S4x2304x768) (x8 : A S4x2304) (x9 : A S4x768x768) (x10 x11 x12 : A S4x768) (x13 : A S512x6144)
    (hc0 : ∀ (r : Fin 4096) (j : Fin 768), val_main_v58 (F := Ideal) x0 x1 x2 x3 x4 (ix2 r j) = Cert.Spec.hchunk x0 (Bp x1 x2 x3 x4 x5 x6) (Bj x7 x8 x9 x10 x11 x12) r 0 j)
    (hc1 : ∀ (r : Fin 4096) (j : Fin 768), val_main_v126 (F := Ideal) x0 x1 x2 x3 x4 x5 x6 (ix2 r j) = Cert.Spec.hchunk x0 (Bp x1 x2 x3 x4 x5 x6) (Bj x7 x8 x9 x10 x11 x12) r 1 j)
    (hc2 : ∀ (r : Fin 4096) (j : Fin 768), val_main_v194 (F := Ideal) x0 x1 x2 x3 x4 x5 x6 (ix2 r j) = Cert.Spec.hchunk x0 (Bp x1 x2 x3 x4 x5 x6) (Bj x7 x8 x9 x10 x11 x12) r 2 j)
    (hc3 : ∀ (r : Fin 4096) (j : Fin 768), val_main_v262 (F := Ideal) x0 x1 x2 x3 x4 x5 x6 (ix2 r j) = Cert.Spec.hchunk x0 (Bp x1 x2 x3 x4 x5 x6) (Bj x7 x8 x9 x10 x11 x12) r 3 j)
    (hc4 : ∀ (r : Fin 4096) (j : Fin 768), val_main_v322 (F := Ideal) x0 x7 x8 x9 x10 (ix2 r j) = Cert.Spec.hchunk x0 (Bp x1 x2 x3 x4 x5 x6) (Bj x7 x8 x9 x10 x11 x12) r 4 j)
    (hc5 : ∀ (r : Fin 4096) (j : Fin 768), val_main_v390 (F := Ideal) x0 x7 x8 x9 x10 x11 x12 (ix2 r j) = Cert.Spec.hchunk x0 (Bp x1 x2 x3 x4 x5 x6) (Bj x7 x8 x9 x10 x11 x12) r 5 j)
    (hc6 : ∀ (r : Fin 4096) (j : Fin 768), val_main_v458 (F := Ideal) x0 x7 x8 x9 x10 x11 x12 (ix2 r j) = Cert.Spec.hchunk x0 (Bp x1 x2 x3 x4 x5 x6) (Bj x7 x8 x9 x10 x11 x12) r 6 j)
    (hc7 : ∀ (r : Fin 4096) (j : Fin 768), val_main_v526 (F := Ideal) x0 x7 x8 x9 x10 x11 x12 (ix2 r j) = Cert.Spec.hchunk x0 (Bp x1 x2 x3 x4 x5 x6) (Bj x7 x8 x9 x10 x11 x12) r 7 j)
    (r : Fin 4096) (j : Fin 512) (H : Cert.Spec.Head) (hW : H.W1 = x13) :
    val_main_v530 (F := Ideal) x0 x1 x2 x3 x4 x5 x6 x7 x8 x9 x10 x11 x12 x13 (ix2 r j) = Cert.Spec.a1 x0 (Bp x1 x2 x3 x4 x5 x6) (Bj x7 x8 x9 x10 x11 x12) H r j := by
  have hq : ∀ q : Fin 8, (∑ k : Fin 768, val_main_v528 (F := Ideal) x0 x1 x2 x3 x4 x5 x6 x7 x8 x9 x10 x11 x12 (lidx_main_v530 (ix2 r j) (Cert.Spec.xcol q k))
        * val_main_v529 (F := Ideal) x13 (ridx_main_v530 (ix2 r j) (Cert.Spec.xcol q k)))
      = Cert.Spec.w1part H (Cert.Spec.hchunk x0 (Bp x1 x2 x3 x4 x5 x6) (Bj x7 x8 x9 x10 x11 x12) r q) q j := by
    intro q
    unfold Cert.Spec.w1part
    refine Finset.sum_congr rfl fun k _ => ?_
    rw [lidx530, w1_at, v528_at x0 x1 x2 x3 x4 x5 x6 x7 x8 x9 x10 x11 x12 hc0 hc1 hc2 hc3 hc4 hc5 hc6 hc7, hW]
  rw [val_main_v530_apply,
    sum_by_chunks_from_zero (fun c => val_main_v528 (F := Ideal) x0 x1 x2 x3 x4 x5 x6 x7 x8 x9 x10 x11 x12 (lidx_main_v530 (ix2 r j) c)
      * val_main_v529 (F := Ideal) x13 (ridx_main_v530 (ix2 r j) c)) Cert.Spec.xcol (fun _ _ => rfl)]
  simp only [hq]
  rfl

end Cert.RefHead

end
-- ==== Proof.RefHead.lean ====
/-
  The reference's head, read row by row: the first contraction plus its bias, clipped at zero, scaled per feature
  and shifted; the same through the second contraction; and the last contraction against W3 plus its bias.  Each
  stage at (row, feature) is the specification's stage at that row, so the result array is the specification's G.
-/
import proofs.«171191_j1709396984333_2_alg».proof.Proof.RefHeadA1

noncomputable section

open Cert.ReferenceIdeal Cert.ReferenceIdeal.ReadP Idealize.ShloMosaic Idealize.ShloMosaic.ValueIdx
open scoped BigOperators

namespace Cert.RefHead

/-! ## The constants: the clip's zero and the scale's constant factor -/

theorem zero512 (i : S4096x512.Idx) : val_main_call0_v0 (F := Ideal) i = (0 : EReal) := by
  rw [val_main_call0_v0_apply, val_main_call0_cst_apply]; exact Ideal.ofBits_zero_f32
theorem zero128 (i : S4096x128.Idx) : val_main_call1_v0 (F := Ideal) i = (0 : EReal) := by
  rw [val_main_call1_v0_apply, val_main_call1_cst_apply]; exact Ideal.ofBits_zero_f32
theorem scale512 (i : S512.Idx) : val_main_v535 (F := Ideal) i = Cert.Spec.bnScale := by
  rw [val_main_v535_apply, val_main_cst_45_apply]; rfl
theorem scale128 (i : S128.Idx) : val_main_v549 (F := Ideal) i = Cert.Spec.bnScale := by
  rw [val_main_v549_apply, val_main_cst_46_apply]; rfl

/-! ## The per-feature vectors spread over the rows -/

/-- The first bias at (row, feature) is its entry at the feature. -/
theorem b1_at (x14 : A S512) (r : Fin 4096) (j : Fin 512) :
    val_main_v532 (F := Ideal) x14 (ix2 r j) = x14 (ix1 j) := by
  have e : idx_main_v531 (idx_main_v532 (ix2 r j)) = ix1 j := funext fun a => match a with | ⟨0, _⟩ => rfl
  rw [val_main_v532_apply, val_main_v531_apply, e]
/-- The first scale at (row, feature) is its entry at the feature times the constant factor. -/
theorem g1_at (x15 : A S512) (r : Fin 4096) (j : Fin 512) :
    val_main_v538 (F := Ideal) x15 (ix2 r j) = x15 (ix1 j) * Cert.Spec.bnScale := by
  have e : idx_main_v537 (idx_main_v538 (ix2 r j)) = ix1 j := funext fun a => match a with | ⟨0, _⟩ => rfl
  rw [val_main_v538_apply, val_main_v537_apply, val_main_v536_apply, scale512, e]; rfl
/-- The first shift. -/
theorem be1_at (x16 : A S512) (r : Fin 4096) (j : Fin 512) :
    val_main_v541 (F := Ideal) x16 (ix2 r j) = x16 (ix1 j) := by
  have e : idx_main_v540 (idx_main_v541 (ix2 r j)) = ix1 j := funext fun a => match a with | ⟨0, _⟩ => rfl
  rw [val_main_v541_apply, val_main_v540_apply, e]
/-- The second bias. -/
theorem b2_at (x18 : A S128) (r : Fin 4096) (j : Fin 128) :
    val_main_v546 (F := Ideal) x18 (ix2 r j) = x18 (ix1 j) := by
  have e : idx_main_v545 (idx_main_v546 (ix2 r j)) = ix1 j := funext fun a => match a with | ⟨0, _⟩ => rfl
  rw [val_main_v546_apply, val_main_v545_apply, e]
/-- The second scale. -/
theorem g2_at (x19 : A S128) (r : Fin 4096) (j : Fin 128) :
    val_main_v552 (F := Ideal) x19 (ix2 r j) = x19 (ix1 j) * Cert.Spec.bnScale := by
  have e : idx_main_v551 (idx_main_v552 (ix2 r j)) = ix1 j := funext fun a => match a with | ⟨0, _⟩ => rfl
  rw [val_main_v552_apply, val_main_v551_apply, val_main_v550_apply, scale128, e]; rfl
/-- The second shift. -/
theorem be2_at (x20 : A S128) (r : Fin 4096) (j : Fin 128) :
    val_main_v555 (F := Ideal) x20 (ix2 r j) = x20 (ix1 j) := by
  have e : idx_main_v554 (idx_main_v555 (ix2 r j)) = ix1 j := funext fun a => match a with | ⟨0, _⟩ => rfl
  rw [val_main_v555_apply, val_main_v554_apply, e]
/-- The last bias at a row is its one entry. -/
theorem b3_at (x22 : A S1) (r : Fin 4096) : val_main_v560 (F := Ideal) x22 (ix2 r 0) = x22 (ix1 0) := by
  have e : idx_main_v559 (idx_main_v560 (ix2 r (0 : Fin 1))) = ix1 0 := funext fun a => match a with | ⟨0, _⟩ => rfl
  rw [val_main_v560_apply, val_main_v559_apply, e]

/-! ## The weights of the second and third contractions, transposed -/

theorem lidx544 (r : Fin 4096) (j : Fin 128) (k : Fin 512) : lidx_main_v544 (ix2 r j) k = ix2 r k :=
  funext fun a => match a with | ⟨0, _⟩ => rfl | ⟨1, _⟩ => rfl
theorem w2_at (x17 : A S128x512) (r : Fin 4096) (j : Fin 128) (k : Fin 512) :
    val_main_v543 (F := Ideal) x17 (ridx_main_v544 (ix2 r j) k) = x17 (ix2 j k) := by
  rw [val_main_v543_apply]
  exact congrArg x17 (funext fun a => match a with | ⟨0, _⟩ => rfl | ⟨1, _⟩ => rfl)
theorem lidx558 (r : Fin 4096) (k : Fin 128) : lidx_main_v558 (ix2 r (0 : Fin 1)) k = ix2 r k :=
  funext fun a => match a with | ⟨0, _⟩ => rfl | ⟨1, _⟩ => rfl
theorem w3_at (x21 : A S1x128) (r : Fin 4096) (k : Fin 128) :
    val_main_v557 (F := Ideal) x21 (ridx_main_v558 (ix2 r (0 : Fin 1)) k) = x21 (ix2 0 k) := by
  rw [val_main_v557_apply]
  exact congrArg x21 (funext fun a => match a with | ⟨0, _⟩ => rfl | ⟨1, _⟩ => rfl)

/-! ## The stages -/

/-- The first layer's output at (row, feature). -/
theorem v542_at (x0 : A S4096x6144) (x1 : A S4x2304x768) (x2 : A S4x2304) (x3 : A S4x768x768) (x4 x5 x6 : A S4x768)
    (x7 : A S4x2304x768) (x8 : A S4x2304) (x9 : A S4x768x768) (x10 x11 x12 : A S4x768)
    (x13 : A S512x6144) (x14 x15 x16 : A S512) (x17 : A S128x512) (x18 x19 x20 : A S128) (x21 : A S1x128) (x22 : A S1)
    (hc0 : ∀ (r : Fin 4096) (j : Fin 768), val_main_v58 (F := Ideal) x0 x1 x2 x3 x4 (ix2 r j) = Cert.Spec.hchunk x0 (Bp x1 x2 x3 x4 x5 x6) (Bj x7 x8 x9 x10 x11 x12) r 0 j)
    (hc1 : ∀ (r : Fin 4096) (j : Fin 768), val_main_v126 (F := Ideal) x0 x1 x2 x3 x4 x5 x6 (ix2 r j) = Cert.Spec.hchunk x0 (Bp x1 x2 x3 x4 x5 x6) (Bj x7 x8 x9 x10 x11 x12) r 1 j)
    (hc2 : ∀ (r : Fin 4096) (j : Fin 768), val_main_v194 (F := Ideal) x0 x1 x2 x3 x4 x5 x6 (ix2 r j) = Cert.Spec.hchunk x0 (Bp x1 x2 x3 x4 x5 x6) (Bj x7 x8 x9 x10 x11 x12) r 2 j)
    (hc3 : ∀ (r : Fin 4096) (j : Fin 768), val_main_v262 (F := Ideal) x0 x1 x2 x3 x4 x5 x6 (ix2 r j) = Cert.Spec.hchunk x0 (Bp x1 x2 x3 x4 x5 x6) (Bj x7 x8 x9 x10 x11 x12) r 3 j)
    (hc4 : ∀ (r : Fin 4096) (j : Fin 768), val_main_v322 (F := Ideal) x0 x7 x8 x9 x10 (ix2 r j) = Cert.Spec.hchunk x0 (Bp x1 x2 x3 x4 x5 x6) (Bj x7 x8 x9 x10 x11 x12) r 4 j)
    (hc5 : ∀ (r : Fin 4096) (j : Fin 768), val_main_v390 (F := Ideal) x0 x7 x8 x9 x10 x11 x12 (ix2 r j) = Cert.Spec.hchunk x0 (Bp x1 x2 x3 x4 x5 x6) (Bj x7 x8 x9 x10 x11 x12) r 5 j)
    (hc6 : ∀ (r : Fin 4096) (j : Fin 768), val_main_v458 (F := Ideal) x0 x7 x8 x9 x10 x11 x12 (ix2 r j) = Cert.Spec.hchunk x0 (Bp x1 x2 x3 x4 x5 x6) (Bj x7 x8 x9 x10 x11 x12) r 6 j)
    (hc7 : ∀ (r : Fin 4096) (j : Fin 768), val_main_v526 (F := Ideal) x0 x7 x8 x9 x10 x11 x12 (ix2 r j) = Cert.Spec.hchunk x0 (Bp x1 x2 x3 x4 x5 x6) (Bj x7 x8 x9 x10 x11 x12) r 7 j)
    (r : Fin 4096) (j : Fin 512) :
    val_main_v542 (F := Ideal) x0 x1 x2 x3 x4 x5 x6 x7 x8 x9 x10 x11 x12 x13 x14 x15 x16 (ix2 r j) = Cert.Spec.h1 (Hd x13 x14 x15 x16 x17 x18 x19 x20 x21 x22) (Cert.Spec.a1 x0 (Bp x1 x2 x3 x4 x5 x6) (Bj x7 x8 x9 x10 x11 x12) (Hd x13 x14 x15 x16 x17 x18 x19 x20 x21 x22) r) j := by
  rw [val_main_v542_apply, val_main_v539_apply, val_main_v534_apply, val_main_v533_apply,
    v530_at x0 x1 x2 x3 x4 x5 x6 x7 x8 x9 x10 x11 x12 x13 hc0 hc1 hc2 hc3 hc4 hc5 hc6 hc7 r j (Hd x13 x14 x15 x16 x17 x18 x19 x20 x21 x22) rfl, b1_at, zero512, g1_at, be1_at]
  rfl

/-- The second contraction plus its bias at (row, feature). -/
theorem v547_at (x0 : A S4096x6144) (x1 : A S4x2304x768) (x2 : A S4x2304) (x3 : A S4x768x768) (x4 x5 x6 : A S4x768)
    (x7 : A S4x2304x768) (x8 : A S4x2304) (x9 : A S4x768x768) (x10 x11 x12 : A S4x768)
    (x13 : A S512x6144) (x14 x15 x16 : A S512) (x17 : A S128x512) (x18 x19 x20 : A S128) (x21 : A S1x128) (x22 : A S1)
    (hc0 : ∀ (r : Fin 4096) (j : Fin 768), val_main_v58 (F := Ideal) x0 x1 x2 x3 x4 (ix2 r j) = Cert.Spec.hchunk x0 (Bp x1 x2 x3 x4 x5 x6) (Bj x7 x8 x9 x10 x11 x12) r 0 j)
    (hc1 : ∀ (r : Fin 4096) (j : Fin 768), val_main_v126 (F := Ideal) x0 x1 x2 x3 x4 x5 x6 (ix2 r j) = Cert.Spec.hchunk x0 (Bp x1 x2 x3 x4 x5 x6) (Bj x7 x8 x9 x10 x11 x12) r 1 j)
    (hc2 : ∀ (r : Fin 4096) (j : Fin 768), val_main_v194 (F := Ideal) x0 x1 x2 x3 x4 x5 x6 (ix2 r j) = Cert.Spec.hchunk x0 (Bp x1 x2 x3 x4 x5 x6) (Bj x7 x8 x9 x10 x11 x12) r 2 j)
    (hc3 : ∀ (r : Fin 4096) (j : Fin 768), val_main_v262 (F := Ideal) x0 x1 x2 x3 x4 x5 x6 (ix2 r j) = Cert.Spec.hchunk x0 (Bp x1 x2 x3 x4 x5 x6) (Bj x7 x8 x9 x10 x11 x12) r 3 j)
    (hc4 : ∀ (r : Fin 4096) (j : Fin 768), val_main_v322 (F := Ideal) x0 x7 x8 x9 x10 (ix2 r j) = Cert.Spec.hchunk x0 (Bp x1 x2 x3 x4 x5 x6) (Bj x7 x8 x9 x10 x11 x12) r 4 j)
    (hc5 : ∀ (r : Fin 4096) (j : Fin 768), val_main_v390 (F := Ideal) x0 x7 x8 x9 x10 x11 x12 (ix2 r j) = Cert.Spec.hchunk x0 (Bp x1 x2 x3 x4 x5 x6) (Bj x7 x8 x9 x10 x11 x12) r 5 j)
    (hc6 : ∀ (r : Fin 4096) (j : Fin 768), val_main_v458 (F := Ideal) x0 x7 x8 x9 x10 x11 x12 (ix2 r j) = Cert.Spec.hchunk x0 (Bp x1 x2 x3 x4 x5 x6) (Bj x7 x8 x9 x10 x11 x12) r 6 j)
    (hc7 : ∀ (r : Fin 4096) (j : Fin 768), val_main_v526 (F := Ideal) x0 x7 x8 x9 x10 x11 x12 (ix2 r j) = Cert.Spec.hchunk x0 (Bp x1 x2 x3 x4 x5 x6) (Bj x7 x8 x9 x10 x11 x12) r 7 j)
    (r : Fin 4096) (j : Fin 128) :
    val_main_v547 (F := Ideal) x0 x1 x2 x3 x4 x5 x6 x7 x8 x9 x10 x11 x12 x13 x14 x15 x16 x17 x18 (ix2 r j) = Cert.Spec.a2 (Hd x13 x14 x15 x16 x17 x18 x19 x20 x21 x22) (Cert.Spec.h1 (Hd x13 x14 x15 x16 x17 x18 x19 x20 x21 x22) (Cert.Spec.a1 x0 (Bp x1 x2 x3 x4 x5 x6) (Bj x7 x8 x9 x10 x11 x12) (Hd x13 x14 x15 x16 x17 x18 x19 x20 x21 x22) r)) j := by
  have hs : (∑ k : Fin 512, val_main_v542 (F := Ideal) x0 x1 x2 x3 x4 x5 x6 x7 x8 x9 x10 x11 x12 x13 x14 x15 x16 (lidx_main_v544 (ix2 r j) k)
        * val_main_v543 (F := Ideal) x17 (ridx_main_v544 (ix2 r j) k))
      = ∑ k : Fin 512, Cert.Spec.h1 (Hd x13 x14 x15 x16 x17 x18 x19 x20 x21 x22) (Cert.Spec.a1 x0 (Bp x1 x2 x3 x4 x5 x6) (Bj x7 x8 x9 x10 x11 x12) (Hd x13 x14 x15 x16 x17 x18 x19 x20 x21 x22) r) k * x17 (ix2 j k) :=
    Finset.sum_congr rfl fun k _ => by
      rw [lidx544, w2_at, v542_at x0 x1 x2 x3 x4 x5 x6 x7 x8 x9 x10 x11 x12 x13 x14 x15 x16 x17 x18 x19 x20 x21 x22 hc0 hc1 hc2 hc3 hc4 hc5 hc6 hc7 r k]
  rw [val_main_v547_apply, val_main_v544_apply, hs, b2_at]
  rfl

/-- The second layer's output at (row, feature). -/
theorem v556_at (x0 : A S4096x6144) (x1 : A S4x2304x768) (x2 : A S4x2304) (x3 : A S4x768x768) (x4 x5 x6 : A S4x768)
    (x7 : A S4x2304x768) (x8 : A S4x2304) (x9 : A S4x768x768) (x10 x11 x12 : A S4x768)
    (x13 : A S512x6144) (x14 x15 x16 : A S512) (x17 : A S128x512) (x18 x19 x20 : A S128) (x21 : A S1x128) (x22 : A S1)
    (hc0 : ∀ (r : Fin 4096) (j : Fin 768), val_main_v58 (F := Ideal) x0 x1 x2 x3 x4 (ix2 r j) = Cert.Spec.hchunk x0 (Bp x1 x2 x3 x4 x5 x6) (Bj x7 x8 x9 x10 x11 x12) r 0 j)
    (hc1 : ∀ (r : Fin 4096) (j : Fin 768), val_main_v126 (F := Ideal) x0 x1 x2 x3 x4 x5 x6 (ix2 r j) = Cert.Spec.hchunk x0 (Bp x1 x2 x3 x4 x5 x6) (Bj x7 x8 x9 x10 x11 x12) r 1 j)
    (hc2 : ∀ (r : Fin 4096) (j : Fin 768), val_main_v194 (F := Ideal) x0 x1 x2 x3 x4 x5 x6 (ix2 r j) = Cert.Spec.hchunk x0 (Bp x1 x2 x3 x4 x5 x6) (Bj x7 x8 x9 x10 x11 x12) r 2 j)
    (hc3 : ∀ (r : Fin 4096) (j : Fin 768), val_main_v262 (F := Ideal) x0 x1 x2 x3 x4 x5 x6 (ix2 r j) = Cert.Spec.hchunk x0 (Bp x1 x2 x3 x4 x5 x6) (Bj x7 x8 x9 x10 x11 x12) r 3 j)
    (hc4 : ∀ (r : Fin 4096) (j : Fin 768), val_main_v322 (F := Ideal) x0 x7 x8 x9 x10 (ix2 r j) = Cert.Spec.hchunk x0 (Bp x1 x2 x3 x4 x5 x6) (Bj x7 x8 x9 x10 x11 x12) r 4 j)
    (hc5 : ∀ (r : Fin 4096) (j : Fin 768), val_main_v390 (F := Ideal) x0 x7 x8 x9 x10 x11 x12 (ix2 r j) = Cert.Spec.hchunk x0 (Bp x1 x2 x3 x4 x5 x6) (Bj x7 x8 x9 x10 x11 x12) r 5 j)
    (hc6 : ∀ (r : Fin 4096) (j : Fin 768), val_main_v458 (F := Ideal) x0 x7 x8 x9 x10 x11 x12 (ix2 r j) = Cert.Spec.hchunk x0 (Bp x1 x2 x3 x4 x5 x6) (Bj x7 x8 x9 x10 x11 x12) r 6 j)
    (hc7 : ∀ (r : Fin 4096) (j : Fin 768), val_main_v526 (F := Ideal) x0 x7 x8 x9 x10 x11 x12 (ix2 r j) = Cert.Spec.hchunk x0 (Bp x1 x2 x3 x4 x5 x6) (Bj x7 x8 x9 x10 x11 x12) r 7 j)
    (r : Fin 4096) (j : Fin 128) :
    val_main_v556 (F := Ideal) x0 x1 x2 x3 x4 x5 x6 x7 x8 x9 x10 x11 x12 x13 x14 x15 x16 x17 x18 x19 x20 (ix2 r j) = Cert.Spec.h2 (Hd x13 x14 x15 x16 x17 x18 x19 x20 x21 x22) (Cert.Spec.a2 (Hd x13 x14 x15 x16 x17 x18 x19 x20 x21 x22) (Cert.Spec.h1 (Hd x13 x14 x15 x16 x17 x18 x19 x20 x21 x22) (Cert.Spec.a1 x0 (Bp x1 x2 x3 x4 x5 x6) (Bj x7 x8 x9 x10 x11 x12) (Hd x13 x14 x15 x16 x17 x18 x19 x20 x21 x22) r))) j := by
  rw [val_main_v556_apply, val_main_v553_apply, val_main_v548_apply,
    v547_at x0 x1 x2 x3 x4 x5 x6 x7 x8 x9 x10 x11 x12 x13 x14 x15 x16 x17 x18 x19 x20 x21 x22 hc0 hc1 hc2 hc3 hc4 hc5 hc6 hc7 r j, zero128, g2_at, be2_at]
  rfl

/-- The result at a row. -/
theorem v561_at (x0 : A S4096x6144) (x1 : A S4x2304x768) (x2 : A S4x2304) (x3 : A S4x768x768) (x4 x5 x6 : A S4x768)
    (x7 : A S4x2304x768) (x8 : A S4x2304) (x9 : A S4x768x768) (x10 x11 x12 : A S4x768)
    (x13 : A S512x6144) (x14 x15 x16 : A S512) (x17 : A S128x512) (x18 x19 x20 : A S128) (x21 : A S1x128) (x22 : A S1)
    (hc0 : ∀ (r : Fin 4096) (j : Fin 768), val_main_v58 (F := Ideal) x0 x1 x2 x3 x4 (ix2 r j) = Cert.Spec.hchunk x0 (Bp x1 x2 x3 x4 x5 x6) (Bj x7 x8 x9 x10 x11 x12) r 0 j)
    (hc1 : ∀ (r : Fin 4096) (j : Fin 768), val_main_v126 (F := Ideal) x0 x1 x2 x3 x4 x5 x6 (ix2 r j) = Cert.Spec.hchunk x0 (Bp x1 x2 x3 x4 x5 x6) (Bj x7 x8 x9 x10 x11 x12) r 1 j)
    (hc2 : ∀ (r : Fin 4096) (j : Fin 768), val_main_v194 (F := Ideal) x0 x1 x2 x3 x4 x5 x6 (ix2 r j) = Cert.Spec.hchunk x0 (Bp x1 x2 x3 x4 x5 x6) (Bj x7 x8 x9 x10 x11 x12) r 2 j)
    (hc3 : ∀ (r : Fin 4096) (j : Fin 768), val_main_v262 (F := Ideal) x0 x1 x2 x3 x4 x5 x6 (ix2 r j) = Cert.Spec.hchunk x0 (Bp x1 x2 x3 x4 x5 x6) (Bj x7 x8 x9 x10 x11 x12) r 3 j)
    (hc4 : ∀ (r : Fin 4096) (j : Fin 768), val_main_v322 (F := Ideal) x0 x7 x8 x9 x10 (ix2 r j) = Cert.Spec.hchunk x0 (Bp x1 x2 x3 x4 x5 x6) (Bj x7 x8 x9 x10 x11 x12) r 4 j)
    (hc5 : ∀ (r : Fin 4096) (j : Fin 768), val_main_v390 (F := Ideal) x0 x7 x8 x9 x10 x11 x12 (ix2 r j) = Cert.Spec.hchunk x0 (Bp x1 x2 x3 x4 x5 x6) (Bj x7 x8 x9 x10 x11 x12) r 5 j)
    (hc6 : ∀ (r : Fin 4096) (j : Fin 768), val_main_v458 (F := Ideal) x0 x7 x8 x9 x10 x11 x12 (ix2 r j) = Cert.Spec.hchunk x0 (Bp x1 x2 x3 x4 x5 x6) (Bj x7 x8 x9 x10 x11 x12) r 6 j)
    (hc7 : ∀ (r : Fin 4096) (j : Fin 768), val_main_v526 (F := Ideal) x0 x7 x8 x9 x10 x11 x12 (ix2 r j) = Cert.Spec.hchunk x0 (Bp x1 x2 x3 x4 x5 x6) (Bj x7 x8 x9 x10 x11 x12) r 7 j)
    (r : Fin 4096) :
    val_main_v561 (F := Ideal) x0 x1 x2 x3 x4 x5 x6 x7 x8 x9 x10 x11 x12 x13 x14 x15 x16 x17 x18 x19 x20 x21 x22 (ix2 r 0) = Cert.Spec.rowOut x0 (Bp x1 x2 x3 x4 x5 x6) (Bj x7 x8 x9 x10 x11 x12) (Hd x13 x14 x15 x16 x17 x18 x19 x20 x21 x22) r := by
  have hs : (∑ k : Fin 128, val_main_v556 (F := Ideal) x0 x1 x2 x3 x4 x5 x6 x7 x8 x9 x10 x11 x12 x13 x14 x15 x16 x17 x18 x19 x20 (lidx_main_v558 (ix2 r (0 : Fin 1)) k)
        * val_main_v557 (F := Ideal) x21 (ridx_main_v558 (ix2 r (0 : Fin 1)) k))
      = ∑ k : Fin 128, Cert.Spec.h2 (Hd x13 x14 x15 x16 x17 x18 x19 x20 x21 x22) (Cert.Spec.a2 (Hd x13 x14 x15 x16 x17 x18 x19 x20 x21 x22) (Cert.Spec.h1 (Hd x13 x14 x15 x16 x17 x18 x19 x20 x21 x22) (Cert.Spec.a1 x0 (Bp x1 x2 x3 x4 x5 x6) (Bj x7 x8 x9 x10 x11 x12) (Hd x13 x14 x15 x16 x17 x18 x19 x20 x21 x22) r))) k * x21 (ix2 0 k) :=
    Finset.sum_congr rfl fun k _ => by
      rw [lidx558, w3_at, v556_at x0 x1 x2 x3 x4 x5 x6 x7 x8 x9 x10 x11 x12 x13 x14 x15 x16 x17 x18 x19 x20 x21 x22 hc0 hc1 hc2 hc3 hc4 hc5 hc6 hc7 r k]
  rw [val_main_v561_apply, val_main_v558_apply, hs, b3_at]
  rfl

/-- **The reference's result is the specification's array**, given that each of the eight cascade outputs is the
    specification's chunk. -/
theorem result_eq (x0 : A S4096x6144) (x1 : A S4x2304x768) (x2 : A S4x2304) (x3 : A S4x768x768) (x4 x5 x6 : A S4x768)
    (x7 : A S4x2304x768) (x8 : A S4x2304) (x9 : A S4x768x768) (x10 x11 x12 : A S4x768)
    (x13 : A S512x6144) (x14 x15 x16 : A S512) (x17 : A S128x512) (x18 x19 x20 : A S128) (x21 : A S1x128) (x22 : A S1)
    (hc0 : ∀ (r : Fin 4096) (j : Fin 768), val_main_v58 (F := Ideal) x0 x1 x2 x3 x4 (ix2 r j) = Cert.Spec.hchunk x0 (Bp x1 x2 x3 x4 x5 x6) (Bj x7 x8 x9 x10 x11 x12) r 0 j)
    (hc1 : ∀ (r : Fin 4096) (j : Fin 768), val_main_v126 (F := Ideal) x0 x1 x2 x3 x4 x5 x6 (ix2 r j) = Cert.Spec.hchunk x0 (Bp x1 x2 x3 x4 x5 x6) (Bj x7 x8 x9 x10 x11 x12) r 1 j)
    (hc2 : ∀ (r : Fin 4096) (j : Fin 768), val_main_v194 (F := Ideal) x0 x1 x2 x3 x4 x5 x6 (ix2 r j) = Cert.Spec.hchunk x0 (Bp x1 x2 x3 x4 x5 x6) (Bj x7 x8 x9 x10 x11 x12) r 2 j)
    (hc3 : ∀ (r : Fin 4096) (j : Fin 768), val_main_v262 (F := Ideal) x0 x1 x2 x3 x4 x5 x6 (ix2 r j) = Cert.Spec.hchunk x0 (Bp x1 x2 x3 x4 x5 x6) (Bj x7 x8 x9 x10 x11 x12) r 3 j)
    (hc4 : ∀ (r : Fin 4096) (j : Fin 768), val_main_v322 (F := Ideal) x0 x7 x8 x9 x10 (ix2 r j) = Cert.Spec.hchunk x0 (Bp x1 x2 x3 x4 x5 x6) (Bj x7 x8 x9 x10 x11 x12) r 4 j)
    (hc5 : ∀ (r : Fin 4096) (j : Fin 768), val_main_v390 (F := Ideal) x0 x7 x8 x9 x10 x11 x12 (ix2 r j) = Cert.Spec.hchunk x0 (Bp x1 x2 x3 x4 x5 x6) (Bj x7 x8 x9 x10 x11 x12) r 5 j)
    (hc6 : ∀ (r : Fin 4096) (j : Fin 768), val_main_v458 (F := Ideal) x0 x7 x8 x9 x10 x11 x12 (ix2 r j) = Cert.Spec.hchunk x0 (Bp x1 x2 x3 x4 x5 x6) (Bj x7 x8 x9 x10 x11 x12) r 6 j)
    (hc7 : ∀ (r : Fin 4096) (j : Fin 768), val_main_v526 (F := Ideal) x0 x7 x8 x9 x10 x11 x12 (ix2 r j) = Cert.Spec.hchunk x0 (Bp x1 x2 x3 x4 x5 x6) (Bj x7 x8 x9 x10 x11 x12) r 7 j) :
    val_main_v561 (F := Ideal) x0 x1 x2 x3 x4 x5 x6 x7 x8 x9 x10 x11 x12 x13 x14 x15 x16 x17 x18 x19 x20 x21 x22 = Cert.Spec.G x0 (Bp x1 x2 x3 x4 x5 x6) (Bj x7 x8 x9 x10 x11 x12) (Hd x13 x14 x15 x16 x17 x18 x19 x20 x21 x22) := by
  funext i
  obtain ⟨r, z, rfl⟩ : ∃ (r : Fin 4096) (z : Fin 1), i = ix2 r z := ⟨i 0, i 1, eq_ix2 i⟩
  have hz : z = 0 := Subsingleton.elim _ _
  subst hz
  exact v561_at x0 x1 x2 x3 x4 x5 x6 x7 x8 x9 x10 x11 x12 x13 x14 x15 x16 x17 x18 x19 x20 x21 x22 hc0 hc1 hc2 hc3 hc4 hc5 hc6 hc7 r

end Cert.RefHead

end
-- ==== Proof.RefConsts.lean ====
/-
  The float constants the two programs spell, as the extended reals their patterns denote, and the few facts of
  extended-real arithmetic about them that the attention-weight argument uses: the scale literal is a real number,
  a finite score divided by √192 is finite, e⁰ = 1, 1 / 1 = 1, and −∞ is neutral for max.
-/
import proofs.«171191_j1709396984333_2_alg».proof.Proof.Spec

noncomputable section

namespace Cert.RefConsts

open Idealize.ShloMosaic Cert.Spec

/-- The pattern of −∞. -/
theorem ofBits_neg_inf : Ideal.ofBits .f32 0xFF800000#32 = ⊥ := by
  simp [Ideal.ofBits, Ideal.ieee]

/-- `192.0` denotes the real 192. -/
theorem ofBits_192 : Ideal.ofBits .f32 0x43400000#32 = ((192 : ℝ) : EReal) := by
  simp [Ideal.ofBits, Ideal.ieee, -EReal.coe_mul]; norm_num

/-- The scale literal denotes a real number. -/
theorem isFin_bnScale : IsFin bnScale := by
  show IsFin (Ideal.ofBits .f32 0x3F7FFFAC#32)
  unfold IsFin
  simp [Ideal.ofBits, Ideal.ieee, -EReal.coe_mul]

/-- The square root of the literal 192 is the real √192, which is not zero. -/
theorem sqrt_192 : Ideal.sqrt (Ideal.ofBits .f32 0x43400000#32) = ((Real.sqrt 192 : ℝ) : EReal) := by
  rw [ofBits_192, Ideal.sqrt_coe, if_neg (by norm_num)]

theorem sqrt_192_ne_zero : Real.sqrt 192 ≠ 0 := by
  have : (0 : ℝ) < Real.sqrt 192 := Real.sqrt_pos.mpr (by norm_num)
  exact ne_of_gt this

/-- A finite score over √192 is finite. -/
theorem isFin_div_sqrt {x : EReal} (hx : IsFin x) :
    IsFin (Ideal.div x (Ideal.sqrt (Ideal.ofBits .f32 0x43400000#32))) := by
  rw [sqrt_192, Ideal.div_coe sqrt_192_ne_zero]
  exact hx.mul (isFin_coe _)

theorem exp_zero : Ideal.exp 0 = 1 := by
  show Ideal.exp ((0 : ℝ) : EReal) = 1
  rw [Ideal.exp_coe, Real.exp_zero]; rfl

theorem div_one_one : Ideal.div 1 1 = 1 := by
  unfold Ideal.div
  rw [if_neg one_ne_zero]
  simp

/-- A finite number minus itself is zero. -/
theorem sub_self_of_isFin {x : EReal} (hx : IsFin x) : x - x = 0 := by
  obtain ⟨r, rfl⟩ := (isFin_iff x).mp hx
  rw [← EReal.coe_sub, sub_self]; rfl

end Cert.RefConsts

end
-- ==== Proof.RefSoftmax.lean ====
/-
  Attention over ONE key.  The scores array has a last axis of length one, so the maximum over that axis is the score
  itself (−∞ is neutral for max), a FINITE score minus itself is 0, e⁰ = 1, the sum over the one key is 0 + 1, and
  1 / 1 = 1: the attention weights are all 1, and weighting the values by them and undoing the head split gives the
  value projection back.
-/
import proofs.«171191_j1709396984333_2_alg».proof.Proof.RefReadP
import proofs.«171191_j1709396984333_2_alg».proof.Proof.RefConsts
import Idealize.ShloMosaic.PureOps.Reduce

noncomputable section

namespace Cert.RefSoftmax

open Cert.ReferenceIdeal Cert.ReferenceIdeal.Gen Cert.ReferenceIdeal.ReadP
open Idealize.ShloMosaic Idealize.ShloMosaic.TcCoe Idealize.ShloMosaic.StableHlo Idealize.ShloMosaic.ValueIdx
open Cert.Spec Cert.RefConsts

/-- The per-head maximum over the one key, from −∞, broadcast back over the key axis. -/
abbrev keyMax (s : FVec Ideal S4096x4x1 .f32) : FVec Ideal S4096x4x1 .f32 :=
  broadcastInDim S4096x4x1 ![0, 1] bcast_S4096x4_S4096x4x1_0_1
    (maximumf (broadcastInDim S4096x4 ![] bcast_S_S4096x4 (constant S_ .f32 0xFF800000#32))
      (Host.reduce FloatOps.maximumf s (constant S_ .f32 0xFF800000#32) reducesTo_S4096x4x1_S4096x4_d2 h_S_))

/-- The exponentials of the shifted scores. -/
abbrev expShift (s : FVec Ideal S4096x4x1 .f32) : FVec Ideal S4096x4x1 .f32 := Host.exp (subf s (keyMax s))

/-- The attention weights. -/
abbrev weights (s : FVec Ideal S4096x4x1 .f32) : FVec Ideal S4096x4x1 .f32 :=
  Host.divf (expShift s)
    (broadcastInDim S4096x4x1 ![0, 1] bcast_S4096x4_S4096x4x1_0_1
      (Host.reduceAdd (expShift s) (constant S_ .f32 0x00000000#32) reducesTo_S4096x4x1_S4096x4_d2 h_S_))

theorem hred : S4096x4x1.Reduces [2] S4096x4 := by
  obtain ⟨h, hb⟩ := reducesTo_S4096x4x1_S4096x4_d2
  exact ⟨h, by decide, hb⟩

/-- The key axis has one coordinate. -/
instance keyUnique : Unique (Fin (S4096x4x1.size 2)) := inferInstanceAs (Unique (Fin 1))

/-- A [4096,4,1] index is its first two coordinates with 0 put back on the key axis. -/
theorem lift_eq (i : S4096x4x1.Idx) (k : Fin (S4096x4x1.size 2)) : hred.lift (idx_main_v45 i) k = i := by
  funext c
  apply Fin.ext
  rw [Shape.Reduces.lift_val]
  have hk : k.val < 1 := k.isLt
  have hi : (i 2).val < 1 := (i 2).isLt
  match c with
  | ⟨0, _⟩ => rfl
  | ⟨1, _⟩ => rfl
  | ⟨2, _⟩ => show k.val = (i 2).val; omega

/-- Over one key the maximum is the score itself. -/
theorem keyMax_apply (s : FVec Ideal S4096x4x1 .f32) (i : S4096x4x1.Idx) : keyMax s i = s i := by
  unfold keyMax
  rw [broadcastInDim_apply _ bcast_S4096x4_S4096x4x1_0_1 _ i (idx_main_v45 i) (fun a => match a with
    | ⟨0, _⟩ => by show (i 0).val = if (4096 : Nat) = 1 then 0 else (i 0).val; rw [if_neg (by decide)]
    | ⟨1, _⟩ => by show (i 1).val = if (4 : Nat) = 1 then 0 else (i 1).val; rw [if_neg (by decide)])]
  show FloatOps.maximumf (broadcastInDim S4096x4 ![] bcast_S_S4096x4 (constant S_ .f32 0xFF800000#32) (idx_main_v45 i))
      (Host.reduce FloatOps.maximumf s (constant S_ .f32 0xFF800000#32) reducesTo_S4096x4x1_S4096x4_d2 h_S_ (idx_main_v45 i)) = s i
  rw [broadcastInDim_apply _ bcast_S_S4096x4 _ (idx_main_v45 i) (idx_main_v43 (idx_main_v45 i)) (fun a => a.elim0),
    Host.reduce_eq_fold_single FloatOps.maximumf s _ reducesTo_S4096x4x1_S4096x4_d2 hred h_S_]
  show max (Ideal.ofBits .f32 0xFF800000#32)
      ((Finset.univ : Finset (Fin (S4096x4x1.size 2))).fold (max : EReal → EReal → EReal) (Ideal.ofBits .f32 0xFF800000#32) (s ∘ hred.lift (idx_main_v45 i))) = s i
  rw [Finset.univ_unique, Finset.fold_singleton, ofBits_neg_inf, Function.comp_apply, lift_eq]
  simp

/-- A finite score's shifted exponential is 1. -/
theorem expShift_apply (s : FVec Ideal S4096x4x1 .f32) (i : S4096x4x1.Idx) (hs : IsFin (s i)) : expShift s i = 1 := by
  show Ideal.exp (s i - keyMax s i) = 1
  rw [keyMax_apply, sub_self_of_isFin hs, exp_zero]

/-- Finite scores give weights 1. -/
theorem weights_apply (s : FVec Ideal S4096x4x1 .f32) (hs : AllFin s) (i : S4096x4x1.Idx) : weights s i = 1 := by
  show Ideal.div (expShift s i) (broadcastInDim S4096x4x1 ![0, 1] bcast_S4096x4_S4096x4x1_0_1
      (Host.reduceAdd (expShift s) (constant S_ .f32 0x00000000#32) reducesTo_S4096x4x1_S4096x4_d2 h_S_) i) = 1
  rw [broadcastInDim_apply _ bcast_S4096x4_S4096x4x1_0_1 _ i (idx_main_v45 i) (fun a => match a with
    | ⟨0, _⟩ => by show (i 0).val = if (4096 : Nat) = 1 then 0 else (i 0).val; rw [if_neg (by decide)]
    | ⟨1, _⟩ => by show (i 1).val = if (4 : Nat) = 1 then 0 else (i 1).val; rw [if_neg (by decide)])]
  simp only [Host.reduceAdd, Ideal.hostReduceAdd_def]
  rw [Ideal.hostReduceAdd_single reducesTo_S4096x4x1_S4096x4_d2 hred]
  have hsum : (∑ k : Fin (S4096x4x1.size 2), expShift s (hred.lift (idx_main_v45 i) k)) = 1 := by
    rw [Finset.univ_unique, Finset.sum_singleton, lift_eq, expShift_apply s i (hs i)]
  rw [hsum, expShift_apply s i (hs i)]
  show Ideal.div 1 (Ideal.ofBits .f32 0x00000000#32 + 1) = 1
  rw [Ideal.ofBits_zero_f32, zero_add, div_one_one]

/-- With finite scores, weighting the head-split values by the attention weights and merging the heads again gives the
    values back. -/
theorem ctx_eq (s : FVec Ideal S4096x4x1 .f32) (v : FVec Ideal S4096x768 .f32) (hs : AllFin s) :
    shapeCast S4096x768 (mulf (broadcastInDim S4096x4x192 ![0, 1, 2] bcast_S4096x4x1_S4096x4x192_0_1_2 (weights s))
      (shapeCast S4096x4x192 v shapeCasts_S4096x768_S4096x4x192)) shapeCasts_S4096x4x192_S4096x768 = v := by
  have hw : mulf (broadcastInDim S4096x4x192 ![0, 1, 2] bcast_S4096x4x1_S4096x4x192_0_1_2 (weights s))
      (shapeCast S4096x4x192 v shapeCasts_S4096x768_S4096x4x192) = shapeCast S4096x4x192 v shapeCasts_S4096x768_S4096x4x192 := by
    funext j
    show (broadcastInDim S4096x4x192 ![0, 1, 2] bcast_S4096x4x1_S4096x4x192_0_1_2 (weights s) j) * _ = _
    rw [show broadcastInDim S4096x4x192 ![0, 1, 2] bcast_S4096x4x1_S4096x4x192_0_1_2 (weights s) j = weights s _ from rfl,
      weights_apply s hs, one_mul]
  rw [hw]
  exact shapeCast_shapeCast v _ _

end Cert.RefSoftmax

end
-- ==== Proof.RefFin.lean ====
/-
  Finiteness travels through the reference's array operations: a re-laid array (slice, reshape, transpose, broadcast)
  holds only entries of its operand; sums and products of real numbers are real numbers, hence an elementwise sum or
  product, a contraction (a finite sum of products) and a sum over axes from a finite initial value are finite arrays.
-/
import proofs.«171191_j1709396984333_2_alg».proof.Proof.RefConsts
import Idealize.ShloMosaic.PureOps.Ideal.Laws
import Idealize.ShloMosaic.PureOps.Contract

noncomputable section

namespace Cert.RefFin

open Idealize.ShloMosaic Cert.Spec Cert.RefConsts

variable {s t : Shape}

theorem fin_slice (off : Fin s.rank → Nat) (x : s.Idx → EReal) (h : s.Slices off t) (hx : AllFin x) :
    AllFin (extractStridedSlice t off x h) := fun j => hx _

theorem fin_shapeCast (x : s.Idx → EReal) (h : s.ShapeCasts t) (hx : AllFin x) : AllFin (shapeCast t x h) :=
  fun j => hx _

theorem fin_transpose (perm : List (Fin s.rank)) (x : s.Idx → EReal) (h : s.Transposes perm t) (hx : AllFin x) :
    AllFin (transpose t perm x h) := fun j => hx _

theorem fin_bcast (dims : Fin s.rank → Fin t.rank) (h : s.BroadcastsInDim t dims) (x : s.Idx → EReal) (hx : AllFin x) :
    AllFin (broadcastInDim t dims h x) := fun j => hx _

theorem fin_addf {φ : FTy} (x y : FVec Ideal s φ) (hx : AllFin x) (hy : AllFin y) : AllFin (addf x y) :=
  fun j => (hx j).add (hy j)

theorem fin_mulf {φ : FTy} (x y : FVec Ideal s φ) (hx : AllFin x) (hy : AllFin y) : AllFin (mulf x y) :=
  fun j => (hx j).mul (hy j)

theorem fin_dot {sl sr so : Shape} {φ₁ φ₂ : FTy} (d : DotDims sl sr so) (prec : Option ContractPrecision)
    (l : FVec Ideal sl φ₁) (r : FVec Ideal sr φ₂) (hl : AllFin l) (hr : AllFin r) :
    AllFin (Host.dotGeneral d prec l r) := by
  intro j
  simp only [Host.dotGeneral]
  rw [Ideal.dotGeneral_apply]
  exact IsFin.sum _ _ fun k _ => (hl _).mul (hr _)

theorem fin_reduceAdd {φ : FTy} {axes : List (Fin s.rank)} {u : Shape} (x : FVec Ideal s φ) (init : u.Idx → Ideal φ)
    (h : s.ReducesTo axes t) (hu : 0 < u.numel) (hx : AllFin x) (hinit : AllFin init) :
    AllFin (Host.reduceAdd x init h hu) := by
  intro j
  simp only [Host.reduceAdd, Ideal.hostReduceAdd_def]
  unfold Ideal.hostReduceAdd
  exact (hinit _).add (IsFin.sum _ _ fun i _ => hx i)

/-- The scalar zero constant is finite. -/
theorem fin_zero_const {u : Shape} : AllFin (constant (F := Ideal) u .f32 0x00000000#32) := by
  intro j
  show IsFin (Ideal.ofBits .f32 0x00000000#32)
  rw [Ideal.ofBits_zero_f32]; exact isFin_zero

/-- The scale constant is finite. -/
theorem fin_scale_const {u : Shape} : AllFin (constant (F := Ideal) u .f32 0x3F7FFFAC#32) := fun j => isFin_bnScale

end Cert.RefFin

end
-- ==== Proof.RefLin.lean ====
/-
  The reference's three recurring array expressions, read at a row and a feature:
  a linear layer `a · Wᵀ + b` over all rows (a contraction with the transposed matrix plus the bias broadcast down the
  rows) is, at (r, j), `∑ₖ a(r,k) · W(j,k) + b(j)`; the residual–scale–shift step `(o + prev) · (g · s) + b` is what
  it says at (r, j); and the attention scores `(∑ over a head's 192 features of q · k) / √192` are finite when q and k are.
-/
import proofs.«171191_j1709396984333_2_alg».proof.Proof.RefSoftmax
import proofs.«171191_j1709396984333_2_alg».proof.Proof.RefFin

noncomputable section

namespace Cert.RefLin

open Cert.ReferenceIdeal Cert.ReferenceIdeal.Gen Cert.ReferenceIdeal.ReadP
open Idealize.ShloMosaic Idealize.ShloMosaic.TcCoe Idealize.ShloMosaic.StableHlo Idealize.ShloMosaic.ValueIdx
open Cert.Spec Cert.RefConsts Cert.RefFin Cert.RefSoftmax

/-- A linear layer over all rows: `a · Wᵀ + b`. -/
abbrev linTerm (a : FVec Ideal S4096x768 .f32) (W : FVec Ideal S768x768 .f32) (b : FVec Ideal S768 .f32) : FVec Ideal S4096x768 .f32 :=
  addf (Host.dotGeneral dot_S4096x768_S768x768_S4096x768_1_0_0_1_n_n none a (transpose S768x768 [1, 0] W transposes_S768x768_S768x768_1_0))
    (broadcastInDim S4096x768 ![0, 1] bcast_S1x768_S4096x768_0_1 (broadcastInDim S1x768 ![1] bcast_S768_S1x768_1 b))

/-- A per-feature vector broadcast down the rows, at (r, j), is the vector at j. -/
theorem rowBcast_apply (b : FVec Ideal S768 .f32) (r : Fin 4096) (j : Fin 768) :
    broadcastInDim S4096x768 ![0, 1] bcast_S1x768_S4096x768_0_1 (broadcastInDim S1x768 ![1] bcast_S768_S1x768_1 b) (ix2 r j) = b (ix1 j) := by
  rw [broadcastInDim_apply _ bcast_S1x768_S4096x768_0_1 _ (ix2 r j) (idx_main_v21 (ix2 r j)) (fun a => match a with
    | ⟨0, _⟩ => by show 0 = if (1 : Nat) = 1 then 0 else ((ix2 r j : S4096x768.Idx) 0).val; rw [if_pos rfl]
    | ⟨1, _⟩ => by show ((ix2 r j : S4096x768.Idx) 1).val = if (768 : Nat) = 1 then 0 else ((ix2 r j : S4096x768.Idx) 1).val; rw [if_neg (by decide)]),
    broadcastInDim_apply _ bcast_S768_S1x768_1 _ (idx_main_v21 (ix2 r j)) (idx_main_v20 (idx_main_v21 (ix2 r j))) (fun a => match a with
    | ⟨0, _⟩ => by show ((idx_main_v21 (ix2 r j)) 1).val = if (768 : Nat) = 1 then 0 else ((idx_main_v21 (ix2 r j)) 1).val; rw [if_neg (by decide)])]
  exact congrArg b (funext fun a => Fin.ext (by match a with | ⟨0, _⟩ => rfl))

theorem lin_apply (a : FVec Ideal S4096x768 .f32) (W : FVec Ideal S768x768 .f32) (b : FVec Ideal S768 .f32) (r : Fin 4096) (j : Fin 768) :
    linTerm a W b (ix2 r j) = (∑ k : Fin 768, a (ix2 r k) * W (ix2 j k)) + b (ix1 j) := by
  show (Host.dotGeneral dot_S4096x768_S768x768_S4096x768_1_0_0_1_n_n none a (transpose S768x768 [1, 0] W transposes_S768x768_S768x768_1_0)) (ix2 r j)
      + _ = _
  rw [rowBcast_apply]
  congr 1
  simp only [Host.dotGeneral]
  rw [Ideal.dotGeneral_apply, ← Equiv.sum_comp (ValueIdx.contrEquiv1 dot_S4096x768_S768x768_S4096x768_1_0_0_1_n_n 768 rfl rfl).symm]
  refine Finset.sum_congr rfl fun k _ => ?_
  have hk := ValueIdx.contrEquiv1_symm_val dot_S4096x768_S768x768_S4096x768_1_0_0_1_n_n 768 rfl rfl k
  have l0 := lhs_main_v19_0 (ix2 r j) ((ValueIdx.contrEquiv1 dot_S4096x768_S768x768_S4096x768_1_0_0_1_n_n 768 rfl rfl).symm k)
  have l1 := lhs_main_v19_1 (ix2 r j) ((ValueIdx.contrEquiv1 dot_S4096x768_S768x768_S4096x768_1_0_0_1_n_n 768 rfl rfl).symm k)
  have r0 := rhs_main_v19_0 (ix2 r j) ((ValueIdx.contrEquiv1 dot_S4096x768_S768x768_S4096x768_1_0_0_1_n_n 768 rfl rfl).symm k)
  have r1 := rhs_main_v19_1 (ix2 r j) ((ValueIdx.contrEquiv1 dot_S4096x768_S768x768_S4096x768_1_0_0_1_n_n 768 rfl rfl).symm k)
  congr 1
  · refine congrArg a (funext fun c => Fin.ext ?_)
    match c with
    | ⟨0, _⟩ => exact l0
    | ⟨1, _⟩ => exact l1.trans hk
  · rw [transpose_apply [1, 0] W transposes_S768x768_S768x768_1_0 _ (idx_main_v18 _) (fun b => match b with
      | ⟨0, _⟩ => rfl
      | ⟨1, _⟩ => rfl)]
    refine congrArg W (funext fun c => Fin.ext ?_)
    match c with
    | ⟨0, _⟩ => exact r1
    | ⟨1, _⟩ => exact r0.trans hk

/-- Residual, per-feature scale (times the constant) and shift, over all rows. -/
abbrev bnresTerm (o prev : FVec Ideal S4096x768 .f32) (g b : FVec Ideal S768 .f32) : FVec Ideal S4096x768 .f32 :=
  addf (mulf (addf o prev)
      (broadcastInDim S4096x768 ![0, 1] bcast_S1x768_S4096x768_0_1 (broadcastInDim S1x768 ![1] bcast_S768_S1x768_1
        (mulf g (broadcastInDim S768 ![] bcast_S_S768 (constant S_ .f32 0x3F7FFFAC#32))))))
    (broadcastInDim S4096x768 ![0, 1] bcast_S1x768_S4096x768_0_1 (broadcastInDim S1x768 ![1] bcast_S768_S1x768_1 b))

theorem bnres_apply (o prev : FVec Ideal S4096x768 .f32) (g b : FVec Ideal S768 .f32) (r : Fin 4096) (j : Fin 768) :
    bnresTerm o prev g b (ix2 r j) = (o (ix2 r j) + prev (ix2 r j)) * (g (ix1 j) * bnScale) + b (ix1 j) := by
  show (o (ix2 r j) + prev (ix2 r j))
        * (broadcastInDim S4096x768 ![0, 1] bcast_S1x768_S4096x768_0_1 (broadcastInDim S1x768 ![1] bcast_S768_S1x768_1
            (mulf g (broadcastInDim S768 ![] bcast_S_S768 (constant S_ .f32 0x3F7FFFAC#32)))) (ix2 r j))
      + (broadcastInDim S4096x768 ![0, 1] bcast_S1x768_S4096x768_0_1 (broadcastInDim S1x768 ![1] bcast_S768_S1x768_1 b) (ix2 r j)) = _
  rw [rowBcast_apply, rowBcast_apply]
  rfl

/-- The attention scores of all rows and heads from the query and key projections. -/
abbrev scoresTerm (q k : FVec Ideal S4096x768 .f32) : FVec Ideal S4096x4x1 .f32 :=
  Host.divf (broadcastInDim S4096x4x1 ![0, 1] bcast_S4096x4_S4096x4x1_0_1
      (Host.reduceAdd (mulf (shapeCast S4096x4x192 q shapeCasts_S4096x768_S4096x4x192) (shapeCast S4096x4x192 k shapeCasts_S4096x768_S4096x4x192))
        (constant S_ .f32 0x00000000#32) reducesTo_S4096x4x192_S4096x4_d2 h_S_))
    (broadcastInDim S4096x4x1 ![] bcast_S_S4096x4x1 (Host.sqrt (constant S_ .f32 0x43400000#32)))

theorem fin_scores (q k : FVec Ideal S4096x768 .f32) (hq : AllFin q) (hk : AllFin k) : AllFin (scoresTerm q k) := by
  intro i
  exact isFin_div_sqrt (fin_bcast _ _ _ (fin_reduceAdd _ _ _ _ (fin_mulf _ _ (fin_shapeCast _ _ hq) (fin_shapeCast _ _ hk)) fin_zero_const) i)

theorem fin_lin (a : FVec Ideal S4096x768 .f32) (W : FVec Ideal S768x768 .f32) (b : FVec Ideal S768 .f32)
    (ha : AllFin a) (hW : AllFin W) (hb : AllFin b) : AllFin (linTerm a W b) :=
  fin_addf _ _ (fin_dot _ _ _ _ ha (fin_transpose _ _ _ hW)) (fin_bcast _ _ _ (fin_bcast _ _ _ hb))

theorem fin_bnres (o prev : FVec Ideal S4096x768 .f32) (g b : FVec Ideal S768 .f32)
    (ho : AllFin o) (hp : AllFin prev) (hg : AllFin g) (hb : AllFin b) : AllFin (bnresTerm o prev g b) :=
  fin_addf _ _ (fin_mulf _ _ (fin_addf _ _ ho hp) (fin_bcast _ _ _ (fin_bcast _ _ _ (fin_mulf _ _ hg (fin_bcast _ _ _ fin_scale_const)))))
    (fin_bcast _ _ _ (fin_bcast _ _ _ hb))

/-- The context of an attention layer with finite scores is its value projection. -/
theorem ctx_of (q k v : FVec Ideal S4096x768 .f32) (hq : AllFin q) (hk : AllFin k) :
    shapeCast S4096x768 (mulf (broadcastInDim S4096x4x192 ![0, 1, 2] bcast_S4096x4x1_S4096x4x192_0_1_2 (weights (scoresTerm q k)))
      (shapeCast S4096x4x192 v shapeCasts_S4096x768_S4096x4x192)) shapeCasts_S4096x4x192_S4096x768 = v :=
  ctx_eq _ v (fin_scores q k hq hk)

end Cert.RefLin

end
-- ==== Proof.RefP.lean ====
/-
  The first branch's cascade in the reference: each of the four attention layers has finite scores (every array on the way
  is a sum of products of finite arrays), so its context is its value projection, and the layer's output at row r and
  feature j is the row function of Spec.lean.
-/
import proofs.«171191_j1709396984333_2_alg».proof.Proof.RefLin

noncomputable section

namespace Cert.RefP

open Cert.ReferenceIdeal Cert.ReferenceIdeal.Gen Cert.ReferenceIdeal.ReadP
open Idealize.ShloMosaic Idealize.ShloMosaic.TcCoe Idealize.ShloMosaic.StableHlo Idealize.ShloMosaic.ValueIdx
open Cert.Spec Cert.RefConsts Cert.RefFin Cert.RefSoftmax Cert.RefLin

/-- A re-laid array of finite entries is finite: peel slices, reshapes, transposes and broadcasts down to a finite array. -/
macro "fin_w" : tactic => `(tactic| (repeat (first | assumption | apply fin_slice | apply fin_shapeCast | apply fin_transpose | apply fin_bcast)))

/-- Two indices agree coordinate by coordinate, by arithmetic on the coordinates. -/
macro "idx_tac" : tactic => `(tactic| (first | rfl | (simp only [Cert.Spec.vrow, Cert.Spec.xcol] <;> omega) | (simp [Cert.Spec.vrow, Cert.Spec.xcol] <;> omega)))

section
variable (x0 : FVec Ideal S4096x6144 .f32) (x1 : FVec Ideal S4x2304x768 .f32) (x2 : FVec Ideal S4x2304 .f32) (x3 : FVec Ideal S4x768x768 .f32)
  (x4 x5 x6 : FVec Ideal S4x768 .f32)
variable (h0 : AllFin x0) (h1 : AllFin x1) (h2 : AllFin x2) (h3 : AllFin x3) (h4 : AllFin x4) (h5 : AllFin x5) (h6 : AllFin x6)

/-! ### Layer 0 -/

theorem x_0 (r : Fin 4096) (k : Fin 768) : val_main_v0 (F := Ideal) x0 (ix2 r k) = x0 (ix2 r (xcol 0 k)) := by
  rw [val_main_v0_apply]
  exact congrArg x0 (funext fun a => Fin.ext (by match a with | ⟨0, _⟩ => idx_tac | ⟨1, _⟩ => idx_tac))
theorem wv_0 (j k : Fin 768) : val_main_v14 (F := Ideal) x1 (ix2 j k) = x1 (ix3 0 (vrow j) k) := by
  rw [val_main_v14_apply, val_main_v5_apply, val_main_v4_apply]
  exact congrArg x1 (funext fun a => Fin.ext (by match a with | ⟨0, _⟩ => idx_tac | ⟨1, _⟩ => (show ((1536 + j.val) * 768 + k.val) / 768 % 2304 = 1536 + j.val; omega) | ⟨2, _⟩ => (show ((1536 + j.val) * 768 + k.val) % 768 = k.val; omega)))
theorem bv_0 (j : Fin 768) : val_main_v17 (F := Ideal) x2 (ix1 j) = x2 (ix2 0 (vrow j)) := by
  rw [val_main_v17_apply, val_main_v7_apply, val_main_v6_apply]
  exact congrArg x2 (funext fun a => Fin.ext (by match a with | ⟨0, _⟩ => idx_tac | ⟨1, _⟩ => idx_tac))
theorem wo_0 (j k : Fin 768) : val_main_v9 (F := Ideal) x3 (ix2 j k) = x3 (ix3 0 j k) := by
  rw [val_main_v9_apply, val_main_v8_apply]
  exact congrArg x3 (funext fun a => Fin.ext (by match a with | ⟨0, _⟩ => idx_tac | ⟨1, _⟩ => (show (j.val * 768 + k.val) / 768 % 768 = j.val; omega) | ⟨2, _⟩ => (show (j.val * 768 + k.val) % 768 = k.val; omega)))
theorem bo_0 (j : Fin 768) : val_main_v11 (F := Ideal) x4 (ix1 j) = x4 (ix2 0 j) := by
  rw [val_main_v11_apply, val_main_v10_apply]
  exact congrArg x4 (funext fun a => Fin.ext (by match a with | ⟨0, _⟩ => idx_tac | ⟨1, _⟩ => idx_tac))

include h0 h1 h2 in
theorem fin_q0 : AllFin (val_main_v22 (F := Ideal) x0 x1 x2) := fin_lin _ _ _ (by fin_w) (by fin_w) (by fin_w)
include h0 h1 h2 in
theorem fin_k0 : AllFin (val_main_v28 (F := Ideal) x0 x1 x2) := fin_lin _ _ _ (by fin_w) (by fin_w) (by fin_w)
include h0 h1 h2 in
theorem ctx_0 : val_main_v53 (F := Ideal) x0 x1 x2 = val_main_v34 (F := Ideal) x0 x1 x2 :=
  ctx_of (val_main_v22 (F := Ideal) x0 x1 x2) (val_main_v28 (F := Ideal) x0 x1 x2) (val_main_v34 (F := Ideal) x0 x1 x2)
    (fin_q0 x0 x1 x2 h0 h1 h2) (fin_k0 x0 x1 x2 h0 h1 h2)
include h0 h1 h2 in
theorem out_0 : val_main_v58 (F := Ideal) x0 x1 x2 x3 x4
    = linTerm (linTerm (val_main_v0 (F := Ideal) x0) (val_main_v14 (F := Ideal) x1) (val_main_v17 (F := Ideal) x2)) (val_main_v9 (F := Ideal) x3) (val_main_v11 (F := Ideal) x4) := by
  have e : val_main_v58 (F := Ideal) x0 x1 x2 x3 x4 = linTerm (val_main_v53 (F := Ideal) x0 x1 x2) (val_main_v9 (F := Ideal) x3) (val_main_v11 (F := Ideal) x4) := rfl
  rw [e, ctx_0 x0 x1 x2 h0 h1 h2]
  rfl
include h0 h1 h2 h3 h4 in
theorem fin_0 : AllFin (val_main_v58 (F := Ideal) x0 x1 x2 x3 x4) := by
  rw [out_0 x0 x1 x2 x3 x4 h0 h1 h2]
  exact fin_lin _ _ _ (fin_lin _ _ _ (by fin_w) (by fin_w) (by fin_w)) (by fin_w) (by fin_w)
include h0 h1 h2 in
theorem val_0 (r : Fin 4096) (j : Fin 768) :
    val_main_v58 (F := Ideal) x0 x1 x2 x3 x4 (ix2 r j) = casc0 x0 ⟨x1, x2, x3, x4, x5, x6⟩ 0 r j := by
  rw [out_0 x0 x1 x2 x3 x4 h0 h1 h2, lin_apply]
  simp only [lin_apply, x_0, wv_0, bv_0, wo_0, bo_0]
  rfl

/-! ### Layer 1 -/

theorem x_1 (r : Fin 4096) (k : Fin 768) : val_main_v1 (F := Ideal) x0 (ix2 r k) = x0 (ix2 r (xcol 1 k)) := by
  rw [val_main_v1_apply]
  exact congrArg x0 (funext fun a => Fin.ext (by match a with | ⟨0, _⟩ => idx_tac | ⟨1, _⟩ => idx_tac))
theorem wv_1 (j k : Fin 768) : val_main_v69 (F := Ideal) x1 (ix2 j k) = x1 (ix3 1 (vrow j) k) := by
  rw [val_main_v69_apply, val_main_v60_apply, val_main_v59_apply]
  exact congrArg x1 (funext fun a => Fin.ext (by match a with | ⟨0, _⟩ => idx_tac | ⟨1, _⟩ => (show ((1536 + j.val) * 768 + k.val) / 768 % 2304 = 1536 + j.val; omega) | ⟨2, _⟩ => (show ((1536 + j.val) * 768 + k.val) % 768 = k.val; omega)))
theorem bv_1 (j : Fin 768) : val_main_v72 (F := Ideal) x2 (ix1 j) = x2 (ix2 1 (vrow j)) := by
  rw [val_main_v72_apply, val_main_v62_apply, val_main_v61_apply]
  exact congrArg x2 (funext fun a => Fin.ext (by match a with | ⟨0, _⟩ => idx_tac | ⟨1, _⟩ => idx_tac))
theorem wo_1 (j k : Fin 768) : val_main_v64 (F := Ideal) x3 (ix2 j k) = x3 (ix3 1 j k) := by
  rw [val_main_v64_apply, val_main_v63_apply]
  exact congrArg x3 (funext fun a => Fin.ext (by match a with | ⟨0, _⟩ => idx_tac | ⟨1, _⟩ => (show (j.val * 768 + k.val) / 768 % 768 = j.val; omega) | ⟨2, _⟩ => (show (j.val * 768 + k.val) % 768 = k.val; omega)))
theorem bo_1 (j : Fin 768) : val_main_v66 (F := Ideal) x4 (ix1 j) = x4 (ix2 1 j) := by
  rw [val_main_v66_apply, val_main_v65_apply]
  exact congrArg x4 (funext fun a => Fin.ext (by match a with | ⟨0, _⟩ => idx_tac | ⟨1, _⟩ => idx_tac))
theorem g_1 (j : Fin 768) : val_main_v116 (F := Ideal) x5 (ix1 j) = x5 (ix2 1 j) := by
  rw [val_main_v116_apply, val_main_v115_apply]
  exact congrArg x5 (funext fun a => Fin.ext (by match a with | ⟨0, _⟩ => idx_tac | ⟨1, _⟩ => idx_tac))
theorem b_1 (j : Fin 768) : val_main_v118 (F := Ideal) x6 (ix1 j) = x6 (ix2 1 j) := by
  rw [val_main_v118_apply, val_main_v117_apply]
  exact congrArg x6 (funext fun a => Fin.ext (by match a with | ⟨0, _⟩ => idx_tac | ⟨1, _⟩ => idx_tac))

include h0 h1 h2 h3 h4 in
theorem fin_q1 : AllFin (val_main_v77 (F := Ideal) x0 x1 x2 x3 x4) := fin_lin _ _ _ (fin_0 x0 x1 x2 x3 x4 h0 h1 h2 h3 h4) (by fin_w) (by fin_w)
include h0 h1 h2 in
theorem fin_k1 : AllFin (val_main_v83 (F := Ideal) x0 x1 x2) := fin_lin _ _ _ (by fin_w) (by fin_w) (by fin_w)
include h0 h1 h2 h3 h4 in
theorem ctx_1 : val_main_v108 (F := Ideal) x0 x1 x2 x3 x4 = val_main_v89 (F := Ideal) x0 x1 x2 :=
  ctx_of (val_main_v77 (F := Ideal) x0 x1 x2 x3 x4) (val_main_v83 (F := Ideal) x0 x1 x2) (val_main_v89 (F := Ideal) x0 x1 x2)
    (fin_q1 x0 x1 x2 x3 x4 h0 h1 h2 h3 h4) (fin_k1 x0 x1 x2 h0 h1 h2)
include h0 h1 h2 h3 h4 in
theorem out_1 : val_main_v126 (F := Ideal) x0 x1 x2 x3 x4 x5 x6
    = bnresTerm (linTerm (linTerm (val_main_v1 (F := Ideal) x0) (val_main_v69 (F := Ideal) x1) (val_main_v72 (F := Ideal) x2)) (val_main_v64 (F := Ideal) x3) (val_main_v66 (F := Ideal) x4)) (val_main_v58 (F := Ideal) x0 x1 x2 x3 x4) (val_main_v116 (F := Ideal) x5) (val_main_v118 (F := Ideal) x6) := by
  have e : val_main_v126 (F := Ideal) x0 x1 x2 x3 x4 x5 x6 = bnresTerm (linTerm (val_main_v108 (F := Ideal) x0 x1 x2 x3 x4) (val_main_v64 (F := Ideal) x3) (val_main_v66 (F := Ideal) x4)) (val_main_v58 (F := Ideal) x0 x1 x2 x3 x4) (val_main_v116 (F := Ideal) x5) (val_main_v118 (F := Ideal) x6) := rfl
  rw [e, ctx_1 x0 x1 x2 x3 x4 h0 h1 h2 h3 h4]
  rfl
include h0 h1 h2 h3 h4 h5 h6 in
theorem fin_1 : AllFin (val_main_v126 (F := Ideal) x0 x1 x2 x3 x4 x5 x6) := by
  rw [out_1 x0 x1 x2 x3 x4 x5 x6 h0 h1 h2 h3 h4]
  exact fin_bnres _ _ _ _ (fin_lin _ _ _ (fin_lin _ _ _ (by fin_w) (by fin_w) (by fin_w)) (by fin_w) (by fin_w)) (fin_0 x0 x1 x2 x3 x4 h0 h1 h2 h3 h4) (by fin_w) (by fin_w)
include h0 h1 h2 h3 h4 in
theorem val_1 (r : Fin 4096) (j : Fin 768) :
    val_main_v126 (F := Ideal) x0 x1 x2 x3 x4 x5 x6 (ix2 r j) = casc1 x0 ⟨x1, x2, x3, x4, x5, x6⟩ 0 1 r j := by
  rw [out_1 x0 x1 x2 x3 x4 x5 x6 h0 h1 h2 h3 h4, bnres_apply, lin_apply, val_0 x0 x1 x2 x3 x4 x5 x6 h0 h1 h2]
  simp only [lin_apply, x_1, wv_1, bv_1, wo_1, bo_1, g_1, b_1]
  rfl

/-! ### Layer 2 -/

theorem x_2 (r : Fin 4096) (k : Fin 768) : val_main_v2 (F := Ideal) x0 (ix2 r k) = x0 (ix2 r (xcol 2 k)) := by
  rw [val_main_v2_apply]
  exact congrArg x0 (funext fun a => Fin.ext (by match a with | ⟨0, _⟩ => idx_tac | ⟨1, _⟩ => idx_tac))
theorem wv_2 (j k : Fin 768) : val_main_v137 (F := Ideal) x1 (ix2 j k) = x1 (ix3 2 (vrow j) k) := by
  rw [val_main_v137_apply, val_main_v128_apply, val_main_v127_apply]
  exact congrArg x1 (funext fun a => Fin.ext (by match a with | ⟨0, _⟩ => idx_tac | ⟨1, _⟩ => (show ((1536 + j.val) * 768 + k.val) / 768 % 2304 = 1536 + j.val; omega) | ⟨2, _⟩ => (show ((1536 + j.val) * 768 + k.val) % 768 = k.val; omega)))
theorem bv_2 (j : Fin 768) : val_main_v140 (F := Ideal) x2 (ix1 j) = x2 (ix2 2 (vrow j)) := by
  rw [val_main_v140_apply, val_main_v130_apply, val_main_v129_apply]
  exact congrArg x2 (funext fun a => Fin.ext (by match a with | ⟨0, _⟩ => idx_tac | ⟨1, _⟩ => idx_tac))
theorem wo_2 (j k : Fin 768) : val_main_v132 (F := Ideal) x3 (ix2 j k) = x3 (ix3 2 j k) := by
  rw [val_main_v132_apply, val_main_v131_apply]
  exact congrArg x3 (funext fun a => Fin.ext (by match a with | ⟨0, _⟩ => idx_tac | ⟨1, _⟩ => (show (j.val * 768 + k.val) / 768 % 768 = j.val; omega) | ⟨2, _⟩ => (show (j.val * 768 + k.val) % 768 = k.val; omega)))
theorem bo_2 (j : Fin 768) : val_main_v134 (F := Ideal) x4 (ix1 j) = x4 (ix2 2 j) := by
  rw [val_main_v134_apply, val_main_v133_apply]
  exact congrArg x4 (funext fun a => Fin.ext (by match a with | ⟨0, _⟩ => idx_tac | ⟨1, _⟩ => idx_tac))
theorem g_2 (j : Fin 768) : val_main_v184 (F := Ideal) x5 (ix1 j) = x5 (ix2 2 j) := by
  rw [val_main_v184_apply, val_main_v183_apply]
  exact congrArg x5 (funext fun a => Fin.ext (by match a with | ⟨0, _⟩ => idx_tac | ⟨1, _⟩ => idx_tac))
theorem b_2 (j : Fin 768) : val_main_v186 (F := Ideal) x6 (ix1 j) = x6 (ix2 2 j) := by
  rw [val_main_v186_apply, val_main_v185_apply]
  exact congrArg x6 (funext fun a => Fin.ext (by match a with | ⟨0, _⟩ => idx_tac | ⟨1, _⟩ => idx_tac))

include h0 h1 h2 h3 h4 h5 h6 in
theorem fin_q2 : AllFin (val_main_v145 (F := Ideal) x0 x1 x2 x3 x4 x5 x6) := fin_lin _ _ _ (fin_1 x0 x1 x2 x3 x4 x5 x6 h0 h1 h2 h3 h4 h5 h6) (by fin_w) (by fin_w)
include h0 h1 h2 in
theorem fin_k2 : AllFin (val_main_v151 (F := Ideal) x0 x1 x2) := fin_lin _ _ _ (by fin_w) (by fin_w) (by fin_w)
include h0 h1 h2 h3 h4 h5 h6 in
theorem ctx_2 : val_main_v176 (F := Ideal) x0 x1 x2 x3 x4 x5 x6 = val_main_v157 (F := Ideal) x0 x1 x2 :=
  ctx_of (val_main_v145 (F := Ideal) x0 x1 x2 x3 x4 x5 x6) (val_main_v151 (F := Ideal) x0 x1 x2) (val_main_v157 (F := Ideal) x0 x1 x2)
    (fin_q2 x0 x1 x2 x3 x4 x5 x6 h0 h1 h2 h3 h4 h5 h6) (fin_k2 x0 x1 x2 h0 h1 h2)
include h0 h1 h2 h3 h4 h5 h6 in
theorem out_2 : val_main_v194 (F := Ideal) x0 x1 x2 x3 x4 x5 x6
    = bnresTerm (linTerm (linTerm (val_main_v2 (F := Ideal) x0) (val_main_v137 (F := Ideal) x1) (val_main_v140 (F := Ideal) x2)) (val_main_v132 (F := Ideal) x3) (val_main_v134 (F := Ideal) x4)) (val_main_v126 (F := Ideal) x0 x1 x2 x3 x4 x5 x6) (val_main_v184 (F := Ideal) x5) (val_main_v186 (F := Ideal) x6) := by
  have e : val_main_v194 (F := Ideal) x0 x1 x2 x3 x4 x5 x6 = bnresTerm (linTerm (val_main_v176 (F := Ideal) x0 x1 x2 x3 x4 x5 x6) (val_main_v132 (F := Ideal) x3) (val_main_v134 (F := Ideal) x4)) (val_main_v126 (F := Ideal) x0 x1 x2 x3 x4 x5 x6) (val_main_v184 (F := Ideal) x5) (val_main_v186 (F := Ideal) x6) := rfl
  rw [e, ctx_2 x0 x1 x2 x3 x4 x5 x6 h0 h1 h2 h3 h4 h5 h6]
  rfl
include h0 h1 h2 h3 h4 h5 h6 in
theorem fin_2 : AllFin (val_main_v194 (F := Ideal) x0 x1 x2 x3 x4 x5 x6) := by
  rw [out_2 x0 x1 x2 x3 x4 x5 x6 h0 h1 h2 h3 h4 h5 h6]
  exact fin_bnres _ _ _ _ (fin_lin _ _ _ (fin_lin _ _ _ (by fin_w) (by fin_w) (by fin_w)) (by fin_w) (by fin_w)) (fin_1 x0 x1 x2 x3 x4 x5 x6 h0 h1 h2 h3 h4 h5 h6) (by fin_w) (by fin_w)
include h0 h1 h2 h3 h4 h5 h6 in
theorem val_2 (r : Fin 4096) (j : Fin 768) :
    val_main_v194 (F := Ideal) x0 x1 x2 x3 x4 x5 x6 (ix2 r j) = casc2 x0 ⟨x1, x2, x3, x4, x5, x6⟩ 0 1 2 r j := by
  rw [out_2 x0 x1 x2 x3 x4 x5 x6 h0 h1 h2 h3 h4 h5 h6, bnres_apply, lin_apply, val_1 x0 x1 x2 x3 x4 x5 x6 h0 h1 h2 h3 h4]
  simp only [lin_apply, x_2, wv_2, bv_2, wo_2, bo_2, g_2, b_2]
  rfl

/-! ### Layer 3 -/

theorem x_3 (r : Fin 4096) (k : Fin 768) : val_main_v3 (F := Ideal) x0 (ix2 r k) = x0 (ix2 r (xcol 3 k)) := by
  rw [val_main_v3_apply]
  exact congrArg x0 (funext fun a => Fin.ext (by match a with | ⟨0, _⟩ => idx_tac | ⟨1, _⟩ => idx_tac))
theorem wv_3 (j k : Fin 768) : val_main_v205 (F := Ideal) x1 (ix2 j k) = x1 (ix3 3 (vrow j) k) := by
  rw [val_main_v205_apply, val_main_v196_apply, val_main_v195_apply]
  exact congrArg x1 (funext fun a => Fin.ext (by match a with | ⟨0, _⟩ => idx_tac | ⟨1, _⟩ => (show ((1536 + j.val) * 768 + k.val) / 768 % 2304 = 1536 + j.val; omega) | ⟨2, _⟩ => (show ((1536 + j.val) * 768 + k.val) % 768 = k.val; omega)))
theorem bv_3 (j : Fin 768) : val_main_v208 (F := Ideal) x2 (ix1 j) = x2 (ix2 3 (vrow j)) := by
  rw [val_main_v208_apply, val_main_v198_apply, val_main_v197_apply]
  exact congrArg x2 (funext fun a => Fin.ext (by match a with | ⟨0, _⟩ => idx_tac | ⟨1, _⟩ => idx_tac))
theorem wo_3 (j k : Fin 768) : val_main_v200 (F := Ideal) x3 (ix2 j k) = x3 (ix3 3 j k) := by
  rw [val_main_v200_apply, val_main_v199_apply]
  exact congrArg x3 (funext fun a => Fin.ext (by match a with | ⟨0, _⟩ => idx_tac | ⟨1, _⟩ => (show (j.val * 768 + k.val) / 768 % 768 = j.val; omega) | ⟨2, _⟩ => (show (j.val * 768 + k.val) % 768 = k.val; omega)))
theorem bo_3 (j : Fin 768) : val_main_v202 (F := Ideal) x4 (ix1 j) = x4 (ix2 3 j) := by
  rw [val_main_v202_apply, val_main_v201_apply]
  exact congrArg x4 (funext fun a => Fin.ext (by match a with | ⟨0, _⟩ => idx_tac | ⟨1, _⟩ => idx_tac))
theorem g_3 (j : Fin 768) : val_main_v252 (F := Ideal) x5 (ix1 j) = x5 (ix2 3 j) := by
  rw [val_main_v252_apply, val_main_v251_apply]
  exact congrArg x5 (funext fun a => Fin.ext (by match a with | ⟨0, _⟩ => idx_tac | ⟨1, _⟩ => idx_tac))
theorem b_3 (j : Fin 768) : val_main_v254 (F := Ideal) x6 (ix1 j) = x6 (ix2 3 j) := by
  rw [val_main_v254_apply, val_main_v253_apply]
  exact congrArg x6 (funext fun a => Fin.ext (by match a with | ⟨0, _⟩ => idx_tac | ⟨1, _⟩ => idx_tac))

include h0 h1 h2 h3 h4 h5 h6 in
theorem fin_q3 : AllFin (val_main_v213 (F := Ideal) x0 x1 x2 x3 x4 x5 x6) := fin_lin _ _ _ (fin_2 x0 x1 x2 x3 x4 x5 x6 h0 h1 h2 h3 h4 h5 h6) (by fin_w) (by fin_w)
include h0 h1 h2 in
theorem fin_k3 : AllFin (val_main_v219 (F := Ideal) x0 x1 x2) := fin_lin _ _ _ (by fin_w) (by fin_w) (by fin_w)
include h0 h1 h2 h3 h4 h5 h6 in
theorem ctx_3 : val_main_v244 (F := Ideal) x0 x1 x2 x3 x4 x5 x6 = val_main_v225 (F := Ideal) x0 x1 x2 :=
  ctx_of (val_main_v213 (F := Ideal) x0 x1 x2 x3 x4 x5 x6) (val_main_v219 (F := Ideal) x0 x1 x2) (val_main_v225 (F := Ideal) x0 x1 x2)
    (fin_q3 x0 x1 x2 x3 x4 x5 x6 h0 h1 h2 h3 h4 h5 h6) (fin_k3 x0 x1 x2 h0 h1 h2)
include h0 h1 h2 h3 h4 h5 h6 in
theorem out_3 : val_main_v262 (F := Ideal) x0 x1 x2 x3 x4 x5 x6
    = bnresTerm (linTerm (linTerm (val_main_v3 (F := Ideal) x0) (val_main_v205 (F := Ideal) x1) (val_main_v208 (F := Ideal) x2)) (val_main_v200 (F := Ideal) x3) (val_main_v202 (F := Ideal) x4)) (val_main_v194 (F := Ideal) x0 x1 x2 x3 x4 x5 x6) (val_main_v252 (F := Ideal) x5) (val_main_v254 (F := Ideal) x6) := by
  have e : val_main_v262 (F := Ideal) x0 x1 x2 x3 x4 x5 x6 = bnresTerm (linTerm (val_main_v244 (F := Ideal) x0 x1 x2 x3 x4 x5 x6) (val_main_v200 (F := Ideal) x3) (val_main_v202 (F := Ideal) x4)) (val_main_v194 (F := Ideal) x0 x1 x2 x3 x4 x5 x6) (val_main_v252 (F := Ideal) x5) (val_main_v254 (F := Ideal) x6) := rfl
  rw [e, ctx_3 x0 x1 x2 x3 x4 x5 x6 h0 h1 h2 h3 h4 h5 h6]
  rfl
include h0 h1 h2 h3 h4 h5 h6 in
theorem fin_3 : AllFin (val_main_v262 (F := Ideal) x0 x1 x2 x3 x4 x5 x6) := by
  rw [out_3 x0 x1 x2 x3 x4 x5 x6 h0 h1 h2 h3 h4 h5 h6]
  exact fin_bnres _ _ _ _ (fin_lin _ _ _ (fin_lin _ _ _ (by fin_w) (by fin_w) (by fin_w)) (by fin_w) (by fin_w)) (fin_2 x0 x1 x2 x3 x4 x5 x6 h0 h1 h2 h3 h4 h5 h6) (by fin_w) (by fin_w)
include h0 h1 h2 h3 h4 h5 h6 in
theorem val_3 (r : Fin 4096) (j : Fin 768) :
    val_main_v262 (F := Ideal) x0 x1 x2 x3 x4 x5 x6 (ix2 r j) = casc3 x0 ⟨x1, x2, x3, x4, x5, x6⟩ 0 1 2 3 r j := by
  rw [out_3 x0 x1 x2 x3 x4 x5 x6 h0 h1 h2 h3 h4 h5 h6, bnres_apply, lin_apply, val_2 x0 x1 x2 x3 x4 x5 x6 h0 h1 h2 h3 h4 h5 h6]
  simp only [lin_apply, x_3, wv_3, bv_3, wo_3, bo_3, g_3, b_3]
  rfl

end

end Cert.RefP

end
-- ==== Proof.RefJ.lean ====
/-
  The second branch's cascade in the reference, as the first: finite scores in each of the four attention layers, so
  each context is its value projection, and each layer's output at row r and feature j is the row function of Spec.lean
  (on the input's chunks 4 to 7, with the second branch's parameters).
-/
import proofs.«171191_j1709396984333_2_alg».proof.Proof.RefLin

noncomputable section

namespace Cert.RefJ

open Cert.ReferenceIdeal Cert.ReferenceIdeal.Gen Cert.ReferenceIdeal.ReadP
open Idealize.ShloMosaic Idealize.ShloMosaic.TcCoe Idealize.ShloMosaic.StableHlo Idealize.ShloMosaic.ValueIdx
open Cert.Spec Cert.RefConsts Cert.RefFin Cert.RefSoftmax Cert.RefLin

/-- A re-laid array of finite entries is finite: peel slices, reshapes, transposes and broadcasts down to a finite array. -/
macro "fin_w" : tactic => `(tactic| (repeat (first | assumption | apply fin_slice | apply fin_shapeCast | apply fin_transpose | apply fin_bcast)))

/-- Two indices agree coordinate by coordinate, by arithmetic on the coordinates. -/
macro "idx_tac" : tactic => `(tactic| (first | rfl | (simp only [Cert.Spec.vrow, Cert.Spec.xcol] <;> omega) | (simp [Cert.Spec.vrow, Cert.Spec.xcol] <;> omega)))

section
variable (x0 : FVec Ideal S4096x6144 .f32) (x7 : FVec Ideal S4x2304x768 .f32) (x8 : FVec Ideal S4x2304 .f32) (x9 : FVec Ideal S4x768x768 .f32)
  (x10 x11 x12 : FVec Ideal S4x768 .f32)
variable (h0 : AllFin x0) (h1 : AllFin x7) (h2 : AllFin x8) (h3 : AllFin x9) (h4 : AllFin x10) (h5 : AllFin x11) (h6 : AllFin x12)

/-! ### Layer 0 -/

theorem x_0 (r : Fin 4096) (k : Fin 768) : val_main_v264 (F := Ideal) x0 (ix2 r k) = x0 (ix2 r (xcol 4 k)) := by
  rw [val_main_v264_apply]
  exact congrArg x0 (funext fun a => Fin.ext (by match a with | ⟨0, _⟩ => idx_tac | ⟨1, _⟩ => idx_tac))
theorem wv_0 (j k : Fin 768) : val_main_v278 (F := Ideal) x7 (ix2 j k) = x7 (ix3 0 (vrow j) k) := by
  rw [val_main_v278_apply, val_main_v269_apply, val_main_v268_apply]
  exact congrArg x7 (funext fun a => Fin.ext (by match a with | ⟨0, _⟩ => idx_tac | ⟨1, _⟩ => (show ((1536 + j.val) * 768 + k.val) / 768 % 2304 = 1536 + j.val; omega) | ⟨2, _⟩ => (show ((1536 + j.val) * 768 + k.val) % 768 = k.val; omega)))
theorem bv_0 (j : Fin 768) : val_main_v281 (F := Ideal) x8 (ix1 j) = x8 (ix2 0 (vrow j)) := by
  rw [val_main_v281_apply, val_main_v271_apply, val_main_v270_apply]
  exact congrArg x8 (funext fun a => Fin.ext (by match a with | ⟨0, _⟩ => idx_tac | ⟨1, _⟩ => idx_tac))
theorem wo_0 (j k : Fin 768) : val_main_v273 (F := Ideal) x9 (ix2 j k) = x9 (ix3 0 j k) := by
  rw [val_main_v273_apply, val_main_v272_apply]
  exact congrArg x9 (funext fun a => Fin.ext (by match a with | ⟨0, _⟩ => idx_tac | ⟨1, _⟩ => (show (j.val * 768 + k.val) / 768 % 768 = j.val; omega) | ⟨2, _⟩ => (show (j.val * 768 + k.val) % 768 = k.val; omega)))
theorem bo_0 (j : Fin 768) : val_main_v275 (F := Ideal) x10 (ix1 j) = x10 (ix2 0 j) := by
  rw [val_main_v275_apply, val_main_v274_apply]
  exact congrArg x10 (funext fun a => Fin.ext (by match a with | ⟨0, _⟩ => idx_tac | ⟨1, _⟩ => idx_tac))

include h0 h1 h2 in
theorem fin_q0 : AllFin (val_main_v286 (F := Ideal) x0 x7 x8) := fin_lin _ _ _ (by fin_w) (by fin_w) (by fin_w)
include h0 h1 h2 in
theorem fin_k0 : AllFin (val_main_v292 (F := Ideal) x0 x7 x8) := fin_lin _ _ _ (by fin_w) (by fin_w) (by fin_w)
include h0 h1 h2 in
theorem ctx_0 : val_main_v317 (F := Ideal) x0 x7 x8 = val_main_v298 (F := Ideal) x0 x7 x8 :=
  ctx_of (val_main_v286 (F := Ideal) x0 x7 x8) (val_main_v292 (F := Ideal) x0 x7 x8) (val_main_v298 (F := Ideal) x0 x7 x8)
    (fin_q0 x0 x7 x8 h0 h1 h2) (fin_k0 x0 x7 x8 h0 h1 h2)
include h0 h1 h2 in
theorem out_0 : val_main_v322 (F := Ideal) x0 x7 x8 x9 x10
    = linTerm (linTerm (val_main_v264 (F := Ideal) x0) (val_main_v278 (F := Ideal) x7) (val_main_v281 (F := Ideal) x8)) (val_main_v273 (F := Ideal) x9) (val_main_v275 (F := Ideal) x10) := by
  have e : val_main_v322 (F := Ideal) x0 x7 x8 x9 x10 = linTerm (val_main_v317 (F := Ideal) x0 x7 x8) (val_main_v273 (F := Ideal) x9) (val_main_v275 (F := Ideal) x10) := rfl
  rw [e, ctx_0 x0 x7 x8 h0 h1 h2]
  rfl
include h0 h1 h2 h3 h4 in
theorem fin_0 : AllFin (val_main_v322 (F := Ideal) x0 x7 x8 x9 x10) := by
  rw [out_0 x0 x7 x8 x9 x10 h0 h1 h2]
  exact fin_lin _ _ _ (fin_lin _ _ _ (by fin_w) (by fin_w) (by fin_w)) (by fin_w) (by fin_w)
include h0 h1 h2 in
theorem val_0 (r : Fin 4096) (j : Fin 768) :
    val_main_v322 (F := Ideal) x0 x7 x8 x9 x10 (ix2 r j) = casc0 x0 ⟨x7, x8, x9, x10, x11, x12⟩ 4 r j := by
  rw [out_0 x0 x7 x8 x9 x10 h0 h1 h2, lin_apply]
  simp only [lin_apply, x_0, wv_0, bv_0, wo_0, bo_0]
  rfl

/-! ### Layer 1 -/

theorem x_1 (r : Fin 4096) (k : Fin 768) : val_main_v265 (F := Ideal) x0 (ix2 r k) = x0 (ix2 r (xcol 5 k)) := by
  rw [val_main_v265_apply]
  exact congrArg x0 (funext fun a => Fin.ext (by match a with | ⟨0, _⟩ => idx_tac | ⟨1, _⟩ => idx_tac))
theorem wv_1 (j k : Fin 768) : val_main_v333 (F := Ideal) x7 (ix2 j k) = x7 (ix3 1 (vrow j) k) := by
  rw [val_main_v333_apply, val_main_v324_apply, val_main_v323_apply]
  exact congrArg x7 (funext fun a => Fin.ext (by match a with | ⟨0, _⟩ => idx_tac | ⟨1, _⟩ => (show ((1536 + j.val) * 768 + k.val) / 768 % 2304 = 1536 + j.val; omega) | ⟨2, _⟩ => (show ((1536 + j.val) * 768 + k.val) % 768 = k.val; omega)))
theorem bv_1 (j : Fin 768) : val_main_v336 (F := Ideal) x8 (ix1 j) = x8 (ix2 1 (vrow j)) := by
  rw [val_main_v336_apply, val_main_v326_apply, val_main_v325_apply]
  exact congrArg x8 (funext fun a => Fin.ext (by match a with | ⟨0, _⟩ => idx_tac | ⟨1, _⟩ => idx_tac))
theorem wo_1 (j k : Fin 768) : val_main_v328 (F := Ideal) x9 (ix2 j k) = x9 (ix3 1 j k) := by
  rw [val_main_v328_apply, val_main_v327_apply]
  exact congrArg x9 (funext fun a => Fin.ext (by match a with | ⟨0, _⟩ => idx_tac | ⟨1, _⟩ => (show (j.val * 768 + k.val) / 768 % 768 = j.val; omega) | ⟨2, _⟩ => (show (j.val * 768 + k.val) % 768 = k.val; omega)))
theorem bo_1 (j : Fin 768) : val_main_v330 (F := Ideal) x10 (ix1 j) = x10 (ix2 1 j) := by
  rw [val_main_v330_apply, val_main_v329_apply]
  exact congrArg x10 (funext fun a => Fin.ext (by match a with | ⟨0, _⟩ => idx_tac | ⟨1, _⟩ => idx_tac))
theorem g_1 (j : Fin 768) : val_main_v380 (F := Ideal) x11 (ix1 j) = x11 (ix2 1 j) := by
  rw [val_main_v380_apply, val_main_v379_apply]
  exact congrArg x11 (funext fun a => Fin.ext (by match a with | ⟨0, _⟩ => idx_tac | ⟨1, _⟩ => idx_tac))
theorem b_1 (j : Fin 768) : val_main_v382 (F := Ideal) x12 (ix1 j) = x12 (ix2 1 j) := by
  rw [val_main_v382_apply, val_main_v381_apply]
  exact congrArg x12 (funext fun a => Fin.ext (by match a with | ⟨0, _⟩ => idx_tac | ⟨1, _⟩ => idx_tac))

include h0 h1 h2 h3 h4 in
theorem fin_q1 : AllFin (val_main_v341 (F := Ideal) x0 x7 x8 x9 x10) := fin_lin _ _ _ (fin_0 x0 x7 x8 x9 x10 h0 h1 h2 h3 h4) (by fin_w) (by fin_w)
include h0 h1 h2 in
theorem fin_k1 : AllFin (val_main_v347 (F := Ideal) x0 x7 x8) := fin_lin _ _ _ (by fin_w) (by fin_w) (by fin_w)
include h0 h1 h2 h3 h4 in
theorem ctx_1 : val_main_v372 (F := Ideal) x0 x7 x8 x9 x10 = val_main_v353 (F := Ideal) x0 x7 x8 :=
  ctx_of (val_main_v341 (F := Ideal) x0 x7 x8 x9 x10) (val_main_v347 (F := Ideal) x0 x7 x8) (val_main_v353 (F := Ideal) x0 x7 x8)
    (fin_q1 x0 x7 x8 x9 x10 h0 h1 h2 h3 h4) (fin_k1 x0 x7 x8 h0 h1 h2)
include h0 h1 h2 h3 h4 in
theorem out_1 : val_main_v390 (F := Ideal) x0 x7 x8 x9 x10 x11 x12
    = bnresTerm (linTerm (linTerm (val_main_v265 (F := Ideal) x0) (val_main_v333 (F := Ideal) x7) (val_main_v336 (F := Ideal) x8)) (val_main_v328 (F := Ideal) x9) (val_main_v330 (F := Ideal) x10)) (val_main_v322 (F := Ideal) x0 x7 x8 x9 x10) (val_main_v380 (F := Ideal) x11) (val_main_v382 (F := Ideal) x12) := by
  have e : val_main_v390 (F := Ideal) x0 x7 x8 x9 x10 x11 x12 = bnresTerm (linTerm (val_main_v372 (F := Ideal) x0 x7 x8 x9 x10) (val_main_v328 (F := Ideal) x9) (val_main_v330 (F := Ideal) x10)) (val_main_v322 (F := Ideal) x0 x7 x8 x9 x10) (val_main_v380 (F := Ideal) x11) (val_main_v382 (F := Ideal) x12) := rfl
  rw [e, ctx_1 x0 x7 x8 x9 x10 h0 h1 h2 h3 h4]
  rfl
include h0 h1 h2 h3 h4 h5 h6 in
theorem fin_1 : AllFin (val_main_v390 (F := Ideal) x0 x7 x8 x9 x10 x11 x12) := by
  rw [out_1 x0 x7 x8 x9 x10 x11 x12 h0 h1 h2 h3 h4]
  exact fin_bnres _ _ _ _ (fin_lin _ _ _ (fin_lin _ _ _ (by fin_w) (by fin_w) (by fin_w)) (by fin_w) (by fin_w)) (fin_0 x0 x7 x8 x9 x10 h0 h1 h2 h3 h4) (by fin_w) (by fin_w)
include h0 h1 h2 h3 h4 in
theorem val_1 (r : Fin 4096) (j : Fin 768) :
    val_main_v390 (F := Ideal) x0 x7 x8 x9 x10 x11 x12 (ix2 r j) = casc1 x0 ⟨x7, x8, x9, x10, x11, x12⟩ 4 5 r j := by
  rw [out_1 x0 x7 x8 x9 x10 x11 x12 h0 h1 h2 h3 h4, bnres_apply, lin_apply, val_0 x0 x7 x8 x9 x10 x11 x12 h0 h1 h2]
  simp only [lin_apply, x_1, wv_1, bv_1, wo_1, bo_1, g_1, b_1]
  rfl

/-! ### Layer 2 -/

theorem x_2 (r : Fin 4096) (k : Fin 768) : val_main_v266 (F := Ideal) x0 (ix2 r k) = x0 (ix2 r (xcol 6 k)) := by
  rw [val_main_v266_apply]
  exact congrArg x0 (funext fun a => Fin.ext (by match a with | ⟨0, _⟩ => idx_tac | ⟨1, _⟩ => idx_tac))
theorem wv_2 (j k : Fin 768) : val_main_v401 (F := Ideal) x7 (ix2 j k) = x7 (ix3 2 (vrow j) k) := by
  rw [val_main_v401_apply, val_main_v392_apply, val_main_v391_apply]
  exact congrArg x7 (funext fun a => Fin.ext (by match a with | ⟨0, _⟩ => idx_tac | ⟨1, _⟩ => (show ((1536 + j.val) * 768 + k.val) / 768 % 2304 = 1536 + j.val; omega) | ⟨2, _⟩ => (show ((1536 + j.val) * 768 + k.val) % 768 = k.val; omega)))
theorem bv_2 (j : Fin 768) : val_main_v404 (F := Ideal) x8 (ix1 j) = x8 (ix2 2 (vrow j)) := by
  rw [val_main_v404_apply, val_main_v394_apply, val_main_v393_apply]
  exact congrArg x8 (funext fun a => Fin.ext (by match a with | ⟨0, _⟩ => idx_tac | ⟨1, _⟩ => idx_tac))
theorem wo_2 (j k : Fin 768) : val_main_v396 (F := Ideal) x9 (ix2 j k) = x9 (ix3 2 j k) := by
  rw [val_main_v396_apply, val_main_v395_apply]
  exact congrArg x9 (funext fun a => Fin.ext (by match a with | ⟨0, _⟩ => idx_tac | ⟨1, _⟩ => (show (j.val * 768 + k.val) / 768 % 768 = j.val; omega) | ⟨2, _⟩ => (show (j.val * 768 + k.val) % 768 = k.val; omega)))
theorem bo_2 (j : Fin 768) : val_main_v398 (F := Ideal) x10 (ix1 j) = x10 (ix2 2 j) := by
  rw [val_main_v398_apply, val_main_v397_apply]
  exact congrArg x10 (funext fun a => Fin.ext (by match a with | ⟨0, _⟩ => idx_tac | ⟨1, _⟩ => idx_tac))
theorem g_2 (j : Fin 768) : val_main_v448 (F := Ideal) x11 (ix1 j) = x11 (ix2 2 j) := by
  rw [val_main_v448_apply, val_main_v447_apply]
  exact congrArg x11 (funext fun a => Fin.ext (by match a with | ⟨0, _⟩ => idx_tac | ⟨1, _⟩ => idx_tac))
theorem b_2 (j : Fin 768) : val_main_v450 (F := Ideal) x12 (ix1 j) = x12 (ix2 2 j) := by
  rw [val_main_v450_apply, val_main_v449_apply]
  exact congrArg x12 (funext fun a => Fin.ext (by match a with | ⟨0, _⟩ => idx_tac | ⟨1, _⟩ => idx_tac))

include h0 h1 h2 h3 h4 h5 h6 in
theorem fin_q2 : AllFin (val_main_v409 (F := Ideal) x0 x7 x8 x9 x10 x11 x12) := fin_lin _ _ _ (fin_1 x0 x7 x8 x9 x10 x11 x12 h0 h1 h2 h3 h4 h5 h6) (by fin_w) (by fin_w)
include h0 h1 h2 in
theorem fin_k2 : AllFin (val_main_v415 (F := Ideal) x0 x7 x8) := fin_lin _ _ _ (by fin_w) (by fin_w) (by fin_w)
include h0 h1 h2 h3 h4 h5 h6 in
theorem ctx_2 : val_main_v440 (F := Ideal) x0 x7 x8 x9 x10 x11 x12 = val_main_v421 (F := Ideal) x0 x7 x8 :=
  ctx_of (val_main_v409 (F := Ideal) x0 x7 x8 x9 x10 x11 x12) (val_main_v415 (F := Ideal) x0 x7 x8) (val_main_v421 (F := Ideal) x0 x7 x8)
    (fin_q2 x0 x7 x8 x9 x10 x11 x12 h0 h1 h2 h3 h4 h5 h6) (fin_k2 x0 x7 x8 h0 h1 h2)
include h0 h1 h2 h3 h4 h5 h6 in
theorem out_2 : val_main_v458 (F := Ideal) x0 x7 x8 x9 x10 x11 x12
    = bnresTerm (linTerm (linTerm (val_main_v266 (F := Ideal) x0) (val_main_v401 (F := Ideal) x7) (val_main_v404 (F := Ideal) x8)) (val_main_v396 (F := Ideal) x9) (val_main_v398 (F := Ideal) x10)) (val_main_v390 (F := Ideal) x0 x7 x8 x9 x10 x11 x12) (val_main_v448 (F := Ideal) x11) (val_main_v450 (F := Ideal) x12) := by
  have e : val_main_v458 (F := Ideal) x0 x7 x8 x9 x10 x11 x12 = bnresTerm (linTerm (val_main_v440 (F := Ideal) x0 x7 x8 x9 x10 x11 x12) (val_main_v396 (F := Ideal) x9) (val_main_v398 (F := Ideal) x10)) (val_main_v390 (F := Ideal) x0 x7 x8 x9 x10 x11 x12) (val_main_v448 (F := Ideal) x11) (val_main_v450 (F := Ideal) x12) := rfl
  rw [e, ctx_2 x0 x7 x8 x9 x10 x11 x12 h0 h1 h2 h3 h4 h5 h6]
  rfl
include h0 h1 h2 h3 h4 h5 h6 in
theorem fin_2 : AllFin (val_main_v458 (F := Ideal) x0 x7 x8 x9 x10 x11 x12) := by
  rw [out_2 x0 x7 x8 x9 x10 x11 x12 h0 h1 h2 h3 h4 h5 h6]
  exact fin_bnres _ _ _ _ (fin_lin _ _ _ (fin_lin _ _ _ (by fin_w) (by fin_w) (by fin_w)) (by fin_w) (by fin_w)) (fin_1 x0 x7 x8 x9 x10 x11 x12 h0 h1 h2 h3 h4 h5 h6) (by fin_w) (by fin_w)
include h0 h1 h2 h3 h4 h5 h6 in
theorem val_2 (r : Fin 4096) (j : Fin 768) :
    val_main_v458 (F := Ideal) x0 x7 x8 x9 x10 x11 x12 (ix2 r j) = casc2 x0 ⟨x7, x8, x9, x10, x11, x12⟩ 4 5 6 r j := by
  rw [out_2 x0 x7 x8 x9 x10 x11 x12 h0 h1 h2 h3 h4 h5 h6, bnres_apply, lin_apply, val_1 x0 x7 x8 x9 x10 x11 x12 h0 h1 h2 h3 h4]
  simp only [lin_apply, x_2, wv_2, bv_2, wo_2, bo_2, g_2, b_2]
  rfl

/-! ### Layer 3 -/

theorem x_3 (r : Fin 4096) (k : Fin 768) : val_main_v267 (F := Ideal) x0 (ix2 r k) = x0 (ix2 r (xcol 7 k)) := by
  rw [val_main_v267_apply]
  exact congrArg x0 (funext fun a => Fin.ext (by match a with | ⟨0, _⟩ => idx_tac | ⟨1, _⟩ => idx_tac))
theorem wv_3 (j k : Fin 768) : val_main_v469 (F := Ideal) x7 (ix2 j k) = x7 (ix3 3 (vrow j) k) := by
  rw [val_main_v469_apply, val_main_v460_apply, val_main_v459_apply]
  exact congrArg x7 (funext fun a => Fin.ext (by match a with | ⟨0, _⟩ => idx_tac | ⟨1, _⟩ => (show ((1536 + j.val) * 768 + k.val) / 768 % 2304 = 1536 + j.val; omega) | ⟨2, _⟩ => (show ((1536 + j.val) * 768 + k.val) % 768 = k.val; omega)))
theorem bv_3 (j : Fin 768) : val_main_v472 (F := Ideal) x8 (ix1 j) = x8 (ix2 3 (vrow j)) := by
  rw [val_main_v472_apply, val_main_v462_apply, val_main_v461_apply]
  exact congrArg x8 (funext fun a => Fin.ext (by match a with | ⟨0, _⟩ => idx_tac | ⟨1, _⟩ => idx_tac))
theorem wo_3 (j k : Fin 768) : val_main_v464 (F := Ideal) x9 (ix2 j k) = x9 (ix3 3 j k) := by
  rw [val_main_v464_apply, val_main_v463_apply]
  exact congrArg x9 (funext fun a => Fin.ext (by match a with | ⟨0, _⟩ => idx_tac | ⟨1, _⟩ => (show (j.val * 768 + k.val) / 768 % 768 = j.val; omega) | ⟨2, _⟩ => (show (j.val * 768 + k.val) % 768 = k.val; omega)))
theorem bo_3 (j : Fin 768) : val_main_v466 (F := Ideal) x10 (ix1 j) = x10 (ix2 3 j) := by
  rw [val_main_v466_apply, val_main_v465_apply]
  exact congrArg x10 (funext fun a => Fin.ext (by match a with | ⟨0, _⟩ => idx_tac | ⟨1, _⟩ => idx_tac))
theorem g_3 (j : Fin 768) : val_main_v516 (F := Ideal) x11 (ix1 j) = x11 (ix2 3 j) := by
  rw [val_main_v516_apply, val_main_v515_apply]
  exact congrArg x11 (funext fun a => Fin.ext (by match a with | ⟨0, _⟩ => idx_tac | ⟨1, _⟩ => idx_tac))
theorem b_3 (j : Fin 768) : val_main_v518 (F := Ideal) x12 (ix1 j) = x12 (ix2 3 j) := by
  rw [val_main_v518_apply, val_main_v517_apply]
  exact congrArg x12 (funext fun a => Fin.ext (by match a with | ⟨0, _⟩ => idx_tac | ⟨1, _⟩ => idx_tac))

include h0 h1 h2 h3 h4 h5 h6 in
theorem fin_q3 : AllFin (val_main_v477 (F := Ideal) x0 x7 x8 x9 x10 x11 x12) := fin_lin _ _ _ (fin_2 x0 x7 x8 x9 x10 x11 x12 h0 h1 h2 h3 h4 h5 h6) (by fin_w) (by fin_w)
include h0 h1 h2 in
theorem fin_k3 : AllFin (val_main_v483 (F := Ideal) x0 x7 x8) := fin_lin _ _ _ (by fin_w) (by fin_w) (by fin_w)
include h0 h1 h2 h3 h4 h5 h6 in
theorem ctx_3 : val_main_v508 (F := Ideal) x0 x7 x8 x9 x10 x11 x12 = val_main_v489 (F := Ideal) x0 x7 x8 :=
  ctx_of (val_main_v477 (F := Ideal) x0 x7 x8 x9 x10 x11 x12) (val_main_v483 (F := Ideal) x0 x7 x8) (val_main_v489 (F := Ideal) x0 x7 x8)
    (fin_q3 x0 x7 x8 x9 x10 x11 x12 h0 h1 h2 h3 h4 h5 h6) (fin_k3 x0 x7 x8 h0 h1 h2)
include h0 h1 h2 h3 h4 h5 h6 in
theorem out_3 : val_main_v526 (F := Ideal) x0 x7 x8 x9 x10 x11 x12
    = bnresTerm (linTerm (linTerm (val_main_v267 (F := Ideal) x0) (val_main_v469 (F := Ideal) x7) (val_main_v472 (F := Ideal) x8)) (val_main_v464 (F := Ideal) x9) (val_main_v466 (F := Ideal) x10)) (val_main_v458 (F := Ideal) x0 x7 x8 x9 x10 x11 x12) (val_main_v516 (F := Ideal) x11) (val_main_v518 (F := Ideal) x12) := by
  have e : val_main_v526 (F := Ideal) x0 x7 x8 x9 x10 x11 x12 = bnresTerm (linTerm (val_main_v508 (F := Ideal) x0 x7 x8 x9 x10 x11 x12) (val_main_v464 (F := Ideal) x9) (val_main_v466 (F := Ideal) x10)) (val_main_v458 (F := Ideal) x0 x7 x8 x9 x10 x11 x12) (val_main_v516 (F := Ideal) x11) (val_main_v518 (F := Ideal) x12) := rfl
  rw [e, ctx_3 x0 x7 x8 x9 x10 x11 x12 h0 h1 h2 h3 h4 h5 h6]
  rfl
include h0 h1 h2 h3 h4 h5 h6 in
theorem fin_3 : AllFin (val_main_v526 (F := Ideal) x0 x7 x8 x9 x10 x11 x12) := by
  rw [out_3 x0 x7 x8 x9 x10 x11 x12 h0 h1 h2 h3 h4 h5 h6]
  exact fin_bnres _ _ _ _ (fin_lin _ _ _ (fin_lin _ _ _ (by fin_w) (by fin_w) (by fin_w)) (by fin_w) (by fin_w)) (fin_2 x0 x7 x8 x9 x10 x11 x12 h0 h1 h2 h3 h4 h5 h6) (by fin_w) (by fin_w)
include h0 h1 h2 h3 h4 h5 h6 in
theorem val_3 (r : Fin 4096) (j : Fin 768) :
    val_main_v526 (F := Ideal) x0 x7 x8 x9 x10 x11 x12 (ix2 r j) = casc3 x0 ⟨x7, x8, x9, x10, x11, x12⟩ 4 5 6 7 r j := by
  rw [out_3 x0 x7 x8 x9 x10 x11 x12 h0 h1 h2 h3 h4 h5 h6, bnres_apply, lin_apply, val_2 x0 x7 x8 x9 x10 x11 x12 h0 h1 h2 h3 h4 h5 h6]
  simp only [lin_apply, x_3, wv_3, bv_3, wo_3, bo_3, g_3, b_3]
  rfl

end

end Cert.RefJ

end
-- ==== Proof.RefChunks.lean ====
/-
  The reference's result array is the row function of Spec.lean, when the first thirteen argument arrays are finite:
  the eight cascade outputs (four per branch) are the row function's eight chunks, and the head joins them.
-/
import proofs.«171191_j1709396984333_2_alg».proof.Proof.RefP
import proofs.«171191_j1709396984333_2_alg».proof.Proof.RefJ
import proofs.«171191_j1709396984333_2_alg».proof.Proof.RefHead

noncomputable section

namespace Cert.RefChunks

open Cert.ReferenceIdeal Cert.ReferenceIdeal.ReadP Idealize.ShloMosaic Idealize.ShloMosaic.ValueIdx Cert.Spec Cert.RefHead

theorem result (x0 : A S4096x6144) (x1 : A S4x2304x768) (x2 : A S4x2304) (x3 : A S4x768x768) (x4 x5 x6 : A S4x768)
    (x7 : A S4x2304x768) (x8 : A S4x2304) (x9 : A S4x768x768) (x10 x11 x12 : A S4x768) (x13 : A S512x6144) (x14 x15 x16 : A S512)
    (x17 : A S128x512) (x18 x19 x20 : A S128) (x21 : A S1x128) (x22 : A S1)
    (h0 : AllFin x0) (h1 : AllFin x1) (h2 : AllFin x2) (h3 : AllFin x3) (h4 : AllFin x4) (h5 : AllFin x5) (h6 : AllFin x6)
    (h7 : AllFin x7) (h8 : AllFin x8) (h9 : AllFin x9) (h10 : AllFin x10) (h11 : AllFin x11) (h12 : AllFin x12) :
    val_main_v561 (F := Ideal) x0 x1 x2 x3 x4 x5 x6 x7 x8 x9 x10 x11 x12 x13 x14 x15 x16 x17 x18 x19 x20 x21 x22
      = G x0 (Bp x1 x2 x3 x4 x5 x6) (Bj x7 x8 x9 x10 x11 x12) (Hd x13 x14 x15 x16 x17 x18 x19 x20 x21 x22) :=
  Cert.RefHead.result_eq x0 x1 x2 x3 x4 x5 x6 x7 x8 x9 x10 x11 x12 x13 x14 x15 x16 x17 x18 x19 x20 x21 x22
    (fun r j => Cert.RefP.val_0 x0 x1 x2 x3 x4 x5 x6 h0 h1 h2 r j)
    (fun r j => Cert.RefP.val_1 x0 x1 x2 x3 x4 x5 x6 h0 h1 h2 h3 h4 r j)
    (fun r j => Cert.RefP.val_2 x0 x1 x2 x3 x4 x5 x6 h0 h1 h2 h3 h4 h5 h6 r j)
    (fun r j => Cert.RefP.val_3 x0 x1 x2 x3 x4 x5 x6 h0 h1 h2 h3 h4 h5 h6 r j)
    (fun r j => Cert.RefJ.val_0 x0 x7 x8 x9 x10 x11 x12 h0 h7 h8 r j)
    (fun r j => Cert.RefJ.val_1 x0 x7 x8 x9 x10 x11 x12 h0 h7 h8 h9 h10 r j)
    (fun r j => Cert.RefJ.val_2 x0 x7 x8 x9 x10 x11 x12 h0 h7 h8 h9 h10 h11 h12 r j)
    (fun r j => Cert.RefJ.val_3 x0 x7 x8 x9 x10 x11 x12 h0 h7 h8 h9 h10 h11 h12 r j)

end Cert.RefChunks

end
-- ==== Proof.RefOps.lean ====
/-
  The reference's @main as eleven lines of operations, one per printed part, and its run read back: every weakly
  fair execution terminates with each buffer at the fold of the operations' results over the launch contents.
  Running the lines one after the other is running their concatenation, so the fold splits line by line.
-/
import proofs.«171191_j1709396984333_2_alg».proof.Proof.Gen.ReferenceIdeal
import Idealize.ShloMosaic.Lib.StableHlo.Run

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- Running two lines of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- Operations 0 to 59 of @main, in order: the statements of its part 0. -/
abbrev ops0 : List (HloOp τ sig (Elt F)) :=
  [ unary main_arg0 main_v0 ((extractStridedSlice S4096x768 ![0, 0] · slices_S4096x6144_S4096x768_0_0) : (⟨S4096x6144, .f32⟩ : BufTy).Contents (Elt F) → (⟨S4096x768, .f32⟩ : BufTy).Contents (Elt F)),
    unary main_arg0 main_v1 ((extractStridedSlice S4096x768 ![0, 768] · slices_S4096x6144_S4096x768_0_768) : (⟨S4096x6144, .f32⟩ : BufTy).Contents (Elt F) → (⟨S4096x768, .f32⟩ : BufTy).Contents (Elt F)),
    unary main_arg0 main_v2 ((extractStridedSlice S4096x768 ![0, 1536] · slices_S4096x6144_S4096x768_0_1536) : (⟨S4096x6144, .f32⟩ : BufTy).Contents (Elt F) → (⟨S4096x768, .f32⟩ : BufTy).Contents (Elt F)),
    unary main_arg0 main_v3 ((extractStridedSlice S4096x768 ![0, 2304] · slices_S4096x6144_S4096x768_0_2304) : (⟨S4096x6144, .f32⟩ : BufTy).Contents (Elt F) → (⟨S4096x768, .f32⟩ : BufTy).Contents (Elt F)),
    unary main_arg1 main_v4 ((extractStridedSlice S1x2304x768 ![0, 0, 0] · slices_S4x2304x768_S1x2304x768_0_0_0) : (⟨S4x2304x768, .f32⟩ : BufTy).Contents (Elt F) → (⟨S1x2304x768, .f32⟩ : BufTy).Contents (Elt F)),
    reshape main_v4 main_v5 rfl shapeCasts_S1x2304x768_S2304x768,
    unary main_arg2 main_v6 ((extractStridedSlice S1x2304 ![0, 0] · slices_S4x2304_S1x2304_0_0) : (⟨S4x2304, .f32⟩ : BufTy).Contents (Elt F) → (⟨S1x2304, .f32⟩ : BufTy).Contents (Elt F)),
    reshape main_v6 main_v7 rfl shapeCasts_S1x2304_S2304,
    unary main_arg3 main_v8 ((extractStridedSlice S1x768x768 ![0, 0, 0] · slices_S4x768x768_S1x768x768_0_0_0) : (⟨S4x768x768, .f32⟩ : BufTy).Contents (Elt F) → (⟨S1x768x768, .f32⟩ : BufTy).Contents (Elt F)),
    reshape main_v8 main_v9 rfl shapeCasts_S1x768x768_S768x768,
    unary main_arg4 main_v10 ((extractStridedSlice S1x768 ![0, 0] · slices_S4x768_S1x768_0_0) : (⟨S4x768, .f32⟩ : BufTy).Contents (Elt F) → (⟨S1x768, .f32⟩ : BufTy).Contents (Elt F)),
    reshape main_v10 main_v11 rfl shapeCasts_S1x768_S768,
    unary main_v5 main_v12 ((extractStridedSlice S768x768 ![0, 0] · slices_S2304x768_S768x768_0_0) : (⟨S2304x768, .f32⟩ : BufTy).Contents (Elt F) → (⟨S768x768, .f32⟩ : BufTy).Contents (Elt F)),
    unary main_v5 main_v13 ((extractStridedSlice S768x768 ![768, 0] · slices_S2304x768_S768x768_768_0) : (⟨S2304x768, .f32⟩ : BufTy).Contents (Elt F) → (⟨S768x768, .f32⟩ : BufTy).Contents (Elt F)),
    unary main_v5 main_v14 ((extractStridedSlice S768x768 ![1536, 0] · slices_S2304x768_S768x768_1536_0) : (⟨S2304x768, .f32⟩ : BufTy).Contents (Elt F) → (⟨S768x768, .f32⟩ : BufTy).Contents (Elt F)),
    unary main_v7 main_v15 ((extractStridedSlice S768 ![0] · slices_S2304_S768_0) : (⟨S2304, .f32⟩ : BufTy).Contents (Elt F) → (⟨S768, .f32⟩ : BufTy).Contents (Elt F)),
    unary main_v7 main_v16 ((extractStridedSlice S768 ![768] · slices_S2304_S768_768) : (⟨S2304, .f32⟩ : BufTy).Contents (Elt F) → (⟨S768, .f32⟩ : BufTy).Contents (Elt F)),
    unary main_v7 main_v17 ((extractStridedSlice S768 ![1536] · slices_S2304_S768_1536) : (⟨S2304, .f32⟩ : BufTy).Contents (Elt F) → (⟨S768, .f32⟩ : BufTy).Contents (Elt F)),
    unary main_v12 main_v18 ((transpose S768x768 [1, 0] · transposes_S768x768_S768x768_1_0) : (⟨S768x768, .f32⟩ : BufTy).Contents (Elt F) → (⟨S768x768, .f32⟩ : BufTy).Contents (Elt F)),
    binary main_v0 main_v18 main_v19 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v15 main_v20 (broadcastInDim S1x768 ![1] bcast_S768_S1x768_1 : (⟨S768, .f32⟩ : BufTy).Contents (Elt F) → (⟨S1x768, .f32⟩ : BufTy).Contents (Elt F)),
    unary main_v20 main_v21 (broadcastInDim S4096x768 ![0, 1] bcast_S1x768_S4096x768_0_1 : (⟨S1x768, .f32⟩ : BufTy).Contents (Elt F) → (⟨S4096x768, .f32⟩ : BufTy).Contents (Elt F)),
    binary main_v19 main_v21 main_v22 (addf : (⟨S4096x768, .f32⟩ : BufTy).Contents (Elt F) → (⟨S4096x768, .f32⟩ : BufTy).Contents (Elt F) → (⟨S4096x768, .f32⟩ : BufTy).Contents (Elt F)),
    reshape main_v22 main_v23 rfl shapeCasts_S4096x768_S4096x4x192,
    unary main_v13 main_v24 ((transpose S768x768 [1, 0] · transposes_S768x768_S768x768_1_0) : (⟨S768x768, .f32⟩ : BufTy).Contents (Elt F) → (⟨S768x768, .f32⟩ : BufTy).Contents (Elt F)),
    binary main_v0 main_v24 main_v25 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v16 main_v26 (broadcastInDim S1x768 ![1] bcast_S768_S1x768_1 : (⟨S768, .f32⟩ : BufTy).Contents (Elt F) → (⟨S1x768, .f32⟩ : BufTy).Contents (Elt F)),
    unary main_v26 main_v27 (broadcastInDim S4096x768 ![0, 1] bcast_S1x768_S4096x768_0_1 : (⟨S1x768, .f32⟩ : BufTy).Contents (Elt F) → (⟨S4096x768, .f32⟩ : BufTy).Contents (Elt F)),
    binary main_v25 main_v27 main_v28 (addf : (⟨S4096x768, .f32⟩ : BufTy).Contents (Elt F) → (⟨S4096x768, .f32⟩ : BufTy).Contents (Elt F) → (⟨S4096x768, .f32⟩ : BufTy).Contents (Elt F)),
    reshape main_v28 main_v29 rfl shapeCasts_S4096x768_S4096x4x192,
    unary main_v14 main_v30 ((transpose S768x768 [1, 0] · transposes_S768x768_S768x768_1_0) : (⟨S768x768, .f32⟩ : BufTy).Contents (Elt F) → (⟨S768x768, .f32⟩ : BufTy).Contents (Elt F)),
    binary main_v0 main_v30 main_v31 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v17 main_v32 (broadcastInDim S1x768 ![1] bcast_S768_S1x768_1 : (⟨S768, .f32⟩ : BufTy).Contents (Elt F) → (⟨S1x768, .f32⟩ : BufTy).Contents (Elt F)),
    unary main_v32 main_v33 (broadcastInDim S4096x768 ![0, 1] bcast_S1x768_S4096x768_0_1 : (⟨S1x768, .f32⟩ : BufTy).Contents (Elt F) → (⟨S4096x768, .f32⟩ : BufTy).Contents (Elt F)),
    binary main_v31 main_v33 main_v34 (addf : (⟨S4096x768, .f32⟩ : BufTy).Contents (Elt F) → (⟨S4096x768, .f32⟩ : BufTy).Contents (Elt F) → (⟨S4096x768, .f32⟩ : BufTy).Contents (Elt F)),
    reshape main_v34 main_v35 rfl shapeCasts_S4096x768_S4096x4x192,
    binary main_v23 main_v29 main_v36 (mulf : (⟨S4096x4x192, .f32⟩ : BufTy).Contents (Elt F) → (⟨S4096x4x192, .f32⟩ : BufTy).Contents (Elt F) → (⟨S4096x4x192, .f32⟩ : BufTy).Contents (Elt F)),
    nullary main_cst (constant S_ .f32 0x00000000#32),
    binary main_v36 main_cst main_v37 ((fun x v => Host.reduceAdd x v reducesTo_S4096x4x192_S4096x4_d2 h_S_) : (⟨S4096x4x192, .f32⟩ : BufTy).Contents (Elt F) → (⟨S_, .f32⟩ : BufTy).Contents (Elt F) → (⟨S4096x4, .f32⟩ : BufTy).Contents (Elt F)),
    unary main_v37 main_v38 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_0 (constant S_ .f32 0x43400000#32),
    unary main_cst_0 main_v39 (Host.sqrt : (⟨S_, .f32⟩ : BufTy).Contents (Elt F) → (⟨S_, .f32⟩ : BufTy).Contents (Elt F)),
    unary main_v39 main_v40 (broadcastInDim S4096x4x1 ![] bcast_S_S4096x4x1 : (⟨S_, .f32⟩ : BufTy).Contents (Elt F) → (⟨S4096x4x1, .f32⟩ : BufTy).Contents (Elt F)),
    binary main_v38 main_v40 main_v41 (Host.divf : (⟨S4096x4x1, .f32⟩ : BufTy).Contents (Elt F) → (⟨S4096x4x1, .f32⟩ : BufTy).Contents (Elt F) → (⟨S4096x4x1, .f32⟩ : BufTy).Contents (Elt F)),
    nullary main_cst_1 (constant S_ .f32 0xFF800000#32),
    binary main_v41 main_cst_1 main_v42 ((fun x v => Host.reduce FloatOps.maximumf x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    nullary main_cst_2 (constant S_ .f32 0xFF800000#32),
    unary main_cst_2 main_v43 (broadcastInDim S4096x4 ![] bcast_S_S4096x4 : (⟨S_, .f32⟩ : BufTy).Contents (Elt F) → (⟨S4096x4, .f32⟩ : BufTy).Contents (Elt F)),
    binary main_v43 main_v42 main_v44 (maximumf : (⟨S4096x4, .f32⟩ : BufTy).Contents (Elt F) → (⟨S4096x4, .f32⟩ : BufTy).Contents (Elt F) → (⟨S4096x4, .f32⟩ : BufTy).Contents (Elt F)),
    unary main_v44 main_v45 (broadcastInDim S4096x4x1 ![0, 1] bcast_S4096x4_S4096x4x1_0_1 : (⟨S4096x4, .f32⟩ : BufTy).Contents (Elt F) → (⟨S4096x4x1, .f32⟩ : BufTy).Contents (Elt F)),
    binary main_v41 main_v45 main_v46 (subf : (⟨S4096x4x1, .f32⟩ : BufTy).Contents (Elt F) → (⟨S4096x4x1, .f32⟩ : BufTy).Contents (Elt F) → (⟨S4096x4x1, .f32⟩ : BufTy).Contents (Elt F)),
    unary main_v46 main_v47 (Host.exp : (⟨S4096x4x1, .f32⟩ : BufTy).Contents (Elt F) → (⟨S4096x4x1, .f32⟩ : BufTy).Contents (Elt F)),
    nullary main_cst_3 (constant S_ .f32 0x00000000#32),
    binary main_v47 main_cst_3 main_v48 ((fun x v => Host.reduceAdd x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    unary main_v48 main_v49 (broadcastInDim S4096x4x1 ![0, 1] bcast_S4096x4_S4096x4x1_0_1 : (⟨S4096x4, .f32⟩ : BufTy).Contents (Elt F) → (⟨S4096x4x1, .f32⟩ : BufTy).Contents (Elt F)),
    binary main_v47 main_v49 main_v50 (Host.divf : (⟨S4096x4x1, .f32⟩ : BufTy).Contents (Elt F) → (⟨S4096x4x1, .f32⟩ : BufTy).Contents (Elt F) → (⟨S4096x4x1, .f32⟩ : BufTy).Contents (Elt F)),
    unary main_v50 main_v51 (broadcastInDim S4096x4x192 ![0, 1, 2] bcast_S4096x4x1_S4096x4x192_0_1_2 : (⟨S4096x4x1, .f32⟩ : BufTy).Contents (Elt F) → (⟨S4096x4x192, .f32⟩ : BufTy).Contents (Elt F)),
    binary main_v51 main_v35 main_v52 (mulf : (⟨S4096x4x192, .f32⟩ : BufTy).Contents (Elt F) → (⟨S4096x4x192, .f32⟩ : BufTy).Contents (Elt F) → (⟨S4096x4x192, .f32⟩ : BufTy).Contents (Elt F)),
    reshape main_v52 main_v53 rfl shapeCasts_S4096x4x192_S4096x768,
    unary main_v9 main_v54 ((transpose S768x768 [1, 0] · transposes_S768x768_S768x768_1_0) : (⟨S768x768, .f32⟩ : BufTy).Contents (Elt F) → (⟨S768x768, .f32⟩ : BufTy).Contents (Elt F)) ]

set_option maxRecDepth 8192 in
set_option maxHeartbeats 4000000 in
theorem part0_eq (c : Dev nD) : main_part0 (F := F) c = seq ops0 := rfl

set_option maxRecDepth 8192 in
theorem ops0_sub : (ops0 : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., binary_bufs_sub .., nullary_bufs_sub .., binary_bufs_sub .., unary_bufs_sub .., nullary_bufs_sub .., unary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., reshape_bufs_sub .., unary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- Operations 60 to 119 of @main, in order: the statements of its part 1. -/
abbrev ops1 : List (HloOp τ sig (Elt F)) :=
  [ binary main_v53 main_v54 main_v55 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v11 main_v56 (broadcastInDim S1x768 ![1] bcast_S768_S1x768_1 : (⟨S768, .f32⟩ : BufTy).Contents (Elt F) → (⟨S1x768, .f32⟩ : BufTy).Contents (Elt F)),
    unary main_v56 main_v57 (broadcastInDim S4096x768 ![0, 1] bcast_S1x768_S4096x768_0_1 : (⟨S1x768, .f32⟩ : BufTy).Contents (Elt F) → (⟨S4096x768, .f32⟩ : BufTy).Contents (Elt F)),
    binary main_v55 main_v57 main_v58 (addf : (⟨S4096x768, .f32⟩ : BufTy).Contents (Elt F) → (⟨S4096x768, .f32⟩ : BufTy).Contents (Elt F) → (⟨S4096x768, .f32⟩ : BufTy).Contents (Elt F)),
    unary main_arg1 main_v59 ((extractStridedSlice S1x2304x768 ![1, 0, 0] · slices_S4x2304x768_S1x2304x768_1_0_0) : (⟨S4x2304x768, .f32⟩ : BufTy).Contents (Elt F) → (⟨S1x2304x768, .f32⟩ : BufTy).Contents (Elt F)),
    reshape main_v59 main_v60 rfl shapeCasts_S1x2304x768_S2304x768,
    unary main_arg2 main_v61 ((extractStridedSlice S1x2304 ![1, 0] · slices_S4x2304_S1x2304_1_0) : (⟨S4x2304, .f32⟩ : BufTy).Contents (Elt F) → (⟨S1x2304, .f32⟩ : BufTy).Contents (Elt F)),
    reshape main_v61 main_v62 rfl shapeCasts_S1x2304_S2304,
    unary main_arg3 main_v63 ((extractStridedSlice S1x768x768 ![1, 0, 0] · slices_S4x768x768_S1x768x768_1_0_0) : (⟨S4x768x768, .f32⟩ : BufTy).Contents (Elt F) → (⟨S1x768x768, .f32⟩ : BufTy).Contents (Elt F)),
    reshape main_v63 main_v64 rfl shapeCasts_S1x768x768_S768x768,
    unary main_arg4 main_v65 ((extractStridedSlice S1x768 ![1, 0] · slices_S4x768_S1x768_1_0) : (⟨S4x768, .f32⟩ : BufTy).Contents (Elt F) → (⟨S1x768, .f32⟩ : BufTy).Contents (Elt F)),
    reshape main_v65 main_v66 rfl shapeCasts_S1x768_S768,
    unary main_v60 main_v67 ((extractStridedSlice S768x768 ![0, 0] · slices_S2304x768_S768x768_0_0) : (⟨S2304x768, .f32⟩ : BufTy).Contents (Elt F) → (⟨S768x768, .f32⟩ : BufTy).Contents (Elt F)),
    unary main_v60 main_v68 ((extractStridedSlice S768x768 ![768, 0] · slices_S2304x768_S768x768_768_0) : (⟨S2304x768, .f32⟩ : BufTy).Contents (Elt F) → (⟨S768x768, .f32⟩ : BufTy).Contents (Elt F)),
    unary main_v60 main_v69 ((extractStridedSlice S768x768 ![1536, 0] · slices_S2304x768_S768x768_1536_0) : (⟨S2304x768, .f32⟩ : BufTy).Contents (Elt F) → (⟨S768x768, .f32⟩ : BufTy).Contents (Elt F)),
    unary main_v62 main_v70 ((extractStridedSlice S768 ![0] · slices_S2304_S768_0) : (⟨S2304, .f32⟩ : BufTy).Contents (Elt F) → (⟨S768, .f32⟩ : BufTy).Contents (Elt F)),
    unary main_v62 main_v71 ((extractStridedSlice S768 ![768] · slices_S2304_S768_768) : (⟨S2304, .f32⟩ : BufTy).Contents (Elt F) → (⟨S768, .f32⟩ : BufTy).Contents (Elt F)),
    unary main_v62 main_v72 ((extractStridedSlice S768 ![1536] · slices_S2304_S768_1536) : (⟨S2304, .f32⟩ : BufTy).Contents (Elt F) → (⟨S768, .f32⟩ : BufTy).Contents (Elt F)),
    unary main_v67 main_v73 ((transpose S768x768 [1, 0] · transposes_S768x768_S768x768_1_0) : (⟨S768x768, .f32⟩ : BufTy).Contents (Elt F) → (⟨S768x768, .f32⟩ : BufTy).Contents (Elt F)),
    binary main_v58 main_v73 main_v74 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v70 main_v75 (broadcastInDim S1x768 ![1] bcast_S768_S1x768_1 : (⟨S768, .f32⟩ : BufTy).Contents (Elt F) → (⟨S1x768, .f32⟩ : BufTy).Contents (Elt F)),
    unary main_v75 main_v76 (broadcastInDim S4096x768 ![0, 1] bcast_S1x768_S4096x768_0_1 : (⟨S1x768, .f32⟩ : BufTy).Contents (Elt F) → (⟨S4096x768, .f32⟩ : BufTy).Contents (Elt F)),
    binary main_v74 main_v76 main_v77 (addf : (⟨S4096x768, .f32⟩ : BufTy).Contents (Elt F) → (⟨S4096x768, .f32⟩ : BufTy).Contents (Elt F) → (⟨S4096x768, .f32⟩ : BufTy).Contents (Elt F)),
    reshape main_v77 main_v78 rfl shapeCasts_S4096x768_S4096x4x192,
    unary main_v68 main_v79 ((transpose S768x768 [1, 0] · transposes_S768x768_S768x768_1_0) : (⟨S768x768, .f32⟩ : BufTy).Contents (Elt F) → (⟨S768x768, .f32⟩ : BufTy).Contents (Elt F)),
    binary main_v1 main_v79 main_v80 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v71 main_v81 (broadcastInDim S1x768 ![1] bcast_S768_S1x768_1 : (⟨S768, .f32⟩ : BufTy).Contents (Elt F) → (⟨S1x768, .f32⟩ : BufTy).Contents (Elt F)),
    unary main_v81 main_v82 (broadcastInDim S4096x768 ![0, 1] bcast_S1x768_S4096x768_0_1 : (⟨S1x768, .f32⟩ : BufTy).Contents (Elt F) → (⟨S4096x768, .f32⟩ : BufTy).Contents (Elt F)),
    binary main_v80 main_v82 main_v83 (addf : (⟨S4096x768, .f32⟩ : BufTy).Contents (Elt F) → (⟨S4096x768, .f32⟩ : BufTy).Contents (Elt F) → (⟨S4096x768, .f32⟩ : BufTy).Contents (Elt F)),
    reshape main_v83 main_v84 rfl shapeCasts_S4096x768_S4096x4x192,
    unary main_v69 main_v85 ((transpose S768x768 [1, 0] · transposes_S768x768_S768x768_1_0) : (⟨S768x768, .f32⟩ : BufTy).Contents (Elt F) → (⟨S768x768, .f32⟩ : BufTy).Contents (Elt F)),
    binary main_v1 main_v85 main_v86 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v72 main_v87 (broadcastInDim S1x768 ![1] bcast_S768_S1x768_1 : (⟨S768, .f32⟩ : BufTy).Contents (Elt F) → (⟨S1x768, .f32⟩ : BufTy).Contents (Elt F)),
    unary main_v87 main_v88 (broadcastInDim S4096x768 ![0, 1] bcast_S1x768_S4096x768_0_1 : (⟨S1x768, .f32⟩ : BufTy).Contents (Elt F) → (⟨S4096x768, .f32⟩ : BufTy).Contents (Elt F)),
    binary main_v86 main_v88 main_v89 (addf : (⟨S4096x768, .f32⟩ : BufTy).Contents (Elt F) → (⟨S4096x768, .f32⟩ : BufTy).Contents (Elt F) → (⟨S4096x768, .f32⟩ : BufTy).Contents (Elt F)),
    reshape main_v89 main_v90 rfl shapeCasts_S4096x768_S4096x4x192,
    binary main_v78 main_v84 main_v91 (mulf : (⟨S4096x4x192, .f32⟩ : BufTy).Contents (Elt F) → (⟨S4096x4x192, .f32⟩ : BufTy).Contents (Elt F) → (⟨S4096x4x192, .f32⟩ : BufTy).Contents (Elt F)),
    nullary main_cst_4 (constant S_ .f32 0x00000000#32),
    binary main_v91 main_cst_4 main_v92 ((fun x v => Host.reduceAdd x v reducesTo_S4096x4x192_S4096x4_d2 h_S_) : (⟨S4096x4x192, .f32⟩ : BufTy).Contents (Elt F) → (⟨S_, .f32⟩ : BufTy).Contents (Elt F) → (⟨S4096x4, .f32⟩ : BufTy).Contents (Elt F)),
    unary main_v92 main_v93 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_5 (constant S_ .f32 0x43400000#32),
    unary main_cst_5 main_v94 (Host.sqrt : (⟨S_, .f32⟩ : BufTy).Contents (Elt F) → (⟨S_, .f32⟩ : BufTy).Contents (Elt F)),
    unary main_v94 main_v95 (broadcastInDim S4096x4x1 ![] bcast_S_S4096x4x1 : (⟨S_, .f32⟩ : BufTy).Contents (Elt F) → (⟨S4096x4x1, .f32⟩ : BufTy).Contents (Elt F)),
    binary main_v93 main_v95 main_v96 (Host.divf : (⟨S4096x4x1, .f32⟩ : BufTy).Contents (Elt F) → (⟨S4096x4x1, .f32⟩ : BufTy).Contents (Elt F) → (⟨S4096x4x1, .f32⟩ : BufTy).Contents (Elt F)),
    nullary main_cst_6 (constant S_ .f32 0xFF800000#32),
    binary main_v96 main_cst_6 main_v97 ((fun x v => Host.reduce FloatOps.maximumf x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    nullary main_cst_7 (constant S_ .f32 0xFF800000#32),
    unary main_cst_7 main_v98 (broadcastInDim S4096x4 ![] bcast_S_S4096x4 : (⟨S_, .f32⟩ : BufTy).Contents (Elt F) → (⟨S4096x4, .f32⟩ : BufTy).Contents (Elt F)),
    binary main_v98 main_v97 main_v99 (maximumf : (⟨S4096x4, .f32⟩ : BufTy).Contents (Elt F) → (⟨S4096x4, .f32⟩ : BufTy).Contents (Elt F) → (⟨S4096x4, .f32⟩ : BufTy).Contents (Elt F)),
    unary main_v99 main_v100 (broadcastInDim S4096x4x1 ![0, 1] bcast_S4096x4_S4096x4x1_0_1 : (⟨S4096x4, .f32⟩ : BufTy).Contents (Elt F) → (⟨S4096x4x1, .f32⟩ : BufTy).Contents (Elt F)),
    binary main_v96 main_v100 main_v101 (subf : (⟨S4096x4x1, .f32⟩ : BufTy).Contents (Elt F) → (⟨S4096x4x1, .f32⟩ : BufTy).Contents (Elt F) → (⟨S4096x4x1, .f32⟩ : BufTy).Contents (Elt F)),
    unary main_v101 main_v102 (Host.exp : (⟨S4096x4x1, .f32⟩ : BufTy).Contents (Elt F) → (⟨S4096x4x1, .f32⟩ : BufTy).Contents (Elt F)),
    nullary main_cst_8 (constant S_ .f32 0x00000000#32),
    binary main_v102 main_cst_8 main_v103 ((fun x v => Host.reduceAdd x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    unary main_v103 main_v104 (broadcastInDim S4096x4x1 ![0, 1] bcast_S4096x4_S4096x4x1_0_1 : (⟨S4096x4, .f32⟩ : BufTy).Contents (Elt F) → (⟨S4096x4x1, .f32⟩ : BufTy).Contents (Elt F)),
    binary main_v102 main_v104 main_v105 (Host.divf : (⟨S4096x4x1, .f32⟩ : BufTy).Contents (Elt F) → (⟨S4096x4x1, .f32⟩ : BufTy).Contents (Elt F) → (⟨S4096x4x1, .f32⟩ : BufTy).Contents (Elt F)),
    unary main_v105 main_v106 (broadcastInDim S4096x4x192 ![0, 1, 2] bcast_S4096x4x1_S4096x4x192_0_1_2 : (⟨S4096x4x1, .f32⟩ : BufTy).Contents (Elt F) → (⟨S4096x4x192, .f32⟩ : BufTy).Contents (Elt F)),
    binary main_v106 main_v90 main_v107 (mulf : (⟨S4096x4x192, .f32⟩ : BufTy).Contents (Elt F) → (⟨S4096x4x192, .f32⟩ : BufTy).Contents (Elt F) → (⟨S4096x4x192, .f32⟩ : BufTy).Contents (Elt F)),
    reshape main_v107 main_v108 rfl shapeCasts_S4096x4x192_S4096x768,
    unary main_v64 main_v109 ((transpose S768x768 [1, 0] · transposes_S768x768_S768x768_1_0) : (⟨S768x768, .f32⟩ : BufTy).Contents (Elt F) → (⟨S768x768, .f32⟩ : BufTy).Contents (Elt F)) ]

set_option maxRecDepth 8192 in
set_option maxHeartbeats 4000000 in
theorem part1_eq (c : Dev nD) : main_part1 (F := F) c = seq ops1 := rfl

set_option maxRecDepth 8192 in
theorem ops1_sub : (ops1 : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., binary_bufs_sub .., nullary_bufs_sub .., binary_bufs_sub .., unary_bufs_sub .., nullary_bufs_sub .., unary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., reshape_bufs_sub .., unary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- Operations 120 to 179 of @main, in order: the statements of its part 2. -/
abbrev ops2 : List (HloOp τ sig (Elt F)) :=
  [ binary main_v108 main_v109 main_v110 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v66 main_v111 (broadcastInDim S1x768 ![1] bcast_S768_S1x768_1 : (⟨S768, .f32⟩ : BufTy).Contents (Elt F) → (⟨S1x768, .f32⟩ : BufTy).Contents (Elt F)),
    unary main_v111 main_v112 (broadcastInDim S4096x768 ![0, 1] bcast_S1x768_S4096x768_0_1 : (⟨S1x768, .f32⟩ : BufTy).Contents (Elt F) → (⟨S4096x768, .f32⟩ : BufTy).Contents (Elt F)),
    binary main_v110 main_v112 main_v113 (addf : (⟨S4096x768, .f32⟩ : BufTy).Contents (Elt F) → (⟨S4096x768, .f32⟩ : BufTy).Contents (Elt F) → (⟨S4096x768, .f32⟩ : BufTy).Contents (Elt F)),
    binary main_v113 main_v58 main_v114 (addf : (⟨S4096x768, .f32⟩ : BufTy).Contents (Elt F) → (⟨S4096x768, .f32⟩ : BufTy).Contents (Elt F) → (⟨S4096x768, .f32⟩ : BufTy).Contents (Elt F)),
    unary main_arg5 main_v115 ((extractStridedSlice S1x768 ![1, 0] · slices_S4x768_S1x768_1_0) : (⟨S4x768, .f32⟩ : BufTy).Contents (Elt F) → (⟨S1x768, .f32⟩ : BufTy).Contents (Elt F)),
    reshape main_v115 main_v116 rfl shapeCasts_S1x768_S768,
    unary main_arg6 main_v117 ((extractStridedSlice S1x768 ![1, 0] · slices_S4x768_S1x768_1_0) : (⟨S4x768, .f32⟩ : BufTy).Contents (Elt F) → (⟨S1x768, .f32⟩ : BufTy).Contents (Elt F)),
    reshape main_v117 main_v118 rfl shapeCasts_S1x768_S768,
    nullary main_cst_9 (constant S_ .f32 0x3F7FFFAC#32),
    unary main_cst_9 main_v119 (broadcastInDim S768 ![] bcast_S_S768 : (⟨S_, .f32⟩ : BufTy).Contents (Elt F) → (⟨S768, .f32⟩ : BufTy).Contents (Elt F)),
    binary main_v116 main_v119 main_v120 (mulf : (⟨S768, .f32⟩ : BufTy).Contents (Elt F) → (⟨S768, .f32⟩ : BufTy).Contents (Elt F) → (⟨S768, .f32⟩ : BufTy).Contents (Elt F)),
    unary main_v120 main_v121 (broadcastInDim S1x768 ![1] bcast_S768_S1x768_1 : (⟨S768, .f32⟩ : BufTy).Contents (Elt F) → (⟨S1x768, .f32⟩ : BufTy).Contents (Elt F)),
    unary main_v121 main_v122 (broadcastInDim S4096x768 ![0, 1] bcast_S1x768_S4096x768_0_1 : (⟨S1x768, .f32⟩ : BufTy).Contents (Elt F) → (⟨S4096x768, .f32⟩ : BufTy).Contents (Elt F)),
    binary main_v114 main_v122 main_v123 (mulf : (⟨S4096x768, .f32⟩ : BufTy).Contents (Elt F) → (⟨S4096x768, .f32⟩ : BufTy).Contents (Elt F) → (⟨S4096x768, .f32⟩ : BufTy).Contents (Elt F)),
    unary main_v118 main_v124 (broadcastInDim S1x768 ![1] bcast_S768_S1x768_1 : (⟨S768, .f32⟩ : BufTy).Contents (Elt F) → (⟨S1x768, .f32⟩ : BufTy).Contents (Elt F)),
    unary main_v124 main_v125 (broadcastInDim S4096x768 ![0, 1] bcast_S1x768_S4096x768_0_1 : (⟨S1x768, .f32⟩ : BufTy).Contents (Elt F) → (⟨S4096x768, .f32⟩ : BufTy).Contents (Elt F)),
    binary main_v123 main_v125 main_v126 (addf : (⟨S4096x768, .f32⟩ : BufTy).Contents (Elt F) → (⟨S4096x768, .f32⟩ : BufTy).Contents (Elt F) → (⟨S4096x768, .f32⟩ : BufTy).Contents (Elt F)),
    unary main_arg1 main_v127 ((extractStridedSlice S1x2304x768 ![2, 0, 0] · slices_S4x2304x768_S1x2304x768_2_0_0) : (⟨S4x2304x768, .f32⟩ : BufTy).Contents (Elt F) → (⟨S1x2304x768, .f32⟩ : BufTy).Contents (Elt F)),
    reshape main_v127 main_v128 rfl shapeCasts_S1x2304x768_S2304x768,
    unary main_arg2 main_v129 ((extractStridedSlice S1x2304 ![2, 0] · slices_S4x2304_S1x2304_2_0) : (⟨S4x2304, .f32⟩ : BufTy).Contents (Elt F) → (⟨S1x2304, .f32⟩ : BufTy).Contents (Elt F)),
    reshape main_v129 main_v130 rfl shapeCasts_S1x2304_S2304,
    unary main_arg3 main_v131 ((extractStridedSlice S1x768x768 ![2, 0, 0] · slices_S4x768x768_S1x768x768_2_0_0) : (⟨S4x768x768, .f32⟩ : BufTy).Contents (Elt F) → (⟨S1x768x768, .f32⟩ : BufTy).Contents (Elt F)),
    reshape main_v131 main_v132 rfl shapeCasts_S1x768x768_S768x768,
    unary main_arg4 main_v133 ((extractStridedSlice S1x768 ![2, 0] · slices_S4x768_S1x768_2_0) : (⟨S4x768, .f32⟩ : BufTy).Contents (Elt F) → (⟨S1x768, .f32⟩ : BufTy).Contents (Elt F)),
    reshape main_v133 main_v134 rfl shapeCasts_S1x768_S768,
    unary main_v128 main_v135 ((extractStridedSlice S768x768 ![0, 0] · slices_S2304x768_S768x768_0_0) : (⟨S2304x768, .f32⟩ : BufTy).Contents (Elt F) → (⟨S768x768, .f32⟩ : BufTy).Contents (Elt F)),
    unary main_v128 main_v136 ((extractStridedSlice S768x768 ![768, 0] · slices_S2304x768_S768x768_768_0) : (⟨S2304x768, .f32⟩ : BufTy).Contents (Elt F) → (⟨S768x768, .f32⟩ : BufTy).Contents (Elt F)),
    unary main_v128 main_v137 ((extractStridedSlice S768x768 ![1536, 0] · slices_S2304x768_S768x768_1536_0) : (⟨S2304x768, .f32⟩ : BufTy).Contents (Elt F) → (⟨S768x768, .f32⟩ : BufTy).Contents (Elt F)),
    unary main_v130 main_v138 ((extractStridedSlice S768 ![0] · slices_S2304_S768_0) : (⟨S2304, .f32⟩ : BufTy).Contents (Elt F) → (⟨S768, .f32⟩ : BufTy).Contents (Elt F)),
    unary main_v130 main_v139 ((extractStridedSlice S768 ![768] · slices_S2304_S768_768) : (⟨S2304, .f32⟩ : BufTy).Contents (Elt F) → (⟨S768, .f32⟩ : BufTy).Contents (Elt F)),
    unary main_v130 main_v140 ((extractStridedSlice S768 ![1536] · slices_S2304_S768_1536) : (⟨S2304, .f32⟩ : BufTy).Contents (Elt F) → (⟨S768, .f32⟩ : BufTy).Contents (Elt F)),
    unary main_v135 main_v141 ((transpose S768x768 [1, 0] · transposes_S768x768_S768x768_1_0) : (⟨S768x768, .f32⟩ : BufTy).Contents (Elt F) → (⟨S768x768, .f32⟩ : BufTy).Contents (Elt F)),
    binary main_v126 main_v141 main_v142 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v138 main_v143 (broadcastInDim S1x768 ![1] bcast_S768_S1x768_1 : (⟨S768, .f32⟩ : BufTy).Contents (Elt F) → (⟨S1x768, .f32⟩ : BufTy).Contents (Elt F)),
    unary main_v143 main_v144 (broadcastInDim S4096x768 ![0, 1] bcast_S1x768_S4096x768_0_1 : (⟨S1x768, .f32⟩ : BufTy).Contents (Elt F) → (⟨S4096x768, .f32⟩ : BufTy).Contents (Elt F)),
    binary main_v142 main_v144 main_v145 (addf : (⟨S4096x768, .f32⟩ : BufTy).Contents (Elt F) → (⟨S4096x768, .f32⟩ : BufTy).Contents (Elt F) → (⟨S4096x768, .f32⟩ : BufTy).Contents (Elt F)),
    reshape main_v145 main_v146 rfl shapeCasts_S4096x768_S4096x4x192,
    unary main_v136 main_v147 ((transpose S768x768 [1, 0] · transposes_S768x768_S768x768_1_0) : (⟨S768x768, .f32⟩ : BufTy).Contents (Elt F) → (⟨S768x768, .f32⟩ : BufTy).Contents (Elt F)),
    binary main_v2 main_v147 main_v148 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v139 main_v149 (broadcastInDim S1x768 ![1] bcast_S768_S1x768_1 : (⟨S768, .f32⟩ : BufTy).Contents (Elt F) → (⟨S1x768, .f32⟩ : BufTy).Contents (Elt F)),
    unary main_v149 main_v150 (broadcastInDim S4096x768 ![0, 1] bcast_S1x768_S4096x768_0_1 : (⟨S1x768, .f32⟩ : BufTy).Contents (Elt F) → (⟨S4096x768, .f32⟩ : BufTy).Contents (Elt F)),
    binary main_v148 main_v150 main_v151 (addf : (⟨S4096x768, .f32⟩ : BufTy).Contents (Elt F) → (⟨S4096x768, .f32⟩ : BufTy).Contents (Elt F) → (⟨S4096x768, .f32⟩ : BufTy).Contents (Elt F)),
    reshape main_v151 main_v152 rfl shapeCasts_S4096x768_S4096x4x192,
    unary main_v137 main_v153 ((transpose S768x768 [1, 0] · transposes_S768x768_S768x768_1_0) : (⟨S768x768, .f32⟩ : BufTy).Contents (Elt F) → (⟨S768x768, .f32⟩ : BufTy).Contents (Elt F)),
    binary main_v2 main_v153 main_v154 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v140 main_v155 (broadcastInDim S1x768 ![1] bcast_S768_S1x768_1 : (⟨S768, .f32⟩ : BufTy).Contents (Elt F) → (⟨S1x768, .f32⟩ : BufTy).Contents (Elt F)),
    unary main_v155 main_v156 (broadcastInDim S4096x768 ![0, 1] bcast_S1x768_S4096x768_0_1 : (⟨S1x768, .f32⟩ : BufTy).Contents (Elt F) → (⟨S4096x768, .f32⟩ : BufTy).Contents (Elt F)),
    binary main_v154 main_v156 main_v157 (addf : (⟨S4096x768, .f32⟩ : BufTy).Contents (Elt F) → (⟨S4096x768, .f32⟩ : BufTy).Contents (Elt F) → (⟨S4096x768, .f32⟩ : BufTy).Contents (Elt F)),
    reshape main_v157 main_v158 rfl shapeCasts_S4096x768_S4096x4x192,
    binary main_v146 main_v152 main_v159 (mulf : (⟨S4096x4x192, .f32⟩ : BufTy).Contents (Elt F) → (⟨S4096x4x192, .f32⟩ : BufTy).Contents (Elt F) → (⟨S4096x4x192, .f32⟩ : BufTy).Contents (Elt F)),
    nullary main_cst_10 (constant S_ .f32 0x00000000#32),
    binary main_v159 main_cst_10 main_v160 ((fun x v => Host.reduceAdd x v reducesTo_S4096x4x192_S4096x4_d2 h_S_) : (⟨S4096x4x192, .f32⟩ : BufTy).Contents (Elt F) → (⟨S_, .f32⟩ : BufTy).Contents (Elt F) → (⟨S4096x4, .f32⟩ : BufTy).Contents (Elt F)),
    unary main_v160 main_v161 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_11 (constant S_ .f32 0x43400000#32),
    unary main_cst_11 main_v162 (Host.sqrt : (⟨S_, .f32⟩ : BufTy).Contents (Elt F) → (⟨S_, .f32⟩ : BufTy).Contents (Elt F)),
    unary main_v162 main_v163 (broadcastInDim S4096x4x1 ![] bcast_S_S4096x4x1 : (⟨S_, .f32⟩ : BufTy).Contents (Elt F) → (⟨S4096x4x1, .f32⟩ : BufTy).Contents (Elt F)),
    binary main_v161 main_v163 main_v164 (Host.divf : (⟨S4096x4x1, .f32⟩ : BufTy).Contents (Elt F) → (⟨S4096x4x1, .f32⟩ : BufTy).Contents (Elt F) → (⟨S4096x4x1, .f32⟩ : BufTy).Contents (Elt F)),
    nullary main_cst_12 (constant S_ .f32 0xFF800000#32),
    binary main_v164 main_cst_12 main_v165 ((fun x v => Host.reduce FloatOps.maximumf x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)) ]

set_option maxRecDepth 8192 in
set_option maxHeartbeats 4000000 in
theorem part2_eq (c : Dev nD) : main_part2 (F := F) c = seq ops2 := rfl

set_option maxRecDepth 8192 in
theorem ops2_sub : (ops2 : List (HloOp τ sig (Elt F))).Forall fun op => op.bufs ⊆ tcRefs τ sig :=
  ⟨binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., binary_bufs_sub .., nullary_bufs_sub .., binary_bufs_sub .., unary_bufs_sub .., nullary_bufs_sub .., unary_bufs_sub .., unary_bufs_sub .., binary_bufs_sub .., nullary_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- Operations 180 to 239 of @main, in order: the statements of its part 3. -/
abbrev ops3 : List (HloOp τ sig (Elt F)) :=
  [ nullary main_cst_13 (constant S_ .f32 0xFF800000#32),
    unary main_cst_13 main_v166 (broadcastInDim S4096x4 ![] bcast_S_S4096x4 : (⟨S_, .f32⟩ : BufTy).Contents (Elt F) → (⟨S4096x4, .f32⟩ : BufTy).Contents (Elt F)),
    binary main_v166 main_v165 main_v167 (maximumf : (⟨S4096x4, .f32⟩ : BufTy).Contents (Elt F) → (⟨S4096x4, .f32⟩ : BufTy).Contents (Elt F) → (⟨S4096x4, .f32⟩ : BufTy).Contents (Elt F)),
    unary main_v167 main_v168 (broadcastInDim S4096x4x1 ![0, 1] bcast_S4096x4_S4096x4x1_0_1 : (⟨S4096x4, .f32⟩ : BufTy).Contents (Elt F) → (⟨S4096x4x1, .f32⟩ : BufTy).Contents (Elt F)),
    binary main_v164 main_v168 main_v169 (subf : (⟨S4096x4x1, .f32⟩ : BufTy).Contents (Elt F) → (⟨S4096x4x1, .f32⟩ : BufTy).Contents (Elt F) → (⟨S4096x4x1, .f32⟩ : BufTy).Contents (Elt F)),
    unary main_v169 main_v170 (Host.exp : (⟨S4096x4x1, .f32⟩ : BufTy).Contents (Elt F) → (⟨S4096x4x1, .f32⟩ : BufTy).Contents (Elt F)),
    nullary main_cst_14 (constant S_ .f32 0x00000000#32),
    binary main_v170 main_cst_14 main_v171 ((fun x v => Host.reduceAdd x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    unary main_v171 main_v172 (broadcastInDim S4096x4x1 ![0, 1] bcast_S4096x4_S4096x4x1_0_1 : (⟨S4096x4, .f32⟩ : BufTy).Contents (Elt F) → (⟨S4096x4x1, .f32⟩ : BufTy).Contents (Elt F)),
    binary main_v170 main_v172 main_v173 (Host.divf : (⟨S4096x4x1, .f32⟩ : BufTy).Contents (Elt F) → (⟨S4096x4x1, .f32⟩ : BufTy).Contents (Elt F) → (⟨S4096x4x1, .f32⟩ : BufTy).Contents (Elt F)),
    unary main_v173 main_v174 (broadcastInDim S4096x4x192 ![0, 1, 2] bcast_S4096x4x1_S4096x4x192_0_1_2 : (⟨S4096x4x1, .f32⟩ : BufTy).Contents (Elt F) → (⟨S4096x4x192, .f32⟩ : BufTy).Contents (Elt F)),
    binary main_v174 main_v158 main_v175 (mulf : (⟨S4096x4x192, .f32⟩ : BufTy).Contents (Elt F) → (⟨S4096x4x192, .f32⟩ : BufTy).Contents (Elt F) → (⟨S4096x4x192, .f32⟩ : BufTy).Contents (Elt F)),
    reshape main_v175 main_v176 rfl shapeCasts_S4096x4x192_S4096x768,
    unary main_v132 main_v177 ((transpose S768x768 [1, 0] · transposes_S768x768_S768x768_1_0) : (⟨S768x768, .f32⟩ : BufTy).Contents (Elt F) → (⟨S768x768, .f32⟩ : BufTy).Contents (Elt F)),
    binary main_v176 main_v177 main_v178 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v134 main_v179 (broadcastInDim S1x768 ![1] bcast_S768_S1x768_1 : (⟨S768, .f32⟩ : BufTy).Contents (Elt F) → (⟨S1x768, .f32⟩ : BufTy).Contents (Elt F)),
    unary main_v179 main_v180 (broadcastInDim S4096x768 ![0, 1] bcast_S1x768_S4096x768_0_1 : (⟨S1x768, .f32⟩ : BufTy).Contents (Elt F) → (⟨S4096x768, .f32⟩ : BufTy).Contents (Elt F)),
    binary main_v178 main_v180 main_v181 (addf : (⟨S4096x768, .f32⟩ : BufTy).Contents (Elt F) → (⟨S4096x768, .f32⟩ : BufTy).Contents (Elt F) → (⟨S4096x768, .f32⟩ : BufTy).Contents (Elt F)),
    binary main_v181 main_v126 main_v182 (addf : (⟨S4096x768, .f32⟩ : BufTy).Contents (Elt F) → (⟨S4096x768, .f32⟩ : BufTy).Contents (Elt F) → (⟨S4096x768, .f32⟩ : BufTy).Contents (Elt F)),
    unary main_arg5 main_v183 ((extractStridedSlice S1x768 ![2, 0] · slices_S4x768_S1x768_2_0) : (⟨S4x768, .f32⟩ : BufTy).Contents (Elt F) → (⟨S1x768, .f32⟩ : BufTy).Contents (Elt F)),
    reshape main_v183 main_v184 rfl shapeCasts_S1x768_S768,
    unary main_arg6 main_v185 ((extractStridedSlice S1x768 ![2, 0] · slices_S4x768_S1x768_2_0) : (⟨S4x768, .f32⟩ : BufTy).Contents (Elt F) → (⟨S1x768, .f32⟩ : BufTy).Contents (Elt F)),
    reshape main_v185 main_v186 rfl shapeCasts_S1x768_S768,
    nullary main_cst_15 (constant S_ .f32 0x3F7FFFAC#32),
    unary main_cst_15 main_v187 (broadcastInDim S768 ![] bcast_S_S768 : (⟨S_, .f32⟩ : BufTy).Contents (Elt F) → (⟨S768, .f32⟩ : BufTy).Contents (Elt F)),
    binary main_v184 main_v187 main_v188 (mulf : (⟨S768, .f32⟩ : BufTy).Contents (Elt F) → (⟨S768, .f32⟩ : BufTy).Contents (Elt F) → (⟨S768, .f32⟩ : BufTy).Contents (Elt F)),
    unary main_v188 main_v189 (broadcastInDim S1x768 ![1] bcast_S768_S1x768_1 : (⟨S768, .f32⟩ : BufTy).Contents (Elt F) → (⟨S1x768, .f32⟩ : BufTy).Contents (Elt F)),
    unary main_v189 main_v190 (broadcastInDim S4096x768 ![0, 1] bcast_S1x768_S4096x768_0_1 : (⟨S1x768, .f32⟩ : BufTy).Contents (Elt F) → (⟨S4096x768, .f32⟩ : BufTy).Contents (Elt F)),
    binary main_v182 main_v190 main_v191 (mulf : (⟨S4096x768, .f32⟩ : BufTy).Contents (Elt F) → (⟨S4096x768, .f32⟩ : BufTy).Contents (Elt F) → (⟨S4096x768, .f32⟩ : BufTy).Contents (Elt F)),
    unary main_v186 main_v192 (broadcastInDim S1x768 ![1] bcast_S768_S1x768_1 : (⟨S768, .f32⟩ : BufTy).Contents (Elt F) → (⟨S1x768, .f32⟩ : BufTy).Contents (Elt F)),
    unary main_v192 main_v193 (broadcastInDim S4096x768 ![0, 1] bcast_S1x768_S4096x768_0_1 : (⟨S1x768, .f32⟩ : BufTy).Contents (Elt F) → (⟨S4096x768, .f32⟩ : BufTy).Contents (Elt F)),
    binary main_v191 main_v193 main_v194 (addf : (⟨S4096x768, .f32⟩ : BufTy).Contents (Elt F) → (⟨S4096x768, .f32⟩ : BufTy).Contents (Elt F) → (⟨S4096x768, .f32⟩ : BufTy).Contents (Elt F)),
    unary main_arg1 main_v195 ((extractStridedSlice S1x2304x768 ![3, 0, 0] · slices_S4x2304x768_S1x2304x768_3_0_0) : (⟨S4x2304x768, .f32⟩ : BufTy).Contents (Elt F) → (⟨S1x2304x768, .f32⟩ : BufTy).Contents (Elt F)),
    reshape main_v195 main_v196 rfl shapeCasts_S1x2304x768_S2304x768,
    unary main_arg2 main_v197 ((extractStridedSlice S1x2304 ![3, 0] · slices_S4x2304_S1x2304_3_0) : (⟨S4x2304, .f32⟩ : BufTy).Contents (Elt F) → (⟨S1x2304, .f32⟩ : BufTy).Contents (Elt F)),
    reshape main_v197 main_v198 rfl shapeCasts_S1x2304_S2304,
    unary main_arg3 main_v199 ((extractStridedSlice S1x768x768 ![3, 0, 0] · slices_S4x768x768_S1x768x768_3_0_0) : (⟨S4x768x768, .f32⟩ : BufTy).Contents (Elt F) → (⟨S1x768x768, .f32⟩ : BufTy).Contents (Elt F)),
    reshape main_v199 main_v200 rfl shapeCasts_S1x768x768_S768x768,
    unary main_arg4 main_v201 ((extractStridedSlice S1x768 ![3, 0] · slices_S4x768_S1x768_3_0) : (⟨S4x768, .f32⟩ : BufTy).Contents (Elt F) → (⟨S1x768, .f32⟩ : BufTy).Contents (Elt F)),
    reshape main_v201 main_v202 rfl shapeCasts_S1x768_S768,
    unary main_v196 main_v203 ((extractStridedSlice S768x768 ![0, 0] · slices_S2304x768_S768x768_0_0) : (⟨S2304x768, .f32⟩ : BufTy).Contents (Elt F) → (⟨S768x768, .f32⟩ : BufTy).Contents (Elt F)),
    unary main_v196 main_v204 ((extractStridedSlice S768x768 ![768, 0] · slices_S2304x768_S768x768_768_0) : (⟨S2304x768, .f32⟩ : BufTy).Contents (Elt F) → (⟨S768x768, .f32⟩ : BufTy).Contents (Elt F)),
    unary main_v196 main_v205 ((extractStridedSlice S768x768 ![1536, 0] · slices_S2304x768_S768x768_1536_0) : (⟨S2304x768, .f32⟩ : BufTy).Contents (Elt F) → (⟨S768x768, .f32⟩ : BufTy).Contents (Elt F)),
    unary main_v198 main_v206 ((extractStridedSlice S768 ![0] · slices_S2304_S768_0) : (⟨S2304, .f32⟩ : BufTy).Contents (Elt F) → (⟨S768, .f32⟩ : BufTy).Contents (Elt F)),
    unary main_v198 main_v207 ((extractStridedSlice S768 ![768] · slices_S2304_S768_768) : (⟨S2304, .f32⟩ : BufTy).Contents (Elt F) → (⟨S768, .f32⟩ : BufTy).Contents (Elt F)),
    unary main_v198 main_v208 ((extractStridedSlice S768 ![1536] · slices_S2304_S768_1536) : (⟨S2304, .f32⟩ : BufTy).Contents (Elt F) → (⟨S768, .f32⟩ : BufTy).Contents (Elt F)),
    unary main_v203 main_v209 ((transpose S768x768 [1, 0] · transposes_S768x768_S768x768_1_0) : (⟨S768x768, .f32⟩ : BufTy).Contents (Elt F) → (⟨S768x768, .f32⟩ : BufTy).Contents (Elt F)),
    binary main_v194 main_v209 main_v210 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v206 main_v211 (broadcastInDim S1x768 ![1] bcast_S768_S1x768_1 : (⟨S768, .f32⟩ : BufTy).Contents (Elt F) → (⟨S1x768, .f32⟩ : BufTy).Contents (Elt F)),
    unary main_v211 main_v212 (broadcastInDim S4096x768 ![0, 1] bcast_S1x768_S4096x768_0_1 : (⟨S1x768, .f32⟩ : BufTy).Contents (Elt F) → (⟨S4096x768, .f32⟩ : BufTy).Contents (Elt F)),
    binary main_v210 main_v212 main_v213 (addf : (⟨S4096x768, .f32⟩ : BufTy).Contents (Elt F) → (⟨S4096x768, .f32⟩ : BufTy).Contents (Elt F) → (⟨S4096x768, .f32⟩ : BufTy).Contents (Elt F)),
    reshape main_v213 main_v214 rfl shapeCasts_S4096x768_S4096x4x192,
    unary main_v204 main_v215 ((transpose S768x768 [1, 0] · transposes_S768x768_S768x768_1_0) : (⟨S768x768, .f32⟩ : BufTy).Contents (Elt F) → (⟨S768x768, .f32⟩ : BufTy).Contents (Elt F)),
    binary main_v3 main_v215 main_v216 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v207 main_v217 (broadcastInDim S1x768 ![1] bcast_S768_S1x768_1 : (⟨S768, .f32⟩ : BufTy).Contents (Elt F) → (⟨S1x768, .f32⟩ : BufTy).Contents (Elt F)),
    unary main_v217 main_v218 (broadcastInDim S4096x768 ![0, 1] bcast_S1x768_S4096x768_0_1 : (⟨S1x768, .f32⟩ : BufTy).Contents (Elt F) → (⟨S4096x768, .f32⟩ : BufTy).Contents (Elt F)),
    binary main_v216 main_v218 main_v219 (addf : (⟨S4096x768, .f32⟩ : BufTy).Contents (Elt F) → (⟨S4096x768, .f32⟩ : BufTy).Contents (Elt F) → (⟨S4096x768, .f32⟩ : BufTy).Contents (Elt F)),
    reshape main_v219 main_v220 rfl shapeCasts_S4096x768_S4096x4x192,
    unary main_v205 main_v221 ((transpose S768x768 [1, 0] · transposes_S768x768_S768x768_1_0) : (⟨S768x768, .f32⟩ : BufTy).Contents (Elt F) → (⟨S768x768, .f32⟩ : BufTy).Contents (Elt F)),
    binary main_v3 main_v221 main_v222 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)) ]

set_option maxRecDepth 8192 in
set_option maxHeartbeats 4000000 in
theorem part3_eq (c : Dev nD) : main_part3 (F := F) c = seq ops3 := rfl

set_option maxRecDepth 8192 in
theorem ops3_sub : (ops3 : List (HloOp τ sig (Elt F))).Forall fun op => op.bufs ⊆ tcRefs τ sig :=
  ⟨nullary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., reshape_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- Operations 240 to 299 of @main, in order: the statements of its part 4. -/
abbrev ops4 : List (HloOp τ sig (Elt F)) :=
  [ unary main_v208 main_v223 (broadcastInDim S1x768 ![1] bcast_S768_S1x768_1 : (⟨S768, .f32⟩ : BufTy).Contents (Elt F) → (⟨S1x768, .f32⟩ : BufTy).Contents (Elt F)),
    unary main_v223 main_v224 (broadcastInDim S4096x768 ![0, 1] bcast_S1x768_S4096x768_0_1 : (⟨S1x768, .f32⟩ : BufTy).Contents (Elt F) → (⟨S4096x768, .f32⟩ : BufTy).Contents (Elt F)),
    binary main_v222 main_v224 main_v225 (addf : (⟨S4096x768, .f32⟩ : BufTy).Contents (Elt F) → (⟨S4096x768, .f32⟩ : BufTy).Contents (Elt F) → (⟨S4096x768, .f32⟩ : BufTy).Contents (Elt F)),
    reshape main_v225 main_v226 rfl shapeCasts_S4096x768_S4096x4x192,
    binary main_v214 main_v220 main_v227 (mulf : (⟨S4096x4x192, .f32⟩ : BufTy).Contents (Elt F) → (⟨S4096x4x192, .f32⟩ : BufTy).Contents (Elt F) → (⟨S4096x4x192, .f32⟩ : BufTy).Contents (Elt F)),
    nullary main_cst_16 (constant S_ .f32 0x00000000#32),
    binary main_v227 main_cst_16 main_v228 ((fun x v => Host.reduceAdd x v reducesTo_S4096x4x192_S4096x4_d2 h_S_) : (⟨S4096x4x192, .f32⟩ : BufTy).Contents (Elt F) → (⟨S_, .f32⟩ : BufTy).Contents (Elt F) → (⟨S4096x4, .f32⟩ : BufTy).Contents (Elt F)),
    unary main_v228 main_v229 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_17 (constant S_ .f32 0x43400000#32),
    unary main_cst_17 main_v230 (Host.sqrt : (⟨S_, .f32⟩ : BufTy).Contents (Elt F) → (⟨S_, .f32⟩ : BufTy).Contents (Elt F)),
    unary main_v230 main_v231 (broadcastInDim S4096x4x1 ![] bcast_S_S4096x4x1 : (⟨S_, .f32⟩ : BufTy).Contents (Elt F) → (⟨S4096x4x1, .f32⟩ : BufTy).Contents (Elt F)),
    binary main_v229 main_v231 main_v232 (Host.divf : (⟨S4096x4x1, .f32⟩ : BufTy).Contents (Elt F) → (⟨S4096x4x1, .f32⟩ : BufTy).Contents (Elt F) → (⟨S4096x4x1, .f32⟩ : BufTy).Contents (Elt F)),
    nullary main_cst_18 (constant S_ .f32 0xFF800000#32),
    binary main_v232 main_cst_18 main_v233 ((fun x v => Host.reduce FloatOps.maximumf x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    nullary main_cst_19 (constant S_ .f32 0xFF800000#32),
    unary main_cst_19 main_v234 (broadcastInDim S4096x4 ![] bcast_S_S4096x4 : (⟨S_, .f32⟩ : BufTy).Contents (Elt F) → (⟨S4096x4, .f32⟩ : BufTy).Contents (Elt F)),
    binary main_v234 main_v233 main_v235 (maximumf : (⟨S4096x4, .f32⟩ : BufTy).Contents (Elt F) → (⟨S4096x4, .f32⟩ : BufTy).Contents (Elt F) → (⟨S4096x4, .f32⟩ : BufTy).Contents (Elt F)),
    unary main_v235 main_v236 (broadcastInDim S4096x4x1 ![0, 1] bcast_S4096x4_S4096x4x1_0_1 : (⟨S4096x4, .f32⟩ : BufTy).Contents (Elt F) → (⟨S4096x4x1, .f32⟩ : BufTy).Contents (Elt F)),
    binary main_v232 main_v236 main_v237 (subf : (⟨S4096x4x1, .f32⟩ : BufTy).Contents (Elt F) → (⟨S4096x4x1, .f32⟩ : BufTy).Contents (Elt F) → (⟨S4096x4x1, .f32⟩ : BufTy).Contents (Elt F)),
    unary main_v237 main_v238 (Host.exp : (⟨S4096x4x1, .f32⟩ : BufTy).Contents (Elt F) → (⟨S4096x4x1, .f32⟩ : BufTy).Contents (Elt F)),
    nullary main_cst_20 (constant S_ .f32 0x00000000#32),
    binary main_v238 main_cst_20 main_v239 ((fun x v => Host.reduceAdd x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    unary main_v239 main_v240 (broadcastInDim S4096x4x1 ![0, 1] bcast_S4096x4_S4096x4x1_0_1 : (⟨S4096x4, .f32⟩ : BufTy).Contents (Elt F) → (⟨S4096x4x1, .f32⟩ : BufTy).Contents (Elt F)),
    binary main_v238 main_v240 main_v241 (Host.divf : (⟨S4096x4x1, .f32⟩ : BufTy).Contents (Elt F) → (⟨S4096x4x1, .f32⟩ : BufTy).Contents (Elt F) → (⟨S4096x4x1, .f32⟩ : BufTy).Contents (Elt F)),
    unary main_v241 main_v242 (broadcastInDim S4096x4x192 ![0, 1, 2] bcast_S4096x4x1_S4096x4x192_0_1_2 : (⟨S4096x4x1, .f32⟩ : BufTy).Contents (Elt F) → (⟨S4096x4x192, .f32⟩ : BufTy).Contents (Elt F)),
    binary main_v242 main_v226 main_v243 (mulf : (⟨S4096x4x192, .f32⟩ : BufTy).Contents (Elt F) → (⟨S4096x4x192, .f32⟩ : BufTy).Contents (Elt F) → (⟨S4096x4x192, .f32⟩ : BufTy).Contents (Elt F)),
    reshape main_v243 main_v244 rfl shapeCasts_S4096x4x192_S4096x768,
    unary main_v200 main_v245 ((transpose S768x768 [1, 0] · transposes_S768x768_S768x768_1_0) : (⟨S768x768, .f32⟩ : BufTy).Contents (Elt F) → (⟨S768x768, .f32⟩ : BufTy).Contents (Elt F)),
    binary main_v244 main_v245 main_v246 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v202 main_v247 (broadcastInDim S1x768 ![1] bcast_S768_S1x768_1 : (⟨S768, .f32⟩ : BufTy).Contents (Elt F) → (⟨S1x768, .f32⟩ : BufTy).Contents (Elt F)),
    unary main_v247 main_v248 (broadcastInDim S4096x768 ![0, 1] bcast_S1x768_S4096x768_0_1 : (⟨S1x768, .f32⟩ : BufTy).Contents (Elt F) → (⟨S4096x768, .f32⟩ : BufTy).Contents (Elt F)),
    binary main_v246 main_v248 main_v249 (addf : (⟨S4096x768, .f32⟩ : BufTy).Contents (Elt F) → (⟨S4096x768, .f32⟩ : BufTy).Contents (Elt F) → (⟨S4096x768, .f32⟩ : BufTy).Contents (Elt F)),
    binary main_v249 main_v194 main_v250 (addf : (⟨S4096x768, .f32⟩ : BufTy).Contents (Elt F) → (⟨S4096x768, .f32⟩ : BufTy).Contents (Elt F) → (⟨S4096x768, .f32⟩ : BufTy).Contents (Elt F)),
    unary main_arg5 main_v251 ((extractStridedSlice S1x768 ![3, 0] · slices_S4x768_S1x768_3_0) : (⟨S4x768, .f32⟩ : BufTy).Contents (Elt F) → (⟨S1x768, .f32⟩ : BufTy).Contents (Elt F)),
    reshape main_v251 main_v252 rfl shapeCasts_S1x768_S768,
    unary main_arg6 main_v253 ((extractStridedSlice S1x768 ![3, 0] · slices_S4x768_S1x768_3_0) : (⟨S4x768, .f32⟩ : BufTy).Contents (Elt F) → (⟨S1x768, .f32⟩ : BufTy).Contents (Elt F)),
    reshape main_v253 main_v254 rfl shapeCasts_S1x768_S768,
    nullary main_cst_21 (constant S_ .f32 0x3F7FFFAC#32),
    unary main_cst_21 main_v255 (broadcastInDim S768 ![] bcast_S_S768 : (⟨S_, .f32⟩ : BufTy).Contents (Elt F) → (⟨S768, .f32⟩ : BufTy).Contents (Elt F)),
    binary main_v252 main_v255 main_v256 (mulf : (⟨S768, .f32⟩ : BufTy).Contents (Elt F) → (⟨S768, .f32⟩ : BufTy).Contents (Elt F) → (⟨S768, .f32⟩ : BufTy).Contents (Elt F)),
    unary main_v256 main_v257 (broadcastInDim S1x768 ![1] bcast_S768_S1x768_1 : (⟨S768, .f32⟩ : BufTy).Contents (Elt F) → (⟨S1x768, .f32⟩ : BufTy).Contents (Elt F)),
    unary main_v257 main_v258 (broadcastInDim S4096x768 ![0, 1] bcast_S1x768_S4096x768_0_1 : (⟨S1x768, .f32⟩ : BufTy).Contents (Elt F) → (⟨S4096x768, .f32⟩ : BufTy).Contents (Elt F)),
    binary main_v250 main_v258 main_v259 (mulf : (⟨S4096x768, .f32⟩ : BufTy).Contents (Elt F) → (⟨S4096x768, .f32⟩ : BufTy).Contents (Elt F) → (⟨S4096x768, .f32⟩ : BufTy).Contents (Elt F)),
    unary main_v254 main_v260 (broadcastInDim S1x768 ![1] bcast_S768_S1x768_1 : (⟨S768, .f32⟩ : BufTy).Contents (Elt F) → (⟨S1x768, .f32⟩ : BufTy).Contents (Elt F)),
    unary main_v260 main_v261 (broadcastInDim S4096x768 ![0, 1] bcast_S1x768_S4096x768_0_1 : (⟨S1x768, .f32⟩ : BufTy).Contents (Elt F) → (⟨S4096x768, .f32⟩ : BufTy).Contents (Elt F)),
    binary main_v259 main_v261 main_v262 (addf : (⟨S4096x768, .f32⟩ : BufTy).Contents (Elt F) → (⟨S4096x768, .f32⟩ : BufTy).Contents (Elt F) → (⟨S4096x768, .f32⟩ : BufTy).Contents (Elt F)),
    nary ![main_v58, main_v126, main_v194, main_v262] main_v263 (fun u => concatenate S4096x3072 1 [⟨S4096x768, u 0⟩, ⟨S4096x768, u 1⟩, ⟨S4096x768, u 2⟩, ⟨S4096x768, u 3⟩] concatenates_S4096x768_S4096x768_S4096x768_S4096x768_S4096x3072_d1),
    unary main_arg0 main_v264 ((extractStridedSlice S4096x768 ![0, 3072] · slices_S4096x6144_S4096x768_0_3072) : (⟨S4096x6144, .f32⟩ : BufTy).Contents (Elt F) → (⟨S4096x768, .f32⟩ : BufTy).Contents (Elt F)),
    unary main_arg0 main_v265 ((extractStridedSlice S4096x768 ![0, 3840] · slices_S4096x6144_S4096x768_0_3840) : (⟨S4096x6144, .f32⟩ : BufTy).Contents (Elt F) → (⟨S4096x768, .f32⟩ : BufTy).Contents (Elt F)),
    unary main_arg0 main_v266 ((extractStridedSlice S4096x768 ![0, 4608] · slices_S4096x6144_S4096x768_0_4608) : (⟨S4096x6144, .f32⟩ : BufTy).Contents (Elt F) → (⟨S4096x768, .f32⟩ : BufTy).Contents (Elt F)),
    unary main_arg0 main_v267 ((extractStridedSlice S4096x768 ![0, 5376] · slices_S4096x6144_S4096x768_0_5376) : (⟨S4096x6144, .f32⟩ : BufTy).Contents (Elt F) → (⟨S4096x768, .f32⟩ : BufTy).Contents (Elt F)),
    unary main_arg7 main_v268 ((extractStridedSlice S1x2304x768 ![0, 0, 0] · slices_S4x2304x768_S1x2304x768_0_0_0) : (⟨S4x2304x768, .f32⟩ : BufTy).Contents (Elt F) → (⟨S1x2304x768, .f32⟩ : BufTy).Contents (Elt F)),
    reshape main_v268 main_v269 rfl shapeCasts_S1x2304x768_S2304x768,
    unary main_arg8 main_v270 ((extractStridedSlice S1x2304 ![0, 0] · slices_S4x2304_S1x2304_0_0) : (⟨S4x2304, .f32⟩ : BufTy).Contents (Elt F) → (⟨S1x2304, .f32⟩ : BufTy).Contents (Elt F)),
    reshape main_v270 main_v271 rfl shapeCasts_S1x2304_S2304,
    unary main_arg9 main_v272 ((extractStridedSlice S1x768x768 ![0, 0, 0] · slices_S4x768x768_S1x768x768_0_0_0) : (⟨S4x768x768, .f32⟩ : BufTy).Contents (Elt F) → (⟨S1x768x768, .f32⟩ : BufTy).Contents (Elt F)),
    reshape main_v272 main_v273 rfl shapeCasts_S1x768x768_S768x768,
    unary main_arg10 main_v274 ((extractStridedSlice S1x768 ![0, 0] · slices_S4x768_S1x768_0_0) : (⟨S4x768, .f32⟩ : BufTy).Contents (Elt F) → (⟨S1x768, .f32⟩ : BufTy).Contents (Elt F)),
    reshape main_v274 main_v275 rfl shapeCasts_S1x768_S768,
    unary main_v269 main_v276 ((extractStridedSlice S768x768 ![0, 0] · slices_S2304x768_S768x768_0_0) : (⟨S2304x768, .f32⟩ : BufTy).Contents (Elt F) → (⟨S768x768, .f32⟩ : BufTy).Contents (Elt F)) ]

set_option maxRecDepth 8192 in
set_option maxHeartbeats 4000000 in
theorem part4_eq (c : Dev nD) : main_part4 (F := F) c = seq ops4 := rfl

set_option maxRecDepth 8192 in
theorem ops4_sub : (ops4 : List (HloOp τ sig (Elt F))).Forall fun op => op.bufs ⊆ tcRefs τ sig :=
  ⟨unary_bufs_sub .., unary_bufs_sub .., binary_bufs_sub .., reshape_bufs_sub .., binary_bufs_sub .., nullary_bufs_sub .., binary_bufs_sub .., unary_bufs_sub .., nullary_bufs_sub .., unary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., reshape_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., unary_bufs_sub .., binary_bufs_sub .., unary_bufs_sub .., unary_bufs_sub .., binary_bufs_sub .., nary_bufs_sub .., unary_bufs_sub .., unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- Operations 300 to 359 of @main, in order: the statements of its part 5. -/
abbrev ops5 : List (HloOp τ sig (Elt F)) :=
  [ unary main_v269 main_v277 ((extractStridedSlice S768x768 ![768, 0] · slices_S2304x768_S768x768_768_0) : (⟨S2304x768, .f32⟩ : BufTy).Contents (Elt F) → (⟨S768x768, .f32⟩ : BufTy).Contents (Elt F)),
    unary main_v269 main_v278 ((extractStridedSlice S768x768 ![1536, 0] · slices_S2304x768_S768x768_1536_0) : (⟨S2304x768, .f32⟩ : BufTy).Contents (Elt F) → (⟨S768x768, .f32⟩ : BufTy).Contents (Elt F)),
    unary main_v271 main_v279 ((extractStridedSlice S768 ![0] · slices_S2304_S768_0) : (⟨S2304, .f32⟩ : BufTy).Contents (Elt F) → (⟨S768, .f32⟩ : BufTy).Contents (Elt F)),
    unary main_v271 main_v280 ((extractStridedSlice S768 ![768] · slices_S2304_S768_768) : (⟨S2304, .f32⟩ : BufTy).Contents (Elt F) → (⟨S768, .f32⟩ : BufTy).Contents (Elt F)),
    unary main_v271 main_v281 ((extractStridedSlice S768 ![1536] · slices_S2304_S768_1536) : (⟨S2304, .f32⟩ : BufTy).Contents (Elt F) → (⟨S768, .f32⟩ : BufTy).Contents (Elt F)),
    unary main_v276 main_v282 ((transpose S768x768 [1, 0] · transposes_S768x768_S768x768_1_0) : (⟨S768x768, .f32⟩ : BufTy).Contents (Elt F) → (⟨S768x768, .f32⟩ : BufTy).Contents (Elt F)),
    binary main_v264 main_v282 main_v283 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v279 main_v284 (broadcastInDim S1x768 ![1] bcast_S768_S1x768_1 : (⟨S768, .f32⟩ : BufTy).Contents (Elt F) → (⟨S1x768, .f32⟩ : BufTy).Contents (Elt F)),
    unary main_v284 main_v285 (broadcastInDim S4096x768 ![0, 1] bcast_S1x768_S4096x768_0_1 : (⟨S1x768, .f32⟩ : BufTy).Contents (Elt F) → (⟨S4096x768, .f32⟩ : BufTy).Contents (Elt F)),
    binary main_v283 main_v285 main_v286 (addf : (⟨S4096x768, .f32⟩ : BufTy).Contents (Elt F) → (⟨S4096x768, .f32⟩ : BufTy).Contents (Elt F) → (⟨S4096x768, .f32⟩ : BufTy).Contents (Elt F)),
    reshape main_v286 main_v287 rfl shapeCasts_S4096x768_S4096x4x192,
    unary main_v277 main_v288 ((transpose S768x768 [1, 0] · transposes_S768x768_S768x768_1_0) : (⟨S768x768, .f32⟩ : BufTy).Contents (Elt F) → (⟨S768x768, .f32⟩ : BufTy).Contents (Elt F)),
    binary main_v264 main_v288 main_v289 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v280 main_v290 (broadcastInDim S1x768 ![1] bcast_S768_S1x768_1 : (⟨S768, .f32⟩ : BufTy).Contents (Elt F) → (⟨S1x768, .f32⟩ : BufTy).Contents (Elt F)),
    unary main_v290 main_v291 (broadcastInDim S4096x768 ![0, 1] bcast_S1x768_S4096x768_0_1 : (⟨S1x768, .f32⟩ : BufTy).Contents (Elt F) → (⟨S4096x768, .f32⟩ : BufTy).Contents (Elt F)),
    binary main_v289 main_v291 main_v292 (addf : (⟨S4096x768, .f32⟩ : BufTy).Contents (Elt F) → (⟨S4096x768, .f32⟩ : BufTy).Contents (Elt F) → (⟨S4096x768, .f32⟩ : BufTy).Contents (Elt F)),
    reshape main_v292 main_v293 rfl shapeCasts_S4096x768_S4096x4x192,
    unary main_v278 main_v294 ((transpose S768x768 [1, 0] · transposes_S768x768_S768x768_1_0) : (⟨S768x768, .f32⟩ : BufTy).Contents (Elt F) → (⟨S768x768, .f32⟩ : BufTy).Contents (Elt F)),
    binary main_v264 main_v294 main_v295 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v281 main_v296 (broadcastInDim S1x768 ![1] bcast_S768_S1x768_1 : (⟨S768, .f32⟩ : BufTy).Contents (Elt F) → (⟨S1x768, .f32⟩ : BufTy).Contents (Elt F)),
    unary main_v296 main_v297 (broadcastInDim S4096x768 ![0, 1] bcast_S1x768_S4096x768_0_1 : (⟨S1x768, .f32⟩ : BufTy).Contents (Elt F) → (⟨S4096x768, .f32⟩ : BufTy).Contents (Elt F)),
    binary main_v295 main_v297 main_v298 (addf : (⟨S4096x768, .f32⟩ : BufTy).Contents (Elt F) → (⟨S4096x768, .f32⟩ : BufTy).Contents (Elt F) → (⟨S4096x768, .f32⟩ : BufTy).Contents (Elt F)),
    reshape main_v298 main_v299 rfl shapeCasts_S4096x768_S4096x4x192,
    binary main_v287 main_v293 main_v300 (mulf : (⟨S4096x4x192, .f32⟩ : BufTy).Contents (Elt F) → (⟨S4096x4x192, .f32⟩ : BufTy).Contents (Elt F) → (⟨S4096x4x192, .f32⟩ : BufTy).Contents (Elt F)),
    nullary main_cst_22 (constant S_ .f32 0x00000000#32),
    binary main_v300 main_cst_22 main_v301 ((fun x v => Host.reduceAdd x v reducesTo_S4096x4x192_S4096x4_d2 h_S_) : (⟨S4096x4x192, .f32⟩ : BufTy).Contents (Elt F) → (⟨S_, .f32⟩ : BufTy).Contents (Elt F) → (⟨S4096x4, .f32⟩ : BufTy).Contents (Elt F)),
    unary main_v301 main_v302 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_23 (constant S_ .f32 0x43400000#32),
    unary main_cst_23 main_v303 (Host.sqrt : (⟨S_, .f32⟩ : BufTy).Contents (Elt F) → (⟨S_, .f32⟩ : BufTy).Contents (Elt F)),
    unary main_v303 main_v304 (broadcastInDim S4096x4x1 ![] bcast_S_S4096x4x1 : (⟨S_, .f32⟩ : BufTy).Contents (Elt F) → (⟨S4096x4x1, .f32⟩ : BufTy).Contents (Elt F)),
    binary main_v302 main_v304 main_v305 (Host.divf : (⟨S4096x4x1, .f32⟩ : BufTy).Contents (Elt F) → (⟨S4096x4x1, .f32⟩ : BufTy).Contents (Elt F) → (⟨S4096x4x1, .f32⟩ : BufTy).Contents (Elt F)),
    nullary main_cst_24 (constant S_ .f32 0xFF800000#32),
    binary main_v305 main_cst_24 main_v306 ((fun x v => Host.reduce FloatOps.maximumf x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    nullary main_cst_25 (constant S_ .f32 0xFF800000#32),
    unary main_cst_25 main_v307 (broadcastInDim S4096x4 ![] bcast_S_S4096x4 : (⟨S_, .f32⟩ : BufTy).Contents (Elt F) → (⟨S4096x4, .f32⟩ : BufTy).Contents (Elt F)),
    binary main_v307 main_v306 main_v308 (maximumf : (⟨S4096x4, .f32⟩ : BufTy).Contents (Elt F) → (⟨S4096x4, .f32⟩ : BufTy).Contents (Elt F) → (⟨S4096x4, .f32⟩ : BufTy).Contents (Elt F)),
    unary main_v308 main_v309 (broadcastInDim S4096x4x1 ![0, 1] bcast_S4096x4_S4096x4x1_0_1 : (⟨S4096x4, .f32⟩ : BufTy).Contents (Elt F) → (⟨S4096x4x1, .f32⟩ : BufTy).Contents (Elt F)),
    binary main_v305 main_v309 main_v310 (subf : (⟨S4096x4x1, .f32⟩ : BufTy).Contents (Elt F) → (⟨S4096x4x1, .f32⟩ : BufTy).Contents (Elt F) → (⟨S4096x4x1, .f32⟩ : BufTy).Contents (Elt F)),
    unary main_v310 main_v311 (Host.exp : (⟨S4096x4x1, .f32⟩ : BufTy).Contents (Elt F) → (⟨S4096x4x1, .f32⟩ : BufTy).Contents (Elt F)),
    nullary main_cst_26 (constant S_ .f32 0x00000000#32),
    binary main_v311 main_cst_26 main_v312 ((fun x v => Host.reduceAdd x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    unary main_v312 main_v313 (broadcastInDim S4096x4x1 ![0, 1] bcast_S4096x4_S4096x4x1_0_1 : (⟨S4096x4, .f32⟩ : BufTy).Contents (Elt F) → (⟨S4096x4x1, .f32⟩ : BufTy).Contents (Elt F)),
    binary main_v311 main_v313 main_v314 (Host.divf : (⟨S4096x4x1, .f32⟩ : BufTy).Contents (Elt F) → (⟨S4096x4x1, .f32⟩ : BufTy).Contents (Elt F) → (⟨S4096x4x1, .f32⟩ : BufTy).Contents (Elt F)),
    unary main_v314 main_v315 (broadcastInDim S4096x4x192 ![0, 1, 2] bcast_S4096x4x1_S4096x4x192_0_1_2 : (⟨S4096x4x1, .f32⟩ : BufTy).Contents (Elt F) → (⟨S4096x4x192, .f32⟩ : BufTy).Contents (Elt F)),
    binary main_v315 main_v299 main_v316 (mulf : (⟨S4096x4x192, .f32⟩ : BufTy).Contents (Elt F) → (⟨S4096x4x192, .f32⟩ : BufTy).Contents (Elt F) → (⟨S4096x4x192, .f32⟩ : BufTy).Contents (Elt F)),
    reshape main_v316 main_v317 rfl shapeCasts_S4096x4x192_S4096x768,
    unary main_v273 main_v318 ((transpose S768x768 [1, 0] · transposes_S768x768_S768x768_1_0) : (⟨S768x768, .f32⟩ : BufTy).Contents (Elt F) → (⟨S768x768, .f32⟩ : BufTy).Contents (Elt F)),
    binary main_v317 main_v318 main_v319 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v275 main_v320 (broadcastInDim S1x768 ![1] bcast_S768_S1x768_1 : (⟨S768, .f32⟩ : BufTy).Contents (Elt F) → (⟨S1x768, .f32⟩ : BufTy).Contents (Elt F)),
    unary main_v320 main_v321 (broadcastInDim S4096x768 ![0, 1] bcast_S1x768_S4096x768_0_1 : (⟨S1x768, .f32⟩ : BufTy).Contents (Elt F) → (⟨S4096x768, .f32⟩ : BufTy).Contents (Elt F)),
    binary main_v319 main_v321 main_v322 (addf : (⟨S4096x768, .f32⟩ : BufTy).Contents (Elt F) → (⟨S4096x768, .f32⟩ : BufTy).Contents (Elt F) → (⟨S4096x768, .f32⟩ : BufTy).Contents (Elt F)),
    unary main_arg7 main_v323 ((extractStridedSlice S1x2304x768 ![1, 0, 0] · slices_S4x2304x768_S1x2304x768_1_0_0) : (⟨S4x2304x768, .f32⟩ : BufTy).Contents (Elt F) → (⟨S1x2304x768, .f32⟩ : BufTy).Contents (Elt F)),
    reshape main_v323 main_v324 rfl shapeCasts_S1x2304x768_S2304x768,
    unary main_arg8 main_v325 ((extractStridedSlice S1x2304 ![1, 0] · slices_S4x2304_S1x2304_1_0) : (⟨S4x2304, .f32⟩ : BufTy).Contents (Elt F) → (⟨S1x2304, .f32⟩ : BufTy).Contents (Elt F)),
    reshape main_v325 main_v326 rfl shapeCasts_S1x2304_S2304,
    unary main_arg9 main_v327 ((extractStridedSlice S1x768x768 ![1, 0, 0] · slices_S4x768x768_S1x768x768_1_0_0) : (⟨S4x768x768, .f32⟩ : BufTy).Contents (Elt F) → (⟨S1x768x768, .f32⟩ : BufTy).Contents (Elt F)),
    reshape main_v327 main_v328 rfl shapeCasts_S1x768x768_S768x768,
    unary main_arg10 main_v329 ((extractStridedSlice S1x768 ![1, 0] · slices_S4x768_S1x768_1_0) : (⟨S4x768, .f32⟩ : BufTy).Contents (Elt F) → (⟨S1x768, .f32⟩ : BufTy).Contents (Elt F)),
    reshape main_v329 main_v330 rfl shapeCasts_S1x768_S768,
    unary main_v324 main_v331 ((extractStridedSlice S768x768 ![0, 0] · slices_S2304x768_S768x768_0_0) : (⟨S2304x768, .f32⟩ : BufTy).Contents (Elt F) → (⟨S768x768, .f32⟩ : BufTy).Contents (Elt F)) ]

set_option maxRecDepth 8192 in
set_option maxHeartbeats 4000000 in
theorem part5_eq (c : Dev nD) : main_part5 (F := F) c = seq ops5 := rfl

set_option maxRecDepth 8192 in
theorem ops5_sub : (ops5 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., binary_bufs_sub .., nullary_bufs_sub .., binary_bufs_sub .., unary_bufs_sub .., nullary_bufs_sub .., unary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., reshape_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub ..⟩

set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- Operations 360 to 419 of @main, in order: the statements of its part 6. -/
abbrev ops6 : List (HloOp τ sig (Elt F)) :=
  [ unary main_v324 main_v332 ((extractStridedSlice S768x768 ![768, 0] · slices_S2304x768_S768x768_768_0) : (⟨S2304x768, .f32⟩ : BufTy).Contents (Elt F) → (⟨S768x768, .f32⟩ : BufTy).Contents (Elt F)),
    unary main_v324 main_v333 ((extractStridedSlice S768x768 ![1536, 0] · slices_S2304x768_S768x768_1536_0) : (⟨S2304x768, .f32⟩ : BufTy).Contents (Elt F) → (⟨S768x768, .f32⟩ : BufTy).Contents (Elt F)),
    unary main_v326 main_v334 ((extractStridedSlice S768 ![0] · slices_S2304_S768_0) : (⟨S2304, .f32⟩ : BufTy).Contents (Elt F) → (⟨S768, .f32⟩ : BufTy).Contents (Elt F)),
    unary main_v326 main_v335 ((extractStridedSlice S768 ![768] · slices_S2304_S768_768) : (⟨S2304, .f32⟩ : BufTy).Contents (Elt F) → (⟨S768, .f32⟩ : BufTy).Contents (Elt F)),
    unary main_v326 main_v336 ((extractStridedSlice S768 ![1536] · slices_S2304_S768_1536) : (⟨S2304, .f32⟩ : BufTy).Contents (Elt F) → (⟨S768, .f32⟩ : BufTy).Contents (Elt F)),
    unary main_v331 main_v337 ((transpose S768x768 [1, 0] · transposes_S768x768_S768x768_1_0) : (⟨S768x768, .f32⟩ : BufTy).Contents (Elt F) → (⟨S768x768, .f32⟩ : BufTy).Contents (Elt F)),
    binary main_v322 main_v337 main_v338 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v334 main_v339 (broadcastInDim S1x768 ![1] bcast_S768_S1x768_1 : (⟨S768, .f32⟩ : BufTy).Contents (Elt F) → (⟨S1x768, .f32⟩ : BufTy).Contents (Elt F)),
    unary main_v339 main_v340 (broadcastInDim S4096x768 ![0, 1] bcast_S1x768_S4096x768_0_1 : (⟨S1x768, .f32⟩ : BufTy).Contents (Elt F) → (⟨S4096x768, .f32⟩ : BufTy).Contents (Elt F)),
    binary main_v338 main_v340 main_v341 (addf : (⟨S4096x768, .f32⟩ : BufTy).Contents (Elt F) → (⟨S4096x768, .f32⟩ : BufTy).Contents (Elt F) → (⟨S4096x768, .f32⟩ : BufTy).Contents (Elt F)),
    reshape main_v341 main_v342 rfl shapeCasts_S4096x768_S4096x4x192,
    unary main_v332 main_v343 ((transpose S768x768 [1, 0] · transposes_S768x768_S768x768_1_0) : (⟨S768x768, .f32⟩ : BufTy).Contents (Elt F) → (⟨S768x768, .f32⟩ : BufTy).Contents (Elt F)),
    binary main_v265 main_v343 main_v344 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v335 main_v345 (broadcastInDim S1x768 ![1] bcast_S768_S1x768_1 : (⟨S768, .f32⟩ : BufTy).Contents (Elt F) → (⟨S1x768, .f32⟩ : BufTy).Contents (Elt F)),
    unary main_v345 main_v346 (broadcastInDim S4096x768 ![0, 1] bcast_S1x768_S4096x768_0_1 : (⟨S1x768, .f32⟩ : BufTy).Contents (Elt F) → (⟨S4096x768, .f32⟩ : BufTy).Contents (Elt F)),
    binary main_v344 main_v346 main_v347 (addf : (⟨S4096x768, .f32⟩ : BufTy).Contents (Elt F) → (⟨S4096x768, .f32⟩ : BufTy).Contents (Elt F) → (⟨S4096x768, .f32⟩ : BufTy).Contents (Elt F)),
    reshape main_v347 main_v348 rfl shapeCasts_S4096x768_S4096x4x192,
    unary main_v333 main_v349 ((transpose S768x768 [1, 0] · transposes_S768x768_S768x768_1_0) : (⟨S768x768, .f32⟩ : BufTy).Contents (Elt F) → (⟨S768x768, .f32⟩ : BufTy).Contents (Elt F)),
    binary main_v265 main_v349 main_v350 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v336 main_v351 (broadcastInDim S1x768 ![1] bcast_S768_S1x768_1 : (⟨S768, .f32⟩ : BufTy).Contents (Elt F) → (⟨S1x768, .f32⟩ : BufTy).Contents (Elt F)),
    unary main_v351 main_v352 (broadcastInDim S4096x768 ![0, 1] bcast_S1x768_S4096x768_0_1 : (⟨S1x768, .f32⟩ : BufTy).Contents (Elt F) → (⟨S4096x768, .f32⟩ : BufTy).Contents (Elt F)),
    binary main_v350 main_v352 main_v353 (addf : (⟨S4096x768, .f32⟩ : BufTy).Contents (Elt F) → (⟨S4096x768, .f32⟩ : BufTy).Contents (Elt F) → (⟨S4096x768, .f32⟩ : BufTy).Contents (Elt F)),
    reshape main_v353 main_v354 rfl shapeCasts_S4096x768_S4096x4x192,
    binary main_v342 main_v348 main_v355 (mulf : (⟨S4096x4x192, .f32⟩ : BufTy).Contents (Elt F) → (⟨S4096x4x192, .f32⟩ : BufTy).Contents (Elt F) → (⟨S4096x4x192, .f32⟩ : BufTy).Contents (Elt F)),
    nullary main_cst_27 (constant S_ .f32 0x00000000#32),
    binary main_v355 main_cst_27 main_v356 ((fun x v => Host.reduceAdd x v reducesTo_S4096x4x192_S4096x4_d2 h_S_) : (⟨S4096x4x192, .f32⟩ : BufTy).Contents (Elt F) → (⟨S_, .f32⟩ : BufTy).Contents (Elt F) → (⟨S4096x4, .f32⟩ : BufTy).Contents (Elt F)),
    unary main_v356 main_v357 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_28 (constant S_ .f32 0x43400000#32),
    unary main_cst_28 main_v358 (Host.sqrt : (⟨S_, .f32⟩ : BufTy).Contents (Elt F) → (⟨S_, .f32⟩ : BufTy).Contents (Elt F)),
    unary main_v358 main_v359 (broadcastInDim S4096x4x1 ![] bcast_S_S4096x4x1 : (⟨S_, .f32⟩ : BufTy).Contents (Elt F) → (⟨S4096x4x1, .f32⟩ : BufTy).Contents (Elt F)),
    binary main_v357 main_v359 main_v360 (Host.divf : (⟨S4096x4x1, .f32⟩ : BufTy).Contents (Elt F) → (⟨S4096x4x1, .f32⟩ : BufTy).Contents (Elt F) → (⟨S4096x4x1, .f32⟩ : BufTy).Contents (Elt F)),
    nullary main_cst_29 (constant S_ .f32 0xFF800000#32),
    binary main_v360 main_cst_29 main_v361 ((fun x v => Host.reduce FloatOps.maximumf x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    nullary main_cst_30 (constant S_ .f32 0xFF800000#32),
    unary main_cst_30 main_v362 (broadcastInDim S4096x4 ![] bcast_S_S4096x4 : (⟨S_, .f32⟩ : BufTy).Contents (Elt F) → (⟨S4096x4, .f32⟩ : BufTy).Contents (Elt F)),
    binary main_v362 main_v361 main_v363 (maximumf : (⟨S4096x4, .f32⟩ : BufTy).Contents (Elt F) → (⟨S4096x4, .f32⟩ : BufTy).Contents (Elt F) → (⟨S4096x4, .f32⟩ : BufTy).Contents (Elt F)),
    unary main_v363 main_v364 (broadcastInDim S4096x4x1 ![0, 1] bcast_S4096x4_S4096x4x1_0_1 : (⟨S4096x4, .f32⟩ : BufTy).Contents (Elt F) → (⟨S4096x4x1, .f32⟩ : BufTy).Contents (Elt F)),
    binary main_v360 main_v364 main_v365 (subf : (⟨S4096x4x1, .f32⟩ : BufTy).Contents (Elt F) → (⟨S4096x4x1, .f32⟩ : BufTy).Contents (Elt F) → (⟨S4096x4x1, .f32⟩ : BufTy).Contents (Elt F)),
    unary main_v365 main_v366 (Host.exp : (⟨S4096x4x1, .f32⟩ : BufTy).Contents (Elt F) → (⟨S4096x4x1, .f32⟩ : BufTy).Contents (Elt F)),
    nullary main_cst_31 (constant S_ .f32 0x00000000#32),
    binary main_v366 main_cst_31 main_v367 ((fun x v => Host.reduceAdd x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    unary main_v367 main_v368 (broadcastInDim S4096x4x1 ![0, 1] bcast_S4096x4_S4096x4x1_0_1 : (⟨S4096x4, .f32⟩ : BufTy).Contents (Elt F) → (⟨S4096x4x1, .f32⟩ : BufTy).Contents (Elt F)),
    binary main_v366 main_v368 main_v369 (Host.divf : (⟨S4096x4x1, .f32⟩ : BufTy).Contents (Elt F) → (⟨S4096x4x1, .f32⟩ : BufTy).Contents (Elt F) → (⟨S4096x4x1, .f32⟩ : BufTy).Contents (Elt F)),
    unary main_v369 main_v370 (broadcastInDim S4096x4x192 ![0, 1, 2] bcast_S4096x4x1_S4096x4x192_0_1_2 : (⟨S4096x4x1, .f32⟩ : BufTy).Contents (Elt F) → (⟨S4096x4x192, .f32⟩ : BufTy).Contents (Elt F)),
    binary main_v370 main_v354 main_v371 (mulf : (⟨S4096x4x192, .f32⟩ : BufTy).Contents (Elt F) → (⟨S4096x4x192, .f32⟩ : BufTy).Contents (Elt F) → (⟨S4096x4x192, .f32⟩ : BufTy).Contents (Elt F)),
    reshape main_v371 main_v372 rfl shapeCasts_S4096x4x192_S4096x768,
    unary main_v328 main_v373 ((transpose S768x768 [1, 0] · transposes_S768x768_S768x768_1_0) : (⟨S768x768, .f32⟩ : BufTy).Contents (Elt F) → (⟨S768x768, .f32⟩ : BufTy).Contents (Elt F)),
    binary main_v372 main_v373 main_v374 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v330 main_v375 (broadcastInDim S1x768 ![1] bcast_S768_S1x768_1 : (⟨S768, .f32⟩ : BufTy).Contents (Elt F) → (⟨S1x768, .f32⟩ : BufTy).Contents (Elt F)),
    unary main_v375 main_v376 (broadcastInDim S4096x768 ![0, 1] bcast_S1x768_S4096x768_0_1 : (⟨S1x768, .f32⟩ : BufTy).Contents (Elt F) → (⟨S4096x768, .f32⟩ : BufTy).Contents (Elt F)),
    binary main_v374 main_v376 main_v377 (addf : (⟨S4096x768, .f32⟩ : BufTy).Contents (Elt F) → (⟨S4096x768, .f32⟩ : BufTy).Contents (Elt F) → (⟨S4096x768, .f32⟩ : BufTy).Contents (Elt F)),
    binary main_v377 main_v322 main_v378 (addf : (⟨S4096x768, .f32⟩ : BufTy).Contents (Elt F) → (⟨S4096x768, .f32⟩ : BufTy).Contents (Elt F) → (⟨S4096x768, .f32⟩ : BufTy).Contents (Elt F)),
    unary main_arg11 main_v379 ((extractStridedSlice S1x768 ![1, 0] · slices_S4x768_S1x768_1_0) : (⟨S4x768, .f32⟩ : BufTy).Contents (Elt F) → (⟨S1x768, .f32⟩ : BufTy).Contents (Elt F)),
    reshape main_v379 main_v380 rfl shapeCasts_S1x768_S768,
    unary main_arg12 main_v381 ((extractStridedSlice S1x768 ![1, 0] · slices_S4x768_S1x768_1_0) : (⟨S4x768, .f32⟩ : BufTy).Contents (Elt F) → (⟨S1x768, .f32⟩ : BufTy).Contents (Elt F)),
    reshape main_v381 main_v382 rfl shapeCasts_S1x768_S768,
    nullary main_cst_32 (constant S_ .f32 0x3F7FFFAC#32),
    unary main_cst_32 main_v383 (broadcastInDim S768 ![] bcast_S_S768 : (⟨S_, .f32⟩ : BufTy).Contents (Elt F) → (⟨S768, .f32⟩ : BufTy).Contents (Elt F)),
    binary main_v380 main_v383 main_v384 (mulf : (⟨S768, .f32⟩ : BufTy).Contents (Elt F) → (⟨S768, .f32⟩ : BufTy).Contents (Elt F) → (⟨S768, .f32⟩ : BufTy).Contents (Elt F)),
    unary main_v384 main_v385 (broadcastInDim S1x768 ![1] bcast_S768_S1x768_1 : (⟨S768, .f32⟩ : BufTy).Contents (Elt F) → (⟨S1x768, .f32⟩ : BufTy).Contents (Elt F)) ]

set_option maxRecDepth 8192 in
set_option maxHeartbeats 4000000 in
theorem part6_eq (c : Dev nD) : main_part6 (F := F) c = seq ops6 := rfl

set_option maxRecDepth 8192 in
theorem ops6_sub : (ops6 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., binary_bufs_sub .., nullary_bufs_sub .., binary_bufs_sub .., unary_bufs_sub .., nullary_bufs_sub .., unary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., reshape_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub ..⟩

set_option maxRecDepth 8192 in
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- Operations 420 to 479 of @main, in order: the statements of its part 7. -/
abbrev ops7 : List (HloOp τ sig (Elt F)) :=
  [ unary main_v385 main_v386 (broadcastInDim S4096x768 ![0, 1] bcast_S1x768_S4096x768_0_1 : (⟨S1x768, .f32⟩ : BufTy).Contents (Elt F) → (⟨S4096x768, .f32⟩ : BufTy).Contents (Elt F)),
    binary main_v378 main_v386 main_v387 (mulf : (⟨S4096x768, .f32⟩ : BufTy).Contents (Elt F) → (⟨S4096x768, .f32⟩ : BufTy).Contents (Elt F) → (⟨S4096x768, .f32⟩ : BufTy).Contents (Elt F)),
    unary main_v382 main_v388 (broadcastInDim S1x768 ![1] bcast_S768_S1x768_1 : (⟨S768, .f32⟩ : BufTy).Contents (Elt F) → (⟨S1x768, .f32⟩ : BufTy).Contents (Elt F)),
    unary main_v388 main_v389 (broadcastInDim S4096x768 ![0, 1] bcast_S1x768_S4096x768_0_1 : (⟨S1x768, .f32⟩ : BufTy).Contents (Elt F) → (⟨S4096x768, .f32⟩ : BufTy).Contents (Elt F)),
    binary main_v387 main_v389 main_v390 (addf : (⟨S4096x768, .f32⟩ : BufTy).Contents (Elt F) → (⟨S4096x768, .f32⟩ : BufTy).Contents (Elt F) → (⟨S4096x768, .f32⟩ : BufTy).Contents (Elt F)),
    unary main_arg7 main_v391 ((extractStridedSlice S1x2304x768 ![2, 0, 0] · slices_S4x2304x768_S1x2304x768_2_0_0) : (⟨S4x2304x768, .f32⟩ : BufTy).Contents (Elt F) → (⟨S1x2304x768, .f32⟩ : BufTy).Contents (Elt F)),
    reshape main_v391 main_v392 rfl shapeCasts_S1x2304x768_S2304x768,
    unary main_arg8 main_v393 ((extractStridedSlice S1x2304 ![2, 0] · slices_S4x2304_S1x2304_2_0) : (⟨S4x2304, .f32⟩ : BufTy).Contents (Elt F) → (⟨S1x2304, .f32⟩ : BufTy).Contents (Elt F)),
    reshape main_v393 main_v394 rfl shapeCasts_S1x2304_S2304,
    unary main_arg9 main_v395 ((extractStridedSlice S1x768x768 ![2, 0, 0] · slices_S4x768x768_S1x768x768_2_0_0) : (⟨S4x768x768, .f32⟩ : BufTy).Contents (Elt F) → (⟨S1x768x768, .f32⟩ : BufTy).Contents (Elt F)),
    reshape main_v395 main_v396 rfl shapeCasts_S1x768x768_S768x768,
    unary main_arg10 main_v397 ((extractStridedSlice S1x768 ![2, 0] · slices_S4x768_S1x768_2_0) : (⟨S4x768, .f32⟩ : BufTy).Contents (Elt F) → (⟨S1x768, .f32⟩ : BufTy).Contents (Elt F)),
    reshape main_v397 main_v398 rfl shapeCasts_S1x768_S768,
    unary main_v392 main_v399 ((extractStridedSlice S768x768 ![0, 0] · slices_S2304x768_S768x768_0_0) : (⟨S2304x768, .f32⟩ : BufTy).Contents (Elt F) → (⟨S768x768, .f32⟩ : BufTy).Contents (Elt F)),
    unary main_v392 main_v400 ((extractStridedSlice S768x768 ![768, 0] · slices_S2304x768_S768x768_768_0) : (⟨S2304x768, .f32⟩ : BufTy).Contents (Elt F) → (⟨S768x768, .f32⟩ : BufTy).Contents (Elt F)),
    unary main_v392 main_v401 ((extractStridedSlice S768x768 ![1536, 0] · slices_S2304x768_S768x768_1536_0) : (⟨S2304x768, .f32⟩ : BufTy).Contents (Elt F) → (⟨S768x768, .f32⟩ : BufTy).Contents (Elt F)),
    unary main_v394 main_v402 ((extractStridedSlice S768 ![0] · slices_S2304_S768_0) : (⟨S2304, .f32⟩ : BufTy).Contents (Elt F) → (⟨S768, .f32⟩ : BufTy).Contents (Elt F)),
    unary main_v394 main_v403 ((extractStridedSlice S768 ![768] · slices_S2304_S768_768) : (⟨S2304, .f32⟩ : BufTy).Contents (Elt F) → (⟨S768, .f32⟩ : BufTy).Contents (Elt F)),
    unary main_v394 main_v404 ((extractStridedSlice S768 ![1536] · slices_S2304_S768_1536) : (⟨S2304, .f32⟩ : BufTy).Contents (Elt F) → (⟨S768, .f32⟩ : BufTy).Contents (Elt F)),
    unary main_v399 main_v405 ((transpose S768x768 [1, 0] · transposes_S768x768_S768x768_1_0) : (⟨S768x768, .f32⟩ : BufTy).Contents (Elt F) → (⟨S768x768, .f32⟩ : BufTy).Contents (Elt F)),
    binary main_v390 main_v405 main_v406 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v402 main_v407 (broadcastInDim S1x768 ![1] bcast_S768_S1x768_1 : (⟨S768, .f32⟩ : BufTy).Contents (Elt F) → (⟨S1x768, .f32⟩ : BufTy).Contents (Elt F)),
    unary main_v407 main_v408 (broadcastInDim S4096x768 ![0, 1] bcast_S1x768_S4096x768_0_1 : (⟨S1x768, .f32⟩ : BufTy).Contents (Elt F) → (⟨S4096x768, .f32⟩ : BufTy).Contents (Elt F)),
    binary main_v406 main_v408 main_v409 (addf : (⟨S4096x768, .f32⟩ : BufTy).Contents (Elt F) → (⟨S4096x768, .f32⟩ : BufTy).Contents (Elt F) → (⟨S4096x768, .f32⟩ : BufTy).Contents (Elt F)),
    reshape main_v409 main_v410 rfl shapeCasts_S4096x768_S4096x4x192,
    unary main_v400 main_v411 ((transpose S768x768 [1, 0] · transposes_S768x768_S768x768_1_0) : (⟨S768x768, .f32⟩ : BufTy).Contents (Elt F) → (⟨S768x768, .f32⟩ : BufTy).Contents (Elt F)),
    binary main_v266 main_v411 main_v412 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v403 main_v413 (broadcastInDim S1x768 ![1] bcast_S768_S1x768_1 : (⟨S768, .f32⟩ : BufTy).Contents (Elt F) → (⟨S1x768, .f32⟩ : BufTy).Contents (Elt F)),
    unary main_v413 main_v414 (broadcastInDim S4096x768 ![0, 1] bcast_S1x768_S4096x768_0_1 : (⟨S1x768, .f32⟩ : BufTy).Contents (Elt F) → (⟨S4096x768, .f32⟩ : BufTy).Contents (Elt F)),
    binary main_v412 main_v414 main_v415 (addf : (⟨S4096x768, .f32⟩ : BufTy).Contents (Elt F) → (⟨S4096x768, .f32⟩ : BufTy).Contents (Elt F) → (⟨S4096x768, .f32⟩ : BufTy).Contents (Elt F)),
    reshape main_v415 main_v416 rfl shapeCasts_S4096x768_S4096x4x192,
    unary main_v401 main_v417 ((transpose S768x768 [1, 0] · transposes_S768x768_S768x768_1_0) : (⟨S768x768, .f32⟩ : BufTy).Contents (Elt F) → (⟨S768x768, .f32⟩ : BufTy).Contents (Elt F)),
    binary main_v266 main_v417 main_v418 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v404 main_v419 (broadcastInDim S1x768 ![1] bcast_S768_S1x768_1 : (⟨S768, .f32⟩ : BufTy).Contents (Elt F) → (⟨S1x768, .f32⟩ : BufTy).Contents (Elt F)),
    unary main_v419 main_v420 (broadcastInDim S4096x768 ![0, 1] bcast_S1x768_S4096x768_0_1 : (⟨S1x768, .f32⟩ : BufTy).Contents (Elt F) → (⟨S4096x768, .f32⟩ : BufTy).Contents (Elt F)),
    binary main_v418 main_v420 main_v421 (addf : (⟨S4096x768, .f32⟩ : BufTy).Contents (Elt F) → (⟨S4096x768, .f32⟩ : BufTy).Contents (Elt F) → (⟨S4096x768, .f32⟩ : BufTy).Contents (Elt F)),
    reshape main_v421 main_v422 rfl shapeCasts_S4096x768_S4096x4x192,
    binary main_v410 main_v416 main_v423 (mulf : (⟨S4096x4x192, .f32⟩ : BufTy).Contents (Elt F) → (⟨S4096x4x192, .f32⟩ : BufTy).Contents (Elt F) → (⟨S4096x4x192, .f32⟩ : BufTy).Contents (Elt F)),
    nullary main_cst_33 (constant S_ .f32 0x00000000#32),
    binary main_v423 main_cst_33 main_v424 ((fun x v => Host.reduceAdd x v reducesTo_S4096x4x192_S4096x4_d2 h_S_) : (⟨S4096x4x192, .f32⟩ : BufTy).Contents (Elt F) → (⟨S_, .f32⟩ : BufTy).Contents (Elt F) → (⟨S4096x4, .f32⟩ : BufTy).Contents (Elt F)),
    unary main_v424 main_v425 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_34 (constant S_ .f32 0x43400000#32),
    unary main_cst_34 main_v426 (Host.sqrt : (⟨S_, .f32⟩ : BufTy).Contents (Elt F) → (⟨S_, .f32⟩ : BufTy).Contents (Elt F)),
    unary main_v426 main_v427 (broadcastInDim S4096x4x1 ![] bcast_S_S4096x4x1 : (⟨S_, .f32⟩ : BufTy).Contents (Elt F) → (⟨S4096x4x1, .f32⟩ : BufTy).Contents (Elt F)),
    binary main_v425 main_v427 main_v428 (Host.divf : (⟨S4096x4x1, .f32⟩ : BufTy).Contents (Elt F) → (⟨S4096x4x1, .f32⟩ : BufTy).Contents (Elt F) → (⟨S4096x4x1, .f32⟩ : BufTy).Contents (Elt F)),
    nullary main_cst_35 (constant S_ .f32 0xFF800000#32),
    binary main_v428 main_cst_35 main_v429 ((fun x v => Host.reduce FloatOps.maximumf x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    nullary main_cst_36 (constant S_ .f32 0xFF800000#32),
    unary main_cst_36 main_v430 (broadcastInDim S4096x4 ![] bcast_S_S4096x4 : (⟨S_, .f32⟩ : BufTy).Contents (Elt F) → (⟨S4096x4, .f32⟩ : BufTy).Contents (Elt F)),
    binary main_v430 main_v429 main_v431 (maximumf : (⟨S4096x4, .f32⟩ : BufTy).Contents (Elt F) → (⟨S4096x4, .f32⟩ : BufTy).Contents (Elt F) → (⟨S4096x4, .f32⟩ : BufTy).Contents (Elt F)),
    unary main_v431 main_v432 (broadcastInDim S4096x4x1 ![0, 1] bcast_S4096x4_S4096x4x1_0_1 : (⟨S4096x4, .f32⟩ : BufTy).Contents (Elt F) → (⟨S4096x4x1, .f32⟩ : BufTy).Contents (Elt F)),
    binary main_v428 main_v432 main_v433 (subf : (⟨S4096x4x1, .f32⟩ : BufTy).Contents (Elt F) → (⟨S4096x4x1, .f32⟩ : BufTy).Contents (Elt F) → (⟨S4096x4x1, .f32⟩ : BufTy).Contents (Elt F)),
    unary main_v433 main_v434 (Host.exp : (⟨S4096x4x1, .f32⟩ : BufTy).Contents (Elt F) → (⟨S4096x4x1, .f32⟩ : BufTy).Contents (Elt F)),
    nullary main_cst_37 (constant S_ .f32 0x00000000#32),
    binary main_v434 main_cst_37 main_v435 ((fun x v => Host.reduceAdd x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    unary main_v435 main_v436 (broadcastInDim S4096x4x1 ![0, 1] bcast_S4096x4_S4096x4x1_0_1 : (⟨S4096x4, .f32⟩ : BufTy).Contents (Elt F) → (⟨S4096x4x1, .f32⟩ : BufTy).Contents (Elt F)),
    binary main_v434 main_v436 main_v437 (Host.divf : (⟨S4096x4x1, .f32⟩ : BufTy).Contents (Elt F) → (⟨S4096x4x1, .f32⟩ : BufTy).Contents (Elt F) → (⟨S4096x4x1, .f32⟩ : BufTy).Contents (Elt F)),
    unary main_v437 main_v438 (broadcastInDim S4096x4x192 ![0, 1, 2] bcast_S4096x4x1_S4096x4x192_0_1_2 : (⟨S4096x4x1, .f32⟩ : BufTy).Contents (Elt F) → (⟨S4096x4x192, .f32⟩ : BufTy).Contents (Elt F)),
    binary main_v438 main_v422 main_v439 (mulf : (⟨S4096x4x192, .f32⟩ : BufTy).Contents (Elt F) → (⟨S4096x4x192, .f32⟩ : BufTy).Contents (Elt F) → (⟨S4096x4x192, .f32⟩ : BufTy).Contents (Elt F)),
    reshape main_v439 main_v440 rfl shapeCasts_S4096x4x192_S4096x768 ]

set_option maxRecDepth 8192 in
set_option maxHeartbeats 4000000 in
theorem part7_eq (c : Dev nD) : main_part7 (F := F) c = seq ops7 := rfl

set_option maxRecDepth 8192 in
theorem ops7_sub : (ops7 : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., binary_bufs_sub .., nullary_bufs_sub .., binary_bufs_sub .., unary_bufs_sub .., nullary_bufs_sub .., unary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., reshape_bufs_sub ..⟩

set_option maxRecDepth 8192 in
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- Operations 480 to 539 of @main, in order: the statements of its part 8. -/
abbrev ops8 : List (HloOp τ sig (Elt F)) :=
  [ unary main_v396 main_v441 ((transpose S768x768 [1, 0] · transposes_S768x768_S768x768_1_0) : (⟨S768x768, .f32⟩ : BufTy).Contents (Elt F) → (⟨S768x768, .f32⟩ : BufTy).Contents (Elt F)),
    binary main_v440 main_v441 main_v442 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v398 main_v443 (broadcastInDim S1x768 ![1] bcast_S768_S1x768_1 : (⟨S768, .f32⟩ : BufTy).Contents (Elt F) → (⟨S1x768, .f32⟩ : BufTy).Contents (Elt F)),
    unary main_v443 main_v444 (broadcastInDim S4096x768 ![0, 1] bcast_S1x768_S4096x768_0_1 : (⟨S1x768, .f32⟩ : BufTy).Contents (Elt F) → (⟨S4096x768, .f32⟩ : BufTy).Contents (Elt F)),
    binary main_v442 main_v444 main_v445 (addf : (⟨S4096x768, .f32⟩ : BufTy).Contents (Elt F) → (⟨S4096x768, .f32⟩ : BufTy).Contents (Elt F) → (⟨S4096x768, .f32⟩ : BufTy).Contents (Elt F)),
    binary main_v445 main_v390 main_v446 (addf : (⟨S4096x768, .f32⟩ : BufTy).Contents (Elt F) → (⟨S4096x768, .f32⟩ : BufTy).Contents (Elt F) → (⟨S4096x768, .f32⟩ : BufTy).Contents (Elt F)),
    unary main_arg11 main_v447 ((extractStridedSlice S1x768 ![2, 0] · slices_S4x768_S1x768_2_0) : (⟨S4x768, .f32⟩ : BufTy).Contents (Elt F) → (⟨S1x768, .f32⟩ : BufTy).Contents (Elt F)),
    reshape main_v447 main_v448 rfl shapeCasts_S1x768_S768,
    unary main_arg12 main_v449 ((extractStridedSlice S1x768 ![2, 0] · slices_S4x768_S1x768_2_0) : (⟨S4x768, .f32⟩ : BufTy).Contents (Elt F) → (⟨S1x768, .f32⟩ : BufTy).Contents (Elt F)),
    reshape main_v449 main_v450 rfl shapeCasts_S1x768_S768,
    nullary main_cst_38 (constant S_ .f32 0x3F7FFFAC#32),
    unary main_cst_38 main_v451 (broadcastInDim S768 ![] bcast_S_S768 : (⟨S_, .f32⟩ : BufTy).Contents (Elt F) → (⟨S768, .f32⟩ : BufTy).Contents (Elt F)),
    binary main_v448 main_v451 main_v452 (mulf : (⟨S768, .f32⟩ : BufTy).Contents (Elt F) → (⟨S768, .f32⟩ : BufTy).Contents (Elt F) → (⟨S768, .f32⟩ : BufTy).Contents (Elt F)),
    unary main_v452 main_v453 (broadcastInDim S1x768 ![1] bcast_S768_S1x768_1 : (⟨S768, .f32⟩ : BufTy).Contents (Elt F) → (⟨S1x768, .f32⟩ : BufTy).Contents (Elt F)),
    unary main_v453 main_v454 (broadcastInDim S4096x768 ![0, 1] bcast_S1x768_S4096x768_0_1 : (⟨S1x768, .f32⟩ : BufTy).Contents (Elt F) → (⟨S4096x768, .f32⟩ : BufTy).Contents (Elt F)),
    binary main_v446 main_v454 main_v455 (mulf : (⟨S4096x768, .f32⟩ : BufTy).Contents (Elt F) → (⟨S4096x768, .f32⟩ : BufTy).Contents (Elt F) → (⟨S4096x768, .f32⟩ : BufTy).Contents (Elt F)),
    unary main_v450 main_v456 (broadcastInDim S1x768 ![1] bcast_S768_S1x768_1 : (⟨S768, .f32⟩ : BufTy).Contents (Elt F) → (⟨S1x768, .f32⟩ : BufTy).Contents (Elt F)),
    unary main_v456 main_v457 (broadcastInDim S4096x768 ![0, 1] bcast_S1x768_S4096x768_0_1 : (⟨S1x768, .f32⟩ : BufTy).Contents (Elt F) → (⟨S4096x768, .f32⟩ : BufTy).Contents (Elt F)),
    binary main_v455 main_v457 main_v458 (addf : (⟨S4096x768, .f32⟩ : BufTy).Contents (Elt F) → (⟨S4096x768, .f32⟩ : BufTy).Contents (Elt F) → (⟨S4096x768, .f32⟩ : BufTy).Contents (Elt F)),
    unary main_arg7 main_v459 ((extractStridedSlice S1x2304x768 ![3, 0, 0] · slices_S4x2304x768_S1x2304x768_3_0_0) : (⟨S4x2304x768, .f32⟩ : BufTy).Contents (Elt F) → (⟨S1x2304x768, .f32⟩ : BufTy).Contents (Elt F)),
    reshape main_v459 main_v460 rfl shapeCasts_S1x2304x768_S2304x768,
    unary main_arg8 main_v461 ((extractStridedSlice S1x2304 ![3, 0] · slices_S4x2304_S1x2304_3_0) : (⟨S4x2304, .f32⟩ : BufTy).Contents (Elt F) → (⟨S1x2304, .f32⟩ : BufTy).Contents (Elt F)),
    reshape main_v461 main_v462 rfl shapeCasts_S1x2304_S2304,
    unary main_arg9 main_v463 ((extractStridedSlice S1x768x768 ![3, 0, 0] · slices_S4x768x768_S1x768x768_3_0_0) : (⟨S4x768x768, .f32⟩ : BufTy).Contents (Elt F) → (⟨S1x768x768, .f32⟩ : BufTy).Contents (Elt F)),
    reshape main_v463 main_v464 rfl shapeCasts_S1x768x768_S768x768,
    unary main_arg10 main_v465 ((extractStridedSlice S1x768 ![3, 0] · slices_S4x768_S1x768_3_0) : (⟨S4x768, .f32⟩ : BufTy).Contents (Elt F) → (⟨S1x768, .f32⟩ : BufTy).Contents (Elt F)),
    reshape main_v465 main_v466 rfl shapeCasts_S1x768_S768,
    unary main_v460 main_v467 ((extractStridedSlice S768x768 ![0, 0] · slices_S2304x768_S768x768_0_0) : (⟨S2304x768, .f32⟩ : BufTy).Contents (Elt F) → (⟨S768x768, .f32⟩ : BufTy).Contents (Elt F)),
    unary main_v460 main_v468 ((extractStridedSlice S768x768 ![768, 0] · slices_S2304x768_S768x768_768_0) : (⟨S2304x768, .f32⟩ : BufTy).Contents (Elt F) → (⟨S768x768, .f32⟩ : BufTy).Contents (Elt F)),
    unary main_v460 main_v469 ((extractStridedSlice S768x768 ![1536, 0] · slices_S2304x768_S768x768_1536_0) : (⟨S2304x768, .f32⟩ : BufTy).Contents (Elt F) → (⟨S768x768, .f32⟩ : BufTy).Contents (Elt F)),
    unary main_v462 main_v470 ((extractStridedSlice S768 ![0] · slices_S2304_S768_0) : (⟨S2304, .f32⟩ : BufTy).Contents (Elt F) → (⟨S768, .f32⟩ : BufTy).Contents (Elt F)),
    unary main_v462 main_v471 ((extractStridedSlice S768 ![768] · slices_S2304_S768_768) : (⟨S2304, .f32⟩ : BufTy).Contents (Elt F) → (⟨S768, .f32⟩ : BufTy).Contents (Elt F)),
    unary main_v462 main_v472 ((extractStridedSlice S768 ![1536] · slices_S2304_S768_1536) : (⟨S2304, .f32⟩ : BufTy).Contents (Elt F) → (⟨S768, .f32⟩ : BufTy).Contents (Elt F)),
    unary main_v467 main_v473 ((transpose S768x768 [1, 0] · transposes_S768x768_S768x768_1_0) : (⟨S768x768, .f32⟩ : BufTy).Contents (Elt F) → (⟨S768x768, .f32⟩ : BufTy).Contents (Elt F)),
    binary main_v458 main_v473 main_v474 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v470 main_v475 (broadcastInDim S1x768 ![1] bcast_S768_S1x768_1 : (⟨S768, .f32⟩ : BufTy).Contents (Elt F) → (⟨S1x768, .f32⟩ : BufTy).Contents (Elt F)),
    unary main_v475 main_v476 (broadcastInDim S4096x768 ![0, 1] bcast_S1x768_S4096x768_0_1 : (⟨S1x768, .f32⟩ : BufTy).Contents (Elt F) → (⟨S4096x768, .f32⟩ : BufTy).Contents (Elt F)),
    binary main_v474 main_v476 main_v477 (addf : (⟨S4096x768, .f32⟩ : BufTy).Contents (Elt F) → (⟨S4096x768, .f32⟩ : BufTy).Contents (Elt F) → (⟨S4096x768, .f32⟩ : BufTy).Contents (Elt F)),
    reshape main_v477 main_v478 rfl shapeCasts_S4096x768_S4096x4x192,
    unary main_v468 main_v479 ((transpose S768x768 [1, 0] · transposes_S768x768_S768x768_1_0) : (⟨S768x768, .f32⟩ : BufTy).Contents (Elt F) → (⟨S768x768, .f32⟩ : BufTy).Contents (Elt F)),
    binary main_v267 main_v479 main_v480 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v471 main_v481 (broadcastInDim S1x768 ![1] bcast_S768_S1x768_1 : (⟨S768, .f32⟩ : BufTy).Contents (Elt F) → (⟨S1x768, .f32⟩ : BufTy).Contents (Elt F)),
    unary main_v481 main_v482 (broadcastInDim S4096x768 ![0, 1] bcast_S1x768_S4096x768_0_1 : (⟨S1x768, .f32⟩ : BufTy).Contents (Elt F) → (⟨S4096x768, .f32⟩ : BufTy).Contents (Elt F)),
    binary main_v480 main_v482 main_v483 (addf : (⟨S4096x768, .f32⟩ : BufTy).Contents (Elt F) → (⟨S4096x768, .f32⟩ : BufTy).Contents (Elt F) → (⟨S4096x768, .f32⟩ : BufTy).Contents (Elt F)),
    reshape main_v483 main_v484 rfl shapeCasts_S4096x768_S4096x4x192,
    unary main_v469 main_v485 ((transpose S768x768 [1, 0] · transposes_S768x768_S768x768_1_0) : (⟨S768x768, .f32⟩ : BufTy).Contents (Elt F) → (⟨S768x768, .f32⟩ : BufTy).Contents (Elt F)),
    binary main_v267 main_v485 main_v486 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v472 main_v487 (broadcastInDim S1x768 ![1] bcast_S768_S1x768_1 : (⟨S768, .f32⟩ : BufTy).Contents (Elt F) → (⟨S1x768, .f32⟩ : BufTy).Contents (Elt F)),
    unary main_v487 main_v488 (broadcastInDim S4096x768 ![0, 1] bcast_S1x768_S4096x768_0_1 : (⟨S1x768, .f32⟩ : BufTy).Contents (Elt F) → (⟨S4096x768, .f32⟩ : BufTy).Contents (Elt F)),
    binary main_v486 main_v488 main_v489 (addf : (⟨S4096x768, .f32⟩ : BufTy).Contents (Elt F) → (⟨S4096x768, .f32⟩ : BufTy).Contents (Elt F) → (⟨S4096x768, .f32⟩ : BufTy).Contents (Elt F)),
    reshape main_v489 main_v490 rfl shapeCasts_S4096x768_S4096x4x192,
    binary main_v478 main_v484 main_v491 (mulf : (⟨S4096x4x192, .f32⟩ : BufTy).Contents (Elt F) → (⟨S4096x4x192, .f32⟩ : BufTy).Contents (Elt F) → (⟨S4096x4x192, .f32⟩ : BufTy).Contents (Elt F)),
    nullary main_cst_39 (constant S_ .f32 0x00000000#32),
    binary main_v491 main_cst_39 main_v492 ((fun x v => Host.reduceAdd x v reducesTo_S4096x4x192_S4096x4_d2 h_S_) : (⟨S4096x4x192, .f32⟩ : BufTy).Contents (Elt F) → (⟨S_, .f32⟩ : BufTy).Contents (Elt F) → (⟨S4096x4, .f32⟩ : BufTy).Contents (Elt F)),
    unary main_v492 main_v493 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_40 (constant S_ .f32 0x43400000#32),
    unary main_cst_40 main_v494 (Host.sqrt : (⟨S_, .f32⟩ : BufTy).Contents (Elt F) → (⟨S_, .f32⟩ : BufTy).Contents (Elt F)),
    unary main_v494 main_v495 (broadcastInDim S4096x4x1 ![] bcast_S_S4096x4x1 : (⟨S_, .f32⟩ : BufTy).Contents (Elt F) → (⟨S4096x4x1, .f32⟩ : BufTy).Contents (Elt F)),
    binary main_v493 main_v495 main_v496 (Host.divf : (⟨S4096x4x1, .f32⟩ : BufTy).Contents (Elt F) → (⟨S4096x4x1, .f32⟩ : BufTy).Contents (Elt F) → (⟨S4096x4x1, .f32⟩ : BufTy).Contents (Elt F)),
    nullary main_cst_41 (constant S_ .f32 0xFF800000#32) ]

set_option maxRecDepth 8192 in
set_option maxHeartbeats 4000000 in
theorem part8_eq (c : Dev nD) : main_part8 (F := F) c = seq ops8 := rfl

set_option maxRecDepth 8192 in
theorem ops8_sub : (ops8 : List (HloOp τ sig (Elt F))).Forall fun op => op.bufs ⊆ tcRefs τ sig :=
  ⟨unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., binary_bufs_sub .., nullary_bufs_sub .., binary_bufs_sub .., unary_bufs_sub .., nullary_bufs_sub .., unary_bufs_sub .., unary_bufs_sub .., binary_bufs_sub .., nullary_bufs_sub ..⟩

set_option maxRecDepth 8192 in
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- Operations 540 to 603 of @main, in order: the statements of its part 9. -/
abbrev ops9 : List (HloOp τ sig (Elt F)) :=
  [ binary main_v496 main_cst_41 main_v497 ((fun x v => Host.reduce FloatOps.maximumf x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    nullary main_cst_42 (constant S_ .f32 0xFF800000#32),
    unary main_cst_42 main_v498 (broadcastInDim S4096x4 ![] bcast_S_S4096x4 : (⟨S_, .f32⟩ : BufTy).Contents (Elt F) → (⟨S4096x4, .f32⟩ : BufTy).Contents (Elt F)),
    binary main_v498 main_v497 main_v499 (maximumf : (⟨S4096x4, .f32⟩ : BufTy).Contents (Elt F) → (⟨S4096x4, .f32⟩ : BufTy).Contents (Elt F) → (⟨S4096x4, .f32⟩ : BufTy).Contents (Elt F)),
    unary main_v499 main_v500 (broadcastInDim S4096x4x1 ![0, 1] bcast_S4096x4_S4096x4x1_0_1 : (⟨S4096x4, .f32⟩ : BufTy).Contents (Elt F) → (⟨S4096x4x1, .f32⟩ : BufTy).Contents (Elt F)),
    binary main_v496 main_v500 main_v501 (subf : (⟨S4096x4x1, .f32⟩ : BufTy).Contents (Elt F) → (⟨S4096x4x1, .f32⟩ : BufTy).Contents (Elt F) → (⟨S4096x4x1, .f32⟩ : BufTy).Contents (Elt F)),
    unary main_v501 main_v502 (Host.exp : (⟨S4096x4x1, .f32⟩ : BufTy).Contents (Elt F) → (⟨S4096x4x1, .f32⟩ : BufTy).Contents (Elt F)),
    nullary main_cst_43 (constant S_ .f32 0x00000000#32),
    binary main_v502 main_cst_43 main_v503 ((fun x v => Host.reduceAdd x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    unary main_v503 main_v504 (broadcastInDim S4096x4x1 ![0, 1] bcast_S4096x4_S4096x4x1_0_1 : (⟨S4096x4, .f32⟩ : BufTy).Contents (Elt F) → (⟨S4096x4x1, .f32⟩ : BufTy).Contents (Elt F)),
    binary main_v502 main_v504 main_v505 (Host.divf : (⟨S4096x4x1, .f32⟩ : BufTy).Contents (Elt F) → (⟨S4096x4x1, .f32⟩ : BufTy).Contents (Elt F) → (⟨S4096x4x1, .f32⟩ : BufTy).Contents (Elt F)),
    unary main_v505 main_v506 (broadcastInDim S4096x4x192 ![0, 1, 2] bcast_S4096x4x1_S4096x4x192_0_1_2 : (⟨S4096x4x1, .f32⟩ : BufTy).Contents (Elt F) → (⟨S4096x4x192, .f32⟩ : BufTy).Contents (Elt F)),
    binary main_v506 main_v490 main_v507 (mulf : (⟨S4096x4x192, .f32⟩ : BufTy).Contents (Elt F) → (⟨S4096x4x192, .f32⟩ : BufTy).Contents (Elt F) → (⟨S4096x4x192, .f32⟩ : BufTy).Contents (Elt F)),
    reshape main_v507 main_v508 rfl shapeCasts_S4096x4x192_S4096x768,
    unary main_v464 main_v509 ((transpose S768x768 [1, 0] · transposes_S768x768_S768x768_1_0) : (⟨S768x768, .f32⟩ : BufTy).Contents (Elt F) → (⟨S768x768, .f32⟩ : BufTy).Contents (Elt F)),
    binary main_v508 main_v509 main_v510 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    unary main_v466 main_v511 (broadcastInDim S1x768 ![1] bcast_S768_S1x768_1 : (⟨S768, .f32⟩ : BufTy).Contents (Elt F) → (⟨S1x768, .f32⟩ : BufTy).Contents (Elt F)),
    unary main_v511 main_v512 (broadcastInDim S4096x768 ![0, 1] bcast_S1x768_S4096x768_0_1 : (⟨S1x768, .f32⟩ : BufTy).Contents (Elt F) → (⟨S4096x768, .f32⟩ : BufTy).Contents (Elt F)),
    binary main_v510 main_v512 main_v513 (addf : (⟨S4096x768, .f32⟩ : BufTy).Contents (Elt F) → (⟨S4096x768, .f32⟩ : BufTy).Contents (Elt F) → (⟨S4096x768, .f32⟩ : BufTy).Contents (Elt F)),
    binary main_v513 main_v458 main_v514 (addf : (⟨S4096x768, .f32⟩ : BufTy).Contents (Elt F) → (⟨S4096x768, .f32⟩ : BufTy).Contents (Elt F) → (⟨S4096x768, .f32⟩ : BufTy).Contents (Elt F)),
    unary main_arg11 main_v515 ((extractStridedSlice S1x768 ![3, 0] · slices_S4x768_S1x768_3_0) : (⟨S4x768, .f32⟩ : BufTy).Contents (Elt F) → (⟨S1x768, .f32⟩ : BufTy).Contents (Elt F)),
    reshape main_v515 main_v516 rfl shapeCasts_S1x768_S768,
    unary main_arg12 main_v517 ((extractStridedSlice S1x768 ![3, 0] · slices_S4x768_S1x768_3_0) : (⟨S4x768, .f32⟩ : BufTy).Contents (Elt F) → (⟨S1x768, .f32⟩ : BufTy).Contents (Elt F)),
    reshape main_v517 main_v518 rfl shapeCasts_S1x768_S768,
    nullary main_cst_44 (constant S_ .f32 0x3F7FFFAC#32),
    unary main_cst_44 main_v519 (broadcastInDim S768 ![] bcast_S_S768 : (⟨S_, .f32⟩ : BufTy).Contents (Elt F) → (⟨S768, .f32⟩ : BufTy).Contents (Elt F)),
    binary main_v516 main_v519 main_v520 (mulf : (⟨S768, .f32⟩ : BufTy).Contents (Elt F) → (⟨S768, .f32⟩ : BufTy).Contents (Elt F) → (⟨S768, .f32⟩ : BufTy).Contents (Elt F)),
    unary main_v520 main_v521 (broadcastInDim S1x768 ![1] bcast_S768_S1x768_1 : (⟨S768, .f32⟩ : BufTy).Contents (Elt F) → (⟨S1x768, .f32⟩ : BufTy).Contents (Elt F)),
    unary main_v521 main_v522 (broadcastInDim S4096x768 ![0, 1] bcast_S1x768_S4096x768_0_1 : (⟨S1x768, .f32⟩ : BufTy).Contents (Elt F) → (⟨S4096x768, .f32⟩ : BufTy).Contents (Elt F)),
    binary main_v514 main_v522 main_v523 (mulf : (⟨S4096x768, .f32⟩ : BufTy).Contents (Elt F) → (⟨S4096x768, .f32⟩ : BufTy).Contents (Elt F) → (⟨S4096x768, .f32⟩ : BufTy).Contents (Elt F)),
    unary main_v518 main_v524 (broadcastInDim S1x768 ![1] bcast_S768_S1x768_1 : (⟨S768, .f32⟩ : BufTy).Contents (Elt F) → (⟨S1x768, .f32⟩ : BufTy).Contents (Elt F)),
    unary main_v524 main_v525 (broadcastInDim S4096x768 ![0, 1] bcast_S1x768_S4096x768_0_1 : (⟨S1x768, .f32⟩ : BufTy).Contents (Elt F) → (⟨S4096x768, .f32⟩ : BufTy).Contents (Elt F)),
    binary main_v523 main_v525 main_v526 (addf : (⟨S4096x768, .f32⟩ : BufTy).Contents (Elt F) → (⟨S4096x768, .f32⟩ : BufTy).Contents (Elt F) → (⟨S4096x768, .f32⟩ : BufTy).Contents (Elt F)),
    nary ![main_v322, main_v390, main_v458, main_v526] main_v527 (fun u => concatenate S4096x3072 1 [⟨S4096x768, u 0⟩, ⟨S4096x768, u 1⟩, ⟨S4096x768, u 2⟩, ⟨S4096x768, u 3⟩] concatenates_S4096x768_S4096x768_S4096x768_S4096x768_S4096x3072_d1),
    binary main_v263 main_v527 main_v528 ((fun a b => concatenate S4096x6144 1 [⟨S4096x3072, a⟩, ⟨S4096x3072, b⟩] concatenates_S4096x3072_S4096x3072_S4096x6144_d1) : (⟨S4096x3072, .f32⟩ : BufTy).Contents (Elt F) → (⟨S4096x3072, .f32⟩ : BufTy).Contents (Elt F) → (⟨S4096x6144, .f32⟩ : BufTy).Contents (Elt F)),
    unary main_arg13 main_v529 ((transpose S6144x512 [1, 0] · transposes_S512x6144_S6144x512_1_0) : (⟨S512x6144, .f32⟩ : BufTy).Contents (Elt F) → (⟨S6144x512, .f32⟩ : BufTy).Contents (Elt F)),
    binary main_v528 main_v529 main_v530 ((fun l r => Host.dotGeneral dot_S4096x6144_S6144x512_S4096x512_1_0_0_1_n_n none l r) : (⟨S4096x6144, .f32⟩ : BufTy).Contents (Elt F) → (⟨S6144x512, .f32⟩ : BufTy).Contents (Elt F) → (⟨S4096x512, .f32⟩ : BufTy).Contents (Elt F)),
    unary main_arg14 main_v531 (broadcastInDim S1x512 ![1] bcast_S512_S1x512_1 : (⟨S512, .f32⟩ : BufTy).Contents (Elt F) → (⟨S1x512, .f32⟩ : BufTy).Contents (Elt F)),
    unary main_v531 main_v532 (broadcastInDim S4096x512 ![0, 1] bcast_S1x512_S4096x512_0_1 : (⟨S1x512, .f32⟩ : BufTy).Contents (Elt F) → (⟨S4096x512, .f32⟩ : BufTy).Contents (Elt F)),
    binary main_v530 main_v532 main_v533 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x512, .f32⟩) main_call0_v0) (broadcastInDim S4096x512 ![] bcast_S_S4096x512),
    TRef.binary (TRef.of (T := ⟨S4096x512, .f32⟩) main_v533) (TRef.of (T := ⟨S4096x512, .f32⟩) main_call0_v0) (TRef.of (T := ⟨S4096x512, .f32⟩) main_v534) maximumf,
    nullary main_cst_45 (constant S_ .f32 0x3F7FFFAC#32),
    unary main_cst_45 main_v535 (broadcastInDim S512 ![] bcast_S_S512 : (⟨S_, .f32⟩ : BufTy).Contents (Elt F) → (⟨S512, .f32⟩ : BufTy).Contents (Elt F)),
    binary main_arg15 main_v535 main_v536 (mulf : (⟨S512, .f32⟩ : BufTy).Contents (Elt F) → (⟨S512, .f32⟩ : BufTy).Contents (Elt F) → (⟨S512, .f32⟩ : BufTy).Contents (Elt F)),
    unary main_v536 main_v537 (broadcastInDim S1x512 ![1] bcast_S512_S1x512_1 : (⟨S512, .f32⟩ : BufTy).Contents (Elt F) → (⟨S1x512, .f32⟩ : BufTy).Contents (Elt F)),
    unary main_v537 main_v538 (broadcastInDim S4096x512 ![0, 1] bcast_S1x512_S4096x512_0_1 : (⟨S1x512, .f32⟩ : BufTy).Contents (Elt F) → (⟨S4096x512, .f32⟩ : BufTy).Contents (Elt F)),
    binary main_v534 main_v538 main_v539 (mulf : (⟨S4096x512, .f32⟩ : BufTy).Contents (Elt F) → (⟨S4096x512, .f32⟩ : BufTy).Contents (Elt F) → (⟨S4096x512, .f32⟩ : BufTy).Contents (Elt F)),
    unary main_arg16 main_v540 (broadcastInDim S1x512 ![1] bcast_S512_S1x512_1 : (⟨S512, .f32⟩ : BufTy).Contents (Elt F) → (⟨S1x512, .f32⟩ : BufTy).Contents (Elt F)),
    unary main_v540 main_v541 (broadcastInDim S4096x512 ![0, 1] bcast_S1x512_S4096x512_0_1 : (⟨S1x512, .f32⟩ : BufTy).Contents (Elt F) → (⟨S4096x512, .f32⟩ : BufTy).Contents (Elt F)),
    binary main_v539 main_v541 main_v542 (addf : (⟨S4096x512, .f32⟩ : BufTy).Contents (Elt F) → (⟨S4096x512, .f32⟩ : BufTy).Contents (Elt F) → (⟨S4096x512, .f32⟩ : BufTy).Contents (Elt F)),
    unary main_arg17 main_v543 ((transpose S512x128 [1, 0] · transposes_S128x512_S512x128_1_0) : (⟨S128x512, .f32⟩ : BufTy).Contents (Elt F) → (⟨S512x128, .f32⟩ : BufTy).Contents (Elt F)),
    binary main_v542 main_v543 main_v544 ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F)),
    unary main_arg18 main_v545 (broadcastInDim S1x128 ![1] bcast_S128_S1x128_1 : (⟨S128, .f32⟩ : BufTy).Contents (Elt F) → (⟨S1x128, .f32⟩ : BufTy).Contents (Elt F)),
    unary main_v545 main_v546 (broadcastInDim S4096x128 ![0, 1] bcast_S1x128_S4096x128_0_1 : (⟨S1x128, .f32⟩ : BufTy).Contents (Elt F) → (⟨S4096x128, .f32⟩ : BufTy).Contents (Elt F)),
    binary main_v544 main_v546 main_v547 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x128, .f32⟩) main_call1_v0) (broadcastInDim S4096x128 ![] bcast_S_S4096x128),
    TRef.binary (TRef.of (T := ⟨S4096x128, .f32⟩) main_v547) (TRef.of (T := ⟨S4096x128, .f32⟩) main_call1_v0) (TRef.of (T := ⟨S4096x128, .f32⟩) main_v548) maximumf,
    nullary main_cst_46 (constant S_ .f32 0x3F7FFFAC#32),
    unary main_cst_46 main_v549 (broadcastInDim S128 ![] bcast_S_S128 : (⟨S_, .f32⟩ : BufTy).Contents (Elt F) → (⟨S128, .f32⟩ : BufTy).Contents (Elt F)),
    binary main_arg19 main_v549 main_v550 (mulf : (⟨S128, .f32⟩ : BufTy).Contents (Elt F) → (⟨S128, .f32⟩ : BufTy).Contents (Elt F) → (⟨S128, .f32⟩ : BufTy).Contents (Elt F)),
    unary main_v550 main_v551 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 4000000 in
theorem part9_eq (c : Dev nD) : main_part9 (F := F) c = seq ops9 := rfl

set_option maxRecDepth 8192 in
theorem ops9_sub : (ops9 : List (HloOp τ sig (Elt F))).Forall fun op => op.bufs ⊆ tcRefs τ sig :=
  ⟨binary_bufs_sub .., nullary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., reshape_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., unary_bufs_sub .., binary_bufs_sub .., unary_bufs_sub .., unary_bufs_sub .., binary_bufs_sub .., nary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub ..⟩

set_option maxRecDepth 8192 in
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- Operations 604 to 613 of @main, in order: the statements of its part 10. -/
abbrev ops10 : List (HloOp τ sig (Elt F)) :=
  [ unary main_v551 main_v552 (broadcastInDim S4096x128 ![0, 1] bcast_S1x128_S4096x128_0_1 : (⟨S1x128, .f32⟩ : BufTy).Contents (Elt F) → (⟨S4096x128, .f32⟩ : BufTy).Contents (Elt F)),
    binary main_v548 main_v552 main_v553 (mulf : (⟨S4096x128, .f32⟩ : BufTy).Contents (Elt F) → (⟨S4096x128, .f32⟩ : BufTy).Contents (Elt F) → (⟨S4096x128, .f32⟩ : BufTy).Contents (Elt F)),
    unary main_arg20 main_v554 (broadcastInDim S1x128 ![1] bcast_S128_S1x128_1 : (⟨S128, .f32⟩ : BufTy).Contents (Elt F) → (⟨S1x128, .f32⟩ : BufTy).Contents (Elt F)),
    unary main_v554 main_v555 (broadcastInDim S4096x128 ![0, 1] bcast_S1x128_S4096x128_0_1 : (⟨S1x128, .f32⟩ : BufTy).Contents (Elt F) → (⟨S4096x128, .f32⟩ : BufTy).Contents (Elt F)),
    binary main_v553 main_v555 main_v556 (addf : (⟨S4096x128, .f32⟩ : BufTy).Contents (Elt F) → (⟨S4096x128, .f32⟩ : BufTy).Contents (Elt F) → (⟨S4096x128, .f32⟩ : BufTy).Contents (Elt F)),
    unary main_arg21 main_v557 ((transpose S128x1 [1, 0] · transposes_S1x128_S128x1_1_0) : (⟨S1x128, .f32⟩ : BufTy).Contents (Elt F) → (⟨S128x1, .f32⟩ : BufTy).Contents (Elt F)),
    binary main_v556 main_v557 main_v558 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    unary main_arg22 main_v559 (broadcastInDim S1x1 ![1] bcast_S1_S1x1_1 : (⟨S1, .f32⟩ : BufTy).Contents (Elt F) → (⟨S1x1, .f32⟩ : BufTy).Contents (Elt F)),
    unary main_v559 main_v560 (broadcastInDim S4096x1 ![0, 1] bcast_S1x1_S4096x1_0_1 : (⟨S1x1, .f32⟩ : BufTy).Contents (Elt F) → (⟨S4096x1, .f32⟩ : BufTy).Contents (Elt F)),
    binary main_v558 main_v560 main_v561 (addf : (⟨S4096x1, .f32⟩ : BufTy).Contents (Elt F) → (⟨S4096x1, .f32⟩ : BufTy).Contents (Elt F) → (⟨S4096x1, .f32⟩ : BufTy).Contents (Elt F)) ]

set_option maxRecDepth 8192 in
set_option maxHeartbeats 4000000 in
theorem part10_eq (c : Dev nD) : main_part10 (F := F) c = seq ops10 := rfl

set_option maxRecDepth 8192 in
theorem ops10_sub : (ops10 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub ..⟩

set_option maxRecDepth 8192 in
theorem ops10_fresh : (ops10 : List (HloOp τ sig (Elt F))).Forall fun op => op.fresh = ∅ :=
  ⟨rfl, rfl, rfl, rfl, rfl, rfl, rfl, rfl, rfl, rfl⟩

/-- @main's 614 operations, in order. -/
abbrev ops : List (HloOp τ sig (Elt F)) :=
  ops0 ++ ops1 ++ ops2 ++ ops3 ++ ops4 ++ ops5 ++ ops6 ++ ops7 ++ ops8 ++ ops9 ++ ops10

/-- @main runs its eleven parts in order; each part is its line of operations, and lines run one after the other are
    their concatenation run as one. -/
theorem main_eq (c : Dev nD) : main (F := F) c = seq ops := by
  show (do main_part0 (F := F) c; main_part1 (F := F) c; main_part2 (F := F) c; main_part3 (F := F) c; main_part4 (F := F) c; main_part5 (F := F) c
           main_part6 (F := F) c; main_part7 (F := F) c; main_part8 (F := F) c; main_part9 (F := F) c; main_part10 (F := F) c) = seq ops
  simp only [ops, seq_append, bind_assoc, part0_eq c, part1_eq c, part2_eq c, part3_eq c, part4_eq c, part5_eq c, part6_eq c, part7_eq c,
    part8_eq c, part9_eq c, part10_eq c]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨⟨⟨⟨⟨⟨⟨⟨⟨⟨ops0_sub, ops1_sub⟩, ops2_sub⟩, ops3_sub⟩, ops4_sub⟩, ops5_sub⟩, ops6_sub⟩, ops7_sub⟩, ops8_sub⟩, ops9_sub⟩, ops10_sub⟩

theorem ops_fresh : ∀ op ∈ (ops : List (HloOp τ sig (Elt F))), op.fresh = ∅ := by
  have h : (ops : List (HloOp τ sig (Elt F))).Forall fun op => op.fresh = ∅ := by
    simp only [ops, List.forall_append]
    exact ⟨⟨⟨⟨⟨⟨⟨⟨⟨⟨ops0_fresh, ops1_fresh⟩, ops2_fresh⟩, ops3_fresh⟩, ops4_fresh⟩, ops5_fresh⟩, ops6_fresh⟩, ops7_fresh⟩, ops8_fresh⟩, ops9_fresh⟩, ops10_fresh⟩
  exact List.forall_iff_forall_mem.mp h

/-- On every device, from any memory with zero counters: every weakly fair execution of @main terminates with each
    buffer at the fold of the operations' results over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.ValueQ

end
-- ==== Proof.RefKept.lean ====
/-
  Which references each line of the reference's operations writes, and hence which it leaves alone: a reference
  outside a line's written list holds after the line what it held before.
-/
import proofs.«171191_j1709396984333_2_alg».proof.Proof.RefOps

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- An operation that writes one reference of a list writes inside the list. -/
theorem sub_of_mem {Wl : List (Ref sig .tc)} {s : Finset (DevRef τ sig)} {y : Ref sig .tc}
    (hs : s = {Proc.devRef .tc y}) (hy : y ∈ Wl) : s ⊆ (Wl.map (Proc.devRef (τ := τ) .tc)).toFinset := by
  subst hs
  intro b hb
  rw [Finset.mem_singleton] at hb
  subst hb
  exact List.mem_toFinset.mpr (List.mem_map.mpr ⟨y, hy, rfl⟩)

/-- The references operations 0 to 59 write. -/
abbrev wr0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_cst, main_v37, main_v38, main_cst_0, main_v39, main_v40, main_v41, main_cst_1, main_v42, main_cst_2, main_v43, main_v44, main_v45, main_v46, main_v47, main_cst_3, main_v48, main_v49, main_v50, main_v51, main_v52, main_v53, main_v54]

set_option maxRecDepth 8192 in
set_option maxHeartbeats 4000000 in
theorem ops0_writes : (ops0 : List (HloOp τ sig (Elt F))).Forall fun op => op.writes ⊆ (wr0.map (Proc.devRef (τ := τ) .tc)).toFinset :=
  ⟨sub_of_mem (unary_writes ..) (by decide), sub_of_mem (unary_writes ..) (by decide), sub_of_mem (unary_writes ..) (by decide), sub_of_mem (unary_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (binary_writes ..) (by decide), sub_of_mem (nullary_writes ..) (by decide), sub_of_mem (binary_writes ..) (by decide), sub_of_mem (unary_writes ..) (by decide), sub_of_mem (nullary_writes ..) (by decide), sub_of_mem (unary_writes ..) (by decide), sub_of_mem (unary_writes ..) (by decide), sub_of_mem (binary_writes ..) (by decide), sub_of_mem (nullary_writes ..) (by decide), sub_of_mem (binary_writes ..) (by decide), sub_of_mem (nullary_writes ..) (by decide), sub_of_mem (unary_writes ..) (by decide), sub_of_mem (binary_writes ..) (by decide), sub_of_mem (unary_writes ..) (by decide), sub_of_mem (binary_writes ..) (by decide), sub_of_mem (unary_writes ..) (by decide), sub_of_mem (nullary_writes ..) (by decide), sub_of_mem (binary_writes ..) (by decide), sub_of_mem (unary_writes ..) (by decide), sub_of_mem (binary_writes ..) (by decide), sub_of_mem (unary_writes ..) (by decide), sub_of_mem (binary_writes ..) (by decide), sub_of_mem (reshape_writes ..) (by decide), sub_of_mem (unary_writes ..) (by decide)⟩

/-- A reference operations 0 to 59 do not write keeps its contents. -/
theorem kept0 (W : Valuation τ sig (Elt F)) (r : Ref sig .tc) (hr : r ∉ wr0) :
    after ops0 W (Proc.devRef .tc r) = W (Proc.devRef .tc r) :=
  after_of_writes_sub ops0 W ops0_writes hr

/-- The references operations 60 to 119 write. -/
abbrev wr1 : List (Ref sig .tc) := [main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_cst_4, main_v92, main_v93, main_cst_5, main_v94, main_v95, main_v96, main_cst_6, main_v97, main_cst_7, main_v98, main_v99, main_v100, main_v101, main_v102, main_cst_8, main_v103, main_v104, main_v105, main_v106, main_v107, main_v108, main_v109]

set_option maxRecDepth 8192 in
set_option maxHeartbeats 4000000 in
theorem ops1_writes : (ops1 : List (HloOp τ sig (Elt F))).Forall fun op => op.writes ⊆ (wr1.map (Proc.devRef (τ := τ) .tc)).toFinset :=
  ⟨sub_of_mem (binary_writes ..) (by decide), sub_of_mem (unary_writes ..) (by decide), sub_of_mem (unary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (binary_writes ..) (by decide), sub_of_mem (nullary_writes ..) (by decide), sub_of_mem (binary_writes ..) (by decide), sub_of_mem (unary_writes ..) (by decide), sub_of_mem (nullary_writes ..) (by decide), sub_of_mem (unary_writes ..) (by decide), sub_of_mem (unary_writes ..) (by decide), sub_of_mem (binary_writes ..) (by decide), sub_of_mem (nullary_writes ..) (by decide), sub_of_mem (binary_writes ..) (by decide), sub_of_mem (nullary_writes ..) (by decide), sub_of_mem (unary_writes ..) (by decide), sub_of_mem (binary_writes ..) (by decide), sub_of_mem (unary_writes ..) (by decide), sub_of_mem (binary_writes ..) (by decide), sub_of_mem (unary_writes ..) (by decide), sub_of_mem (nullary_writes ..) (by decide), sub_of_mem (binary_writes ..) (by decide), sub_of_mem (unary_writes ..) (by decide), sub_of_mem (binary_writes ..) (by decide), sub_of_mem (unary_writes ..) (by decide), sub_of_mem (binary_writes ..) (by decide), sub_of_mem (reshape_writes ..) (by decide), sub_of_mem (unary_writes ..) (by decide)⟩

/-- A reference operations 60 to 119 do not write keeps its contents. -/
theorem kept1 (W : Valuation τ sig (Elt F)) (r : Ref sig .tc) (hr : r ∉ wr1) :
    after ops1 W (Proc.devRef .tc r) = W (Proc.devRef .tc r) :=
  after_of_writes_sub ops1 W ops1_writes hr

/-- The references operations 120 to 179 write. -/
abbrev wr2 : List (Ref sig .tc) := [main_v110, main_v111, main_v112, main_v113, main_v114, main_v115, main_v116, main_v117, main_v118, main_cst_9, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_cst_10, main_v160, main_v161, main_cst_11, main_v162, main_v163, main_v164, main_cst_12, main_v165]

set_option maxRecDepth 8192 in
set_option maxHeartbeats 4000000 in
theorem ops2_writes : (ops2 : List (HloOp τ sig (Elt F))).Forall fun op => op.writes ⊆ (wr2.map (Proc.devRef (τ := τ) .tc)).toFinset :=
  ⟨sub_of_mem (binary_writes ..) (by decide), sub_of_mem (unary_writes ..) (by decide), sub_of_mem (unary_writes ..) (by decide), sub_of_mem (binary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (nullary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (binary_writes ..) (by decide), sub_of_mem (nullary_writes ..) (by decide), sub_of_mem (binary_writes ..) (by decide), sub_of_mem (unary_writes ..) (by decide), sub_of_mem (nullary_writes ..) (by decide), sub_of_mem (unary_writes ..) (by decide), sub_of_mem (unary_writes ..) (by decide), sub_of_mem (binary_writes ..) (by decide), sub_of_mem (nullary_writes ..) (by decide), sub_of_mem (binary_writes ..) (by decide)⟩

/-- A reference operations 120 to 179 do not write keeps its contents. -/
theorem kept2 (W : Valuation τ sig (Elt F)) (r : Ref sig .tc) (hr : r ∉ wr2) :
    after ops2 W (Proc.devRef .tc r) = W (Proc.devRef .tc r) :=
  after_of_writes_sub ops2 W ops2_writes hr

/-- The references operations 180 to 239 write. -/
abbrev wr3 : List (Ref sig .tc) := [main_cst_13, main_v166, main_v167, main_v168, main_v169, main_v170, main_cst_14, main_v171, main_v172, main_v173, main_v174, main_v175, main_v176, main_v177, main_v178, main_v179, main_v180, main_v181, main_v182, main_v183, main_v184, main_v185, main_v186, main_cst_15, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222]

set_option maxRecDepth 8192 in
set_option maxHeartbeats 4000000 in
theorem ops3_writes : (ops3 : List (HloOp τ sig (Elt F))).Forall fun op => op.writes ⊆ (wr3.map (Proc.devRef (τ := τ) .tc)).toFinset :=
  ⟨sub_of_mem (nullary_writes ..) (by decide), sub_of_mem (unary_writes ..) (by decide), sub_of_mem (binary_writes ..) (by decide), sub_of_mem (unary_writes ..) (by decide), sub_of_mem (binary_writes ..) (by decide), sub_of_mem (unary_writes ..) (by decide), sub_of_mem (nullary_writes ..) (by decide), sub_of_mem (binary_writes ..) (by decide), sub_of_mem (unary_writes ..) (by decide), sub_of_mem (binary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (nullary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide)⟩

/-- A reference operations 180 to 239 do not write keeps its contents. -/
theorem kept3 (W : Valuation τ sig (Elt F)) (r : Ref sig .tc) (hr : r ∉ wr3) :
    after ops3 W (Proc.devRef .tc r) = W (Proc.devRef .tc r) :=
  after_of_writes_sub ops3 W ops3_writes hr

/-- The references operations 240 to 299 write. -/
abbrev wr4 : List (Ref sig .tc) := [main_v223, main_v224, main_v225, main_v226, main_v227, main_cst_16, main_v228, main_v229, main_cst_17, main_v230, main_v231, main_v232, main_cst_18, main_v233, main_cst_19, main_v234, main_v235, main_v236, main_v237, main_v238, main_cst_20, main_v239, main_v240, main_v241, main_v242, main_v243, main_v244, main_v245, main_v246, main_v247, main_v248, main_v249, main_v250, main_v251, main_v252, main_v253, main_v254, main_cst_21, main_v255, main_v256, main_v257, main_v258, main_v259, main_v260, main_v261, main_v262, main_v263, main_v264, main_v265, main_v266, main_v267, main_v268, main_v269, main_v270, main_v271, main_v272, main_v273, main_v274, main_v275, main_v276]

set_option maxRecDepth 8192 in
set_option maxHeartbeats 4000000 in
theorem ops4_writes : (ops4 : List (HloOp τ sig (Elt F))).Forall fun op => op.writes ⊆ (wr4.map (Proc.devRef (τ := τ) .tc)).toFinset :=
  ⟨sub_of_mem (unary_writes ..) (by decide), sub_of_mem (unary_writes ..) (by decide), sub_of_mem (binary_writes ..) (by decide), sub_of_mem (reshape_writes ..) (by decide), sub_of_mem (binary_writes ..) (by decide), sub_of_mem (nullary_writes ..) (by decide), sub_of_mem (binary_writes ..) (by decide), sub_of_mem (unary_writes ..) (by decide), sub_of_mem (nullary_writes ..) (by decide), sub_of_mem (unary_writes ..) (by decide), sub_of_mem (unary_writes ..) (by decide), sub_of_mem (binary_writes ..) (by decide), sub_of_mem (nullary_writes ..) (by decide), sub_of_mem (binary_writes ..) (by decide), sub_of_mem (nullary_writes ..) (by decide), sub_of_mem (unary_writes ..) (by decide), sub_of_mem (binary_writes ..) (by decide), sub_of_mem (unary_writes ..) (by decide), sub_of_mem (binary_writes ..) (by decide), sub_of_mem (unary_writes ..) (by decide), sub_of_mem (nullary_writes ..) (by decide), sub_of_mem (binary_writes ..) (by decide), sub_of_mem (unary_writes ..) (by decide), sub_of_mem (binary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (nullary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (nary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide)⟩

/-- A reference operations 240 to 299 do not write keeps its contents. -/
theorem kept4 (W : Valuation τ sig (Elt F)) (r : Ref sig .tc) (hr : r ∉ wr4) :
    after ops4 W (Proc.devRef .tc r) = W (Proc.devRef .tc r) :=
  after_of_writes_sub ops4 W ops4_writes hr

/-- The references operations 300 to 359 write. -/
abbrev wr5 : List (Ref sig .tc) := [main_v277, main_v278, main_v279, main_v280, main_v281, main_v282, main_v283, main_v284, main_v285, main_v286, main_v287, main_v288, main_v289, main_v290, main_v291, main_v292, main_v293, main_v294, main_v295, main_v296, main_v297, main_v298, main_v299, main_v300, main_cst_22, main_v301, main_v302, main_cst_23, main_v303, main_v304, main_v305, main_cst_24, main_v306, main_cst_25, main_v307, main_v308, main_v309, main_v310, main_v311, main_cst_26, main_v312, main_v313, main_v314, main_v315, main_v316, main_v317, main_v318, main_v319, main_v320, main_v321, main_v322, main_v323, main_v324, main_v325, main_v326, main_v327, main_v328, main_v329, main_v330, main_v331]

set_option maxRecDepth 8192 in
set_option maxHeartbeats 4000000 in
theorem ops5_writes : (ops5 : List (HloOp τ sig (Elt F))).Forall fun op => op.writes ⊆ (wr5.map (Proc.devRef (τ := τ) .tc)).toFinset :=
  ⟨sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (binary_writes ..) (by decide), sub_of_mem (nullary_writes ..) (by decide), sub_of_mem (binary_writes ..) (by decide), sub_of_mem (unary_writes ..) (by decide), sub_of_mem (nullary_writes ..) (by decide), sub_of_mem (unary_writes ..) (by decide), sub_of_mem (unary_writes ..) (by decide), sub_of_mem (binary_writes ..) (by decide), sub_of_mem (nullary_writes ..) (by decide), sub_of_mem (binary_writes ..) (by decide), sub_of_mem (nullary_writes ..) (by decide), sub_of_mem (unary_writes ..) (by decide), sub_of_mem (binary_writes ..) (by decide), sub_of_mem (unary_writes ..) (by decide), sub_of_mem (binary_writes ..) (by decide), sub_of_mem (unary_writes ..) (by decide), sub_of_mem (nullary_writes ..) (by decide), sub_of_mem (binary_writes ..) (by decide), sub_of_mem (unary_writes ..) (by decide), sub_of_mem (binary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide)⟩

/-- A reference operations 300 to 359 do not write keeps its contents. -/
theorem kept5 (W : Valuation τ sig (Elt F)) (r : Ref sig .tc) (hr : r ∉ wr5) :
    after ops5 W (Proc.devRef .tc r) = W (Proc.devRef .tc r) :=
  after_of_writes_sub ops5 W ops5_writes hr

/-- The references operations 360 to 419 write. -/
abbrev wr6 : List (Ref sig .tc) := [main_v332, main_v333, main_v334, main_v335, main_v336, main_v337, main_v338, main_v339, main_v340, main_v341, main_v342, main_v343, main_v344, main_v345, main_v346, main_v347, main_v348, main_v349, main_v350, main_v351, main_v352, main_v353, main_v354, main_v355, main_cst_27, main_v356, main_v357, main_cst_28, main_v358, main_v359, main_v360, main_cst_29, main_v361, main_cst_30, main_v362, main_v363, main_v364, main_v365, main_v366, main_cst_31, main_v367, main_v368, main_v369, main_v370, main_v371, main_v372, main_v373, main_v374, main_v375, main_v376, main_v377, main_v378, main_v379, main_v380, main_v381, main_v382, main_cst_32, main_v383, main_v384, main_v385]

set_option maxRecDepth 8192 in
set_option maxHeartbeats 4000000 in
theorem ops6_writes : (ops6 : List (HloOp τ sig (Elt F))).Forall fun op => op.writes ⊆ (wr6.map (Proc.devRef (τ := τ) .tc)).toFinset :=
  ⟨sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (binary_writes ..) (by decide), sub_of_mem (nullary_writes ..) (by decide), sub_of_mem (binary_writes ..) (by decide), sub_of_mem (unary_writes ..) (by decide), sub_of_mem (nullary_writes ..) (by decide), sub_of_mem (unary_writes ..) (by decide), sub_of_mem (unary_writes ..) (by decide), sub_of_mem (binary_writes ..) (by decide), sub_of_mem (nullary_writes ..) (by decide), sub_of_mem (binary_writes ..) (by decide), sub_of_mem (nullary_writes ..) (by decide), sub_of_mem (unary_writes ..) (by decide), sub_of_mem (binary_writes ..) (by decide), sub_of_mem (unary_writes ..) (by decide), sub_of_mem (binary_writes ..) (by decide), sub_of_mem (unary_writes ..) (by decide), sub_of_mem (nullary_writes ..) (by decide), sub_of_mem (binary_writes ..) (by decide), sub_of_mem (unary_writes ..) (by decide), sub_of_mem (binary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (nullary_writes ..) (by decide), sub_of_mem (unary_writes ..) (by decide), sub_of_mem (binary_writes ..) (by decide), sub_of_mem (unary_writes ..) (by decide)⟩

/-- A reference operations 360 to 419 do not write keeps its contents. -/
theorem kept6 (W : Valuation τ sig (Elt F)) (r : Ref sig .tc) (hr : r ∉ wr6) :
    after ops6 W (Proc.devRef .tc r) = W (Proc.devRef .tc r) :=
  after_of_writes_sub ops6 W ops6_writes hr

/-- The references operations 420 to 479 write. -/
abbrev wr7 : List (Ref sig .tc) := [main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422, main_v423, main_cst_33, main_v424, main_v425, main_cst_34, main_v426, main_v427, main_v428, main_cst_35, main_v429, main_cst_36, main_v430, main_v431, main_v432, main_v433, main_v434, main_cst_37, main_v435, main_v436, main_v437, main_v438, main_v439, main_v440]

set_option maxRecDepth 8192 in
set_option maxHeartbeats 4000000 in
theorem ops7_writes : (ops7 : List (HloOp τ sig (Elt F))).Forall fun op => op.writes ⊆ (wr7.map (Proc.devRef (τ := τ) .tc)).toFinset :=
  ⟨sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (binary_writes ..) (by decide), sub_of_mem (nullary_writes ..) (by decide), sub_of_mem (binary_writes ..) (by decide), sub_of_mem (unary_writes ..) (by decide), sub_of_mem (nullary_writes ..) (by decide), sub_of_mem (unary_writes ..) (by decide), sub_of_mem (unary_writes ..) (by decide), sub_of_mem (binary_writes ..) (by decide), sub_of_mem (nullary_writes ..) (by decide), sub_of_mem (binary_writes ..) (by decide), sub_of_mem (nullary_writes ..) (by decide), sub_of_mem (unary_writes ..) (by decide), sub_of_mem (binary_writes ..) (by decide), sub_of_mem (unary_writes ..) (by decide), sub_of_mem (binary_writes ..) (by decide), sub_of_mem (unary_writes ..) (by decide), sub_of_mem (nullary_writes ..) (by decide), sub_of_mem (binary_writes ..) (by decide), sub_of_mem (unary_writes ..) (by decide), sub_of_mem (binary_writes ..) (by decide), sub_of_mem (unary_writes ..) (by decide), sub_of_mem (binary_writes ..) (by decide), sub_of_mem (reshape_writes ..) (by decide)⟩

/-- A reference operations 420 to 479 do not write keeps its contents. -/
theorem kept7 (W : Valuation τ sig (Elt F)) (r : Ref sig .tc) (hr : r ∉ wr7) :
    after ops7 W (Proc.devRef .tc r) = W (Proc.devRef .tc r) :=
  after_of_writes_sub ops7 W ops7_writes hr

/-- The references operations 480 to 539 write. -/
abbrev wr8 : List (Ref sig .tc) := [main_v441, main_v442, main_v443, main_v444, main_v445, main_v446, main_v447, main_v448, main_v449, main_v450, main_cst_38, main_v451, main_v452, main_v453, main_v454, main_v455, main_v456, main_v457, main_v458, main_v459, main_v460, main_v461, main_v462, main_v463, main_v464, main_v465, main_v466, main_v467, main_v468, main_v469, main_v470, main_v471, main_v472, main_v473, main_v474, main_v475, main_v476, main_v477, main_v478, main_v479, main_v480, main_v481, main_v482, main_v483, main_v484, main_v485, main_v486, main_v487, main_v488, main_v489, main_v490, main_v491, main_cst_39, main_v492, main_v493, main_cst_40, main_v494, main_v495, main_v496, main_cst_41]

set_option maxRecDepth 8192 in
set_option maxHeartbeats 4000000 in
theorem ops8_writes : (ops8 : List (HloOp τ sig (Elt F))).Forall fun op => op.writes ⊆ (wr8.map (Proc.devRef (τ := τ) .tc)).toFinset :=
  ⟨sub_of_mem (unary_writes ..) (by decide), sub_of_mem (binary_writes ..) (by decide), sub_of_mem (unary_writes ..) (by decide), sub_of_mem (unary_writes ..) (by decide), sub_of_mem (binary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (nullary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (reshape_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (reshape_writes ..) (by decide), sub_of_mem (binary_writes ..) (by decide), sub_of_mem (nullary_writes ..) (by decide), sub_of_mem (binary_writes ..) (by decide), sub_of_mem (unary_writes ..) (by decide), sub_of_mem (nullary_writes ..) (by decide), sub_of_mem (unary_writes ..) (by decide), sub_of_mem (unary_writes ..) (by decide), sub_of_mem (binary_writes ..) (by decide), sub_of_mem (nullary_writes ..) (by decide)⟩

/-- A reference operations 480 to 539 do not write keeps its contents. -/
theorem kept8 (W : Valuation τ sig (Elt F)) (r : Ref sig .tc) (hr : r ∉ wr8) :
    after ops8 W (Proc.devRef .tc r) = W (Proc.devRef .tc r) :=
  after_of_writes_sub ops8 W ops8_writes hr

/-- The references operations 540 to 603 write. -/
abbrev wr9 : List (Ref sig .tc) := [main_v497, main_cst_42, main_v498, main_v499, main_v500, main_v501, main_v502, main_cst_43, main_v503, main_v504, main_v505, main_v506, main_v507, main_v508, main_v509, main_v510, main_v511, main_v512, main_v513, main_v514, main_v515, main_v516, main_v517, main_v518, main_cst_44, main_v519, main_v520, main_v521, main_v522, main_v523, main_v524, main_v525, main_v526, main_v527, main_v528, main_v529, main_v530, main_v531, main_v532, main_v533, main_call0_cst, main_call0_v0, main_v534, main_cst_45, main_v535, main_v536, main_v537, main_v538, main_v539, main_v540, main_v541, main_v542, main_v543, main_v544, main_v545, main_v546, main_v547, main_call1_cst, main_call1_v0, main_v548, main_cst_46, main_v549, main_v550, main_v551]

set_option maxRecDepth 8192 in
set_option maxHeartbeats 4000000 in
theorem ops9_writes : (ops9 : List (HloOp τ sig (Elt F))).Forall fun op => op.writes ⊆ (wr9.map (Proc.devRef (τ := τ) .tc)).toFinset :=
  ⟨sub_of_mem (binary_writes ..) (by decide), sub_of_mem (nullary_writes ..) (by decide), sub_of_mem (unary_writes ..) (by decide), sub_of_mem (binary_writes ..) (by decide), sub_of_mem (unary_writes ..) (by decide), sub_of_mem (binary_writes ..) (by decide), sub_of_mem (unary_writes ..) (by decide), sub_of_mem (nullary_writes ..) (by decide), sub_of_mem (binary_writes ..) (by decide), sub_of_mem (unary_writes ..) (by decide), sub_of_mem (binary_writes ..) (by decide), sub_of_mem (unary_writes ..) (by decide), sub_of_mem (binary_writes ..) (by decide), sub_of_mem (reshape_writes ..) (by decide), sub_of_mem (unary_writes ..) (by decide), sub_of_mem (binary_writes ..) (by decide), sub_of_mem (unary_writes ..) (by decide), sub_of_mem (unary_writes ..) (by decide), sub_of_mem (binary_writes ..) (by decide), sub_of_mem (binary_writes ..) (by decide), sub_of_mem (unary_writes ..) (by decide), sub_of_mem (reshape_writes ..) (by decide), sub_of_mem (unary_writes ..) (by decide), sub_of_mem (reshape_writes ..) (by decide), sub_of_mem (nullary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (nary_writes ..) (by decide), sub_of_mem (binary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (nullary_writes ..) (by decide), sub_of_mem (unary_writes ..) (by decide), sub_of_mem (binary_writes ..) (by decide), sub_of_mem (nullary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (binary_writes ..) (by decide), sub_of_mem (unary_writes ..) (by decide), sub_of_mem (unary_writes ..) (by decide), sub_of_mem (binary_writes ..) (by decide), sub_of_mem (nullary_writes ..) (by decide), sub_of_mem (unary_writes ..) (by decide), sub_of_mem (binary_writes ..) (by decide), sub_of_mem (nullary_writes ..) (by decide), sub_of_mem (unary_writes ..) (by decide), sub_of_mem (binary_writes ..) (by decide), sub_of_mem (unary_writes ..) (by decide)⟩

/-- A reference operations 540 to 603 do not write keeps its contents. -/
theorem kept9 (W : Valuation τ sig (Elt F)) (r : Ref sig .tc) (hr : r ∉ wr9) :
    after ops9 W (Proc.devRef .tc r) = W (Proc.devRef .tc r) :=
  after_of_writes_sub ops9 W ops9_writes hr

/-- The references operations 604 to 613 write. -/
abbrev wr10 : List (Ref sig .tc) := [main_v552, main_v553, main_v554, main_v555, main_v556, main_v557, main_v558, main_v559, main_v560, main_v561]

set_option maxRecDepth 8192 in
set_option maxHeartbeats 4000000 in
theorem ops10_writes : (ops10 : List (HloOp τ sig (Elt F))).Forall fun op => op.writes ⊆ (wr10.map (Proc.devRef (τ := τ) .tc)).toFinset :=
  ⟨sub_of_mem (unary_writes ..) (by decide), sub_of_mem (binary_writes ..) (by decide), sub_of_mem (unary_writes ..) (by decide), sub_of_mem (unary_writes ..) (by decide), sub_of_mem (binary_writes ..) (by decide), sub_of_mem (unary_writes ..) (by decide), sub_of_mem (binary_writes ..) (by decide), sub_of_mem (unary_writes ..) (by decide), sub_of_mem (unary_writes ..) (by decide), sub_of_mem (binary_writes ..) (by decide)⟩

/-- A reference operations 604 to 613 do not write keeps its contents. -/
theorem kept10 (W : Valuation τ sig (Elt F)) (r : Ref sig .tc) (hr : r ∉ wr10) :
    after ops10 W (Proc.devRef .tc r) = W (Proc.devRef .tc r) :=
  after_of_writes_sub ops10 W ops10_writes hr

end Cert.ReferenceIdeal.ValueQ

end
-- ==== Proof.RefInv.lean ====
/-
  The description of the buffers between the lines of the reference's operations.  After the first lines every
  argument still holds its launch contents, and every intermediate value that a later line reads holds its stage's
  term: the value of that operation as a function of the arguments, built from the earlier stages by name.
-/
import proofs.«171191_j1709396984333_2_alg».proof.Proof.Gen.ReferenceIdeal
import proofs.«171191_j1709396984333_2_alg».proof.Proof.RefReadP
import Idealize.ShloMosaic.Lib.StableHlo.Run

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- The buffers after the first 0 operations: the arguments, and each value still to be read, at its stage's term. -/
def Inv0 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22

/-- The buffers after the first 60 operations: the arguments, and each value still to be read, at its stage's term. -/
def Inv1 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v1) = ReadP.val_main_v1 (F := F) x0
  ∧ W (Proc.devRef .tc main_v2) = ReadP.val_main_v2 (F := F) x0
  ∧ W (Proc.devRef .tc main_v3) = ReadP.val_main_v3 (F := F) x0
  ∧ W (Proc.devRef .tc main_v11) = ReadP.val_main_v11 (F := F) x4
  ∧ W (Proc.devRef .tc main_v53) = ReadP.val_main_v53 (F := F) x0 x1 x2
  ∧ W (Proc.devRef .tc main_v54) = ReadP.val_main_v54 (F := F) x3

/-- The buffers after the first 120 operations: the arguments, and each value still to be read, at its stage's term. -/
def Inv2 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v2) = ReadP.val_main_v2 (F := F) x0
  ∧ W (Proc.devRef .tc main_v3) = ReadP.val_main_v3 (F := F) x0
  ∧ W (Proc.devRef .tc main_v58) = ReadP.val_main_v58 (F := F) x0 x1 x2 x3 x4
  ∧ W (Proc.devRef .tc main_v66) = ReadP.val_main_v66 (F := F) x4
  ∧ W (Proc.devRef .tc main_v108) = ReadP.val_main_v108 (F := F) x0 x1 x2 x3 x4
  ∧ W (Proc.devRef .tc main_v109) = ReadP.val_main_v109 (F := F) x3

/-- The buffers after the first 180 operations: the arguments, and each value still to be read, at its stage's term. -/
def Inv3 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v3) = ReadP.val_main_v3 (F := F) x0
  ∧ W (Proc.devRef .tc main_v58) = ReadP.val_main_v58 (F := F) x0 x1 x2 x3 x4
  ∧ W (Proc.devRef .tc main_v126) = ReadP.val_main_v126 (F := F) x0 x1 x2 x3 x4 x5 x6
  ∧ W (Proc.devRef .tc main_v132) = ReadP.val_main_v132 (F := F) x3
  ∧ W (Proc.devRef .tc main_v134) = ReadP.val_main_v134 (F := F) x4
  ∧ W (Proc.devRef .tc main_v158) = ReadP.val_main_v158 (F := F) x0 x1 x2
  ∧ W (Proc.devRef .tc main_v164) = ReadP.val_main_v164 (F := F) x0 x1 x2 x3 x4 x5 x6
  ∧ W (Proc.devRef .tc main_v165) = ReadP.val_main_v165 (F := F) x0 x1 x2 x3 x4 x5 x6

/-- The buffers after the first 240 operations: the arguments, and each value still to be read, at its stage's term. -/
def Inv4 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v58) = ReadP.val_main_v58 (F := F) x0 x1 x2 x3 x4
  ∧ W (Proc.devRef .tc main_v126) = ReadP.val_main_v126 (F := F) x0 x1 x2 x3 x4 x5 x6
  ∧ W (Proc.devRef .tc main_v194) = ReadP.val_main_v194 (F := F) x0 x1 x2 x3 x4 x5 x6
  ∧ W (Proc.devRef .tc main_v200) = ReadP.val_main_v200 (F := F) x3
  ∧ W (Proc.devRef .tc main_v202) = ReadP.val_main_v202 (F := F) x4
  ∧ W (Proc.devRef .tc main_v208) = ReadP.val_main_v208 (F := F) x2
  ∧ W (Proc.devRef .tc main_v214) = ReadP.val_main_v214 (F := F) x0 x1 x2 x3 x4 x5 x6
  ∧ W (Proc.devRef .tc main_v220) = ReadP.val_main_v220 (F := F) x0 x1 x2
  ∧ W (Proc.devRef .tc main_v222) = ReadP.val_main_v222 (F := F) x0 x1

/-- The buffers after the first 300 operations: the arguments, and each value still to be read, at its stage's term. -/
def Inv5 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v263) = ReadP.val_main_v263 (F := F) x0 x1 x2 x3 x4 x5 x6
  ∧ W (Proc.devRef .tc main_v264) = ReadP.val_main_v264 (F := F) x0
  ∧ W (Proc.devRef .tc main_v265) = ReadP.val_main_v265 (F := F) x0
  ∧ W (Proc.devRef .tc main_v266) = ReadP.val_main_v266 (F := F) x0
  ∧ W (Proc.devRef .tc main_v267) = ReadP.val_main_v267 (F := F) x0
  ∧ W (Proc.devRef .tc main_v269) = ReadP.val_main_v269 (F := F) x7
  ∧ W (Proc.devRef .tc main_v271) = ReadP.val_main_v271 (F := F) x8
  ∧ W (Proc.devRef .tc main_v273) = ReadP.val_main_v273 (F := F) x9
  ∧ W (Proc.devRef .tc main_v275) = ReadP.val_main_v275 (F := F) x10
  ∧ W (Proc.devRef .tc main_v276) = ReadP.val_main_v276 (F := F) x7

/-- The buffers after the first 360 operations: the arguments, and each value still to be read, at its stage's term. -/
def Inv6 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v263) = ReadP.val_main_v263 (F := F) x0 x1 x2 x3 x4 x5 x6
  ∧ W (Proc.devRef .tc main_v265) = ReadP.val_main_v265 (F := F) x0
  ∧ W (Proc.devRef .tc main_v266) = ReadP.val_main_v266 (F := F) x0
  ∧ W (Proc.devRef .tc main_v267) = ReadP.val_main_v267 (F := F) x0
  ∧ W (Proc.devRef .tc main_v322) = ReadP.val_main_v322 (F := F) x0 x7 x8 x9 x10
  ∧ W (Proc.devRef .tc main_v324) = ReadP.val_main_v324 (F := F) x7
  ∧ W (Proc.devRef .tc main_v326) = ReadP.val_main_v326 (F := F) x8
  ∧ W (Proc.devRef .tc main_v328) = ReadP.val_main_v328 (F := F) x9
  ∧ W (Proc.devRef .tc main_v330) = ReadP.val_main_v330 (F := F) x10
  ∧ W (Proc.devRef .tc main_v331) = ReadP.val_main_v331 (F := F) x7

/-- The buffers after the first 420 operations: the arguments, and each value still to be read, at its stage's term. -/
def Inv7 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v263) = ReadP.val_main_v263 (F := F) x0 x1 x2 x3 x4 x5 x6
  ∧ W (Proc.devRef .tc main_v266) = ReadP.val_main_v266 (F := F) x0
  ∧ W (Proc.devRef .tc main_v267) = ReadP.val_main_v267 (F := F) x0
  ∧ W (Proc.devRef .tc main_v322) = ReadP.val_main_v322 (F := F) x0 x7 x8 x9 x10
  ∧ W (Proc.devRef .tc main_v378) = ReadP.val_main_v378 (F := F) x0 x7 x8 x9 x10
  ∧ W (Proc.devRef .tc main_v382) = ReadP.val_main_v382 (F := F) x12
  ∧ W (Proc.devRef .tc main_v385) = ReadP.val_main_v385 (F := F) x11

/-- The buffers after the first 480 operations: the arguments, and each value still to be read, at its stage's term. -/
def Inv8 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v263) = ReadP.val_main_v263 (F := F) x0 x1 x2 x3 x4 x5 x6
  ∧ W (Proc.devRef .tc main_v267) = ReadP.val_main_v267 (F := F) x0
  ∧ W (Proc.devRef .tc main_v322) = ReadP.val_main_v322 (F := F) x0 x7 x8 x9 x10
  ∧ W (Proc.devRef .tc main_v390) = ReadP.val_main_v390 (F := F) x0 x7 x8 x9 x10 x11 x12
  ∧ W (Proc.devRef .tc main_v396) = ReadP.val_main_v396 (F := F) x9
  ∧ W (Proc.devRef .tc main_v398) = ReadP.val_main_v398 (F := F) x10
  ∧ W (Proc.devRef .tc main_v440) = ReadP.val_main_v440 (F := F) x0 x7 x8 x9 x10 x11 x12

/-- The buffers after the first 540 operations: the arguments, and each value still to be read, at its stage's term. -/
def Inv9 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v263) = ReadP.val_main_v263 (F := F) x0 x1 x2 x3 x4 x5 x6
  ∧ W (Proc.devRef .tc main_v322) = ReadP.val_main_v322 (F := F) x0 x7 x8 x9 x10
  ∧ W (Proc.devRef .tc main_v390) = ReadP.val_main_v390 (F := F) x0 x7 x8 x9 x10 x11 x12
  ∧ W (Proc.devRef .tc main_v458) = ReadP.val_main_v458 (F := F) x0 x7 x8 x9 x10 x11 x12
  ∧ W (Proc.devRef .tc main_v464) = ReadP.val_main_v464 (F := F) x9
  ∧ W (Proc.devRef .tc main_v466) = ReadP.val_main_v466 (F := F) x10
  ∧ W (Proc.devRef .tc main_v490) = ReadP.val_main_v490 (F := F) x0 x7 x8
  ∧ W (Proc.devRef .tc main_v496) = ReadP.val_main_v496 (F := F) x0 x7 x8 x9 x10 x11 x12
  ∧ W (Proc.devRef .tc main_cst_41) = ReadP.val_main_cst_41 (F := F)

/-- The buffers after the first 604 operations: the arguments, and each value still to be read, at its stage's term. -/
def Inv10 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v548) = ReadP.val_main_v548 (F := F) x0 x1 x2 x3 x4 x5 x6 x7 x8 x9 x10 x11 x12 x13 x14 x15 x16 x17 x18
  ∧ W (Proc.devRef .tc main_v551) = ReadP.val_main_v551 (F := F) x19

/-- The buffers after the first 614 operations: the arguments, and each value still to be read, at its stage's term. -/
def Inv11 (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_v561) = ReadP.val_main_v561 (F := F) x0 x1 x2 x3 x4 x5 x6 x7 x8 x9 x10 x11 x12 x13 x14 x15 x16 x17 x18 x19 x20 x21 x22

end Cert.ReferenceIdeal.ValueQ

end
-- ==== Proof.RefWin0.lean ====
/-
  Line 0 of the reference's operations (operations 0 to 59) read back against the named stages.
-/
import proofs.«171191_j1709396984333_2_alg».proof.Proof.RefKept
import proofs.«171191_j1709396984333_2_alg».proof.Proof.RefInv

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Operations 0 to 59 carry the buffers' description forward: an argument or an earlier value
    the line does not write is kept, and a value the line computes is its stage's term once the values it reads
    are replaced by theirs. -/
theorem win0_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv0 x0 x1 x2 x3 x4 x5 x6 x7 x8 x9 x10 x11 x12 x13 x14 x15 x16 x17 x18 x19 x20 x21 x22 W) : Inv1 x0 x1 x2 x3 x4 x5 x6 x7 x8 x9 x10 x11 x12 x13 x14 x15 x16 x17 x18 x19 x20 x21 x22 (after ops0 W) := by
  obtain ⟨h0, h1, h2, h3, h4, h5, h6, h7, h8, h9, h10, h11, h12, h13, h14, h15, h16, h17, h18, h19, h20, h21, h22⟩ := h
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩
  · rw [kept0 W main_arg0 (by decide)]; exact h0
  · rw [kept0 W main_arg1 (by decide)]; exact h1
  · rw [kept0 W main_arg2 (by decide)]; exact h2
  · rw [kept0 W main_arg3 (by decide)]; exact h3
  · rw [kept0 W main_arg4 (by decide)]; exact h4
  · rw [kept0 W main_arg5 (by decide)]; exact h5
  · rw [kept0 W main_arg6 (by decide)]; exact h6
  · rw [kept0 W main_arg7 (by decide)]; exact h7
  · rw [kept0 W main_arg8 (by decide)]; exact h8
  · rw [kept0 W main_arg9 (by decide)]; exact h9
  · rw [kept0 W main_arg10 (by decide)]; exact h10
  · rw [kept0 W main_arg11 (by decide)]; exact h11
  · rw [kept0 W main_arg12 (by decide)]; exact h12
  · rw [kept0 W main_arg13 (by decide)]; exact h13
  · rw [kept0 W main_arg14 (by decide)]; exact h14
  · rw [kept0 W main_arg15 (by decide)]; exact h15
  · rw [kept0 W main_arg16 (by decide)]; exact h16
  · rw [kept0 W main_arg17 (by decide)]; exact h17
  · rw [kept0 W main_arg18 (by decide)]; exact h18
  · rw [kept0 W main_arg19 (by decide)]; exact h19
  · rw [kept0 W main_arg20 (by decide)]; exact h20
  · rw [kept0 W main_arg21 (by decide)]; exact h21
  · rw [kept0 W main_arg22 (by decide)]; exact h22
  · after_results_simp
    first | (simp only [h0, h1, h2, h3, h4] <;> rfl) | rfl
  · after_results_simp
    first | (simp only [h0, h1, h2, h3, h4] <;> rfl) | rfl
  · after_results_simp
    first | (simp only [h0, h1, h2, h3, h4] <;> rfl) | rfl
  · after_results_simp
    first | (simp only [h0, h1, h2, h3, h4] <;> rfl) | rfl
  · after_results_simp
    first | (simp only [h0, h1, h2, h3, h4] <;> rfl) | rfl
  · after_results_simp
    first | (simp only [h0, h1, h2, h3, h4] <;> rfl) | rfl

end Cert.ReferenceIdeal.ValueQ

end
-- ==== Proof.RefWin1.lean ====
/-
  Line 1 of the reference's operations (operations 60 to 119) read back against the named stages.
-/
import proofs.«171191_j1709396984333_2_alg».proof.Proof.RefKept
import proofs.«171191_j1709396984333_2_alg».proof.Proof.RefInv

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Operations 60 to 119 carry the buffers' description forward: an argument or an earlier value
    the line does not write is kept, and a value the line computes is its stage's term once the values it reads
    are replaced by theirs. -/
theorem win1_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv1 x0 x1 x2 x3 x4 x5 x6 x7 x8 x9 x10 x11 x12 x13 x14 x15 x16 x17 x18 x19 x20 x21 x22 W) : Inv2 x0 x1 x2 x3 x4 x5 x6 x7 x8 x9 x10 x11 x12 x13 x14 x15 x16 x17 x18 x19 x20 x21 x22 (after ops1 W) := by
  obtain ⟨h0, h1, h2, h3, h4, h5, h6, h7, h8, h9, h10, h11, h12, h13, h14, h15, h16, h17, h18, h19, h20, h21, h22, h_main_v1, h_main_v2, h_main_v3, h_main_v11, h_main_v53, h_main_v54⟩ := h
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩
  · rw [kept1 W main_arg0 (by decide)]; exact h0
  · rw [kept1 W main_arg1 (by decide)]; exact h1
  · rw [kept1 W main_arg2 (by decide)]; exact h2
  · rw [kept1 W main_arg3 (by decide)]; exact h3
  · rw [kept1 W main_arg4 (by decide)]; exact h4
  · rw [kept1 W main_arg5 (by decide)]; exact h5
  · rw [kept1 W main_arg6 (by decide)]; exact h6
  · rw [kept1 W main_arg7 (by decide)]; exact h7
  · rw [kept1 W main_arg8 (by decide)]; exact h8
  · rw [kept1 W main_arg9 (by decide)]; exact h9
  · rw [kept1 W main_arg10 (by decide)]; exact h10
  · rw [kept1 W main_arg11 (by decide)]; exact h11
  · rw [kept1 W main_arg12 (by decide)]; exact h12
  · rw [kept1 W main_arg13 (by decide)]; exact h13
  · rw [kept1 W main_arg14 (by decide)]; exact h14
  · rw [kept1 W main_arg15 (by decide)]; exact h15
  · rw [kept1 W main_arg16 (by decide)]; exact h16
  · rw [kept1 W main_arg17 (by decide)]; exact h17
  · rw [kept1 W main_arg18 (by decide)]; exact h18
  · rw [kept1 W main_arg19 (by decide)]; exact h19
  · rw [kept1 W main_arg20 (by decide)]; exact h20
  · rw [kept1 W main_arg21 (by decide)]; exact h21
  · rw [kept1 W main_arg22 (by decide)]; exact h22
  · rw [kept1 W main_v2 (by decide)]; exact h_main_v2
  · rw [kept1 W main_v3 (by decide)]; exact h_main_v3
  · after_results_simp
    first | (simp only [h1, h2, h3, h4, h_main_v1, h_main_v11, h_main_v53, h_main_v54] <;> rfl) | rfl
  · after_results_simp
    first | (simp only [h1, h2, h3, h4, h_main_v1, h_main_v11, h_main_v53, h_main_v54] <;> rfl) | rfl
  · after_results_simp
    first | (simp only [h1, h2, h3, h4, h_main_v1, h_main_v11, h_main_v53, h_main_v54] <;> rfl) | rfl
  · after_results_simp
    first | (simp only [h1, h2, h3, h4, h_main_v1, h_main_v11, h_main_v53, h_main_v54] <;> rfl) | rfl

end Cert.ReferenceIdeal.ValueQ

end
-- ==== Proof.RefWin2.lean ====
/-
  Line 2 of the reference's operations (operations 120 to 179) read back against the named stages.
-/
import proofs.«171191_j1709396984333_2_alg».proof.Proof.RefKept
import proofs.«171191_j1709396984333_2_alg».proof.Proof.RefInv

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Operations 120 to 179 carry the buffers' description forward: an argument or an earlier value
    the line does not write is kept, and a value the line computes is its stage's term once the values it reads
    are replaced by theirs. -/
theorem win2_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv2 x0 x1 x2 x3 x4 x5 x6 x7 x8 x9 x10 x11 x12 x13 x14 x15 x16 x17 x18 x19 x20 x21 x22 W) : Inv3 x0 x1 x2 x3 x4 x5 x6 x7 x8 x9 x10 x11 x12 x13 x14 x15 x16 x17 x18 x19 x20 x21 x22 (after ops2 W) := by
  obtain ⟨h0, h1, h2, h3, h4, h5, h6, h7, h8, h9, h10, h11, h12, h13, h14, h15, h16, h17, h18, h19, h20, h21, h22, h_main_v2, h_main_v3, h_main_v58, h_main_v66, h_main_v108, h_main_v109⟩ := h
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · rw [kept2 W main_arg0 (by decide)]; exact h0
  · rw [kept2 W main_arg1 (by decide)]; exact h1
  · rw [kept2 W main_arg2 (by decide)]; exact h2
  · rw [kept2 W main_arg3 (by decide)]; exact h3
  · rw [kept2 W main_arg4 (by decide)]; exact h4
  · rw [kept2 W main_arg5 (by decide)]; exact h5
  · rw [kept2 W main_arg6 (by decide)]; exact h6
  · rw [kept2 W main_arg7 (by decide)]; exact h7
  · rw [kept2 W main_arg8 (by decide)]; exact h8
  · rw [kept2 W main_arg9 (by decide)]; exact h9
  · rw [kept2 W main_arg10 (by decide)]; exact h10
  · rw [kept2 W main_arg11 (by decide)]; exact h11
  · rw [kept2 W main_arg12 (by decide)]; exact h12
  · rw [kept2 W main_arg13 (by decide)]; exact h13
  · rw [kept2 W main_arg14 (by decide)]; exact h14
  · rw [kept2 W main_arg15 (by decide)]; exact h15
  · rw [kept2 W main_arg16 (by decide)]; exact h16
  · rw [kept2 W main_arg17 (by decide)]; exact h17
  · rw [kept2 W main_arg18 (by decide)]; exact h18
  · rw [kept2 W main_arg19 (by decide)]; exact h19
  · rw [kept2 W main_arg20 (by decide)]; exact h20
  · rw [kept2 W main_arg21 (by decide)]; exact h21
  · rw [kept2 W main_arg22 (by decide)]; exact h22
  · rw [kept2 W main_v3 (by decide)]; exact h_main_v3
  · rw [kept2 W main_v58 (by decide)]; exact h_main_v58
  · after_results_simp
    first | (simp only [h1, h2, h3, h4, h5, h6, h_main_v2, h_main_v58, h_main_v66, h_main_v108, h_main_v109] <;> rfl) | rfl
  · after_results_simp
    first | (simp only [h1, h2, h3, h4, h5, h6, h_main_v2, h_main_v58, h_main_v66, h_main_v108, h_main_v109] <;> rfl) | rfl
  · after_results_simp
    first | (simp only [h1, h2, h3, h4, h5, h6, h_main_v2, h_main_v58, h_main_v66, h_main_v108, h_main_v109] <;> rfl) | rfl
  · after_results_simp
    first | (simp only [h1, h2, h3, h4, h5, h6, h_main_v2, h_main_v58, h_main_v66, h_main_v108, h_main_v109] <;> rfl) | rfl
  · after_results_simp
    first | (simp only [h1, h2, h3, h4, h5, h6, h_main_v2, h_main_v58, h_main_v66, h_main_v108, h_main_v109] <;> rfl) | rfl
  · after_results_simp
    first | (simp only [h1, h2, h3, h4, h5, h6, h_main_v2, h_main_v58, h_main_v66, h_main_v108, h_main_v109] <;> rfl) | rfl

end Cert.ReferenceIdeal.ValueQ

end
-- ==== Proof.RefWin3.lean ====
/-
  Line 3 of the reference's operations (operations 180 to 239) read back against the named stages.
-/
import proofs.«171191_j1709396984333_2_alg».proof.Proof.RefKept
import proofs.«171191_j1709396984333_2_alg».proof.Proof.RefInv

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Operations 180 to 239 carry the buffers' description forward: an argument or an earlier value
    the line does not write is kept, and a value the line computes is its stage's term once the values it reads
    are replaced by theirs. -/
theorem win3_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv3 x0 x1 x2 x3 x4 x5 x6 x7 x8 x9 x10 x11 x12 x13 x14 x15 x16 x17 x18 x19 x20 x21 x22 W) : Inv4 x0 x1 x2 x3 x4 x5 x6 x7 x8 x9 x10 x11 x12 x13 x14 x15 x16 x17 x18 x19 x20 x21 x22 (after ops3 W) := by
  obtain ⟨h0, h1, h2, h3, h4, h5, h6, h7, h8, h9, h10, h11, h12, h13, h14, h15, h16, h17, h18, h19, h20, h21, h22, h_main_v3, h_main_v58, h_main_v126, h_main_v132, h_main_v134, h_main_v158, h_main_v164, h_main_v165⟩ := h
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · rw [kept3 W main_arg0 (by decide)]; exact h0
  · rw [kept3 W main_arg1 (by decide)]; exact h1
  · rw [kept3 W main_arg2 (by decide)]; exact h2
  · rw [kept3 W main_arg3 (by decide)]; exact h3
  · rw [kept3 W main_arg4 (by decide)]; exact h4
  · rw [kept3 W main_arg5 (by decide)]; exact h5
  · rw [kept3 W main_arg6 (by decide)]; exact h6
  · rw [kept3 W main_arg7 (by decide)]; exact h7
  · rw [kept3 W main_arg8 (by decide)]; exact h8
  · rw [kept3 W main_arg9 (by decide)]; exact h9
  · rw [kept3 W main_arg10 (by decide)]; exact h10
  · rw [kept3 W main_arg11 (by decide)]; exact h11
  · rw [kept3 W main_arg12 (by decide)]; exact h12
  · rw [kept3 W main_arg13 (by decide)]; exact h13
  · rw [kept3 W main_arg14 (by decide)]; exact h14
  · rw [kept3 W main_arg15 (by decide)]; exact h15
  · rw [kept3 W main_arg16 (by decide)]; exact h16
  · rw [kept3 W main_arg17 (by decide)]; exact h17
  · rw [kept3 W main_arg18 (by decide)]; exact h18
  · rw [kept3 W main_arg19 (by decide)]; exact h19
  · rw [kept3 W main_arg20 (by decide)]; exact h20
  · rw [kept3 W main_arg21 (by decide)]; exact h21
  · rw [kept3 W main_arg22 (by decide)]; exact h22
  · rw [kept3 W main_v58 (by decide)]; exact h_main_v58
  · rw [kept3 W main_v126 (by decide)]; exact h_main_v126
  · after_results_simp
    first | (simp only [h1, h2, h3, h4, h5, h6, h_main_v3, h_main_v126, h_main_v132, h_main_v134, h_main_v158, h_main_v164, h_main_v165] <;> rfl) | rfl
  · after_results_simp
    first | (simp only [h1, h2, h3, h4, h5, h6, h_main_v3, h_main_v126, h_main_v132, h_main_v134, h_main_v158, h_main_v164, h_main_v165] <;> rfl) | rfl
  · after_results_simp
    first | (simp only [h1, h2, h3, h4, h5, h6, h_main_v3, h_main_v126, h_main_v132, h_main_v134, h_main_v158, h_main_v164, h_main_v165] <;> rfl) | rfl
  · after_results_simp
    first | (simp only [h1, h2, h3, h4, h5, h6, h_main_v3, h_main_v126, h_main_v132, h_main_v134, h_main_v158, h_main_v164, h_main_v165] <;> rfl) | rfl
  · after_results_simp
    first | (simp only [h1, h2, h3, h4, h5, h6, h_main_v3, h_main_v126, h_main_v132, h_main_v134, h_main_v158, h_main_v164, h_main_v165] <;> rfl) | rfl
  · after_results_simp
    first | (simp only [h1, h2, h3, h4, h5, h6, h_main_v3, h_main_v126, h_main_v132, h_main_v134, h_main_v158, h_main_v164, h_main_v165] <;> rfl) | rfl
  · after_results_simp
    first | (simp only [h1, h2, h3, h4, h5, h6, h_main_v3, h_main_v126, h_main_v132, h_main_v134, h_main_v158, h_main_v164, h_main_v165] <;> rfl) | rfl

end Cert.ReferenceIdeal.ValueQ

end
-- ==== Proof.RefRes.lean ====
/-
  Two of the operations' result equations restated so that the operands' contents stay arguments of a named
  function: a join of four pieces, and a binary operation whose function builds a list of shaped pieces.  Stated this
  way the contents can still be rewritten after the result is read; the names unfold by definition.
-/
import Idealize.ShloMosaic.Lib.StableHlo.Run

noncomputable section

namespace Cert.ReferenceIdeal.ValueQ

open Idealize.ShloMosaic Idealize.ShloMosaic.StableHlo

variable {τ : Topo} {sig : RefSig} {Val : EltTy → Type}
variable {x a b c y : Ref sig .tc}

/-- A function of four operands' contents given as a family, applied to the four contents. -/
def nary4app (f : ((k : Fin 4) → ((![x, a, b, c] : Fin 4 → Ref sig .tc) k).ty.Contents Val) → y.ty.Contents Val)
    (p : x.ty.Contents Val) (q : a.ty.Contents Val) (r : b.ty.Contents Val) (s : c.ty.Contents Val) : y.ty.Contents Val :=
  f (Fin.cons p (Fin.cons q (Fin.cons r (Fin.cons s (fun i => i.elim0)))))

theorem nary4_result_app'
    (f : ((k : Fin 4) → ((![x, a, b, c] : Fin 4 → Ref sig .tc) k).ty.Contents Val) → y.ty.Contents Val) (hxs hy)
    (F : Valuation τ sig Val) :
    (nary (τ := τ) ![x, a, b, c] y f hxs hy).result F (no_index (Proc.devRef .tc y))
      = nary4app f (F (Proc.devRef .tc x)) (F (Proc.devRef .tc a)) (F (Proc.devRef .tc b)) (F (Proc.devRef .tc c)) :=
  nary4_result f hxs hy F

/-- A function of two operands' contents, applied to them. -/
def bin2app (f : a.ty.Contents Val → b.ty.Contents Val → y.ty.Contents Val)
    (p : a.ty.Contents Val) (q : b.ty.Contents Val) : y.ty.Contents Val := f p q

theorem binary_result_app' (f : a.ty.Contents Val → b.ty.Contents Val → y.ty.Contents Val) (ha hb hy)
    (F : Valuation τ sig Val) :
    (binary (τ := τ) a b y f ha hb hy).result F (no_index (Proc.devRef .tc y))
      = bin2app f (F (Proc.devRef .tc a)) (F (Proc.devRef .tc b)) := binary_result a b y f ha hb hy F

/-- The operations' results read in one pass, with the joins' operands kept as arguments. -/
macro "after_results_simp_app" : tactic =>
  `(tactic| (simp (disch := decide) only [after_cons, after_nil,
      nullary_result', unary_result', binary_result_app', ternary_result', quaternary_result', reshape_result', nary4_result_app',
      unaryIndexed_result', binaryIndexed_result',
      nullary_result_ne', unary_result_ne', binary_result_ne', ternary_result_ne', quaternary_result_ne', reshape_result_ne',
      nary_result_ne', unaryIndexed_result_ne', binaryIndexed_result_ne']))

end Cert.ReferenceIdeal.ValueQ

end
-- ==== Proof.RefWin4.lean ====
/-
  Line 4 of the reference's operations (operations 240 to 299) read back against the named stages.
-/
import proofs.«171191_j1709396984333_2_alg».proof.Proof.RefKept
import proofs.«171191_j1709396984333_2_alg».proof.Proof.RefInv
import proofs.«171191_j1709396984333_2_alg».proof.Proof.RefRes

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 200000 in
set_option maxHeartbeats 40000000 in
/-- Operations 240 to 299 carry the buffers' description forward: an argument or an earlier value
    the line does not write is kept, and a value the line computes is its stage's term once the values it reads
    are replaced by theirs. -/
theorem win4_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv4 x0 x1 x2 x3 x4 x5 x6 x7 x8 x9 x10 x11 x12 x13 x14 x15 x16 x17 x18 x19 x20 x21 x22 W) : Inv5 x0 x1 x2 x3 x4 x5 x6 x7 x8 x9 x10 x11 x12 x13 x14 x15 x16 x17 x18 x19 x20 x21 x22 (after ops4 W) := by
  obtain ⟨h0, h1, h2, h3, h4, h5, h6, h7, h8, h9, h10, h11, h12, h13, h14, h15, h16, h17, h18, h19, h20, h21, h22, h_main_v58, h_main_v126, h_main_v194, h_main_v200, h_main_v202, h_main_v208, h_main_v214, h_main_v220, h_main_v222⟩ := h
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · rw [kept4 W main_arg0 (by decide)]; exact h0
  · rw [kept4 W main_arg1 (by decide)]; exact h1
  · rw [kept4 W main_arg2 (by decide)]; exact h2
  · rw [kept4 W main_arg3 (by decide)]; exact h3
  · rw [kept4 W main_arg4 (by decide)]; exact h4
  · rw [kept4 W main_arg5 (by decide)]; exact h5
  · rw [kept4 W main_arg6 (by decide)]; exact h6
  · rw [kept4 W main_arg7 (by decide)]; exact h7
  · rw [kept4 W main_arg8 (by decide)]; exact h8
  · rw [kept4 W main_arg9 (by decide)]; exact h9
  · rw [kept4 W main_arg10 (by decide)]; exact h10
  · rw [kept4 W main_arg11 (by decide)]; exact h11
  · rw [kept4 W main_arg12 (by decide)]; exact h12
  · rw [kept4 W main_arg13 (by decide)]; exact h13
  · rw [kept4 W main_arg14 (by decide)]; exact h14
  · rw [kept4 W main_arg15 (by decide)]; exact h15
  · rw [kept4 W main_arg16 (by decide)]; exact h16
  · rw [kept4 W main_arg17 (by decide)]; exact h17
  · rw [kept4 W main_arg18 (by decide)]; exact h18
  · rw [kept4 W main_arg19 (by decide)]; exact h19
  · rw [kept4 W main_arg20 (by decide)]; exact h20
  · rw [kept4 W main_arg21 (by decide)]; exact h21
  · rw [kept4 W main_arg22 (by decide)]; exact h22
  · after_results_simp_app
    first | (simp only [h0, h5, h6, h7, h8, h9, h10, h_main_v58, h_main_v126, h_main_v194, h_main_v200, h_main_v202, h_main_v208, h_main_v214, h_main_v220, h_main_v222] <;> rfl) | rfl
  · after_results_simp_app
    first | (simp only [h0, h5, h6, h7, h8, h9, h10, h_main_v58, h_main_v126, h_main_v194, h_main_v200, h_main_v202, h_main_v208, h_main_v214, h_main_v220, h_main_v222] <;> rfl) | rfl
  · after_results_simp_app
    first | (simp only [h0, h5, h6, h7, h8, h9, h10, h_main_v58, h_main_v126, h_main_v194, h_main_v200, h_main_v202, h_main_v208, h_main_v214, h_main_v220, h_main_v222] <;> rfl) | rfl
  · after_results_simp_app
    first | (simp only [h0, h5, h6, h7, h8, h9, h10, h_main_v58, h_main_v126, h_main_v194, h_main_v200, h_main_v202, h_main_v208, h_main_v214, h_main_v220, h_main_v222] <;> rfl) | rfl
  · after_results_simp_app
    first | (simp only [h0, h5, h6, h7, h8, h9, h10, h_main_v58, h_main_v126, h_main_v194, h_main_v200, h_main_v202, h_main_v208, h_main_v214, h_main_v220, h_main_v222] <;> rfl) | rfl
  · after_results_simp_app
    first | (simp only [h0, h5, h6, h7, h8, h9, h10, h_main_v58, h_main_v126, h_main_v194, h_main_v200, h_main_v202, h_main_v208, h_main_v214, h_main_v220, h_main_v222] <;> rfl) | rfl
  · after_results_simp_app
    first | (simp only [h0, h5, h6, h7, h8, h9, h10, h_main_v58, h_main_v126, h_main_v194, h_main_v200, h_main_v202, h_main_v208, h_main_v214, h_main_v220, h_main_v222] <;> rfl) | rfl
  · after_results_simp_app
    first | (simp only [h0, h5, h6, h7, h8, h9, h10, h_main_v58, h_main_v126, h_main_v194, h_main_v200, h_main_v202, h_main_v208, h_main_v214, h_main_v220, h_main_v222] <;> rfl) | rfl
  · after_results_simp_app
    first | (simp only [h0, h5, h6, h7, h8, h9, h10, h_main_v58, h_main_v126, h_main_v194, h_main_v200, h_main_v202, h_main_v208, h_main_v214, h_main_v220, h_main_v222] <;> rfl) | rfl
  · after_results_simp_app
    first | (simp only [h0, h5, h6, h7, h8, h9, h10, h_main_v58, h_main_v126, h_main_v194, h_main_v200, h_main_v202, h_main_v208, h_main_v214, h_main_v220, h_main_v222] <;> rfl) | rfl

end Cert.ReferenceIdeal.ValueQ

end
-- ==== Proof.RefWin5.lean ====
/-
  Line 5 of the reference's operations (operations 300 to 359) read back against the named stages.
-/
import proofs.«171191_j1709396984333_2_alg».proof.Proof.RefKept
import proofs.«171191_j1709396984333_2_alg».proof.Proof.RefInv

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Operations 300 to 359 carry the buffers' description forward: an argument or an earlier value
    the line does not write is kept, and a value the line computes is its stage's term once the values it reads
    are replaced by theirs. -/
theorem win5_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv5 x0 x1 x2 x3 x4 x5 x6 x7 x8 x9 x10 x11 x12 x13 x14 x15 x16 x17 x18 x19 x20 x21 x22 W) : Inv6 x0 x1 x2 x3 x4 x5 x6 x7 x8 x9 x10 x11 x12 x13 x14 x15 x16 x17 x18 x19 x20 x21 x22 (after ops5 W) := by
  obtain ⟨h0, h1, h2, h3, h4, h5, h6, h7, h8, h9, h10, h11, h12, h13, h14, h15, h16, h17, h18, h19, h20, h21, h22, h_main_v263, h_main_v264, h_main_v265, h_main_v266, h_main_v267, h_main_v269, h_main_v271, h_main_v273, h_main_v275, h_main_v276⟩ := h
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · rw [kept5 W main_arg0 (by decide)]; exact h0
  · rw [kept5 W main_arg1 (by decide)]; exact h1
  · rw [kept5 W main_arg2 (by decide)]; exact h2
  · rw [kept5 W main_arg3 (by decide)]; exact h3
  · rw [kept5 W main_arg4 (by decide)]; exact h4
  · rw [kept5 W main_arg5 (by decide)]; exact h5
  · rw [kept5 W main_arg6 (by decide)]; exact h6
  · rw [kept5 W main_arg7 (by decide)]; exact h7
  · rw [kept5 W main_arg8 (by decide)]; exact h8
  · rw [kept5 W main_arg9 (by decide)]; exact h9
  · rw [kept5 W main_arg10 (by decide)]; exact h10
  · rw [kept5 W main_arg11 (by decide)]; exact h11
  · rw [kept5 W main_arg12 (by decide)]; exact h12
  · rw [kept5 W main_arg13 (by decide)]; exact h13
  · rw [kept5 W main_arg14 (by decide)]; exact h14
  · rw [kept5 W main_arg15 (by decide)]; exact h15
  · rw [kept5 W main_arg16 (by decide)]; exact h16
  · rw [kept5 W main_arg17 (by decide)]; exact h17
  · rw [kept5 W main_arg18 (by decide)]; exact h18
  · rw [kept5 W main_arg19 (by decide)]; exact h19
  · rw [kept5 W main_arg20 (by decide)]; exact h20
  · rw [kept5 W main_arg21 (by decide)]; exact h21
  · rw [kept5 W main_arg22 (by decide)]; exact h22
  · rw [kept5 W main_v263 (by decide)]; exact h_main_v263
  · rw [kept5 W main_v265 (by decide)]; exact h_main_v265
  · rw [kept5 W main_v266 (by decide)]; exact h_main_v266
  · rw [kept5 W main_v267 (by decide)]; exact h_main_v267
  · after_results_simp
    first | (simp only [h7, h8, h9, h10, h_main_v264, h_main_v269, h_main_v271, h_main_v273, h_main_v275, h_main_v276] <;> rfl) | rfl
  · after_results_simp
    first | (simp only [h7, h8, h9, h10, h_main_v264, h_main_v269, h_main_v271, h_main_v273, h_main_v275, h_main_v276] <;> rfl) | rfl
  · after_results_simp
    first | (simp only [h7, h8, h9, h10, h_main_v264, h_main_v269, h_main_v271, h_main_v273, h_main_v275, h_main_v276] <;> rfl) | rfl
  · after_results_simp
    first | (simp only [h7, h8, h9, h10, h_main_v264, h_main_v269, h_main_v271, h_main_v273, h_main_v275, h_main_v276] <;> rfl) | rfl
  · after_results_simp
    first | (simp only [h7, h8, h9, h10, h_main_v264, h_main_v269, h_main_v271, h_main_v273, h_main_v275, h_main_v276] <;> rfl) | rfl
  · after_results_simp
    first | (simp only [h7, h8, h9, h10, h_main_v264, h_main_v269, h_main_v271, h_main_v273, h_main_v275, h_main_v276] <;> rfl) | rfl

end Cert.ReferenceIdeal.ValueQ

end
-- ==== Proof.RefWin6.lean ====
/-
  Line 6 of the reference's operations (operations 360 to 419) read back against the named stages.
-/
import proofs.«171191_j1709396984333_2_alg».proof.Proof.RefKept
import proofs.«171191_j1709396984333_2_alg».proof.Proof.RefInv

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Operations 360 to 419 carry the buffers' description forward: an argument or an earlier value
    the line does not write is kept, and a value the line computes is its stage's term once the values it reads
    are replaced by theirs. -/
theorem win6_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv6 x0 x1 x2 x3 x4 x5 x6 x7 x8 x9 x10 x11 x12 x13 x14 x15 x16 x17 x18 x19 x20 x21 x22 W) : Inv7 x0 x1 x2 x3 x4 x5 x6 x7 x8 x9 x10 x11 x12 x13 x14 x15 x16 x17 x18 x19 x20 x21 x22 (after ops6 W) := by
  obtain ⟨h0, h1, h2, h3, h4, h5, h6, h7, h8, h9, h10, h11, h12, h13, h14, h15, h16, h17, h18, h19, h20, h21, h22, h_main_v263, h_main_v265, h_main_v266, h_main_v267, h_main_v322, h_main_v324, h_main_v326, h_main_v328, h_main_v330, h_main_v331⟩ := h
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  · rw [kept6 W main_arg0 (by decide)]; exact h0
  · rw [kept6 W main_arg1 (by decide)]; exact h1
  · rw [kept6 W main_arg2 (by decide)]; exact h2
  · rw [kept6 W main_arg3 (by decide)]; exact h3
  · rw [kept6 W main_arg4 (by decide)]; exact h4
  · rw [kept6 W main_arg5 (by decide)]; exact h5
  · rw [kept6 W main_arg6 (by decide)]; exact h6
  · rw [kept6 W main_arg7 (by decide)]; exact h7
  · rw [kept6 W main_arg8 (by decide)]; exact h8
  · rw [kept6 W main_arg9 (by decide)]; exact h9
  · rw [kept6 W main_arg10 (by decide)]; exact h10
  · rw [kept6 W main_arg11 (by decide)]; exact h11
  · rw [kept6 W main_arg12 (by decide)]; exact h12
  · rw [kept6 W main_arg13 (by decide)]; exact h13
  · rw [kept6 W main_arg14 (by decide)]; exact h14
  · rw [kept6 W main_arg15 (by decide)]; exact h15
  · rw [kept6 W main_arg16 (by decide)]; exact h16
  · rw [kept6 W main_arg17 (by decide)]; exact h17
  · rw [kept6 W main_arg18 (by decide)]; exact h18
  · rw [kept6 W main_arg19 (by decide)]; exact h19
  · rw [kept6 W main_arg20 (by decide)]; exact h20
  · rw [kept6 W main_arg21 (by decide)]; exact h21
  · rw [kept6 W main_arg22 (by decide)]; exact h22
  · rw [kept6 W main_v263 (by decide)]; exact h_main_v263
  · rw [kept6 W main_v266 (by decide)]; exact h_main_v266
  · rw [kept6 W main_v267 (by decide)]; exact h_main_v267
  · rw [kept6 W main_v322 (by decide)]; exact h_main_v322
  · after_results_simp
    first | (simp only [h11, h12, h_main_v265, h_main_v322, h_main_v324, h_main_v326, h_main_v328, h_main_v330, h_main_v331] <;> rfl) | rfl
  · after_results_simp
    first | (simp only [h11, h12, h_main_v265, h_main_v322, h_main_v324, h_main_v326, h_main_v328, h_main_v330, h_main_v331] <;> rfl) | rfl
  · after_results_simp
    first | (simp only [h11, h12, h_main_v265, h_main_v322, h_main_v324, h_main_v326, h_main_v328, h_main_v330, h_main_v331] <;> rfl) | rfl

end Cert.ReferenceIdeal.ValueQ

end
-- ==== Proof.RefWin7.lean ====
/-
  Line 7 of the reference's operations (operations 420 to 479) read back against the named stages.
-/
import proofs.«171191_j1709396984333_2_alg».proof.Proof.RefKept
import proofs.«171191_j1709396984333_2_alg».proof.Proof.RefInv

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Operations 420 to 479 carry the buffers' description forward: an argument or an earlier value
    the line does not write is kept, and a value the line computes is its stage's term once the values it reads
    are replaced by theirs. -/
theorem win7_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv7 x0 x1 x2 x3 x4 x5 x6 x7 x8 x9 x10 x11 x12 x13 x14 x15 x16 x17 x18 x19 x20 x21 x22 W) : Inv8 x0 x1 x2 x3 x4 x5 x6 x7 x8 x9 x10 x11 x12 x13 x14 x15 x16 x17 x18 x19 x20 x21 x22 (after ops7 W) := by
  obtain ⟨h0, h1, h2, h3, h4, h5, h6, h7, h8, h9, h10, h11, h12, h13, h14, h15, h16, h17, h18, h19, h20, h21, h22, h_main_v263, h_main_v266, h_main_v267, h_main_v322, h_main_v378, h_main_v382, h_main_v385⟩ := h
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  · rw [kept7 W main_arg0 (by decide)]; exact h0
  · rw [kept7 W main_arg1 (by decide)]; exact h1
  · rw [kept7 W main_arg2 (by decide)]; exact h2
  · rw [kept7 W main_arg3 (by decide)]; exact h3
  · rw [kept7 W main_arg4 (by decide)]; exact h4
  · rw [kept7 W main_arg5 (by decide)]; exact h5
  · rw [kept7 W main_arg6 (by decide)]; exact h6
  · rw [kept7 W main_arg7 (by decide)]; exact h7
  · rw [kept7 W main_arg8 (by decide)]; exact h8
  · rw [kept7 W main_arg9 (by decide)]; exact h9
  · rw [kept7 W main_arg10 (by decide)]; exact h10
  · rw [kept7 W main_arg11 (by decide)]; exact h11
  · rw [kept7 W main_arg12 (by decide)]; exact h12
  · rw [kept7 W main_arg13 (by decide)]; exact h13
  · rw [kept7 W main_arg14 (by decide)]; exact h14
  · rw [kept7 W main_arg15 (by decide)]; exact h15
  · rw [kept7 W main_arg16 (by decide)]; exact h16
  · rw [kept7 W main_arg17 (by decide)]; exact h17
  · rw [kept7 W main_arg18 (by decide)]; exact h18
  · rw [kept7 W main_arg19 (by decide)]; exact h19
  · rw [kept7 W main_arg20 (by decide)]; exact h20
  · rw [kept7 W main_arg21 (by decide)]; exact h21
  · rw [kept7 W main_arg22 (by decide)]; exact h22
  · rw [kept7 W main_v263 (by decide)]; exact h_main_v263
  · rw [kept7 W main_v267 (by decide)]; exact h_main_v267
  · rw [kept7 W main_v322 (by decide)]; exact h_main_v322
  · after_results_simp
    first | (simp only [h7, h8, h9, h10, h_main_v266, h_main_v378, h_main_v382, h_main_v385] <;> rfl) | rfl
  · after_results_simp
    first | (simp only [h7, h8, h9, h10, h_main_v266, h_main_v378, h_main_v382, h_main_v385] <;> rfl) | rfl
  · after_results_simp
    first | (simp only [h7, h8, h9, h10, h_main_v266, h_main_v378, h_main_v382, h_main_v385] <;> rfl) | rfl
  · after_results_simp
    first | (simp only [h7, h8, h9, h10, h_main_v266, h_main_v378, h_main_v382, h_main_v385] <;> rfl) | rfl

end Cert.ReferenceIdeal.ValueQ

end
-- ==== Proof.RefWin8.lean ====
/-
  Line 8 of the reference's operations (operations 480 to 539) read back against the named stages.
-/
import proofs.«171191_j1709396984333_2_alg».proof.Proof.RefKept
import proofs.«171191_j1709396984333_2_alg».proof.Proof.RefInv

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Operations 480 to 539 carry the buffers' description forward: an argument or an earlier value
    the line does not write is kept, and a value the line computes is its stage's term once the values it reads
    are replaced by theirs. -/
theorem win8_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv8 x0 x1 x2 x3 x4 x5 x6 x7 x8 x9 x10 x11 x12 x13 x14 x15 x16 x17 x18 x19 x20 x21 x22 W) : Inv9 x0 x1 x2 x3 x4 x5 x6 x7 x8 x9 x10 x11 x12 x13 x14 x15 x16 x17 x18 x19 x20 x21 x22 (after ops8 W) := by
  obtain ⟨h0, h1, h2, h3, h4, h5, h6, h7, h8, h9, h10, h11, h12, h13, h14, h15, h16, h17, h18, h19, h20, h21, h22, h_main_v263, h_main_v267, h_main_v322, h_main_v390, h_main_v396, h_main_v398, h_main_v440⟩ := h
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · rw [kept8 W main_arg0 (by decide)]; exact h0
  · rw [kept8 W main_arg1 (by decide)]; exact h1
  · rw [kept8 W main_arg2 (by decide)]; exact h2
  · rw [kept8 W main_arg3 (by decide)]; exact h3
  · rw [kept8 W main_arg4 (by decide)]; exact h4
  · rw [kept8 W main_arg5 (by decide)]; exact h5
  · rw [kept8 W main_arg6 (by decide)]; exact h6
  · rw [kept8 W main_arg7 (by decide)]; exact h7
  · rw [kept8 W main_arg8 (by decide)]; exact h8
  · rw [kept8 W main_arg9 (by decide)]; exact h9
  · rw [kept8 W main_arg10 (by decide)]; exact h10
  · rw [kept8 W main_arg11 (by decide)]; exact h11
  · rw [kept8 W main_arg12 (by decide)]; exact h12
  · rw [kept8 W main_arg13 (by decide)]; exact h13
  · rw [kept8 W main_arg14 (by decide)]; exact h14
  · rw [kept8 W main_arg15 (by decide)]; exact h15
  · rw [kept8 W main_arg16 (by decide)]; exact h16
  · rw [kept8 W main_arg17 (by decide)]; exact h17
  · rw [kept8 W main_arg18 (by decide)]; exact h18
  · rw [kept8 W main_arg19 (by decide)]; exact h19
  · rw [kept8 W main_arg20 (by decide)]; exact h20
  · rw [kept8 W main_arg21 (by decide)]; exact h21
  · rw [kept8 W main_arg22 (by decide)]; exact h22
  · rw [kept8 W main_v263 (by decide)]; exact h_main_v263
  · rw [kept8 W main_v322 (by decide)]; exact h_main_v322
  · rw [kept8 W main_v390 (by decide)]; exact h_main_v390
  · after_results_simp
    first | (simp only [h7, h8, h9, h10, h11, h12, h_main_v267, h_main_v390, h_main_v396, h_main_v398, h_main_v440] <;> rfl) | rfl
  · after_results_simp
    first | (simp only [h7, h8, h9, h10, h11, h12, h_main_v267, h_main_v390, h_main_v396, h_main_v398, h_main_v440] <;> rfl) | rfl
  · after_results_simp
    first | (simp only [h7, h8, h9, h10, h11, h12, h_main_v267, h_main_v390, h_main_v396, h_main_v398, h_main_v440] <;> rfl) | rfl
  · after_results_simp
    first | (simp only [h7, h8, h9, h10, h11, h12, h_main_v267, h_main_v390, h_main_v396, h_main_v398, h_main_v440] <;> rfl) | rfl
  · after_results_simp
    first | (simp only [h7, h8, h9, h10, h11, h12, h_main_v267, h_main_v390, h_main_v396, h_main_v398, h_main_v440] <;> rfl) | rfl
  · after_results_simp
    first | (simp only [h7, h8, h9, h10, h11, h12, h_main_v267, h_main_v390, h_main_v396, h_main_v398, h_main_v440] <;> rfl) | rfl

end Cert.ReferenceIdeal.ValueQ

end
-- ==== Proof.RefWin9.lean ====
/-
  Line 9 of the reference's operations (operations 540 to 603) read back against the named stages.
-/
import proofs.«171191_j1709396984333_2_alg».proof.Proof.RefKept
import proofs.«171191_j1709396984333_2_alg».proof.Proof.RefInv
import proofs.«171191_j1709396984333_2_alg».proof.Proof.RefRes

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 40000000 in
/-- Operations 540 to 603 carry the buffers' description forward: an argument or an earlier value
    the line does not write is kept, and a value the line computes is its stage's term once the values it reads
    are replaced by theirs. -/
theorem win9_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv9 x0 x1 x2 x3 x4 x5 x6 x7 x8 x9 x10 x11 x12 x13 x14 x15 x16 x17 x18 x19 x20 x21 x22 W) : Inv10 x0 x1 x2 x3 x4 x5 x6 x7 x8 x9 x10 x11 x12 x13 x14 x15 x16 x17 x18 x19 x20 x21 x22 (after ops9 W) := by
  obtain ⟨h0, h1, h2, h3, h4, h5, h6, h7, h8, h9, h10, h11, h12, h13, h14, h15, h16, h17, h18, h19, h20, h21, h22, h_main_v263, h_main_v322, h_main_v390, h_main_v458, h_main_v464, h_main_v466, h_main_v490, h_main_v496, h_main_cst_41⟩ := h
  refine ⟨?_, ?_, ?_, ?_, ?_, ?_, ?_, ?_, ?_, ?_, ?_, ?_, ?_, ?_, ?_, ?_, ?_, ?_, ?_, ?_, ?_, ?_, ?_, ?_, ?_⟩
  · rw [kept9 W main_arg0 (by decide)]; exact h0
  · rw [kept9 W main_arg1 (by decide)]; exact h1
  · rw [kept9 W main_arg2 (by decide)]; exact h2
  · rw [kept9 W main_arg3 (by decide)]; exact h3
  · rw [kept9 W main_arg4 (by decide)]; exact h4
  · rw [kept9 W main_arg5 (by decide)]; exact h5
  · rw [kept9 W main_arg6 (by decide)]; exact h6
  · rw [kept9 W main_arg7 (by decide)]; exact h7
  · rw [kept9 W main_arg8 (by decide)]; exact h8
  · rw [kept9 W main_arg9 (by decide)]; exact h9
  · rw [kept9 W main_arg10 (by decide)]; exact h10
  · rw [kept9 W main_arg11 (by decide)]; exact h11
  · rw [kept9 W main_arg12 (by decide)]; exact h12
  · rw [kept9 W main_arg13 (by decide)]; exact h13
  · rw [kept9 W main_arg14 (by decide)]; exact h14
  · rw [kept9 W main_arg15 (by decide)]; exact h15
  · rw [kept9 W main_arg16 (by decide)]; exact h16
  · rw [kept9 W main_arg17 (by decide)]; exact h17
  · rw [kept9 W main_arg18 (by decide)]; exact h18
  · rw [kept9 W main_arg19 (by decide)]; exact h19
  · rw [kept9 W main_arg20 (by decide)]; exact h20
  · rw [kept9 W main_arg21 (by decide)]; exact h21
  · rw [kept9 W main_arg22 (by decide)]; exact h22
  · after_results_simp_app
    simp only [h11, h12, h13, h14, h15, h16, h17, h18, h19, h_main_v263, h_main_v322, h_main_v390, h_main_v458, h_main_v464, h_main_v466, h_main_v490, h_main_v496, h_main_cst_41]
    rfl
  · after_results_simp_app
    simp only [h11, h12, h13, h14, h15, h16, h17, h18, h19, h_main_v263, h_main_v322, h_main_v390, h_main_v458, h_main_v464, h_main_v466, h_main_v490, h_main_v496, h_main_cst_41]
    rfl

end Cert.ReferenceIdeal.ValueQ

end
-- ==== Proof.RefWin10.lean ====
/-
  Line 10 of the reference's operations (operations 604 to 613) read back against the named stages.
-/
import proofs.«171191_j1709396984333_2_alg».proof.Proof.RefKept
import proofs.«171191_j1709396984333_2_alg».proof.Proof.RefInv

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Operations 604 to 613 carry the buffers' description forward: an argument or an earlier value
    the line does not write is kept, and a value the line computes is its stage's term once the values it reads
    are replaced by theirs. -/
theorem win10_inv (x0 : (⟨S4096x6144, .f32⟩ : BufTy).Contents (Elt F)) (x1 : (⟨S4x2304x768, .f32⟩ : BufTy).Contents (Elt F)) (x2 : (⟨S4x2304, .f32⟩ : BufTy).Contents (Elt F)) (x3 : (⟨S4x768x768, .f32⟩ : BufTy).Contents (Elt F)) (x4 : (⟨S4x768, .f32⟩ : BufTy).Contents (Elt F)) (x5 : (⟨S4x768, .f32⟩ : BufTy).Contents (Elt F)) (x6 : (⟨S4x768, .f32⟩ : BufTy).Contents (Elt F)) (x7 : (⟨S4x2304x768, .f32⟩ : BufTy).Contents (Elt F)) (x8 : (⟨S4x2304, .f32⟩ : BufTy).Contents (Elt F)) (x9 : (⟨S4x768x768, .f32⟩ : BufTy).Contents (Elt F)) (x10 : (⟨S4x768, .f32⟩ : BufTy).Contents (Elt F)) (x11 : (⟨S4x768, .f32⟩ : BufTy).Contents (Elt F)) (x12 : (⟨S4x768, .f32⟩ : BufTy).Contents (Elt F)) (x13 : (⟨S512x6144, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S128x512, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S1x128, .f32⟩ : BufTy).Contents (Elt F)) (x22 : (⟨S1, .f32⟩ : BufTy).Contents (Elt F)) (W : Valuation τ sig (Elt F))
    (h : Inv10 x0 x1 x2 x3 x4 x5 x6 x7 x8 x9 x10 x11 x12 x13 x14 x15 x16 x17 x18 x19 x20 x21 x22 W) : Inv11 x0 x1 x2 x3 x4 x5 x6 x7 x8 x9 x10 x11 x12 x13 x14 x15 x16 x17 x18 x19 x20 x21 x22 (after ops10 W) := by
  obtain ⟨h0, h1, h2, h3, h4, h5, h6, h7, h8, h9, h10, h11, h12, h13, h14, h15, h16, h17, h18, h19, h20, h21, h22, h_main_v548, h_main_v551⟩ := h
  refine ⟨?_, ?_, ?_, ?_, ?_, ?_, ?_, ?_, ?_, ?_, ?_, ?_, ?_, ?_, ?_, ?_, ?_, ?_, ?_, ?_, ?_, ?_, ?_, ?_⟩
  · rw [kept10 W main_arg0 (by decide)]; exact h0
  · rw [kept10 W main_arg1 (by decide)]; exact h1
  · rw [kept10 W main_arg2 (by decide)]; exact h2
  · rw [kept10 W main_arg3 (by decide)]; exact h3
  · rw [kept10 W main_arg4 (by decide)]; exact h4
  · rw [kept10 W main_arg5 (by decide)]; exact h5
  · rw [kept10 W main_arg6 (by decide)]; exact h6
  · rw [kept10 W main_arg7 (by decide)]; exact h7
  · rw [kept10 W main_arg8 (by decide)]; exact h8
  · rw [kept10 W main_arg9 (by decide)]; exact h9
  · rw [kept10 W main_arg10 (by decide)]; exact h10
  · rw [kept10 W main_arg11 (by decide)]; exact h11
  · rw [kept10 W main_arg12 (by decide)]; exact h12
  · rw [kept10 W main_arg13 (by decide)]; exact h13
  · rw [kept10 W main_arg14 (by decide)]; exact h14
  · rw [kept10 W main_arg15 (by decide)]; exact h15
  · rw [kept10 W main_arg16 (by decide)]; exact h16
  · rw [kept10 W main_arg17 (by decide)]; exact h17
  · rw [kept10 W main_arg18 (by decide)]; exact h18
  · rw [kept10 W main_arg19 (by decide)]; exact h19
  · rw [kept10 W main_arg20 (by decide)]; exact h20
  · rw [kept10 W main_arg21 (by decide)]; exact h21
  · rw [kept10 W main_arg22 (by decide)]; exact h22
  · after_results_simp
    first | (simp only [h20, h21, h22, h_main_v548, h_main_v551] <;> rfl) | rfl

end Cert.ReferenceIdeal.ValueQ

end
-- ==== Proof.RefRunQ.lean ====
/-
  The reference's run: on every device, from any memory with zero counters, every weakly fair execution of @main
  terminates with the result buffer at the last stage's term of the arguments' launch contents and the arguments
  unchanged.  The fold of the operations over the launch contents is taken line by line; between lines the buffers
  are described by the arguments and the named stages still to be read.
-/
import proofs.«171191_j1709396984333_2_alg».proof.Proof.RefWin0
import proofs.«171191_j1709396984333_2_alg».proof.Proof.RefWin1
import proofs.«171191_j1709396984333_2_alg».proof.Proof.RefWin2
import proofs.«171191_j1709396984333_2_alg».proof.Proof.RefWin3
import proofs.«171191_j1709396984333_2_alg».proof.Proof.RefWin4
import proofs.«171191_j1709396984333_2_alg».proof.Proof.RefWin5
import proofs.«171191_j1709396984333_2_alg».proof.Proof.RefWin6
import proofs.«171191_j1709396984333_2_alg».proof.Proof.RefWin7
import proofs.«171191_j1709396984333_2_alg».proof.Proof.RefWin8
import proofs.«171191_j1709396984333_2_alg».proof.Proof.RefWin9
import proofs.«171191_j1709396984333_2_alg».proof.Proof.RefWin10

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- Before any operation the arguments hold the launch contents. -/
theorem inv0 (V : Valuation τ sig (Elt F)) :
    Inv0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) V :=
  ⟨rfl, rfl, rfl, rfl, rfl, rfl, rfl, rfl, rfl, rfl, rfl, rfl, rfl, rfl, rfl, rfl, rfl, rfl, rfl, rfl, rfl, rfl, rfl⟩

set_option maxRecDepth 8192 in
/-- After all the operations: the arguments are kept and the result is the last stage's term. -/
theorem inv_final (V : Valuation τ sig (Elt F)) :
    Inv11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (after ops V) := by
  have h := (win10_inv _ _ _ _ _ _ _ _ _ _ _ _ _ _ _ _ _ _ _ _ _ _ _ _ (win9_inv _ _ _ _ _ _ _ _ _ _ _ _ _ _ _ _ _ _ _ _ _ _ _ _ (win8_inv _ _ _ _ _ _ _ _ _ _ _ _ _ _ _ _ _ _ _ _ _ _ _ _ (win7_inv _ _ _ _ _ _ _ _ _ _ _ _ _ _ _ _ _ _ _ _ _ _ _ _ (win6_inv _ _ _ _ _ _ _ _ _ _ _ _ _ _ _ _ _ _ _ _ _ _ _ _ (win5_inv _ _ _ _ _ _ _ _ _ _ _ _ _ _ _ _ _ _ _ _ _ _ _ _ (win4_inv _ _ _ _ _ _ _ _ _ _ _ _ _ _ _ _ _ _ _ _ _ _ _ _ (win3_inv _ _ _ _ _ _ _ _ _ _ _ _ _ _ _ _ _ _ _ _ _ _ _ _ (win2_inv _ _ _ _ _ _ _ _ _ _ _ _ _ _ _ _ _ _ _ _ _ _ _ _ (win1_inv _ _ _ _ _ _ _ _ _ _ _ _ _ _ _ _ _ _ _ _ _ _ _ _ (win0_inv _ _ _ _ _ _ _ _ _ _ _ _ _ _ _ _ _ _ _ _ _ _ _ _ (inv0 V))))))))))))
  simpa only [ops, after_append] using h

/-- The result as the last stage's term of the arguments' launch contents. -/
def res_main_v561 (m : (ℓ : Loc nD τ sig) → Buf (Elt F) ℓ) (c : Dev nD) : Buf (Elt F) ((c.tc : Thread nD τ).loc main_v561) :=
  ReadP.val_main_v561 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))

theorem res_main_v561_eq (m : (ℓ : Loc nD τ sig) → Buf (Elt F) ℓ) (c : Dev nD) :
    res_main_v561 m c = ReadP.val_main_v561 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := rfl

set_option maxRecDepth 8192 in
/-- On every device, for any float values, from any memory with zero counters: every weakly fair execution of
    @main terminates with the result at the stages' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v561) = res_main_v561 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => by
      obtain ⟨a0, a1, a2, a3, a4, a5, a6, a7, a8, a9, a10, a11, a12, a13, a14, a15, a16, a17, a18, a19, a20, a21, a22, hres⟩ := inv_final (F := F) (launchContents m c)
      exact ⟨(h c main_v561).trans hres,
        (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12, (h c main_arg13).trans a13, (h c main_arg14).trans a14, (h c main_arg15).trans a15, (h c main_arg16).trans a16, (h c main_arg17).trans a17, (h c main_arg18).trans a18, (h c main_arg19).trans a19, (h c main_arg20).trans a20, (h c main_arg21).trans a21, (h c main_arg22).trans a22⟩)
    (run_raw m ρ)

end Cert.ReferenceIdeal.ValueQ

end
-- ==== Proof.Assemble.lean ====
/-
  The claim, assembled.  Both idealized programs end with the result array `Cert.Spec.G` of the argument arrays: the
  kernel because each row of each block it writes back is the specification's row function of the arguments (its
  memory side and its arithmetic, joined here), the reference because, the inputs being real numbers, every score is
  a real number, its softmax over the single key is 1, and what is left of each layer is the value projection
  followed by the output projection.  The frames are the generated ones; the reference's is its run with the result
  dropped.
-/
import proofs.«171191_j1709396984333_2_alg».proof.Defs
import proofs.«171191_j1709396984333_2_alg».proof.Proof.Gen.Kernel.Frame
import proofs.«171191_j1709396984333_2_alg».proof.Proof.Gen.KernelIdeal.Frame
import proofs.«171191_j1709396984333_2_alg».proof.Proof.Gen.ReferenceIdeal
import proofs.«171191_j1709396984333_2_alg».proof.Proof.Gen.Pre_finite_inputs
import proofs.«171191_j1709396984333_2_alg».proof.Proof.KerMemRun
import proofs.«171191_j1709396984333_2_alg».proof.Proof.KerMemRows
import proofs.«171191_j1709396984333_2_alg».proof.Proof.KerRowOut
import proofs.«171191_j1709396984333_2_alg».proof.Proof.PreFin
import proofs.«171191_j1709396984333_2_alg».proof.Proof.RefHead
import proofs.«171191_j1709396984333_2_alg».proof.Proof.RefChunks
import proofs.«171191_j1709396984333_2_alg».proof.Proof.RefRunQ

noncomputable section

open Idealize.ShloMosaic Idealize.ShloMosaic.TcCoe Idealize.SL.Sem

namespace Cert.Assemble

/-! ## The kernel's run -/

/-- The kernel's run, read: row `p` of what the body leaves at grid point `t` is the row function at row `128 t + p`
    of the arguments (the body's arithmetic, fed the blocks' contents), so the result array is `Cert.Spec.G`. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v19) = Cert.KerMem.Gout m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22) :=
  Cert.KerMem.run_of m ρ fun c t p =>
    Cert.KerRow.out_row _ _ _ _ _ _ _ _ _ _ _ _ _ _ _ _ _ _ _ _ _ _ _ _ _ _ _ _ _ p (Cert.KerMem.rowHyps m c t p)

/-! ## The reference's result -/

/-- The reference's result on arguments that agree with the kernel's, all real numbers: the same `Cert.Spec.G`. -/
theorem ref_result [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.ReferenceIdeal.ValueQ.res_main_v561 m' c = Cert.KerMem.Gout m c := by
  obtain ⟨a0, a1, a2, a3, a4, a5, a6, a7, a8, a9, a10, a11, a12, a13, a14, a15, a16, a17, a18, a19, a20, a21, a22⟩ := hagree
  obtain ⟨f0, f1, f2, f3, f4, f5, f6, f7, f8, f9, f10, f11, f12⟩ := Cert.PreFin.args_fin m hpre c
  rw [Cert.ReferenceIdeal.ValueQ.res_main_v561_eq, a0, a1, a2, a3, a4, a5, a6, a7, a8, a9, a10, a11, a12, a13, a14, a15, a16, a17, a18, a19, a20, a21, a22]
  exact Cert.RefChunks.result _ _ _ _ _ _ _ _ _ _ _ _ _ _ _ _ _ _ _ _ _ _ _ f0 f1 f2 f3 f4 f5 f6 f7 f8 f9 f10 f11 f12

/-! ## The claims -/

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueQ.run (F := Ideal) m ρ)

theorem preserves : Cert.preserves_Kernel_KernelIdeal := trivial

/-- On arguments that agree and are all real numbers, both programs end with `Cert.Spec.G` of the arguments: the
    kernel by its blocks' rows, the reference stage by stage (each attention weight over one key being 1). -/
theorem algebraic : Cert.algebraic_KernelIdeal_ReferenceIdeal := by
  intro m ρ m' ρ' hpre hagree
  refine ⟨fun c => Cert.KerMem.Gout m c, kernel_run m ρ, ?_⟩
  exact (θ_run Cert.ReferenceIdeal.defs _ _).mono (fun _ h c => ⟨(h c).1.trans (ref_result m m' hpre c (hagree c)), (h c).2⟩)
    (Cert.ReferenceIdeal.ValueQ.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Assemble

end
-- ==== Proof.lean ====
/-
  A fused cascade of single-token attention layers with a three-layer head, against its jnp reference, on the extended reals.

  The reference runs, for each of two branches, four multi-head attention layers whose query and key sequences have
  length one.  With a single key the softmax is taken over ONE score: whenever that score is a real number, the score
  minus the maximum is 0, its exponential 1, the normalising sum 1 and the attention weight 1, so the layer returns the
  value projection followed by the output projection, whatever the query.  The kernel computes exactly that, block of
  128 rows by block, with the weight matrices transposed beforehand, and accumulates the first head layer chunk by
  chunk from zero instead of contracting the concatenated cascade outputs at once.

  Under the precondition (every input entry a real number) the scores of every layer are finite sums of finite
  products, so both programs end with the same array: row r of the result is Cert.Spec.rowOut of row r of the
  input and the parameters.  The sum over the 6144 concatenated features splits into the eight chunks' sums by
  commutativity and associativity of addition on the extended reals alone.
-/
import proofs.«171191_j1709396984333_2_alg».proof.Proof.Assemble

noncomputable section

namespace Cert.Proof

theorem claim : Cert.Claim := Cert.Assemble.claim

end Cert.Proof

end
